-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v121)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v121) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v212) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S100 : Shape := ⟨1, ![100]⟩
abbrev S128x128 : Shape := ⟨2, ![128, 128]⟩
abbrev S128 : Shape := ⟨1, ![128]⟩
abbrev S1x20 : Shape := ⟨2, ![1, 20]⟩
abbrev S20 : Shape := ⟨1, ![20]⟩
abbrev S20x10 : Shape := ⟨2, ![20, 10]⟩
abbrev S10 : Shape := ⟨1, ![10]⟩
abbrev S138x92 : Shape := ⟨2, ![138, 92]⟩
abbrev S92 : Shape := ⟨1, ![92]⟩
abbrev S92x46 : Shape := ⟨2, ![92, 46]⟩
abbrev S46 : Shape := ⟨1, ![46]⟩
abbrev S46x1 : Shape := ⟨2, ![46, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S100 : S_.BroadcastsInDim S100 (![] : Fin 0 → Fin S100.rank)
  reducesTo_S100_S_d0 : S100.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1x20 : S_.BroadcastsInDim S1x20 (![] : Fin 0 → Fin S1x20.rank)
  reducesTo_S1x20_S_d0_1 : S1x20.ReducesTo [0, 1] S_
  bcast_S_S20 : S_.BroadcastsInDim S20 (![] : Fin 0 → Fin S20.rank)
  reducesTo_S20_S_d0 : S20.ReducesTo [0] S_
  bcast_S_S20x10 : S_.BroadcastsInDim S20x10 (![] : Fin 0 → Fin S20x10.rank)
  reducesTo_S20x10_S_d0_1 : S20x10.ReducesTo [0, 1] S_
  bcast_S_S10 : S_.BroadcastsInDim S10 (![] : Fin 0 → Fin S10.rank)
  reducesTo_S10_S_d0 : S10.ReducesTo [0] S_
  bcast_S_S138x92 : S_.BroadcastsInDim S138x92 (![] : Fin 0 → Fin S138x92.rank)
  reducesTo_S138x92_S_d0_1 : S138x92.ReducesTo [0, 1] S_
  bcast_S_S92 : S_.BroadcastsInDim S92 (![] : Fin 0 → Fin S92.rank)
  reducesTo_S92_S_d0 : S92.ReducesTo [0] S_
  bcast_S_S92x46 : S_.BroadcastsInDim S92x46 (![] : Fin 0 → Fin S92x46.rank)
  reducesTo_S92x46_S_d0_1 : S92x46.ReducesTo [0, 1] S_
  bcast_S_S46 : S_.BroadcastsInDim S46 (![] : Fin 0 → Fin S46.rank)
  reducesTo_S46_S_d0 : S46.ReducesTo [0] S_
  bcast_S_S46x1 : S_.BroadcastsInDim S46x1 (![] : Fin 0 → Fin S46x1.rank)
  reducesTo_S46x1_S_d0_1 : S46x1.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_arg23 : FVec F S1 .f32) (main_v98 : IVec S_ 1) (main_v101 : IVec S46x1 1) (main_c_39 : IVec S_ 1) : IVec S_ 1 :=
  let main_v102 : IVec S_ 1 := (fun x v => Host.reduce IntOp.andi x v reducesTo_S46x1_S_d0_1 h_S_) main_v101 main_c_39
  let main_v103 : IVec S_ 1 := andi main_v98 main_v102
  let main_v104 : FVec F S1 .f32 := Host.absf main_arg23
  let main_cst_40 : FVec F S_ .f32 := constant S_ .f32 0x7F800000#32
  let main_v105 : FVec F S1 .f32 := broadcastInDim S1 ![] bcast_S_S1 main_cst_40
  let main_v106 : IVec S1 1 := cmpf .olt main_v104 main_v105
  let main_c_41 : IVec S_ 1 := constantI S_ 1 1#1
  let main_v107 : IVec S_ 1 := (fun x v => Host.reduce IntOp.andi x v reducesTo_S1_S_d0 h_S_) main_v106 main_c_41
  let main_v108 : IVec S_ 1 := andi main_v103 main_v107
  main_v108

def fn_part5 {F : FTy → Type} [FloatOps F] (main_arg20 : FVec F S46 .f32) (main_arg21 : FVec F S46 .f32) (main_arg22 : FVec F S46x1 .f32) (main_arg23 : FVec F S1 .f32) (main_v83 : IVec S_ 1) (main_v84 : FVec F S46 .f32) (main_cst_32 : FVec F S_ .f32) : IVec S_ 1 :=
  let main_v85 : FVec F S46 .f32 := broadcastInDim S46 ![] bcast_S_S46 main_cst_32
  let main_v86 : IVec S46 1 := cmpf .olt main_v84 main_v85
  let main_c_33 : IVec S_ 1 := constantI S_ 1 1#1
  let main_v87 : IVec S_ 1 := (fun x v => Host.reduce IntOp.andi x v reducesTo_S46_S_d0 h_S_) main_v86 main_c_33
  let main_v88 : IVec S_ 1 := andi main_v83 main_v87
  let main_v89 : FVec F S46 .f32 := Host.absf main_arg20
  let main_cst_34 : FVec F S_ .f32 := constant S_ .f32 0x7F800000#32
  let main_v90 : FVec F S46 .f32 := broadcastInDim S46 ![] bcast_S_S46 main_cst_34
  let main_v91 : IVec S46 1 := cmpf .olt main_v89 main_v90
  let main_c_35 : IVec S_ 1 := constantI S_ 1 1#1
  let main_v92 : IVec S_ 1 := (fun x v => Host.reduce IntOp.andi x v reducesTo_S46_S_d0 h_S_) main_v91 main_c_35
  let main_v93 : IVec S_ 1 := andi main_v88 main_v92
  let main_v94 : FVec F S46 .f32 := Host.absf main_arg21
  let main_cst_36 : FVec F S_ .f32 := constant S_ .f32 0x7F800000#32
  let main_v95 : FVec F S46 .f32 := broadcastInDim S46 ![] bcast_S_S46 main_cst_36
  let main_v96 : IVec S46 1 := cmpf .olt main_v94 main_v95
  let main_c_37 : IVec S_ 1 := constantI S_ 1 1#1
  let main_v97 : IVec S_ 1 := (fun x v => Host.reduce IntOp.andi x v reducesTo_S46_S_d0 h_S_) main_v96 main_c_37
  let main_v98 : IVec S_ 1 := andi main_v93 main_v97
  let main_v99 : FVec F S46x1 .f32 := Host.absf main_arg22
  let main_cst_38 : FVec F S_ .f32 := constant S_ .f32 0x7F800000#32
  let main_v100 : FVec F S46x1 .f32 := broadcastInDim S46x1 ![] bcast_S_S46x1 main_cst_38
  let main_v101 : IVec S46x1 1 := cmpf .olt main_v99 main_v100
  let main_c_39 : IVec S_ 1 := constantI S_ 1 1#1
  fn_part6 (F := F) main_arg23 main_v98 main_v101 main_c_39

def fn_part4 {F : FTy → Type} [FloatOps F] (main_arg16 : FVec F S92 .f32) (main_arg17 : FVec F S92 .f32) (main_arg18 : FVec F S92x46 .f32) (main_arg19 : FVec F S46 .f32) (main_arg20 : FVec F S46 .f32) (main_arg21 : FVec F S46 .f32) (main_arg22 : FVec F S46x1 .f32) (main_arg23 : FVec F S1 .f32) (main_v63 : IVec S_ 1) (main_v67 : IVec S_ 1) : IVec S_ 1 :=
  let main_v68 : IVec S_ 1 := andi main_v63 main_v67
  let main_v69 : FVec F S92 .f32 := Host.absf main_arg16
  let main_cst_26 : FVec F S_ .f32 := constant S_ .f32 0x7F800000#32
  let main_v70 : FVec F S92 .f32 := broadcastInDim S92 ![] bcast_S_S92 main_cst_26
  let main_v71 : IVec S92 1 := cmpf .olt main_v69 main_v70
  let main_c_27 : IVec S_ 1 := constantI S_ 1 1#1
  let main_v72 : IVec S_ 1 := (fun x v => Host.reduce IntOp.andi x v reducesTo_S92_S_d0 h_S_) main_v71 main_c_27
  let main_v73 : IVec S_ 1 := andi main_v68 main_v72
  let main_v74 : FVec F S92 .f32 := Host.absf main_arg17
  let main_cst_28 : FVec F S_ .f32 := constant S_ .f32 0x7F800000#32
  let main_v75 : FVec F S92 .f32 := broadcastInDim S92 ![] bcast_S_S92 main_cst_28
  let main_v76 : IVec S92 1 := cmpf .olt main_v74 main_v75
  let main_c_29 : IVec S_ 1 := constantI S_ 1 1#1
  let main_v77 : IVec S_ 1 := (fun x v => Host.reduce IntOp.andi x v reducesTo_S92_S_d0 h_S_) main_v76 main_c_29
  let main_v78 : IVec S_ 1 := andi main_v73 main_v77
  let main_v79 : FVec F S92x46 .f32 := Host.absf main_arg18
  let main_cst_30 : FVec F S_ .f32 := constant S_ .f32 0x7F800000#32
  let main_v80 : FVec F S92x46 .f32 := broadcastInDim S92x46 ![] bcast_S_S92x46 main_cst_30
  let main_v81 : IVec S92x46 1 := cmpf .olt main_v79 main_v80
  let main_c_31 : IVec S_ 1 := constantI S_ 1 1#1
  let main_v82 : IVec S_ 1 := (fun x v => Host.reduce IntOp.andi x v reducesTo_S92x46_S_d0_1 h_S_) main_v81 main_c_31
  let main_v83 : IVec S_ 1 := andi main_v78 main_v82
  let main_v84 : FVec F S46 .f32 := Host.absf main_arg19
  let main_cst_32 : FVec F S_ .f32 := constant S_ .f32 0x7F800000#32
  fn_part5 (F := F) main_arg20 main_arg21 main_arg22 main_arg23 main_v83 main_v84 main_cst_32

def fn_part3 {F : FTy → Type} [FloatOps F] (main_arg13 : FVec F S10 .f32) (main_arg14 : FVec F S138x92 .f32) (main_arg15 : FVec F S92 .f32) (main_arg16 : FVec F S92 .f32) (main_arg17 : FVec F S92 .f32) (main_arg18 : FVec F S92x46 .f32) (main_arg19 : FVec F S46 .f32) (main_arg20 : FVec F S46 .f32) (main_arg21 : FVec F S46 .f32) (main_arg22 : FVec F S46x1 .f32) (main_arg23 : FVec F S1 .f32) (main_v48 : IVec S_ 1) (main_v49 : FVec F S20x10 .f32) (main_v50 : FVec F S20x10 .f32) : IVec S_ 1 :=
  let main_v51 : IVec S20x10 1 := cmpf .olt main_v49 main_v50
  let main_c_19 : IVec S_ 1 := constantI S_ 1 1#1
  let main_v52 : IVec S_ 1 := (fun x v => Host.reduce IntOp.andi x v reducesTo_S20x10_S_d0_1 h_S_) main_v51 main_c_19
  let main_v53 : IVec S_ 1 := andi main_v48 main_v52
  let main_v54 : FVec F S10 .f32 := Host.absf main_arg13
  let main_cst_20 : FVec F S_ .f32 := constant S_ .f32 0x7F800000#32
  let main_v55 : FVec F S10 .f32 := broadcastInDim S10 ![] bcast_S_S10 main_cst_20
  let main_v56 : IVec S10 1 := cmpf .olt main_v54 main_v55
  let main_c_21 : IVec S_ 1 := constantI S_ 1 1#1
  let main_v57 : IVec S_ 1 := (fun x v => Host.reduce IntOp.andi x v reducesTo_S10_S_d0 h_S_) main_v56 main_c_21
  let main_v58 : IVec S_ 1 := andi main_v53 main_v57
  let main_v59 : FVec F S138x92 .f32 := Host.absf main_arg14
  let main_cst_22 : FVec F S_ .f32 := constant S_ .f32 0x7F800000#32
  let main_v60 : FVec F S138x92 .f32 := broadcastInDim S138x92 ![] bcast_S_S138x92 main_cst_22
  let main_v61 : IVec S138x92 1 := cmpf .olt main_v59 main_v60
  let main_c_23 : IVec S_ 1 := constantI S_ 1 1#1
  let main_v62 : IVec S_ 1 := (fun x v => Host.reduce IntOp.andi x v reducesTo_S138x92_S_d0_1 h_S_) main_v61 main_c_23
  let main_v63 : IVec S_ 1 := andi main_v58 main_v62
  let main_v64 : FVec F S92 .f32 := Host.absf main_arg15
  let main_cst_24 : FVec F S_ .f32 := constant S_ .f32 0x7F800000#32
  let main_v65 : FVec F S92 .f32 := broadcastInDim S92 ![] bcast_S_S92 main_cst_24
  let main_v66 : IVec S92 1 := cmpf .olt main_v64 main_v65
  let main_c_25 : IVec S_ 1 := constantI S_ 1 1#1
  let main_v67 : IVec S_ 1 := (fun x v => Host.reduce IntOp.andi x v reducesTo_S92_S_d0 h_S_) main_v66 main_c_25
  fn_part4 (F := F) main_arg16 main_arg17 main_arg18 main_arg19 main_arg20 main_arg21 main_arg22 main_arg23 main_v63 main_v67

def fn_part2 {F : FTy → Type} [FloatOps F] (main_arg9 : FVec F S128 .f32) (main_arg10 : FVec F S1x20 .f32) (main_arg11 : FVec F S20 .f32) (main_arg12 : FVec F S20x10 .f32) (main_arg13 : FVec F S10 .f32) (main_arg14 : FVec F S138x92 .f32) (main_arg15 : FVec F S92 .f32) (main_arg16 : FVec F S92 .f32) (main_arg17 : FVec F S92 .f32) (main_arg18 : FVec F S92x46 .f32) (main_arg19 : FVec F S46 .f32) (main_arg20 : FVec F S46 .f32) (main_arg21 : FVec F S46 .f32) (main_arg22 : FVec F S46x1 .f32) (main_arg23 : FVec F S1 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S1x20 .f32 := Host.absf main_arg10
  let main_cst_14 : FVec F S_ .f32 := constant S_ .f32 0x7F800000#32
  let main_v40 : FVec F S1x20 .f32 := broadcastInDim S1x20 ![] bcast_S_S1x20 main_cst_14
  let main_v41 : IVec S1x20 1 := cmpf .olt main_v39 main_v40
  let main_c_15 : IVec S_ 1 := constantI S_ 1 1#1
  let main_v42 : IVec S_ 1 := (fun x v => Host.reduce IntOp.andi x v reducesTo_S1x20_S_d0_1 h_S_) main_v41 main_c_15
  let main_v43 : IVec S_ 1 := andi main_v38 main_v42
  let main_v44 : FVec F S20 .f32 := Host.absf main_arg11
  let main_cst_16 : FVec F S_ .f32 := constant S_ .f32 0x7F800000#32
  let main_v45 : FVec F S20 .f32 := broadcastInDim S20 ![] bcast_S_S20 main_cst_16
  let main_v46 : IVec S20 1 := cmpf .olt main_v44 main_v45
  let main_c_17 : IVec S_ 1 := constantI S_ 1 1#1
  let main_v47 : IVec S_ 1 := (fun x v => Host.reduce IntOp.andi x v reducesTo_S20_S_d0 h_S_) main_v46 main_c_17
  let main_v48 : IVec S_ 1 := andi main_v43 main_v47
  let main_v49 : FVec F S20x10 .f32 := Host.absf main_arg12
  let main_cst_18 : FVec F S_ .f32 := constant S_ .f32 0x7F800000#32
  let main_v50 : FVec F S20x10 .f32 := broadcastInDim S20x10 ![] bcast_S_S20x10 main_cst_18
  fn_part3 (F := F) main_arg13 main_arg14 main_arg15 main_arg16 main_arg17 main_arg18 main_arg19 main_arg20 main_arg21 main_arg22 main_arg23 main_v48 main_v49 main_v50

def fn_part1 {F : FTy → Type} [FloatOps F] (main_arg6 : FVec F S128x128 .f32) (main_arg7 : FVec F S128 .f32) (main_arg8 : FVec F S128x128 .f32) (main_arg9 : FVec F S128 .f32) (main_arg10 : FVec F S1x20 .f32) (main_arg11 : FVec F S20 .f32) (main_arg12 : FVec F S20x10 .f32) (main_arg13 : FVec F S10 .f32) (main_arg14 : FVec F S138x92 .f32) (main_arg15 : FVec F S92 .f32) (main_arg16 : FVec F S92 .f32) (main_arg17 : FVec F S92 .f32) (main_arg18 : FVec F S92x46 .f32) (main_arg19 : FVec F S46 .f32) (main_arg20 : FVec F S46 .f32) (main_arg21 : FVec F S46 .f32) (main_arg22 : FVec F S46x1 .f32) (main_arg23 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S50000x128 .f32) (main_arg1 : IVec S2x800000 32) (main_arg2 : IVec S50000 32) (main_arg3 : FVec F S100 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S1x20 .f32) (main_arg11 : FVec F S20 .f32) (main_arg12 : FVec F S20x10 .f32) (main_arg13 : FVec F S10 .f32) (main_arg14 : FVec F S138x92 .f32) (main_arg15 : FVec F S92 .f32) (main_arg16 : FVec F S92 .f32) (main_arg17 : FVec F S92 .f32) (main_arg18 : FVec F S92x46 .f32) (main_arg19 : FVec F S46 .f32) (main_arg20 : FVec F S46 .f32) (main_arg21 : FVec F S46 .f32) (main_arg22 : FVec F S46x1 .f32) (main_arg23 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S100 .f32 := Host.absf main_arg3
  let main_cst_0 : FVec F S_ .f32 := constant S_ .f32 0x7F800000#32
  let main_v5 : FVec F S100 .f32 := broadcastInDim S100 ![] bcast_S_S100 main_cst_0
  let main_v6 : IVec S100 1 := cmpf .olt main_v4 main_v5
  let main_c_1 : IVec S_ 1 := constantI S_ 1 1#1
  let main_v7 : IVec S_ 1 := (fun x v => Host.reduce IntOp.andi x v reducesTo_S100_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S100 : Shape := ⟨1, ![100]⟩
abbrev S128x128 : Shape := ⟨2, ![128, 128]⟩
abbrev S128 : Shape := ⟨1, ![128]⟩
abbrev S1x20 : Shape := ⟨2, ![1, 20]⟩
abbrev S20 : Shape := ⟨1, ![20]⟩
abbrev S20x10 : Shape := ⟨2, ![20, 10]⟩
abbrev S10 : Shape := ⟨1, ![10]⟩
abbrev S138x92 : Shape := ⟨2, ![138, 92]⟩
abbrev S92 : Shape := ⟨1, ![92]⟩
abbrev S92x46 : Shape := ⟨2, ![92, 46]⟩
abbrev S46 : Shape := ⟨1, ![46]⟩
abbrev S46x1 : Shape := ⟨2, ![46, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S5000x128 : Shape := ⟨2, ![5000, 128]⟩
abbrev S800000x128 : Shape := ⟨2, ![800000, 128]⟩
abbrev S5000x1 : Shape := ⟨2, ![5000, 1]⟩
abbrev S1x128 : Shape := ⟨2, ![1, 128]⟩
abbrev S100x128 : Shape := ⟨2, ![100, 128]⟩
abbrev S100x1 : Shape := ⟨2, ![100, 1]⟩
abbrev S100x20 : Shape := ⟨2, ![100, 20]⟩
abbrev S100x10 : Shape := ⟨2, ![100, 10]⟩
abbrev S1x10 : Shape := ⟨2, ![1, 10]⟩
abbrev S100x138 : Shape := ⟨2, ![100, 138]⟩
abbrev S100x92 : Shape := ⟨2, ![100, 92]⟩
abbrev S1x92 : Shape := ⟨2, ![1, 92]⟩
abbrev S100x46 : Shape := ⟨2, ![100, 46]⟩
abbrev S1x46 : Shape := ⟨2, ![1, 46]⟩
abbrev S1x1 : Shape := ⟨2, ![1, 1]⟩

abbrev nBuf : Space → Nat
  | .hbm => 177
  | .vmem => 46
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S100, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S1x20, .f32⟩
  | 11 => ⟨S20, .f32⟩
  | 12 => ⟨S20x10, .f32⟩
  | 13 => ⟨S10, .f32⟩
  | 14 => ⟨S138x92, .f32⟩
  | 15 => ⟨S92, .f32⟩
  | 16 => ⟨S92, .f32⟩
  | 17 => ⟨S92, .f32⟩
  | 18 => ⟨S92x46, .f32⟩
  | 19 => ⟨S46, .f32⟩
  | 20 => ⟨S46, .f32⟩
  | 21 => ⟨S46, .f32⟩
  | 22 => ⟨S46x1, .f32⟩
  | 23 => ⟨S1, .f32⟩
  | 24 => ⟨S1x800000, .i32⟩
  | 25 => ⟨S800000, .i32⟩
  | 26 => ⟨S1x800000, .i32⟩
  | 27 => ⟨S800000, .i32⟩
  | 28 => ⟨S_, .f32⟩
  | 29 => ⟨S50000, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S_, .f32⟩
  | 39 => ⟨S800000, .f32⟩
  | 40 => ⟨S50000, .f32⟩
  | 41 => ⟨S_, .f32⟩
  | 42 => ⟨S50000, .f32⟩
  | 43 => ⟨S50000, .f32⟩
  | 44 => ⟨S50000, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000, .f32⟩
  | 54 => ⟨S_, .i32⟩
  | 55 => ⟨S800000, .i32⟩
  | 56 => ⟨S800000, .i1⟩
  | 57 => ⟨S_, .i32⟩
  | 58 => ⟨S800000, .i32⟩
  | 59 => ⟨S800000, .i32⟩
  | 60 => ⟨S800000, .i32⟩
  | 61 => ⟨S800000x1, .i32⟩
  | 62 => ⟨S800000, .f32⟩
  | 63 => ⟨S800000, .f32⟩
  | 64 => ⟨S50000, .f32⟩
  | 65 => ⟨S50000x1, .f32⟩
  | 66 => ⟨S50000x128, .f32⟩
  | 67 => ⟨S_, .i32⟩
  | 68 => ⟨S800000, .i32⟩
  | 69 => ⟨S800000, .i1⟩
  | 70 => ⟨S_, .i32⟩
  | 71 => ⟨S800000, .i32⟩
  | 72 => ⟨S800000, .i32⟩
  | 73 => ⟨S800000, .i32⟩
  | 74 => ⟨S800000x1, .i32⟩
  | 75 => ⟨S800000x128, .f32⟩
  | 76 => ⟨S800000x1, .f32⟩
  | 77 => ⟨S800000x128, .f32⟩
  | 78 => ⟨S800000x128, .f32⟩
  | 79 => ⟨S_, .f32⟩
  | 80 => ⟨S50000x128, .f32⟩
  | 81 => ⟨S_, .i32⟩
  | 82 => ⟨S800000, .i32⟩
  | 83 => ⟨S800000, .i1⟩
  | 84 => ⟨S_, .i32⟩
  | 85 => ⟨S800000, .i32⟩
  | 86 => ⟨S800000, .i32⟩
  | 87 => ⟨S800000, .i32⟩
  | 88 => ⟨S800000x1, .i32⟩
  | 89 => ⟨S50000x128, .f32⟩
  | 90 => ⟨S50000x128, .f32⟩
  | 91 => ⟨S_, .i32⟩
  | 92 => ⟨S800000, .i32⟩
  | 93 => ⟨S800000, .i1⟩
  | 94 => ⟨S_, .i32⟩
  | 95 => ⟨S800000, .i32⟩
  | 96 => ⟨S800000, .i32⟩
  | 97 => ⟨S800000, .i32⟩
  | 98 => ⟨S800000x1, .i32⟩
  | 99 => ⟨S800000x128, .f32⟩
  | 100 => ⟨S800000x1, .f32⟩
  | 101 => ⟨S800000x128, .f32⟩
  | 102 => ⟨S800000x128, .f32⟩
  | 103 => ⟨S_, .f32⟩
  | 104 => ⟨S50000x128, .f32⟩
  | 105 => ⟨S_, .i32⟩
  | 106 => ⟨S800000, .i32⟩
  | 107 => ⟨S800000, .i1⟩
  | 108 => ⟨S_, .i32⟩
  | 109 => ⟨S800000, .i32⟩
  | 110 => ⟨S800000, .i32⟩
  | 111 => ⟨S800000, .i32⟩
  | 112 => ⟨S800000x1, .i32⟩
  | 113 => ⟨S50000x128, .f32⟩
  | 114 => ⟨S50000x128, .f32⟩
  | 115 => ⟨S_, .i32⟩
  | 116 => ⟨S800000, .i32⟩
  | 117 => ⟨S800000, .i1⟩
  | 118 => ⟨S_, .i32⟩
  | 119 => ⟨S800000, .i32⟩
  | 120 => ⟨S800000, .i32⟩
  | 121 => ⟨S800000, .i32⟩
  | 122 => ⟨S800000x1, .i32⟩
  | 123 => ⟨S800000x128, .f32⟩
  | 124 => ⟨S800000x1, .f32⟩
  | 125 => ⟨S800000x128, .f32⟩
  | 126 => ⟨S800000x128, .f32⟩
  | 127 => ⟨S_, .f32⟩
  | _ => ⟨S50000x128, .f32⟩

abbrev hbmTy0_1 (i : Nat) : BufTy := match i % 128 with
  | 0 => ⟨S50000x128, .f32⟩
  | 1 => ⟨S_, .i32⟩
  | 2 => ⟨S800000, .i32⟩
  | 3 => ⟨S800000, .i1⟩
  | 4 => ⟨S_, .i32⟩
  | 5 => ⟨S800000, .i32⟩
  | 6 => ⟨S800000, .i32⟩
  | 7 => ⟨S800000, .i32⟩
  | 8 => ⟨S800000x1, .i32⟩
  | 9 => ⟨S50000x128, .f32⟩
  | 10 => ⟨S50000x128, .f32⟩
  | 11 => ⟨S_, .f32⟩
  | 12 => ⟨S50000, .f32⟩
  | 13 => ⟨S_, .f32⟩
  | 14 => ⟨S100, .f32⟩
  | 15 => ⟨S50000x1, .i32⟩
  | 16 => ⟨S100, .f32⟩
  | 17 => ⟨S_, .f32⟩
  | 18 => ⟨S100x128, .f32⟩
  | 19 => ⟨S50000x1, .i32⟩
  | 20 => ⟨S100x128, .f32⟩
  | 21 => ⟨S100x1, .f32⟩
  | 22 => ⟨S100x128, .f32⟩
  | 23 => ⟨S100x128, .f32⟩
  | 24 => ⟨S100x1, .f32⟩
  | 25 => ⟨S100x20, .f32⟩
  | 26 => ⟨S1x20, .f32⟩
  | 27 => ⟨S100x20, .f32⟩
  | 28 => ⟨S100x20, .f32⟩
  | 29 => ⟨S_, .f32⟩
  | 30 => ⟨S100x20, .f32⟩
  | 31 => ⟨S100x20, .i1⟩
  | 32 => ⟨S_, .f32⟩
  | 33 => ⟨S100x20, .f32⟩
  | 34 => ⟨S100x20, .f32⟩
  | 35 => ⟨S100x20, .f32⟩
  | 36 => ⟨S100x10, .f32⟩
  | 37 => ⟨S1x10, .f32⟩
  | 38 => ⟨S100x10, .f32⟩
  | 39 => ⟨S100x10, .f32⟩
  | 40 => ⟨S_, .f32⟩
  | 41 => ⟨S100x10, .f32⟩
  | 42 => ⟨S100x10, .i1⟩
  | 43 => ⟨S_, .f32⟩
  | 44 => ⟨S100x10, .f32⟩
  | 45 => ⟨S100x10, .f32⟩
  | 46 => ⟨S100x10, .f32⟩
  | 47 => ⟨S100x138, .f32⟩
  | 48 => ⟨S100x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x1, .f32⟩
  | .local _ .vmem, ⟨20, _⟩ => ⟨S5000x1, .f32⟩
  | .local _ .vmem, ⟨21, _⟩ => ⟨S128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x1, .f32⟩
  | .local _ .vmem, ⟨30, _⟩ => ⟨S5000x1, .f32⟩
  | .local _ .vmem, ⟨31, _⟩ => ⟨S128, .f32⟩
  | .local _ .vmem, ⟨32, _⟩ => ⟨S5000x128, .f32⟩
  | .local _ .vmem, ⟨33, _⟩ => ⟨S5000x128, .f32⟩
  | .local _ .vmem, ⟨34, _⟩ => ⟨S100x138, .f32⟩
  | .local _ .vmem, ⟨35, _⟩ => ⟨S138x92, .f32⟩
  | .local _ .vmem, ⟨36, _⟩ => ⟨S92, .f32⟩
  | .local _ .vmem, ⟨37, _⟩ => ⟨S92, .f32⟩
  | .local _ .vmem, ⟨38, _⟩ => ⟨S92, .f32⟩
  | .local _ .vmem, ⟨39, _⟩ => ⟨S92x46, .f32⟩
  | .local _ .vmem, ⟨40, _⟩ => ⟨S46, .f32⟩
  | .local _ .vmem, ⟨41, _⟩ => ⟨S46, .f32⟩
  | .local _ .vmem, ⟨42, _⟩ => ⟨S46, .f32⟩
  | .local _ .vmem, ⟨43, _⟩ => ⟨S46x1, .f32⟩
  | .local _ .vmem, ⟨44, _⟩ => ⟨S1, .f32⟩
  | .local _ .vmem, ⟨45, _⟩ => ⟨S100x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_cst : Ref sig .tc := ⟨.hbm, 28, rfl⟩
abbrev main_v4 : Ref sig .tc := ⟨.hbm, 29, rfl⟩
abbrev main_c : Ref sig .tc := ⟨.hbm, 30, rfl⟩
abbrev main_v5 : Ref sig .tc := ⟨.hbm, 31, rfl⟩
abbrev main_v6 : Ref sig .tc := ⟨.hbm, 32, rfl⟩
abbrev main_c_0 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_cst_1 : Ref sig .tc := ⟨.hbm, 38, rfl⟩
abbrev main_v11 : Ref sig .tc := ⟨.hbm, 39, rfl⟩
abbrev main_v12 : Ref sig .tc := ⟨.hbm, 40, rfl⟩
abbrev main_cst_2 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_c_3 : Ref sig .tc := ⟨.hbm, 45, rfl⟩
abbrev main_v16 : Ref sig .tc := ⟨.hbm, 46, rfl⟩
abbrev main_v17 : Ref sig .tc := ⟨.hbm, 47, rfl⟩
abbrev main_c_4 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_c_5 : Ref sig .tc := ⟨.hbm, 54, rfl⟩
abbrev main_v23 : Ref sig .tc := ⟨.hbm, 55, rfl⟩
abbrev main_v24 : Ref sig .tc := ⟨.hbm, 56, rfl⟩
abbrev main_c_6 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_c_7 : Ref sig .tc := ⟨.hbm, 67, rfl⟩
abbrev main_v34 : Ref sig .tc := ⟨.hbm, 68, rfl⟩
abbrev main_v35 : Ref sig .tc := ⟨.hbm, 69, rfl⟩
abbrev main_c_8 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_cst_9 : Ref sig .tc := ⟨.hbm, 79, rfl⟩
abbrev main_v44 : Ref sig .tc := ⟨.hbm, 80, rfl⟩
abbrev main_c_10 : Ref sig .tc := ⟨.hbm, 81, rfl⟩
abbrev main_v45 : Ref sig .tc := ⟨.hbm, 82, rfl⟩
abbrev main_v46 : Ref sig .tc := ⟨.hbm, 83, rfl⟩
abbrev main_c_11 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_c_12 : Ref sig .tc := ⟨.hbm, 91, rfl⟩
abbrev main_v53 : Ref sig .tc := ⟨.hbm, 92, rfl⟩
abbrev main_v54 : Ref sig .tc := ⟨.hbm, 93, rfl⟩
abbrev main_c_13 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_cst_14 : Ref sig .tc := ⟨.hbm, 103, rfl⟩
abbrev main_v63 : Ref sig .tc := ⟨.hbm, 104, rfl⟩
abbrev main_c_15 : Ref sig .tc := ⟨.hbm, 105, rfl⟩
abbrev main_v64 : Ref sig .tc := ⟨.hbm, 106, rfl⟩
abbrev main_v65 : Ref sig .tc := ⟨.hbm, 107, rfl⟩
abbrev main_c_16 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_c_17 : Ref sig .tc := ⟨.hbm, 115, rfl⟩
abbrev main_v72 : Ref sig .tc := ⟨.hbm, 116, rfl⟩
abbrev main_v73 : Ref sig .tc := ⟨.hbm, 117, rfl⟩
abbrev main_c_18 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_cst_19 : Ref sig .tc := ⟨.hbm, 127, rfl⟩
abbrev main_v82 : Ref sig .tc := ⟨.hbm, 128, rfl⟩
abbrev main_c_20 : Ref sig .tc := ⟨.hbm, 129, rfl⟩
abbrev main_v83 : Ref sig .tc := ⟨.hbm, 130, rfl⟩
abbrev main_v84 : Ref sig .tc := ⟨.hbm, 131, rfl⟩
abbrev main_c_21 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_cst_22 : Ref sig .tc := ⟨.hbm, 139, rfl⟩
abbrev main_v91 : Ref sig .tc := ⟨.hbm, 140, rfl⟩
abbrev main_cst_23 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_cst_24 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_cst_25 : Ref sig .tc := ⟨.hbm, 157, rfl⟩
abbrev main_v106 : Ref sig .tc := ⟨.hbm, 158, rfl⟩
abbrev main_v107 : Ref sig .tc := ⟨.hbm, 159, rfl⟩
abbrev main_cst_26 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_cst_27 : Ref sig .tc := ⟨.hbm, 168, rfl⟩
abbrev main_v115 : Ref sig .tc := ⟨.hbm, 169, rfl⟩
abbrev main_v116 : Ref sig .tc := ⟨.hbm, 170, rfl⟩
abbrev main_cst_28 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg4_1 : Ref sig .tc := ⟨.vmem, 33, rfl⟩
abbrev cc4_stg0_0 : Ref sig .tc := ⟨.vmem, 34, rfl⟩
abbrev cc4_stg1_0 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg5_0 : Ref sig .tc := ⟨.vmem, 39, rfl⟩
abbrev cc4_stg6_0 : Ref sig .tc := ⟨.vmem, 40, rfl⟩
abbrev cc4_stg7_0 : Ref sig .tc := ⟨.vmem, 41, rfl⟩
abbrev cc4_stg8_0 : Ref sig .tc := ⟨.vmem, 42, rfl⟩
abbrev cc4_stg9_0 : Ref sig .tc := ⟨.vmem, 43, rfl⟩
abbrev cc4_stg10_0 : Ref sig .tc := ⟨.vmem, 44, rfl⟩
abbrev cc4_stg11_0 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem5_0 : DmaSem sig := 23
abbrev cc2_sem5_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem2_1 : DmaSem sig := 30
abbrev cc3_sem3_0 : DmaSem sig := 31
abbrev cc3_sem4_0 : DmaSem sig := 32
abbrev cc3_sem4_1 : DmaSem sig := 33
abbrev cc4_sem0_0 : DmaSem sig := 34
abbrev cc4_sem1_0 : DmaSem sig := 35
abbrev cc4_sem2_0 : DmaSem sig := 36
abbrev cc4_sem3_0 : DmaSem sig := 37
abbrev cc4_sem4_0 : DmaSem sig := 38
abbrev cc4_sem5_0 : DmaSem sig := 39
abbrev cc4_sem6_0 : DmaSem sig := 40
abbrev cc4_sem7_0 : DmaSem sig := 41
abbrev cc4_sem8_0 : DmaSem sig := 42
abbrev cc4_sem9_0 : DmaSem sig := 43
abbrev cc4_sem10_0 : DmaSem sig := 44
abbrev cc4_sem11_0 : DmaSem sig := 45

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_7 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_8 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_11 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S100x138 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S138x92 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S92 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S92 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S92 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S92x46 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S46 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S46 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S46 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S46x1 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S1 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 1 → Memref sig .tc .vmem S100x1 .f32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
abbrev reads4_11 : Fin grid4.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S_S100 : S_.BroadcastsInDim S100 (![] : Fin 0 → Fin S100.rank)
  bcast_S_S100x128 : S_.BroadcastsInDim S100x128 (![] : Fin 0 → Fin S100x128.rank)
  bcast_S100_S100x1_0 : S100.BroadcastsInDim S100x1 (![0] : Fin 1 → Fin S100x1.rank)
  bcast_S100x1_S100x128_0_1 : S100x1.BroadcastsInDim S100x128 (![0, 1] : Fin 2 → Fin S100x128.rank)
  bcast_S20_S1x20_1 : S20.BroadcastsInDim S1x20 (![1] : Fin 1 → Fin S1x20.rank)
  bcast_S1x20_S100x20_0_1 : S1x20.BroadcastsInDim S100x20 (![0, 1] : Fin 2 → Fin S100x20.rank)
  bcast_S_S100x20 : S_.BroadcastsInDim S100x20 (![] : Fin 0 → Fin S100x20.rank)
  bcast_S10_S1x10_1 : S10.BroadcastsInDim S1x10 (![1] : Fin 1 → Fin S1x10.rank)
  bcast_S1x10_S100x10_0_1 : S1x10.BroadcastsInDim S100x10 (![0, 1] : Fin 2 → Fin S100x10.rank)
  bcast_S_S100x10 : S_.BroadcastsInDim S100x10 (![] : Fin 0 → Fin S100x10.rank)
  concatenates_S100x128_S100x10_S100x138_d1 : Shape.Concatenates [S100x128, S100x10] S100x138 1
  inb_S100x138_S100x138_0_0 : ∀ a, (![0, 0] : Fin 2 → Nat) a + S100x138.size a ≤ S100x138.size a
  h_S100x138 : 0 < S100x138.numel
  shapeCasts_S100x138_S100x138 : S100x138.ShapeCasts S100x138
  inb_S138x92_S138x92_0_0 : ∀ a, (![0, 0] : Fin 2 → Nat) a + S138x92.size a ≤ S138x92.size a
  h_S138x92 : 0 < S138x92.numel
  inb_S92_S92_0 : ∀ a, (![0] : Fin 1 → Nat) a + S92.size a ≤ S92.size a
  h_S92 : 0 < S92.numel
  shapeCasts_S92_S1x92 : S92.ShapeCasts S1x92
  broadcasts_S1x92_S100x92 : S1x92.Broadcasts S100x92
  reduces_S100x92_S92 : S100x92.Reduces [0] S92
  inb_S92x46_S92x46_0_0 : ∀ a, (![0, 0] : Fin 2 → Nat) a + S92x46.size a ≤ S92x46.size a
  h_S92x46 : 0 < S92x46.numel
  inb_S46_S46_0 : ∀ a, (![0] : Fin 1 → Nat) a + S46.size a ≤ S46.size a
  h_S46 : 0 < S46.numel
  shapeCasts_S46_S1x46 : S46.ShapeCasts S1x46
  broadcasts_S1x46_S100x46 : S1x46.Broadcasts S100x46
  reduces_S100x46_S46 : S100x46.Reduces [0] S46
  inb_S46x1_S46x1_0_0 : ∀ a, (![0, 0] : Fin 2 → Nat) a + S46x1.size a ≤ S46x1.size a
  h_S46x1 : 0 < S46x1.numel
  inb_S1_S1_0 : ∀ a, (![0] : Fin 1 → Nat) a + S1.size a ≤ S1.size a
  h_S1 : 0 < S1.numel
  shapeCasts_S1_S1x1 : S1.ShapeCasts S1x1
  broadcasts_S1x1_S100x1 : S1x1.Broadcasts S100x1
  inb_S100x1_S100x1_0_0 : ∀ a, (![0, 0] : Fin 2 → Nat) a + S100x1.size a ≤ S100x1.size a
  h_S100x1 : 0 < S100x1.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S100_S50000x1_S50000_n_0_0_1_wf : ScatterDims.WF S100 S50000x1 S50000 [] [0] [0] 1
  scatter_S100x128_S50000x1_S50000x128_1_0_0_1_wf : ScatterDims.WF S100x128 S50000x1 S50000x128 [1] [0] [0] 1
  dot_S100x1_S1x20_S100x20_1_0_0_1_n_n_wf : DotDims.WF S100x1 S1x20 S100x20 [1] [0] [0] [1] [] []
  dot_S100x20_S20x10_S100x10_1_0_0_1_n_n_wf : DotDims.WF S100x20 S20x10 S100x10 [1] [0] [0] [1] [] []
  dot_S100x138_S138x92_S100x92_1_0_0_1_n_n_wf : DotDims.WF S100x138 S138x92 S100x92 [1] [0] [0] [1] [] []
  dot_S100x92_S92x46_S100x46_1_0_0_1_n_n_wf : DotDims.WF S100x92 S92x46 S100x46 [1] [0] [0] [1] [] []
  dot_S100x46_S46x1_S100x1_1_0_0_1_n_n_wf : DotDims.WF S100x46 S46x1 S100x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S100x138.size a ≤ S100x138.size a
  hwx4_0 : ∀ i : grid4.Coords, EltTy.bits .f32 = 32 ∨ (Rect.block (s := S100x138) S100x138.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S138x92.size a ≤ S138x92.size a
  hwx4_1 : ∀ i : grid4.Coords, EltTy.bits .f32 = 32 ∨ (Rect.block (s := S138x92) S138x92.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S92.size a ≤ S92.size a
  hwx4_2 : ∀ i : grid4.Coords, EltTy.bits .f32 = 32 ∨ (Rect.block (s := S92) S92.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S92.size a ≤ S92.size a
  hwx4_3 : ∀ i : grid4.Coords, EltTy.bits .f32 = 32 ∨ (Rect.block (s := S92) S92.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S92.size a ≤ S92.size a
  hwx4_4 : ∀ i : grid4.Coords, EltTy.bits .f32 = 32 ∨ (Rect.block (s := S92) S92.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S92x46.size a ≤ S92x46.size a
  hwx4_5 : ∀ i : grid4.Coords, EltTy.bits .f32 = 32 ∨ (Rect.block (s := S92x46) S92x46.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S46.size a ≤ S46.size a
  hwx4_6 : ∀ i : grid4.Coords, EltTy.bits .f32 = 32 ∨ (Rect.block (s := S46) S46.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S46.size a ≤ S46.size a
  hwx4_7 : ∀ i : grid4.Coords, EltTy.bits .f32 = 32 ∨ (Rect.block (s := S46) S46.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S46.size a ≤ S46.size a
  hwx4_8 : ∀ i : grid4.Coords, EltTy.bits .f32 = 32 ∨ (Rect.block (s := S46) S46.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S46x1.size a ≤ S46x1.size a
  hwx4_9 : ∀ i : grid4.Coords, EltTy.bits .f32 = 32 ∨ (Rect.block (s := S46x1) S46x1.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S1.size a ≤ S1.size a
  hwx4_10 : ∀ i : grid4.Coords, EltTy.bits .f32 = 32 ∨ (Rect.block (s := S1) S1.size (cc4_transform_10 i) (hinb4_10 i)).WholeWords (EltTy.packing .f32)
  hstage4_11 : ∀ j, (stage4_11 j).IsWhole
  nbuf4_11 : grid4.bufCount reads4_11 true = 1
  hreads4_11 : ∀ i i' : grid4.Coords, (∀ a, reads4_11 a = true → i a = i' a) → cc4_transform_11 i = cc4_transform_11 i'
  hinb4_11 : ∀ (i : grid4.Coords) a, (cc4_transform_11 i a + 1) * S100x1.size a ≤ S100x1.size a
  hwx4_11 : ∀ i : grid4.Coords, EltTy.bits .f32 = 32 ∨ (Rect.block (s := S100x1) S100x1.size (cc4_transform_11 i) (hinb4_11 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S100_S50000x1_S50000_n_0_0_1 : ScatterDims S100 S50000x1 S50000 where
  updateWindowDims := []
  insertedWindowDims := [0]
  scatterDimsToOperandDims := [0]
  indexVectorDim := 1
  wf := scatter_S100_S50000x1_S50000_n_0_0_1_wf
def scatter_S100x128_S50000x1_S50000x128_1_0_0_1 : ScatterDims S100x128 S50000x1 S50000x128 where
  updateWindowDims := [1]
  insertedWindowDims := [0]
  scatterDimsToOperandDims := [0]
  indexVectorDim := 1
  wf := scatter_S100x128_S50000x1_S50000x128_1_0_0_1_wf
def dot_S100x1_S1x20_S100x20_1_0_0_1_n_n : DotDims S100x1 S1x20 S100x20 where
  lhsContracting := [1]
  rhsContracting := [0]
  lhsNonContracting := [0]
  rhsNonContracting := [1]
  lhsBatch := []
  rhsBatch := []
  wf := dot_S100x1_S1x20_S100x20_1_0_0_1_n_n_wf
def dot_S100x20_S20x10_S100x10_1_0_0_1_n_n : DotDims S100x20 S20x10 S100x10 where
  lhsContracting := [1]
  rhsContracting := [0]
  lhsNonContracting := [0]
  rhsNonContracting := [1]
  lhsBatch := []
  rhsBatch := []
  wf := dot_S100x20_S20x10_S100x10_1_0_0_1_n_n_wf
def dot_S100x138_S138x92_S100x92_1_0_0_1_n_n : DotDims S100x138 S138x92 S100x92 where
  lhsContracting := [1]
  rhsContracting := [0]
  lhsNonContracting := [0]
  rhsNonContracting := [1]
  lhsBatch := []
  rhsBatch := []
  wf := dot_S100x138_S138x92_S100x92_1_0_0_1_n_n_wf
def dot_S100x92_S92x46_S100x46_1_0_0_1_n_n : DotDims S100x92 S92x46 S100x46 where
  lhsContracting := [1]
  rhsContracting := [0]
  lhsNonContracting := [0]
  rhsNonContracting := [1]
  lhsBatch := []
  rhsBatch := []
  wf := dot_S100x92_S92x46_S100x46_1_0_0_1_n_n_wf
def dot_S100x46_S46x1_S100x1_1_0_0_1_n_n : DotDims S100x46 S46x1 S100x1 where
  lhsContracting := [1]
  rhsContracting := [0]
  lhsNonContracting := [0]
  rhsNonContracting := [1]
  lhsBatch := []
  rhsBatch := []
  wf := dot_S100x46_S46x1_S100x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v51) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v52) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v70) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v32) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg8) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v71) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v89) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v71) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v32) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg9) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v90) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v120) S100x138.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg14) S138x92.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg15) S92.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg16) S92.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg17) S92.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg18) S92x46.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg19) S46.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_arg20) S46.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_arg21) S46.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_arg22) S46x1.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_arg23) S1.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_v121) S100x1.size cc4_transform_11 reads4_11 true true 1 stage4_11 sem4_11
    hrank4 hreads4_11 hinb4_11 nbuf4_11 (Memref.isWhole_whole _) hwx4_11 hstage4_11

abbrev win4 : Fin 12 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | ⟨_ + 12, h⟩ => absurd h (Nat.not_lt.2 (Nat.le_add_left _ _))
abbrev spec4 : Fin 12 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S100 : Shape := ⟨1, ![100]⟩
abbrev S128x128 : Shape := ⟨2, ![128, 128]⟩
abbrev S128 : Shape := ⟨1, ![128]⟩
abbrev S1x20 : Shape := ⟨2, ![1, 20]⟩
abbrev S20 : Shape := ⟨1, ![20]⟩
abbrev S20x10 : Shape := ⟨2, ![20, 10]⟩
abbrev S10 : Shape := ⟨1, ![10]⟩
abbrev S138x92 : Shape := ⟨2, ![138, 92]⟩
abbrev S92 : Shape := ⟨1, ![92]⟩
abbrev S92x46 : Shape := ⟨2, ![92, 46]⟩
abbrev S46 : Shape := ⟨1, ![46]⟩
abbrev S46x1 : Shape := ⟨2, ![46, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S100x128 : Shape := ⟨2, ![100, 128]⟩
abbrev S100x1 : Shape := ⟨2, ![100, 1]⟩
abbrev S100x20 : Shape := ⟨2, ![100, 20]⟩
abbrev S100x10 : Shape := ⟨2, ![100, 10]⟩
abbrev S1x10 : Shape := ⟨2, ![1, 10]⟩
abbrev S100x138 : Shape := ⟨2, ![100, 138]⟩
abbrev S100x92 : Shape := ⟨2, ![100, 92]⟩
abbrev S1x92 : Shape := ⟨2, ![1, 92]⟩
abbrev S100x46 : Shape := ⟨2, ![100, 46]⟩
abbrev S1x46 : Shape := ⟨2, ![1, 46]⟩
abbrev S1x1 : Shape := ⟨2, ![1, 1]⟩

abbrev nBuf : Space → Nat
  | .hbm => 328
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S100, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S1x20, .f32⟩
  | 11 => ⟨S20, .f32⟩
  | 12 => ⟨S20x10, .f32⟩
  | 13 => ⟨S10, .f32⟩
  | 14 => ⟨S138x92, .f32⟩
  | 15 => ⟨S92, .f32⟩
  | 16 => ⟨S92, .f32⟩
  | 17 => ⟨S92, .f32⟩
  | 18 => ⟨S92x46, .f32⟩
  | 19 => ⟨S46, .f32⟩
  | 20 => ⟨S46, .f32⟩
  | 21 => ⟨S46, .f32⟩
  | 22 => ⟨S46x1, .f32⟩
  | 23 => ⟨S1, .f32⟩
  | 24 => ⟨S1x800000, .i32⟩
  | 25 => ⟨S800000, .i32⟩
  | 26 => ⟨S1x800000, .i32⟩
  | 27 => ⟨S800000, .i32⟩
  | 28 => ⟨S_, .f32⟩
  | 29 => ⟨S50000, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S_, .f32⟩
  | 39 => ⟨S800000, .f32⟩
  | 40 => ⟨S50000, .f32⟩
  | 41 => ⟨S_, .f32⟩
  | 42 => ⟨S50000, .f32⟩
  | 43 => ⟨S50000, .f32⟩
  | 44 => ⟨S50000, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000, .f32⟩
  | 54 => ⟨S_, .i32⟩
  | 55 => ⟨S800000, .i32⟩
  | 56 => ⟨S800000, .i1⟩
  | 57 => ⟨S_, .i32⟩
  | 58 => ⟨S800000, .i32⟩
  | 59 => ⟨S800000, .i32⟩
  | 60 => ⟨S800000, .i32⟩
  | 61 => ⟨S800000x1, .i32⟩
  | 62 => ⟨S800000, .f32⟩
  | 63 => ⟨S800000, .f32⟩
  | 64 => ⟨S50000, .f32⟩
  | 65 => ⟨S50000x1, .f32⟩
  | 66 => ⟨S50000x128, .f32⟩
  | 67 => ⟨S_, .f32⟩
  | 68 => ⟨S50000x128, .f32⟩
  | 69 => ⟨S_, .i32⟩
  | 70 => ⟨S800000, .i32⟩
  | 71 => ⟨S800000, .i1⟩
  | 72 => ⟨S_, .i32⟩
  | 73 => ⟨S800000, .i32⟩
  | 74 => ⟨S800000, .i32⟩
  | 75 => ⟨S800000, .i32⟩
  | 76 => ⟨S800000x1, .i32⟩
  | 77 => ⟨S800000x128, .f32⟩
  | 78 => ⟨S800000x1, .f32⟩
  | 79 => ⟨S800000x128, .f32⟩
  | 80 => ⟨S800000x128, .f32⟩
  | 81 => ⟨S_, .i32⟩
  | 82 => ⟨S800000, .i32⟩
  | 83 => ⟨S800000, .i1⟩
  | 84 => ⟨S_, .i32⟩
  | 85 => ⟨S800000, .i32⟩
  | 86 => ⟨S800000, .i32⟩
  | 87 => ⟨S800000, .i32⟩
  | 88 => ⟨S800000x1, .i32⟩
  | 89 => ⟨S50000x128, .f32⟩
  | 90 => ⟨S50000x128, .f32⟩
  | 91 => ⟨S50000x128, .f32⟩
  | 92 => ⟨S50000x128, .f32⟩
  | 93 => ⟨S1x128, .f32⟩
  | 94 => ⟨S50000x128, .f32⟩
  | 95 => ⟨S50000x128, .f32⟩
  | 96 => ⟨S_, .f32⟩
  | 97 => ⟨S50000x128, .f32⟩
  | 98 => ⟨S50000x128, .i1⟩
  | 99 => ⟨S_, .f32⟩
  | 100 => ⟨S50000x128, .f32⟩
  | 101 => ⟨S50000x128, .f32⟩
  | 102 => ⟨S50000x128, .f32⟩
  | 103 => ⟨S50000x128, .f32⟩
  | 104 => ⟨S_, .f32⟩
  | 105 => ⟨S50000x128, .f32⟩
  | 106 => ⟨S_, .i32⟩
  | 107 => ⟨S800000, .i32⟩
  | 108 => ⟨S800000, .i1⟩
  | 109 => ⟨S_, .i32⟩
  | 110 => ⟨S800000, .i32⟩
  | 111 => ⟨S800000, .i32⟩
  | 112 => ⟨S800000, .i32⟩
  | 113 => ⟨S800000x1, .i32⟩
  | 114 => ⟨S800000x128, .f32⟩
  | 115 => ⟨S800000x1, .f32⟩
  | 116 => ⟨S800000x128, .f32⟩
  | 117 => ⟨S800000x128, .f32⟩
  | 118 => ⟨S_, .i32⟩
  | 119 => ⟨S800000, .i32⟩
  | 120 => ⟨S800000, .i1⟩
  | 121 => ⟨S_, .i32⟩
  | 122 => ⟨S800000, .i32⟩
  | 123 => ⟨S800000, .i32⟩
  | 124 => ⟨S800000, .i32⟩
  | 125 => ⟨S800000x1, .i32⟩
  | 126 => ⟨S50000x128, .f32⟩
  | 127 => ⟨S50000x128, .f32⟩
  | _ => ⟨S50000x128, .f32⟩

abbrev hbmTy0_1 (i : Nat) : BufTy := match i % 128 with
  | 0 => ⟨S50000x128, .f32⟩
  | 1 => ⟨S50000x128, .f32⟩
  | 2 => ⟨S1x128, .f32⟩
  | 3 => ⟨S50000x128, .f32⟩
  | 4 => ⟨S50000x128, .f32⟩
  | 5 => ⟨S_, .f32⟩
  | 6 => ⟨S50000x128, .f32⟩
  | 7 => ⟨S50000x128, .i1⟩
  | 8 => ⟨S_, .f32⟩
  | 9 => ⟨S50000x128, .f32⟩
  | 10 => ⟨S50000x128, .f32⟩
  | 11 => ⟨S50000x128, .f32⟩
  | 12 => ⟨S50000x128, .f32⟩
  | 13 => ⟨S_, .f32⟩
  | 14 => ⟨S50000x128, .f32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x128, .f32⟩
  | 24 => ⟨S800000x1, .f32⟩
  | 25 => ⟨S800000x128, .f32⟩
  | 26 => ⟨S800000x128, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S50000x128, .f32⟩
  | 36 => ⟨S50000x128, .f32⟩
  | 37 => ⟨S50000x128, .f32⟩
  | 38 => ⟨S50000x128, .f32⟩
  | 39 => ⟨S1x128, .f32⟩
  | 40 => ⟨S50000x128, .f32⟩
  | 41 => ⟨S50000x128, .f32⟩
  | 42 => ⟨S_, .f32⟩
  | 43 => ⟨S50000x128, .f32⟩
  | 44 => ⟨S50000x128, .i1⟩
  | 45 => ⟨S_, .f32⟩
  | 46 => ⟨S50000x128, .f32⟩
  | 47 => ⟨S50000x128, .f32⟩
  | 48 => ⟨S50000x128, .f32⟩
  | 49 => ⟨S_, .f32⟩
  | 50 => ⟨S50000, .f32⟩
  | 51 => ⟨S_, .f32⟩
  | 52 => ⟨S100, .f32⟩
  | 53 => ⟨S50000x1, .i32⟩
  | 54 => ⟨S100, .f32⟩
  | 55 => ⟨S_, .f32⟩
  | 56 => ⟨S100x128, .f32⟩
  | 57 => ⟨S50000x1, .i32⟩
  | 58 => ⟨S100x128, .f32⟩
  | 59 => ⟨S100x1, .f32⟩
  | 60 => ⟨S100x128, .f32⟩
  | 61 => ⟨S100x128, .f32⟩
  | 62 => ⟨S100x1, .f32⟩
  | 63 => ⟨S100x20, .f32⟩
  | 64 => ⟨S1x20, .f32⟩
  | 65 => ⟨S100x20, .f32⟩
  | 66 => ⟨S100x20, .f32⟩
  | 67 => ⟨S_, .f32⟩
  | 68 => ⟨S100x20, .f32⟩
  | 69 => ⟨S100x20, .i1⟩
  | 70 => ⟨S_, .f32⟩
  | 71 => ⟨S100x20, .f32⟩
  | 72 => ⟨S100x20, .f32⟩
  | 73 => ⟨S100x20, .f32⟩
  | 74 => ⟨S100x10, .f32⟩
  | 75 => ⟨S1x10, .f32⟩
  | 76 => ⟨S100x10, .f32⟩
  | 77 => ⟨S100x10, .f32⟩
  | 78 => ⟨S_, .f32⟩
  | 79 => ⟨S100x10, .f32⟩
  | 80 => ⟨S100x10, .i1⟩
  | 81 => ⟨S_, .f32⟩
  | 82 => ⟨S100x10, .f32⟩
  | 83 => ⟨S100x10, .f32⟩
  | 84 => ⟨S100x10, .f32⟩
  | 85 => ⟨S100x138, .f32⟩
  | 86 => ⟨S100x92, .f32⟩
  | 87 => ⟨S1x92, .f32⟩
  | 88 => ⟨S100x92, .f32⟩
  | 89 => ⟨S100x92, .f32⟩
  | 90 => ⟨S_, .f32⟩
  | 91 => ⟨S100x92, .f32⟩
  | 92 => ⟨S100x92, .i1⟩
  | 93 => ⟨S_, .f32⟩
  | 94 => ⟨S100x92, .f32⟩
  | 95 => ⟨S100x92, .f32⟩
  | 96 => ⟨S100x92, .f32⟩
  | 97 => ⟨S_, .f32⟩
  | 98 => ⟨S92, .f32⟩
  | 99 => ⟨S_, .f32⟩
  | 100 => ⟨S92, .f32⟩
  | 101 => ⟨S92, .f32⟩
  | 102 => ⟨S_, .i32⟩
  | 103 => ⟨S_, .f32⟩
  | 104 => ⟨S92, .f32⟩
  | 105 => ⟨S1x92, .f32⟩
  | 106 => ⟨S_, .f32⟩
  | 107 => ⟨S1x92, .f32⟩
  | 108 => ⟨S1x92, .f32⟩
  | 109 => ⟨S100x92, .f32⟩
  | 110 => ⟨S100x92, .f32⟩
  | 111 => ⟨S100x92, .f32⟩
  | 112 => ⟨S_, .f32⟩
  | 113 => ⟨S_, .f32⟩
  | 114 => ⟨S_, .f32⟩
  | 115 => ⟨S_, .f32⟩
  | 116 => ⟨S92, .f32⟩
  | 117 => ⟨S92, .f32⟩
  | 118 => ⟨S92, .f32⟩
  | 119 => ⟨S_, .f32⟩
  | 120 => ⟨S_, .i1⟩
  | 121 => ⟨S_, .f32⟩
  | 122 => ⟨S_, .f32⟩
  | 123 => ⟨S92, .f32⟩
  | 124 => ⟨S92, .f32⟩
  | 125 => ⟨S1x92, .f32⟩
  | 126 => ⟨S100x92, .f32⟩
  | 127 => ⟨S100x92, .f32⟩
  | _ => ⟨S50000x128, .f32⟩

abbrev hbmTy0_2 (i : Nat) : BufTy := match i % 128 with
  | 0 => ⟨S_, .f32⟩
  | 1 => ⟨S92, .f32⟩
  | 2 => ⟨S92, .f32⟩
  | 3 => ⟨S92, .f32⟩
  | 4 => ⟨S1x92, .f32⟩
  | 5 => ⟨S100x92, .f32⟩
  | 6 => ⟨S100x92, .f32⟩
  | 7 => ⟨S1x92, .f32⟩
  | 8 => ⟨S100x92, .f32⟩
  | 9 => ⟨S100x92, .f32⟩
  | 10 => ⟨S1x92, .f32⟩
  | 11 => ⟨S100x92, .f32⟩
  | 12 => ⟨S100x92, .f32⟩
  | 13 => ⟨S100x46, .f32⟩
  | 14 => ⟨S1x46, .f32⟩
  | 15 => ⟨S100x46, .f32⟩
  | 16 => ⟨S100x46, .f32⟩
  | 17 => ⟨S_, .f32⟩
  | 18 => ⟨S100x46, .f32⟩
  | 19 => ⟨S100x46, .i1⟩
  | 20 => ⟨S_, .f32⟩
  | 21 => ⟨S100x46, .f32⟩
  | 22 => ⟨S100x46, .f32⟩
  | 23 => ⟨S100x46, .f32⟩
  | 24 => ⟨S_, .f32⟩
  | 25 => ⟨S46, .f32⟩
  | 26 => ⟨S_, .f32⟩
  | 27 => ⟨S46, .f32⟩
  | 28 => ⟨S46, .f32⟩
  | 29 => ⟨S_, .i32⟩
  | 30 => ⟨S_, .f32⟩
  | 31 => ⟨S46, .f32⟩
  | 32 => ⟨S1x46, .f32⟩
  | 33 => ⟨S_, .f32⟩
  | 34 => ⟨S1x46, .f32⟩
  | 35 => ⟨S1x46, .f32⟩
  | 36 => ⟨S100x46, .f32⟩
  | 37 => ⟨S100x46, .f32⟩
  | 38 => ⟨S100x46, .f32⟩
  | 39 => ⟨S_, .f32⟩
  | 40 => ⟨S_, .f32⟩
  | 41 => ⟨S_, .f32⟩
  | 42 => ⟨S_, .f32⟩
  | 43 => ⟨S46, .f32⟩
  | 44 => ⟨S46, .f32⟩
  | 45 => ⟨S46, .f32⟩
  | 46 => ⟨S_, .f32⟩
  | 47 => ⟨S_, .i1⟩
  | 48 => ⟨S_, .f32⟩
  | 49 => ⟨S_, .f32⟩
  | 50 => ⟨S46, .f32⟩
  | 51 => ⟨S46, .f32⟩
  | 52 => ⟨S1x46, .f32⟩
  | 53 => ⟨S100x46, .f32⟩
  | 54 => ⟨S100x46, .f32⟩
  | 55 => ⟨S_, .f32⟩
  | 56 => ⟨S46, .f32⟩
  | 57 => ⟨S46, .f32⟩
  | 58 => ⟨S46, .f32⟩
  | 59 => ⟨S1x46, .f32⟩
  | 60 => ⟨S100x46, .f32⟩
  | 61 => ⟨S100x46, .f32⟩
  | 62 => ⟨S1x46, .f32⟩
  | 63 => ⟨S100x46, .f32⟩
  | 64 => ⟨S100x46, .f32⟩
  | 65 => ⟨S1x46, .f32⟩
  | 66 => ⟨S100x46, .f32⟩
  | 67 => ⟨S100x46, .f32⟩
  | 68 => ⟨S100x1, .f32⟩
  | 69 => ⟨S1x1, .f32⟩
  | 70 => ⟨S100x1, .f32⟩
  | 71 => ⟨S100x1, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_cst : Ref sig .tc := ⟨.hbm, 28, rfl⟩
abbrev main_v4 : Ref sig .tc := ⟨.hbm, 29, rfl⟩
abbrev main_c : Ref sig .tc := ⟨.hbm, 30, rfl⟩
abbrev main_v5 : Ref sig .tc := ⟨.hbm, 31, rfl⟩
abbrev main_v6 : Ref sig .tc := ⟨.hbm, 32, rfl⟩
abbrev main_c_0 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_cst_1 : Ref sig .tc := ⟨.hbm, 38, rfl⟩
abbrev main_v11 : Ref sig .tc := ⟨.hbm, 39, rfl⟩
abbrev main_v12 : Ref sig .tc := ⟨.hbm, 40, rfl⟩
abbrev main_cst_2 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_c_3 : Ref sig .tc := ⟨.hbm, 45, rfl⟩
abbrev main_v16 : Ref sig .tc := ⟨.hbm, 46, rfl⟩
abbrev main_v17 : Ref sig .tc := ⟨.hbm, 47, rfl⟩
abbrev main_c_4 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_c_5 : Ref sig .tc := ⟨.hbm, 54, rfl⟩
abbrev main_v23 : Ref sig .tc := ⟨.hbm, 55, rfl⟩
abbrev main_v24 : Ref sig .tc := ⟨.hbm, 56, rfl⟩
abbrev main_c_6 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_cst_7 : Ref sig .tc := ⟨.hbm, 67, rfl⟩
abbrev main_v34 : Ref sig .tc := ⟨.hbm, 68, rfl⟩
abbrev main_c_8 : Ref sig .tc := ⟨.hbm, 69, rfl⟩
abbrev main_v35 : Ref sig .tc := ⟨.hbm, 70, rfl⟩
abbrev main_v36 : Ref sig .tc := ⟨.hbm, 71, rfl⟩
abbrev main_c_9 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_c_10 : Ref sig .tc := ⟨.hbm, 81, rfl⟩
abbrev main_v45 : Ref sig .tc := ⟨.hbm, 82, rfl⟩
abbrev main_v46 : Ref sig .tc := ⟨.hbm, 83, rfl⟩
abbrev main_c_11 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_cst_12 : Ref sig .tc := ⟨.hbm, 96, rfl⟩
abbrev main_v58 : Ref sig .tc := ⟨.hbm, 97, rfl⟩
abbrev main_v59 : Ref sig .tc := ⟨.hbm, 98, rfl⟩
abbrev main_cst_13 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_14 : Ref sig .tc := ⟨.hbm, 104, rfl⟩
abbrev main_v64 : Ref sig .tc := ⟨.hbm, 105, rfl⟩
abbrev main_c_15 : Ref sig .tc := ⟨.hbm, 106, rfl⟩
abbrev main_v65 : Ref sig .tc := ⟨.hbm, 107, rfl⟩
abbrev main_v66 : Ref sig .tc := ⟨.hbm, 108, rfl⟩
abbrev main_c_16 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_c_17 : Ref sig .tc := ⟨.hbm, 118, rfl⟩
abbrev main_v75 : Ref sig .tc := ⟨.hbm, 119, rfl⟩
abbrev main_v76 : Ref sig .tc := ⟨.hbm, 120, rfl⟩
abbrev main_c_18 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_cst_19 : Ref sig .tc := ⟨.hbm, 133, rfl⟩
abbrev main_v88 : Ref sig .tc := ⟨.hbm, 134, rfl⟩
abbrev main_v89 : Ref sig .tc := ⟨.hbm, 135, rfl⟩
abbrev main_cst_20 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_cst_21 : Ref sig .tc := ⟨.hbm, 141, rfl⟩
abbrev main_v94 : Ref sig .tc := ⟨.hbm, 142, rfl⟩
abbrev main_c_22 : Ref sig .tc := ⟨.hbm, 143, rfl⟩
abbrev main_v95 : Ref sig .tc := ⟨.hbm, 144, rfl⟩
abbrev main_v96 : Ref sig .tc := ⟨.hbm, 145, rfl⟩
abbrev main_c_23 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_c_24 : Ref sig .tc := ⟨.hbm, 155, rfl⟩
abbrev main_v105 : Ref sig .tc := ⟨.hbm, 156, rfl⟩
abbrev main_v106 : Ref sig .tc := ⟨.hbm, 157, rfl⟩
abbrev main_c_25 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_cst_26 : Ref sig .tc := ⟨.hbm, 170, rfl⟩
abbrev main_v118 : Ref sig .tc := ⟨.hbm, 171, rfl⟩
abbrev main_v119 : Ref sig .tc := ⟨.hbm, 172, rfl⟩
abbrev main_cst_27 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_cst_28 : Ref sig .tc := ⟨.hbm, 177, rfl⟩
abbrev main_v123 : Ref sig .tc := ⟨.hbm, 178, rfl⟩
abbrev main_cst_29 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_cst_30 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_cst_31 : Ref sig .tc := ⟨.hbm, 195, rfl⟩
abbrev main_v138 : Ref sig .tc := ⟨.hbm, 196, rfl⟩
abbrev main_v139 : Ref sig .tc := ⟨.hbm, 197, rfl⟩
abbrev main_cst_32 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_cst_33 : Ref sig .tc := ⟨.hbm, 206, rfl⟩
abbrev main_v147 : Ref sig .tc := ⟨.hbm, 207, rfl⟩
abbrev main_v148 : Ref sig .tc := ⟨.hbm, 208, rfl⟩
abbrev main_cst_34 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_cst_35 : Ref sig .tc := ⟨.hbm, 218, rfl⟩
abbrev main_v157 : Ref sig .tc := ⟨.hbm, 219, rfl⟩
abbrev main_v158 : Ref sig .tc := ⟨.hbm, 220, rfl⟩
abbrev main_cst_36 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_cst_37 : Ref sig .tc := ⟨.hbm, 225, rfl⟩
abbrev main_v162 : Ref sig .tc := ⟨.hbm, 226, rfl⟩
abbrev main_cst_38 : Ref sig .tc := ⟨.hbm, 227, rfl⟩
abbrev main_v163 : Ref sig .tc := ⟨.hbm, 228, rfl⟩
abbrev main_v164 : Ref sig .tc := ⟨.hbm, 229, rfl⟩
abbrev main_c_39 : Ref sig .tc := ⟨.hbm, 230, rfl⟩
abbrev main_call6_cst : Ref sig .tc := ⟨.hbm, 231, rfl⟩
abbrev main_call6_v0 : Ref sig .tc := ⟨.hbm, 232, rfl⟩
abbrev main_call6_v1 : Ref sig .tc := ⟨.hbm, 233, rfl⟩
abbrev main_call6_cst_0 : Ref sig .tc := ⟨.hbm, 234, rfl⟩
abbrev main_call6_v2 : Ref sig .tc := ⟨.hbm, 235, rfl⟩
abbrev main_call6_v3 : Ref sig .tc := ⟨.hbm, 236, rfl⟩
abbrev main_call6_v4 : Ref sig .tc := ⟨.hbm, 237, rfl⟩
abbrev main_call6_v5 : Ref sig .tc := ⟨.hbm, 238, rfl⟩
abbrev main_call6_v6 : Ref sig .tc := ⟨.hbm, 239, rfl⟩
abbrev main_call6_v7 : Ref sig .tc := ⟨.hbm, 240, rfl⟩
abbrev main_call6_cst_1 : Ref sig .tc := ⟨.hbm, 241, rfl⟩
abbrev main_call6_v8 : Ref sig .tc := ⟨.hbm, 242, rfl⟩
abbrev main_call6_cst_2 : Ref sig .tc := ⟨.hbm, 243, rfl⟩
abbrev main_call6_v9 : Ref sig .tc := ⟨.hbm, 244, rfl⟩
abbrev main_call6_v10 : Ref sig .tc := ⟨.hbm, 245, rfl⟩
abbrev main_call6_v11 : Ref sig .tc := ⟨.hbm, 246, rfl⟩
abbrev main_call6_cst_3 : Ref sig .tc := ⟨.hbm, 247, rfl⟩
abbrev main_call6_v12 : Ref sig .tc := ⟨.hbm, 248, rfl⟩
abbrev main_call6_cst_4 : Ref sig .tc := ⟨.hbm, 249, rfl⟩
abbrev main_call6_call0_v0 : Ref sig .tc := ⟨.hbm, 250, rfl⟩
abbrev main_call6_call0_v1 : Ref sig .tc := ⟨.hbm, 251, rfl⟩
abbrev main_v165 : Ref sig .tc := ⟨.hbm, 252, rfl⟩
abbrev main_v166 : Ref sig .tc := ⟨.hbm, 253, rfl⟩
abbrev main_v167 : Ref sig .tc := ⟨.hbm, 254, rfl⟩
abbrev main_v168 : Ref sig .tc := ⟨.hbm, 255, rfl⟩
abbrev main_cst_40 : Ref sig .tc := ⟨.hbm, 256, rfl⟩
abbrev main_v169 : Ref sig .tc := ⟨.hbm, 257, rfl⟩
abbrev main_v170 : Ref sig .tc := ⟨.hbm, 258, rfl⟩
abbrev main_v171 : Ref sig .tc := ⟨.hbm, 259, rfl⟩
abbrev main_v172 : Ref sig .tc := ⟨.hbm, 260, rfl⟩
abbrev main_v173 : Ref sig .tc := ⟨.hbm, 261, rfl⟩
abbrev main_v174 : Ref sig .tc := ⟨.hbm, 262, rfl⟩
abbrev main_v175 : Ref sig .tc := ⟨.hbm, 263, rfl⟩
abbrev main_v176 : Ref sig .tc := ⟨.hbm, 264, rfl⟩
abbrev main_v177 : Ref sig .tc := ⟨.hbm, 265, rfl⟩
abbrev main_v178 : Ref sig .tc := ⟨.hbm, 266, rfl⟩
abbrev main_v179 : Ref sig .tc := ⟨.hbm, 267, rfl⟩
abbrev main_v180 : Ref sig .tc := ⟨.hbm, 268, rfl⟩
abbrev main_v181 : Ref sig .tc := ⟨.hbm, 269, rfl⟩
abbrev main_v182 : Ref sig .tc := ⟨.hbm, 270, rfl⟩
abbrev main_v183 : Ref sig .tc := ⟨.hbm, 271, rfl⟩
abbrev main_v184 : Ref sig .tc := ⟨.hbm, 272, rfl⟩
abbrev main_cst_41 : Ref sig .tc := ⟨.hbm, 273, rfl⟩
abbrev main_v185 : Ref sig .tc := ⟨.hbm, 274, rfl⟩
abbrev main_v186 : Ref sig .tc := ⟨.hbm, 275, rfl⟩
abbrev main_cst_42 : Ref sig .tc := ⟨.hbm, 276, rfl⟩
abbrev main_v187 : Ref sig .tc := ⟨.hbm, 277, rfl⟩
abbrev main_v188 : Ref sig .tc := ⟨.hbm, 278, rfl⟩
abbrev main_v189 : Ref sig .tc := ⟨.hbm, 279, rfl⟩
abbrev main_cst_43 : Ref sig .tc := ⟨.hbm, 280, rfl⟩
abbrev main_v190 : Ref sig .tc := ⟨.hbm, 281, rfl⟩
abbrev main_cst_44 : Ref sig .tc := ⟨.hbm, 282, rfl⟩
abbrev main_v191 : Ref sig .tc := ⟨.hbm, 283, rfl⟩
abbrev main_v192 : Ref sig .tc := ⟨.hbm, 284, rfl⟩
abbrev main_c_45 : Ref sig .tc := ⟨.hbm, 285, rfl⟩
abbrev main_call8_cst : Ref sig .tc := ⟨.hbm, 286, rfl⟩
abbrev main_call8_v0 : Ref sig .tc := ⟨.hbm, 287, rfl⟩
abbrev main_call8_v1 : Ref sig .tc := ⟨.hbm, 288, rfl⟩
abbrev main_call8_cst_0 : Ref sig .tc := ⟨.hbm, 289, rfl⟩
abbrev main_call8_v2 : Ref sig .tc := ⟨.hbm, 290, rfl⟩
abbrev main_call8_v3 : Ref sig .tc := ⟨.hbm, 291, rfl⟩
abbrev main_call8_v4 : Ref sig .tc := ⟨.hbm, 292, rfl⟩
abbrev main_call8_v5 : Ref sig .tc := ⟨.hbm, 293, rfl⟩
abbrev main_call8_v6 : Ref sig .tc := ⟨.hbm, 294, rfl⟩
abbrev main_call8_v7 : Ref sig .tc := ⟨.hbm, 295, rfl⟩
abbrev main_call8_cst_1 : Ref sig .tc := ⟨.hbm, 296, rfl⟩
abbrev main_call8_v8 : Ref sig .tc := ⟨.hbm, 297, rfl⟩
abbrev main_call8_cst_2 : Ref sig .tc := ⟨.hbm, 298, rfl⟩
abbrev main_call8_v9 : Ref sig .tc := ⟨.hbm, 299, rfl⟩
abbrev main_call8_v10 : Ref sig .tc := ⟨.hbm, 300, rfl⟩
abbrev main_call8_v11 : Ref sig .tc := ⟨.hbm, 301, rfl⟩
abbrev main_call8_cst_3 : Ref sig .tc := ⟨.hbm, 302, rfl⟩
abbrev main_call8_v12 : Ref sig .tc := ⟨.hbm, 303, rfl⟩
abbrev main_call8_cst_4 : Ref sig .tc := ⟨.hbm, 304, rfl⟩
abbrev main_call8_call0_v0 : Ref sig .tc := ⟨.hbm, 305, rfl⟩
abbrev main_call8_call0_v1 : Ref sig .tc := ⟨.hbm, 306, rfl⟩
abbrev main_v193 : Ref sig .tc := ⟨.hbm, 307, rfl⟩
abbrev main_v194 : Ref sig .tc := ⟨.hbm, 308, rfl⟩
abbrev main_v195 : Ref sig .tc := ⟨.hbm, 309, rfl⟩
abbrev main_v196 : Ref sig .tc := ⟨.hbm, 310, rfl⟩
abbrev main_cst_46 : Ref sig .tc := ⟨.hbm, 311, rfl⟩
abbrev main_v197 : Ref sig .tc := ⟨.hbm, 312, rfl⟩
abbrev main_v198 : Ref sig .tc := ⟨.hbm, 313, rfl⟩
abbrev main_v199 : Ref sig .tc := ⟨.hbm, 314, rfl⟩
abbrev main_v200 : Ref sig .tc := ⟨.hbm, 315, rfl⟩
abbrev main_v201 : Ref sig .tc := ⟨.hbm, 316, rfl⟩
abbrev main_v202 : Ref sig .tc := ⟨.hbm, 317, rfl⟩
abbrev main_v203 : Ref sig .tc := ⟨.hbm, 318, rfl⟩
abbrev main_v204 : Ref sig .tc := ⟨.hbm, 319, rfl⟩
abbrev main_v205 : Ref sig .tc := ⟨.hbm, 320, rfl⟩
abbrev main_v206 : Ref sig .tc := ⟨.hbm, 321, rfl⟩
abbrev main_v207 : Ref sig .tc := ⟨.hbm, 322, rfl⟩
abbrev main_v208 : Ref sig .tc := ⟨.hbm, 323, rfl⟩
abbrev main_v209 : Ref sig .tc := ⟨.hbm, 324, rfl⟩
abbrev main_v210 : Ref sig .tc := ⟨.hbm, 325, rfl⟩
abbrev main_v211 : Ref sig .tc := ⟨.hbm, 326, rfl⟩
abbrev main_v212 : Ref sig .tc := ⟨.hbm, 327, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S800000x1_S800000x128_0_1 : S800000x1.BroadcastsInDim S800000x128 (![0, 1] : Fin 2 → Fin S800000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S100 : S_.BroadcastsInDim S100 (![] : Fin 0 → Fin S100.rank)
  bcast_S_S100x128 : S_.BroadcastsInDim S100x128 (![] : Fin 0 → Fin S100x128.rank)
  bcast_S100_S100x1_0 : S100.BroadcastsInDim S100x1 (![0] : Fin 1 → Fin S100x1.rank)
  bcast_S100x1_S100x128_0_1 : S100x1.BroadcastsInDim S100x128 (![0, 1] : Fin 2 → Fin S100x128.rank)
  bcast_S20_S1x20_1 : S20.BroadcastsInDim S1x20 (![1] : Fin 1 → Fin S1x20.rank)
  bcast_S1x20_S100x20_0_1 : S1x20.BroadcastsInDim S100x20 (![0, 1] : Fin 2 → Fin S100x20.rank)
  bcast_S_S100x20 : S_.BroadcastsInDim S100x20 (![] : Fin 0 → Fin S100x20.rank)
  bcast_S10_S1x10_1 : S10.BroadcastsInDim S1x10 (![1] : Fin 1 → Fin S1x10.rank)
  bcast_S1x10_S100x10_0_1 : S1x10.BroadcastsInDim S100x10 (![0, 1] : Fin 2 → Fin S100x10.rank)
  bcast_S_S100x10 : S_.BroadcastsInDim S100x10 (![] : Fin 0 → Fin S100x10.rank)
  concatenates_S100x128_S100x10_S100x138_d1 : Shape.Concatenates [S100x128, S100x10] S100x138 1
  bcast_S92_S1x92_1 : S92.BroadcastsInDim S1x92 (![1] : Fin 1 → Fin S1x92.rank)
  bcast_S1x92_S100x92_0_1 : S1x92.BroadcastsInDim S100x92 (![0, 1] : Fin 2 → Fin S100x92.rank)
  bcast_S_S100x92 : S_.BroadcastsInDim S100x92 (![] : Fin 0 → Fin S100x92.rank)
  reducesTo_S100x92_S92_d0 : S100x92.ReducesTo [0] S92
  h_S_ : 0 < S_.numel
  bcast_S_S92 : S_.BroadcastsInDim S92 (![] : Fin 0 → Fin S92.rank)
  bcast_S_S1x92 : S_.BroadcastsInDim S1x92 (![] : Fin 0 → Fin S1x92.rank)
  bcast_S46_S1x46_1 : S46.BroadcastsInDim S1x46 (![1] : Fin 1 → Fin S1x46.rank)
  bcast_S1x46_S100x46_0_1 : S1x46.BroadcastsInDim S100x46 (![0, 1] : Fin 2 → Fin S100x46.rank)
  bcast_S_S100x46 : S_.BroadcastsInDim S100x46 (![] : Fin 0 → Fin S100x46.rank)
  reducesTo_S100x46_S46_d0 : S100x46.ReducesTo [0] S46
  bcast_S_S46 : S_.BroadcastsInDim S46 (![] : Fin 0 → Fin S46.rank)
  bcast_S_S1x46 : S_.BroadcastsInDim S1x46 (![] : Fin 0 → Fin S1x46.rank)
  bcast_S1_S1x1_1 : S1.BroadcastsInDim S1x1 (![1] : Fin 1 → Fin S1x1.rank)
  bcast_S1x1_S100x1_0_1 : S1x1.BroadcastsInDim S100x1 (![0, 1] : Fin 2 → Fin S100x1.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S100_S50000x1_S50000_n_0_0_1_wf : ScatterDims.WF S100 S50000x1 S50000 [] [0] [0] 1
  scatter_S100x128_S50000x1_S50000x128_1_0_0_1_wf : ScatterDims.WF S100x128 S50000x1 S50000x128 [1] [0] [0] 1
  dot_S100x1_S1x20_S100x20_1_0_0_1_n_n_wf : DotDims.WF S100x1 S1x20 S100x20 [1] [0] [0] [1] [] []
  dot_S100x20_S20x10_S100x10_1_0_0_1_n_n_wf : DotDims.WF S100x20 S20x10 S100x10 [1] [0] [0] [1] [] []
  dot_S100x138_S138x92_S100x92_1_0_0_1_n_n_wf : DotDims.WF S100x138 S138x92 S100x92 [1] [0] [0] [1] [] []
  dot_S100x92_S92x46_S100x46_1_0_0_1_n_n_wf : DotDims.WF S100x92 S92x46 S100x46 [1] [0] [0] [1] [] []
  dot_S100x46_S46x1_S100x1_1_0_0_1_n_n_wf : DotDims.WF S100x46 S46x1 S100x1 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S100_S50000x1_S50000_n_0_0_1 : ScatterDims S100 S50000x1 S50000 where
  updateWindowDims := []
  insertedWindowDims := [0]
  scatterDimsToOperandDims := [0]
  indexVectorDim := 1
  wf := scatter_S100_S50000x1_S50000_n_0_0_1_wf
def scatter_S100x128_S50000x1_S50000x128_1_0_0_1 : ScatterDims S100x128 S50000x1 S50000x128 where
  updateWindowDims := [1]
  insertedWindowDims := [0]
  scatterDimsToOperandDims := [0]
  indexVectorDim := 1
  wf := scatter_S100x128_S50000x1_S50000x128_1_0_0_1_wf
def dot_S100x1_S1x20_S100x20_1_0_0_1_n_n : DotDims S100x1 S1x20 S100x20 where
  lhsContracting := [1]
  rhsContracting := [0]
  lhsNonContracting := [0]
  rhsNonContracting := [1]
  lhsBatch := []
  rhsBatch := []
  wf := dot_S100x1_S1x20_S100x20_1_0_0_1_n_n_wf
def dot_S100x20_S20x10_S100x10_1_0_0_1_n_n : DotDims S100x20 S20x10 S100x10 where
  lhsContracting := [1]
  rhsContracting := [0]
  lhsNonContracting := [0]
  rhsNonContracting := [1]
  lhsBatch := []
  rhsBatch := []
  wf := dot_S100x20_S20x10_S100x10_1_0_0_1_n_n_wf
def dot_S100x138_S138x92_S100x92_1_0_0_1_n_n : DotDims S100x138 S138x92 S100x92 where
  lhsContracting := [1]
  rhsContracting := [0]
  lhsNonContracting := [0]
  rhsNonContracting := [1]
  lhsBatch := []
  rhsBatch := []
  wf := dot_S100x138_S138x92_S100x92_1_0_0_1_n_n_wf
def dot_S100x92_S92x46_S100x46_1_0_0_1_n_n : DotDims S100x92 S92x46 S100x46 where
  lhsContracting := [1]
  rhsContracting := [0]
  lhsNonContracting := [0]
  rhsNonContracting := [1]
  lhsBatch := []
  rhsBatch := []
  wf := dot_S100x92_S92x46_S100x46_1_0_0_1_n_n_wf
def dot_S100x46_S46x1_S100x1_1_0_0_1_n_n : DotDims S100x46 S46x1 S100x1 where
  lhsContracting := [1]
  rhsContracting := [0]
  lhsNonContracting := [0]
  rhsNonContracting := [1]
  lhsBatch := []
  rhsBatch := []
  wf := dot_S100x46_S46x1_S100x1_1_0_0_1_n_n_wf

class Facts : Prop extends Facts₀ where

variable [Facts]
-- ==== Proof.KernelRun.lean ====
/-
  The idealized kernel program's run with its result named.  The five Pallas regions and the stretches of
  array operations between them are run from the launch to the return; at the end every buffer that
  outlives a region holds the fold of the program over the launch contents.  The frame keeps, of that final
  state, only that the argument arrays are unchanged; here the result array is kept as well, at the
  fold's value for its buffer.
-/
import proofs.«170490_j47047071761043_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result array ends at the
    program's fold over the launch contents and the argument arrays end as launched. -/
theorem run_value : θ_run defs (onTc (τ := τ) (main (F := F))) ⟨m, fun _ => 0, ρ⟩ (fun r => ∀ c : Dev nD,
      r.2.mem ((c.tc : Thread nD τ).loc main_v121) = W14 m ρ c (Proc.devRef .tc main_v121)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v121 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c),
       (h c _ (mem_uc main_arg13 (by decide))).trans (W14_main_arg13 m ρ c),
       (h c _ (mem_uc main_arg14 (by decide))).trans (W14_main_arg14 m ρ c),
       (h c _ (mem_uc main_arg15 (by decide))).trans (W14_main_arg15 m ρ c),
       (h c _ (mem_uc main_arg16 (by decide))).trans (W14_main_arg16 m ρ c),
       (h c _ (mem_uc main_arg17 (by decide))).trans (W14_main_arg17 m ρ c),
       (h c _ (mem_uc main_arg18 (by decide))).trans (W14_main_arg18 m ρ c),
       (h c _ (mem_uc main_arg19 (by decide))).trans (W14_main_arg19 m ρ c),
       (h c _ (mem_uc main_arg20 (by decide))).trans (W14_main_arg20 m ρ c),
       (h c _ (mem_uc main_arg21 (by decide))).trans (W14_main_arg21 m ρ c),
       (h c _ (mem_uc main_arg22 (by decide))).trans (W14_main_arg22 m ρ c),
       (h c _ (mem_uc main_arg23 (by decide))).trans (W14_main_arg23 m ρ c)⟩)

end Cert.KernelIdeal.KRun

end
-- ==== Proof.Spec.lean ====
/-
  The two programs are one network: three graph-convolution layers over 50000 nodes, a mean pool over
  100 graphs of 500 nodes, a two-layer embedding of a scalar per graph, and a three-layer head with
  batch normalisation.  Where the kernel program runs a Pallas region the reference runs a short
  stretch of array operations.  This module names each such stretch as ONE function of whole arrays on
  the extended reals, written with the reference's own operations, so that the kernel's regions and
  the reference's stretches can be compared through it:
    lin     x w              = x · w                              (a [50000,128] × [128,128] product)
    comb    agg h sn b       = lrelu (agg + h ⊙ sn + b)           (sn a column, b a row)
    layer   agg h sn b w     = comb agg h sn b · w
    head    f …              = the three-layer head on the pooled features f : [100,138]
  lrelu v = v where v > 0, else 0.01·v (the slope is the float nearest 0.01, one literal on both sides).
  A batch normalisation over the 100 rows subtracts the column mean, and scales by
  rsqrt (var + ε) with var the mean of the squared deviations; the reference's variance divides by
  100 − ddof with ddof = 0 passed as an integer, under a guard that the divisor is positive.
-/
import proofs.«170490_j47047071761043_1_alg».proof.Proof.Gen.ReferenceIdeal
import Idealize.ShloMosaic.PureOps.Ideal

noncomputable section

namespace Cert.Spec

open Idealize.ShloMosaic Cert.ReferenceIdeal Cert.ReferenceIdeal.Facts₀ Cert.ReferenceIdeal.Facts

/-- A float array of shape `S` at the ideal instance: a function from the shape's indices to the extended reals. -/
abbrev Arr (S : Shape) (φ : FTy) : Type := FVec Ideal S φ

/-! ## The graph-convolution stretches -/

/-- x · w over the feature axis. -/
def lin (x : Arr S50000x128 .f32) (w : Arr S128x128 .f32) : Arr S50000x128 .f32 :=
  Host.dotGeneral dot_S50000x128_S128x128_S50000x128_1_0_0_1_n_n none x w

/-- agg + h ⊙ sn + b, the column sn and the row b broadcast over the array. -/
def pre (agg h : Arr S50000x128 .f32) (sn : Arr S50000x1 .f32) (b : Arr S128 .f32) : Arr S50000x128 .f32 :=
  addf (addf agg (mulf h (broadcastInDim S50000x128 ![0, 1] bcast_S50000x1_S50000x128_0_1 sn)))
    (broadcastInDim S50000x128 ![0, 1] bcast_S1x128_S50000x128_0_1 (broadcastInDim S1x128 ![1] bcast_S128_S1x128_1 b))

/-- v where v > 0, else slope · v. -/
def lrelu (s : Arr S50000x128 .f32) : Arr S50000x128 .f32 :=
  select (cmpf .ogt s (broadcastInDim S50000x128 ![] bcast_S_S50000x128 (constant S_ .f32 0x00000000#32))) s
    (mulf (broadcastInDim S50000x128 ![] bcast_S_S50000x128 (constant S_ .f32 0x3C23D70A#32)) s)

def comb (agg h : Arr S50000x128 .f32) (sn : Arr S50000x1 .f32) (b : Arr S128 .f32) : Arr S50000x128 .f32 :=
  lrelu (pre agg h sn b)

def layer (agg h : Arr S50000x128 .f32) (sn : Arr S50000x1 .f32) (b : Arr S128 .f32) (w : Arr S128x128 .f32) :
    Arr S50000x128 .f32 :=
  lin (comb agg h sn b) w

/-! ## The head: 138 → 92 → 46 → 1 over the 100 graphs -/

/-- f · w + b for the first head layer, before its activation. -/
def z1 (f : Arr S100x138 .f32) (w : Arr S138x92 .f32) (b : Arr S92 .f32) : Arr S100x92 .f32 :=
  addf (Host.dotGeneral dot_S100x138_S138x92_S100x92_1_0_0_1_n_n none f w)
    (broadcastInDim S100x92 ![0, 1] bcast_S1x92_S100x92_0_1 (broadcastInDim S1x92 ![1] bcast_S92_S1x92_1 b))

def lrelu92 (s : Arr S100x92 .f32) : Arr S100x92 .f32 :=
  select (cmpf .ogt s (broadcastInDim S100x92 ![] bcast_S_S100x92 (constant S_ .f32 0x00000000#32))) s
    (mulf (broadcastInDim S100x92 ![] bcast_S_S100x92 (constant S_ .f32 0x3C23D70A#32)) s)

/-- The column means of a [100,92] array. -/
def mean92 (a : Arr S100x92 .f32) : Arr S92 .f32 :=
  Host.divf (Host.reduceAdd a (constant S_ .f32 0x00000000#32) reducesTo_S100x92_S92_d0 h_S_)
    (broadcastInDim S92 ![] bcast_S_S92 (constant S_ .f32 0x42C80000#32))

/-- The divisor of the variance: 100 − ddof, ddof the integer 0. -/
def varDen : Arr S_ .f32 :=
  subf (constant S_ .f32 0x42C80000#32) (sitofp .f32 (constantI S_ 32 0#32))

/-- The column variances of a [100,92] array, as the reference's variance function spells them: the mean is
    recomputed (kept as a row), the squared deviations summed and divided by `varDen`, and the result kept
    where `varDen > 0` (a not-a-number literal elsewhere). -/
def var92 (a : Arr S100x92 .f32) : Arr S92 .f32 :=
  select (broadcastInDim S92 ![] bcast_S_S92 (cmpf .ogt varDen (constant S_ .f32 0x00000000#32)))
    (Host.divf
      (Host.reduceAdd
        ((fun d : Arr S100x92 .f32 => mulf d d)
          (subf a (broadcastInDim S100x92 ![0, 1] bcast_S1x92_S100x92_0_1
            (Host.divf
              (broadcastInDim S1x92 ![1] bcast_S92_S1x92_1
                (Host.reduceAdd a (constant S_ .f32 0x00000000#32) reducesTo_S100x92_S92_d0 h_S_))
              (broadcastInDim S1x92 ![] bcast_S_S1x92 (constant S_ .f32 0x42C80000#32))))))
        (constant S_ .f32 0x00000000#32) reducesTo_S100x92_S92_d0 h_S_)
      (broadcastInDim S92 ![] bcast_S_S92 varDen))
    (broadcastInDim S92 ![] bcast_S_S92 (constant S_ .f32 0x7FC00000#32))

/-- Batch normalisation of a [100,92] array with scale g and shift be. -/
def bn92 (a : Arr S100x92 .f32) (g be : Arr S92 .f32) : Arr S100x92 .f32 :=
  addf
    (mulf
      (mulf
        (subf a (broadcastInDim S100x92 ![0, 1] bcast_S1x92_S100x92_0_1 (broadcastInDim S1x92 ![1] bcast_S92_S1x92_1 (mean92 a))))
        (broadcastInDim S100x92 ![0, 1] bcast_S1x92_S100x92_0_1 (broadcastInDim S1x92 ![1] bcast_S92_S1x92_1
          (Host.rsqrt (addf (var92 a) (broadcastInDim S92 ![] bcast_S_S92 (constant S_ .f32 0x3727C5AC#32)))))))
      (broadcastInDim S100x92 ![0, 1] bcast_S1x92_S100x92_0_1 (broadcastInDim S1x92 ![1] bcast_S92_S1x92_1 g)))
    (broadcastInDim S100x92 ![0, 1] bcast_S1x92_S100x92_0_1 (broadcastInDim S1x92 ![1] bcast_S92_S1x92_1 be))

def z2 (n : Arr S100x92 .f32) (w : Arr S92x46 .f32) (b : Arr S46 .f32) : Arr S100x46 .f32 :=
  addf (Host.dotGeneral dot_S100x92_S92x46_S100x46_1_0_0_1_n_n none n w)
    (broadcastInDim S100x46 ![0, 1] bcast_S1x46_S100x46_0_1 (broadcastInDim S1x46 ![1] bcast_S46_S1x46_1 b))

def lrelu46 (s : Arr S100x46 .f32) : Arr S100x46 .f32 :=
  select (cmpf .ogt s (broadcastInDim S100x46 ![] bcast_S_S100x46 (constant S_ .f32 0x00000000#32))) s
    (mulf (broadcastInDim S100x46 ![] bcast_S_S100x46 (constant S_ .f32 0x3C23D70A#32)) s)

def mean46 (a : Arr S100x46 .f32) : Arr S46 .f32 :=
  Host.divf (Host.reduceAdd a (constant S_ .f32 0x00000000#32) reducesTo_S100x46_S46_d0 h_S_)
    (broadcastInDim S46 ![] bcast_S_S46 (constant S_ .f32 0x42C80000#32))

def var46 (a : Arr S100x46 .f32) : Arr S46 .f32 :=
  select (broadcastInDim S46 ![] bcast_S_S46 (cmpf .ogt varDen (constant S_ .f32 0x00000000#32)))
    (Host.divf
      (Host.reduceAdd
        ((fun d : Arr S100x46 .f32 => mulf d d)
          (subf a (broadcastInDim S100x46 ![0, 1] bcast_S1x46_S100x46_0_1
            (Host.divf
              (broadcastInDim S1x46 ![1] bcast_S46_S1x46_1
                (Host.reduceAdd a (constant S_ .f32 0x00000000#32) reducesTo_S100x46_S46_d0 h_S_))
              (broadcastInDim S1x46 ![] bcast_S_S1x46 (constant S_ .f32 0x42C80000#32))))))
        (constant S_ .f32 0x00000000#32) reducesTo_S100x46_S46_d0 h_S_)
      (broadcastInDim S46 ![] bcast_S_S46 varDen))
    (broadcastInDim S46 ![] bcast_S_S46 (constant S_ .f32 0x7FC00000#32))

def bn46 (a : Arr S100x46 .f32) (g be : Arr S46 .f32) : Arr S100x46 .f32 :=
  addf
    (mulf
      (mulf
        (subf a (broadcastInDim S100x46 ![0, 1] bcast_S1x46_S100x46_0_1 (broadcastInDim S1x46 ![1] bcast_S46_S1x46_1 (mean46 a))))
        (broadcastInDim S100x46 ![0, 1] bcast_S1x46_S100x46_0_1 (broadcastInDim S1x46 ![1] bcast_S46_S1x46_1
          (Host.rsqrt (addf (var46 a) (broadcastInDim S46 ![] bcast_S_S46 (constant S_ .f32 0x3727C5AC#32)))))))
      (broadcastInDim S100x46 ![0, 1] bcast_S1x46_S100x46_0_1 (broadcastInDim S1x46 ![1] bcast_S46_S1x46_1 g)))
    (broadcastInDim S100x46 ![0, 1] bcast_S1x46_S100x46_0_1 (broadcastInDim S1x46 ![1] bcast_S46_S1x46_1 be))

def z3 (n : Arr S100x46 .f32) (w : Arr S46x1 .f32) (b : Arr S1 .f32) : Arr S100x1 .f32 :=
  addf (Host.dotGeneral dot_S100x46_S46x1_S100x1_1_0_0_1_n_n none n w)
    (broadcastInDim S100x1 ![0, 1] bcast_S1x1_S100x1_0_1 (broadcastInDim S1x1 ![1] bcast_S1_S1x1_1 b))

/-- The head on the pooled features. -/
def head (f : Arr S100x138 .f32) (wf1 : Arr S138x92 .f32) (bf1 g1 be1 : Arr S92 .f32)
    (wf2 : Arr S92x46 .f32) (bf2 g2 be2 : Arr S46 .f32) (wf3 : Arr S46x1 .f32) (bf3 : Arr S1 .f32) : Arr S100x1 .f32 :=
  z3 (bn46 (lrelu46 (z2 (bn92 (lrelu92 (z1 f wf1 bf1)) g1 be1) wf2 bf2)) g2 be2) wf3 bf3

end Cert.Spec

end
-- ==== Proof.LibMatmulRead.lean ====
/-
  A matrix product and a transpose read entry by entry.

  Three facts about rank-2 arrays of extended reals, each stated at an index given by its two coordinates:
    • the transpose of an `[a, b]` array reads, at `(q, p)`, the operand at `(p, q)`;
    • a matrix product that contracts the second axis of an `[a, k]` array with the first axis of a `[k, b]`
      array, started from the zero accumulator, reads at `(p, q)` the sum over `d` of the left operand at
      `(p, d)` times the right operand at `(d, q)`;
    • so the product of an `[a, k]` array with the TRANSPOSE of a `[b, k]` array reads at `(p, q)` the inner
      product of row `p` of the first with row `q` of the second.
  The record of dimension numbers is any one whose six axis lists are the plain product's; at a literal record each
  of the six hypotheses is `rfl`.
-/
import Idealize.ShloMosaic.PureOps.Ideal.Laws
import Idealize.ShloMosaic.Lib.Pipeline.Value
import Idealize.ShloMosaic.Lib.ValueIdx

namespace Idealize.ShloMosaic.ValueIdx

open Idealize.ShloMosaic

/-- The transpose of an `[a, b]` array reads, at `(q, p)`, the operand at `(p, q)`. -/
theorem transpose_ab_ba_apply {α : Type} {a b : ℕ} (x : (⟨2, ![a, b]⟩ : Shape).Idx → α)
    (h : (⟨2, ![a, b]⟩ : Shape).Transposes [1, 0] ⟨2, ![b, a]⟩) (q : Fin b) (p : Fin a) :
    transpose ⟨2, ![b, a]⟩ [1, 0] x h (ix2 q p) = x (ix2 p q) :=
  transpose_apply [1, 0] x h (ix2 q p) (ix2 p q) fun ax => by
    match ax with
    | ⟨0, _⟩ => rfl
    | ⟨1, _⟩ => rfl

/-- A product contracting the second axis of the left operand with the first axis of the right one, from the zero
    accumulator, read at `(p, q)`: the sum over the contracted coordinate. -/
theorem matmul_ix2_apply {a k b : ℕ} {φ₁ φ₂ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![a, k]⟩ φ₁) (w : FVec Ideal ⟨2, ![k, b]⟩ φ₂)
    (p : Fin a) (q : Fin b) :
    matmul D prec x w (constant (F := Ideal) ⟨2, ![a, b]⟩ .f32 0x00000000#32) (ix2 p q)
      = ∑ d : Fin k, x (ix2 p d) * w (ix2 d q) := by
  obtain ⟨lc, rc, ln, rn, lb, rb, wf⟩ := D
  dsimp only at hlc hrc hln hrn hlb hrb
  subst hlc hrc hln hrn hlb hrb
  refine (Ideal.matmul_constant_zero_apply _ prec x w (ix2 p q)).trans ?_
  refine (Equiv.sum_comp (contrEquiv1 _ k rfl rfl).symm _).symm.trans ?_
  refine Finset.sum_congr rfl fun d _ => ?_
  refine congrArg₂ (· * ·) (congrArg x (funext fun ax => Fin.ext ?_)) (congrArg w (funext fun ax => Fin.ext ?_))
  · match ax with
    | ⟨0, _⟩ => rfl
    | ⟨1, _⟩ => exact (DotDims.lhsIdx_val_of_single _ rfl _ _).trans (contrEquiv1_symm_val _ k rfl rfl d)
  · match ax with
    | ⟨0, _⟩ => exact (DotDims.rhsIdx_val_of_single _ rfl _ _).trans (contrEquiv1_symm_val _ k rfl rfl d)
    | ⟨1, _⟩ => rfl

/-- The product of an `[a, k]` array with the transpose of a `[b, k]` array, from the zero accumulator, read at
    `(p, q)`: the inner product of row `p` of the first with row `q` of the second. -/
theorem matmul_transpose_ix2_apply {a k b : ℕ} {φ₁ φ₂ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![a, k]⟩ φ₁) (w : FVec Ideal ⟨2, ![b, k]⟩ φ₂)
    (h : (⟨2, ![b, k]⟩ : Shape).Transposes [1, 0] ⟨2, ![k, b]⟩) (p : Fin a) (q : Fin b) :
    matmul D prec x (transpose ⟨2, ![k, b]⟩ [1, 0] w h) (constant (F := Ideal) ⟨2, ![a, b]⟩ .f32 0x00000000#32) (ix2 p q)
      = ∑ d : Fin k, x (ix2 p d) * w (ix2 q d) :=
  (matmul_ix2_apply D hlc hrc hln hrn hlb hrb prec x _ p q).trans
    (Finset.sum_congr rfl fun d _ => congrArg (x (ix2 p d) * ·) (transpose_ab_ba_apply w h d q))

end Idealize.ShloMosaic.ValueIdx
-- ==== Proof.Region0.lean ====
/-
  The first region multiplies the node features by the first layer's weights: its grid has ten points, point t
  holding rows 5000·t … 5000·t + 4999 of the [50000,128] feature array and the whole [128,128] weight array, and
  writing the same rows of the product.  A block of rows of a product is the product of that block of rows with the
  whole right factor, entry by entry the same sum over the contracted coordinate; the ten blocks of rows tile the
  array.  So after the region the output array is the product of the two whole arrays.
-/
import proofs.«170490_j47047071761043_1_alg».proof.Proof.Gen.KernelIdeal.Frame
import proofs.«170490_j47047071761043_1_alg».proof.Proof.Spec
import proofs.«170490_j47047071761043_1_alg».proof.Proof.LibMatmulRead

set_option maxRecDepth 16384

noncomputable section

open scoped BigOperators

namespace Cert.KernelIdeal.RegionValue

open Idealize.ShloMosaic Idealize.ShloMosaic.TcCoe Idealize.SL.Sem Cert.KernelIdeal
open Idealize.ShloMosaic.Pipeline (Dat)
open Idealize.ShloMosaic.ValueIdx

/-! ## Products read at an entry -/

/-- A host product contracting the second axis of the left operand with the first axis of the right one, read at
    (p, q): the sum over the contracted coordinate. -/
theorem dotGeneral_ix2_apply {a k b : ℕ} {φ₁ φ₂ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![a, k]⟩ φ₁) (w : FVec Ideal ⟨2, ![k, b]⟩ φ₂)
    (p : Fin a) (q : Fin b) :
    Host.dotGeneral (F := Ideal) D prec x w (ix2 p q) = ∑ d : Fin k, x (ix2 p d) * w (ix2 d q) := by
  obtain ⟨lc, rc, ln, rn, lb, rb, wf⟩ := D
  dsimp only at hlc hrc hln hrn hlb hrb
  subst hlc hrc hln hrn hlb hrb
  refine (Ideal.dotGeneral_apply _ prec .single x w (ix2 p q)).trans ?_
  refine (Equiv.sum_comp (contrEquiv1 _ k rfl rfl).symm _).symm.trans ?_
  refine Finset.sum_congr rfl fun d _ => ?_
  refine congrArg₂ (· * ·) (congrArg x (funext fun ax => Fin.ext ?_)) (congrArg w (funext fun ax => Fin.ext ?_))
  · match ax with
    | ⟨0, _⟩ => rfl
    | ⟨1, _⟩ => exact (DotDims.lhsIdx_val_of_single _ rfl _ _).trans (contrEquiv1_symm_val _ k rfl rfl d)
  · match ax with
    | ⟨0, _⟩ => exact (DotDims.rhsIdx_val_of_single _ rfl _ _).trans (contrEquiv1_symm_val _ k rfl rfl d)
    | ⟨1, _⟩ => rfl

/-- The whole-array product at (i, q). -/
theorem lin_apply (x : Cert.Spec.Arr Cert.ReferenceIdeal.S50000x128 .f32) (w : Cert.Spec.Arr Cert.ReferenceIdeal.S128x128 .f32)
    (i : Fin 50000) (q : Fin 128) :
    Cert.Spec.lin x w (ix2 i q) = ∑ d : Fin 128, x (ix2 i d) * w (ix2 d q) := by
  unfold Cert.Spec.lin
  exact dotGeneral_ix2_apply _ rfl rfl rfl rfl rfl rfl none x w i q

/-- The block's product at (p, q): a change of float format is the identity, and the accumulator starts at zero. -/
theorem k0_pay1_apply (x : Vec Ideal S5000x128 .f32) (w : Vec Ideal S128x128 .f32) (p : Fin 5000) (q : Fin 128) :
    Gen.k0_pay1 (F := Ideal) x w (ix2 p q) = ∑ d : Fin 128, x (ix2 p d) * w (ix2 d q) := by
  unfold Gen.k0_pay1
  exact matmul_ix2_apply _ rfl rfl rfl rfl rfl rfl none _ _ p q

/-! ## From the ten row blocks to the array -/

theorem zero_off2 : (![0, 0] : Fin 2 → Nat) = fun _ => 0 := funext fun a => by fin_cases a <;> rfl

/-- The printed index maps over the grid: point t's feature block and output block are row block t, all columns;
    the weight block is the whole array at every point. -/
theorem index_facts0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- Entry (p, q) of point t's feature block is entry (5000·t + p, q) of the array. -/
theorem emb0_0 (t : Fin cfg0.N) (p : Fin 5000) (d : Fin 128) (i : Fin 50000) (hi : i.val = t.val * 5000 + p.val) :
    ((cfg0.win 0).blk t).view.emb (ix2 p d) = ix2 i d := by
  obtain ⟨e0, e1, -, -, -, -⟩ := index_facts0 t
  funext a; apply Fin.ext
  match a with
  | ⟨0, _⟩ => show win0_0.index t (0 : Fin 2) * 5000 + 1 * p.val = i.val; omega
  | ⟨1, _⟩ => show win0_0.index t (1 : Fin 2) * 128 + 1 * d.val = d.val; omega

/-- The weight block is the whole weight array. -/
theorem emb0_1 (t : Fin cfg0.N) (d : Fin 128) (q : Fin 128) :
    ((cfg0.win 1).blk t).view.emb (ix2 d q) = ix2 d q := by
  obtain ⟨-, -, e2, e3, -, -⟩ := index_facts0 t
  funext a; apply Fin.ext
  match a with
  | ⟨0, _⟩ => show win0_1.index t (0 : Fin 2) * 128 + 1 * d.val = d.val; omega
  | ⟨1, _⟩ => show win0_1.index t (1 : Fin 2) * 128 + 1 * q.val = q.val; omega

/-- Entry (p, q) of point t's output block is entry (5000·t + p, q) of the array. -/
theorem emb0_2 (t : Fin cfg0.N) (p : Fin 5000) (q : Fin 128) (i : Fin 50000) (hi : i.val = t.val * 5000 + p.val) :
    ((cfg0.win 2).blk t).view.emb (ix2 p q) = ix2 i q := by
  obtain ⟨-, -, -, -, e4, e5⟩ := index_facts0 t
  funext a; apply Fin.ext
  match a with
  | ⟨0, _⟩ => show win0_2.index t (0 : Fin 2) * 5000 + 1 * p.val = i.val; omega
  | ⟨1, _⟩ => show win0_2.index t (1 : Fin 2) * 128 + 1 * q.val = q.val; omega

variable (V : (c : Dev nD) → (b : Ref sig .tc) → Buf (Elt Ideal) ((c : Thread nD τ).loc b))

/-- What point t writes back is row block t of the product of the whole arrays. -/
theorem flushed0_eq (c : Dev nD) (t : Fin cfg0.N) :
    (Gen.dat0 (F := Ideal) V c).flushed 2 t
      = ((cfg0.win 2).blk t).view.read (Elt Ideal) (Cert.Spec.lin (V c main_arg0) (V c main_arg4)) := by
  show (cfg0.win 2).cut (grid0.coords t) ((Gen.dat0 (F := Ideal) V c).after 2 t) = _
  rw [Gen.after0_2]
  unfold Gen.out0_2
  rw [View.canon_unit_zero zero_off2]
  simp only [View.ld_unit_zero (S := S5000x128) zero_off2, View.ld_unit_zero (S := S128x128) zero_off2]
  funext (j : S5000x128.Idx)
  obtain ⟨p, q, rfl⟩ : ∃ (p : Fin 5000) (q : Fin 128), j = ix2 p q := ⟨j 0, j 1, eq_ix2 j⟩
  have ht : t.val < 10 := t.isLt
  have hi : t.val * 5000 + p.val < 50000 := by have := p.isLt; omega
  show Gen.k0_pay1 (F := Ideal) (Gen.iblk0 V c 0 t) (Gen.iblk0 V c 1 t) (ix2 p q)
    = Cert.Spec.lin (V c main_arg0) (V c main_arg4) (((cfg0.win 2).blk t).view.emb (ix2 p q))
  rw [emb0_2 t p q ⟨t.val * 5000 + p.val, hi⟩ rfl, lin_apply]
  refine (k0_pay1_apply (Gen.iblk0 V c 0 t) (Gen.iblk0 V c 1 t) p q).trans ?_
  refine Finset.sum_congr rfl fun d _ => ?_
  refine congrArg₂ (fun a b : EReal => a * b) ?_ ?_
  · exact congrArg (V c main_arg0) (emb0_0 t p d ⟨t.val * 5000 + p.val, hi⟩ rfl)
  · exact congrArg (V c main_arg4) (emb0_1 t d q)

/-- An index of the array is in point t's block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v33).slice (win0_2.rect t)).set ↔ _
  rw [View.set_slice_whole, Rect.mem_set_unit]
  exact Iff.rfl

/-- Row r lies in the block of point r / 5000: the ten blocks of rows tile the array. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := rfl
  let t : Fin cfg0.N := ⟨(i 0).val / 5000, by omega⟩
  obtain ⟨-, -, -, -, e4, e5⟩ := index_facts0 t
  have e4' : win0_2.index t (0 : Fin 2) = (i 0).val / 5000 := e4
  refine ⟨t, Gen.flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the first region the output array is the product of the feature array and the weight array. -/
theorem region0_value (c : Dev nD) :
    (Gen.dat0 (F := Ideal) V c).arrAt 2 cfg0.N = Cert.Spec.lin (V c main_arg0) (V c main_arg4) :=
  (Gen.dat0 (F := Ideal) V c).arrAt_eq_of_cover 2 (Cert.Spec.lin (V c main_arg0) (V c main_arg4))
    (fun t _ => flushed0_eq V c t) cover0

end Cert.KernelIdeal.RegionValue

end
-- ==== Proof.LibColumnLayout.lean ====
/-
  A column kept as a unit axis, read at an index given by coordinates.

  A reduction over the last axis of an `[a, b]` array that keeps that axis (a row maximum or a row sum with the
  reduced axis retained) produces an `[a]` vector, casts it to the column `[a, 1]` and broadcasts the column back
  over the `b` entries of each row. Two facts say what those two steps do to an entry:
    • the vector cast to a column reads, at `(p, u)`, the vector at `p`, whatever the unit coordinate `u`;
    • the column broadcast over `b` columns reads, at `(p, c)`, the column at `(p, 0)`.
  Both are the general shape-cast and broadcast readings with the coordinates' arithmetic done once.
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(p, u)`, the operand at `p`, whatever the unit
    coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.CombPoint.lean ====
/-
  The combination stage of a graph-convolution layer, at one entry.

  A layer's combination takes the aggregated features agg, the previous features h, a column sn of
  per-node scales and a row b of per-feature biases, all over 128 features, and returns
  lrelu (agg + h ⊙ sn + b), where lrelu s = s for s > 0 and slope · s otherwise. This module reads that
  stage at one entry (p, q), twice: as the kernel's body computes it on a block of 5000 nodes (the column
  broadcast across the features, the row cast to one row and broadcast down the nodes), and as the
  specification spells it over all 50000 nodes with the reference's broadcasts. Both are the same scalar
  expression of agg (p, q), h (p, q), sn (p, 0) and b q.
-/
import proofs.«170490_j47047071761043_1_alg».proof.Proof.Gen.KernelIdeal.Skeleton
import proofs.«170490_j47047071761043_1_alg».proof.Proof.LibColumnLayout
import proofs.«170490_j47047071761043_1_alg».proof.Proof.Spec
import Idealize.ShloMosaic.Lib.ValueLayout
import Idealize.ShloMosaic.PureOps.Ideal.Laws

noncomputable section

namespace Cert.KernelIdeal.RegionValue

open Idealize.ShloMosaic Idealize.SL.Sem Cert.KernelIdeal Idealize.ShloMosaic.ValueIdx

/-- The leaky rectifier at a point: s where s > 0, else slope · s (the slope the float nearest 0.01). -/
def lreluPt (s : EReal) : EReal :=
  Scalar.select (FloatOps.cmpf (F := Ideal) (φ := .f32) .ogt s (Ideal.ofBits .f32 0x00000000#32)) s
    (Ideal.ofBits .f32 0x3C23D70A#32 * s)

/-- The combination at a point, from the four entries it reads. -/
def combPt (a h s b : EReal) : EReal := lreluPt (a + h * s + b)

/-! ## The kernel's body on a block of 5000 nodes -/

/-- The body's stored value at (p, q): the column's entry of row p and the row's entry q enter. -/
theorem k3_pay1_apply (v0 v2 : Vec Ideal S5000x128 .f32) (v4 : Vec Ideal S5000x1 .f32) (v9 : Vec Ideal S128 .f32)
    (p : Fin 5000) (q : Fin 128) :
    Gen.k3_pay1 (F := Ideal) v0 v2 v4 v9 (ix2 p q)
      = combPt (v0 (ix2 p q)) (v2 (ix2 p q)) (v4 (ix2 p (0 : Fin 1))) (v9 (ix1 q)) := by
  have e6 : ∀ h, broadcastTo S5000x128 v4 h (ix2 p q) = v4 (ix2 p (0 : Fin 1)) :=
    fun h => broadcastTo_a1_ab_apply _ h p q
  have e11 : ∀ h h', broadcastTo S5000x128 (shapeCast S1x128 v9 h) h' (ix2 p q) = v9 (ix1 q) :=
    fun h h' => (broadcastTo_1b_ab_apply _ h' p q).trans (shapeCast_a_1a_apply _ h 0 q)
  unfold Gen.k3_pay1
  simp only [shapeCast_self]
  simp only [select_apply, cmpf_apply, mulf_apply, addf_apply, broadcast_apply, e6, e11]
  rfl

/-! ## The specification over all 50000 nodes -/

section Spec

/-- The column of scales broadcast across the features reads row i's scale. -/
theorem bcast_column_apply (sn : Cert.Spec.Arr ReferenceIdeal.S50000x1 .f32) (h : ReferenceIdeal.S50000x1.BroadcastsInDim ReferenceIdeal.S50000x128 ![0, 1])
    (i : Fin 50000) (q : Fin 128) :
    broadcastInDim ReferenceIdeal.S50000x128 ![0, 1] h sn (ix2 i q) = sn (ix2 i (0 : Fin 1)) :=
  broadcastInDim_apply _ h sn (ix2 i q) (ix2 i (0 : Fin 1)) fun a => by
    match a with
    | ⟨0, _⟩ => exact (if_neg (by decide : ¬ (50000 : ℕ) = 1)).symm
    | ⟨1, _⟩ => exact (if_pos rfl).symm

/-- The row of biases, made one row and broadcast down the nodes, reads feature q's bias. -/
theorem bcast_row_apply (b : Cert.Spec.Arr ReferenceIdeal.S128 .f32) (h : ReferenceIdeal.S128.BroadcastsInDim ReferenceIdeal.S1x128 ![1])
    (h' : ReferenceIdeal.S1x128.BroadcastsInDim ReferenceIdeal.S50000x128 ![0, 1]) (i : Fin 50000) (q : Fin 128) :
    broadcastInDim ReferenceIdeal.S50000x128 ![0, 1] h' (broadcastInDim ReferenceIdeal.S1x128 ![1] h b) (ix2 i q) = b (ix1 q) :=
  (broadcastInDim_apply _ h' _ (ix2 i q) (ix2 (0 : Fin 1) q) fun a => by
    match a with
    | ⟨0, _⟩ => exact (if_pos rfl).symm
    | ⟨1, _⟩ => exact (if_neg (by decide : ¬ (128 : ℕ) = 1)).symm).trans
  (broadcastInDim_apply _ h b (ix2 (0 : Fin 1) q) (ix1 q) fun a => by
    match a with
    | ⟨0, _⟩ => exact (if_neg (by decide : ¬ (128 : ℕ) = 1)).symm)

/-- A scalar constant broadcast over the array reads its value everywhere. -/
theorem bcast_scalar_apply (w : BitVec 32) (h : ReferenceIdeal.S_.BroadcastsInDim ReferenceIdeal.S50000x128 ![]) (j : ReferenceIdeal.S50000x128.Idx) :
    broadcastInDim ReferenceIdeal.S50000x128 ![] h (constant (F := Ideal) ReferenceIdeal.S_ .f32 w) j = Ideal.ofBits .f32 w :=
  broadcastInDim_apply _ h _ j ix0 fun a => a.elim0

/-- The specification's combination at (i, q). -/
theorem comb_apply (agg h : Cert.Spec.Arr ReferenceIdeal.S50000x128 .f32) (sn : Cert.Spec.Arr ReferenceIdeal.S50000x1 .f32)
    (b : Cert.Spec.Arr ReferenceIdeal.S128 .f32) (i : Fin 50000) (q : Fin 128) :
    Cert.Spec.comb agg h sn b (ix2 i q)
      = combPt (agg (ix2 i q)) (h (ix2 i q)) (sn (ix2 i (0 : Fin 1))) (b (ix1 q)) := by
  unfold Cert.Spec.comb Cert.Spec.lrelu Cert.Spec.pre
  simp only [select_apply, cmpf_apply, mulf_apply, addf_apply]
  rw [bcast_column_apply, bcast_row_apply, bcast_scalar_apply, bcast_scalar_apply]
  rfl

/-- The body's value at (p, q) of a block is the specification's at (i, q) of the arrays, once the four
    entries the body reads are the arrays' entries of row i. -/
theorem comb_block_point (agg h : Cert.Spec.Arr ReferenceIdeal.S50000x128 .f32) (sn : Cert.Spec.Arr ReferenceIdeal.S50000x1 .f32)
    (b : Cert.Spec.Arr ReferenceIdeal.S128 .f32)
    (v0 v2 : Vec Ideal S5000x128 .f32) (v4 : Vec Ideal S5000x1 .f32) (v9 : Vec Ideal S128 .f32)
    (p : Fin 5000) (q : Fin 128) (i : Fin 50000)
    (h0 : v0 (ix2 p q) = agg (ix2 i q)) (h2 : v2 (ix2 p q) = h (ix2 i q))
    (h4 : v4 (ix2 p (0 : Fin 1)) = sn (ix2 i (0 : Fin 1))) (h9 : v9 (ix1 q) = b (ix1 q)) :
    Gen.k3_pay1 (F := Ideal) v0 v2 v4 v9 (ix2 p q) = Cert.Spec.comb agg h sn b (ix2 i q) := by
  rw [k3_pay1_apply, comb_apply, h0, h2, h4, h9]

end Spec

end Cert.KernelIdeal.RegionValue

end
-- ==== Proof.Region12.lean ====
/-
  The second and third regions run one layer each: on row block t (rows 5000·t … 5000·t + 4999) they combine the
  aggregated features, the previous layer's output scaled row by row, and the bias, apply the activation, and
  multiply the block by the layer's [128,128] weights.  The combine is entry by entry, so a block of rows of the
  combined array is the combine of the same rows of its operands; a block of rows of a product is the product of
  that block with the whole right factor; the ten blocks of rows tile the array.  So after the region the output
  array is the layer applied to the whole arrays.
-/
import proofs.«170490_j47047071761043_1_alg».proof.Proof.Region0
import proofs.«170490_j47047071761043_1_alg».proof.Proof.CombPoint

set_option maxRecDepth 16384

noncomputable section

open scoped BigOperators

namespace Cert.KernelIdeal.RegionValue

open Idealize.ShloMosaic Idealize.ShloMosaic.TcCoe Idealize.SL.Sem Cert.KernelIdeal
open Idealize.ShloMosaic.Pipeline (Dat)
open Idealize.ShloMosaic.ValueIdx

/-! ## The layer read at an entry -/

theorem combPt_congr {a a' h h' s s' b b' : EReal} (ha : a = a') (hh : h = h') (hs : s = s') (hb : b = b') :
    combPt a h s b = combPt a' h' s' b' := by subst ha hh hs hb; rfl

/-- The whole-array layer at (i, q): the sum over d of the combine at (i, d) times the weight at (d, q). -/
theorem layer_apply (agg h : Cert.Spec.Arr Cert.ReferenceIdeal.S50000x128 .f32) (sn : Cert.Spec.Arr Cert.ReferenceIdeal.S50000x1 .f32)
    (b : Cert.Spec.Arr Cert.ReferenceIdeal.S128 .f32) (w : Cert.Spec.Arr Cert.ReferenceIdeal.S128x128 .f32) (i : Fin 50000) (q : Fin 128) :
    Cert.Spec.layer agg h sn b w (ix2 i q)
      = ∑ d : Fin 128, combPt (agg (ix2 i d)) (h (ix2 i d)) (sn (ix2 i (0 : Fin 1))) (b (ix1 d)) * w (ix2 d q) := by
  unfold Cert.Spec.layer
  rw [lin_apply]
  exact Finset.sum_congr rfl fun d _ => congrArg (· * w (ix2 d q)) (comb_apply agg h sn b i d)

/-- The second region's block at (p, q): the block's combine, then the product with the weights from the zero accumulator. -/
theorem k1_pay1_apply (x0 x1 : Vec Ideal S5000x128 .f32) (x2 : Vec Ideal S5000x1 .f32) (x3 : Vec Ideal S128 .f32)
    (x4 : Vec Ideal S128x128 .f32) (p : Fin 5000) (q : Fin 128) :
    Gen.k1_pay1 (F := Ideal) x0 x1 x2 x3 x4 (ix2 p q)
      = ∑ d : Fin 128, combPt (x0 (ix2 p d)) (x1 (ix2 p d)) (x2 (ix2 p (0 : Fin 1))) (x3 (ix1 d)) * x4 (ix2 d q) := by
  refine (matmul_ix2_apply (φ₁ := .bf16) (φ₂ := .bf16) dot_S5000x128_S128x128_S5000x128_1_0_0_1_n_n rfl rfl rfl rfl rfl rfl none
    (Gen.k3_pay1 (F := Ideal) x0 x1 x2 x3) x4 p q).trans ?_
  exact Finset.sum_congr rfl fun d _ => congrArg (· * x4 (ix2 d q)) (k3_pay1_apply x0 x1 x2 x3 p d)

/-- The third region's block at (p, q): the same body. -/
theorem k2_pay1_apply (x0 x1 : Vec Ideal S5000x128 .f32) (x2 : Vec Ideal S5000x1 .f32) (x3 : Vec Ideal S128 .f32)
    (x4 : Vec Ideal S128x128 .f32) (p : Fin 5000) (q : Fin 128) :
    Gen.k2_pay1 (F := Ideal) x0 x1 x2 x3 x4 (ix2 p q)
      = ∑ d : Fin 128, combPt (x0 (ix2 p d)) (x1 (ix2 p d)) (x2 (ix2 p (0 : Fin 1))) (x3 (ix1 d)) * x4 (ix2 d q) :=
  k1_pay1_apply x0 x1 x2 x3 x4 p q

theorem zero_off1 : (![0] : Fin 1 → Nat) = fun _ => 0 := funext fun a => by fin_cases a; rfl

variable (V : (c : Dev nD) → (b : Ref sig .tc) → Buf (Elt Ideal) ((c : Thread nD τ).loc b))

/-! ## REGION 1: from the ten row blocks to the array -/

/-- The printed index maps over the grid: at point t the three row-blocked inputs and the output are at row block t,
    the bias and the weights are whole at every point. -/
theorem index_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Entry (p, d) of point t's block of the aggregated features is entry (5000·t + p, d) of the array. -/
theorem emb1_0 (t : Fin cfg1.N) (p : Fin 5000) (d : Fin 128) (i : Fin 50000) (hi : i.val = t.val * 5000 + p.val) :
    ((cfg1.win 0).blk t).view.emb (ix2 p d) = ix2 i d := by
  obtain ⟨e0, e1, -⟩ := index_facts1 t
  funext a; apply Fin.ext
  match a with
  | ⟨0, _⟩ => show win1_0.index t (0 : Fin 2) * 5000 + 1 * p.val = i.val; omega
  | ⟨1, _⟩ => show win1_0.index t (1 : Fin 2) * 128 + 1 * d.val = d.val; omega

/-- The same for the previous layer's output. -/
theorem emb1_1 (t : Fin cfg1.N) (p : Fin 5000) (d : Fin 128) (i : Fin 50000) (hi : i.val = t.val * 5000 + p.val) :
    ((cfg1.win 1).blk t).view.emb (ix2 p d) = ix2 i d := by
  obtain ⟨-, -, e0, e1, -⟩ := index_facts1 t
  funext a; apply Fin.ext
  match a with
  | ⟨0, _⟩ => show win1_1.index t (0 : Fin 2) * 5000 + 1 * p.val = i.val; omega
  | ⟨1, _⟩ => show win1_1.index t (1 : Fin 2) * 128 + 1 * d.val = d.val; omega

/-- Entry p of point t's block of the row scales is entry 5000·t + p of the column. -/
theorem emb1_2 (t : Fin cfg1.N) (p : Fin 5000) (i : Fin 50000) (hi : i.val = t.val * 5000 + p.val) :
    ((cfg1.win 2).blk t).view.emb (ix2 p (0 : Fin 1)) = ix2 i (0 : Fin 1) := by
  obtain ⟨-, -, -, -, e0, e1, -⟩ := index_facts1 t
  funext a; apply Fin.ext
  match a with
  | ⟨0, _⟩ => show win1_2.index t (0 : Fin 2) * 5000 + 1 * p.val = i.val; omega
  | ⟨1, _⟩ => show win1_2.index t (1 : Fin 2) * 1 + 1 * 0 = 0; omega

/-- The bias block is the whole bias. -/
theorem emb1_3 (t : Fin cfg1.N) (d : Fin 128) :
    ((cfg1.win 3).blk t).view.emb (ix1 d) = ix1 d := by
  obtain ⟨-, -, -, -, -, -, e0, -⟩ := index_facts1 t
  funext a; apply Fin.ext
  match a with
  | ⟨0, _⟩ => show win1_3.index t (0 : Fin 1) * 128 + 1 * d.val = d.val; omega

/-- The weight block is the whole weight array. -/
theorem emb1_4 (t : Fin cfg1.N) (d : Fin 128) (q : Fin 128) :
    ((cfg1.win 4).blk t).view.emb (ix2 d q) = ix2 d q := by
  obtain ⟨-, -, -, -, -, -, -, e0, e1, -⟩ := index_facts1 t
  funext a; apply Fin.ext
  match a with
  | ⟨0, _⟩ => show win1_4.index t (0 : Fin 2) * 128 + 1 * d.val = d.val; omega
  | ⟨1, _⟩ => show win1_4.index t (1 : Fin 2) * 128 + 1 * q.val = q.val; omega

/-- Entry (p, q) of point t's output block is entry (5000·t + p, q) of the array. -/
theorem emb1_5 (t : Fin cfg1.N) (p : Fin 5000) (q : Fin 128) (i : Fin 50000) (hi : i.val = t.val * 5000 + p.val) :
    ((cfg1.win 5).blk t).view.emb (ix2 p q) = ix2 i q := by
  obtain ⟨-, -, -, -, -, -, -, -, -, e0, e1⟩ := index_facts1 t
  funext a; apply Fin.ext
  match a with
  | ⟨0, _⟩ => show win1_5.index t (0 : Fin 2) * 5000 + 1 * p.val = i.val; omega
  | ⟨1, _⟩ => show win1_5.index t (1 : Fin 2) * 128 + 1 * q.val = q.val; omega

/-- What point t writes back is row block t of the layer applied to the whole arrays. -/
theorem flushed1_eq (c : Dev nD) (t : Fin cfg1.N) :
    (Gen.dat1 (F := Ideal) V c).flushed 5 t
      = ((cfg1.win 5).blk t).view.read (Elt Ideal)
          (Cert.Spec.layer (V c main_v51) (V c main_v33) (V c main_v32) (V c main_arg5) (V c main_arg6)) := by
  show (cfg1.win 5).cut (grid1.coords t) ((Gen.dat1 (F := Ideal) V c).after 5 t) = _
  rw [Gen.after1_5]
  unfold Gen.out1_5
  rw [View.canon_unit_zero zero_off2]
  simp only [View.ld_unit_zero (S := S5000x128) zero_off2, View.ld_unit_zero (S := S5000x1) zero_off2,
    View.ld_unit_zero (S := S128) zero_off1, View.ld_unit_zero (S := S128x128) zero_off2]
  funext (j : S5000x128.Idx)
  obtain ⟨p, q, rfl⟩ : ∃ (p : Fin 5000) (q : Fin 128), j = ix2 p q := ⟨j 0, j 1, eq_ix2 j⟩
  have ht : t.val < 10 := t.isLt
  have hi : t.val * 5000 + p.val < 50000 := by have := p.isLt; omega
  show Gen.k1_pay1 (F := Ideal) (Gen.iblk1 V c 0 t) (Gen.iblk1 V c 1 t) (Gen.iblk1 V c 2 t) (Gen.iblk1 V c 3 t)
      (Gen.iblk1 V c 4 t) (ix2 p q)
    = Cert.Spec.layer (V c main_v51) (V c main_v33) (V c main_v32) (V c main_arg5) (V c main_arg6)
        (((cfg1.win 5).blk t).view.emb (ix2 p q))
  rw [emb1_5 t p q ⟨t.val * 5000 + p.val, hi⟩ rfl, layer_apply]
  refine (k1_pay1_apply (Gen.iblk1 V c 0 t) (Gen.iblk1 V c 1 t) (Gen.iblk1 V c 2 t) (Gen.iblk1 V c 3 t)
    (Gen.iblk1 V c 4 t) p q).trans ?_
  refine Finset.sum_congr rfl fun d _ => ?_
  refine congrArg₂ (fun a b : EReal => a * b) (combPt_congr ?_ ?_ ?_ ?_) ?_
  · exact congrArg (V c main_v51) (emb1_0 t p d ⟨t.val * 5000 + p.val, hi⟩ rfl)
  · exact congrArg (V c main_v33) (emb1_1 t p d ⟨t.val * 5000 + p.val, hi⟩ rfl)
  · exact congrArg (V c main_v32) (emb1_2 t p ⟨t.val * 5000 + p.val, hi⟩ rfl)
  · exact congrArg (V c main_arg5) (emb1_3 t d)
  · exact congrArg (V c main_arg6) (emb1_4 t d q)

/-- An index of the array is in point t's block iff each coordinate is in the block's range on its axis. -/
theorem mem_blk1 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v52).slice (win1_5.rect t)).set ↔ _
  rw [View.set_slice_whole, Rect.mem_set_unit]
  exact Iff.rfl

/-- Row r lies in the block of point r / 5000: the ten blocks of rows tile the array. -/
theorem cover1 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := rfl
  let t : Fin cfg1.N := ⟨(i 0).val / 5000, by omega⟩
  obtain ⟨-, -, -, -, -, -, -, -, -, e0, e1⟩ := index_facts1 t
  have e0' : win1_5.index t (0 : Fin 2) = (i 0).val / 5000 := e0
  refine ⟨t, Gen.flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- After the region the output array is the layer applied to the whole arrays. -/
theorem region1_value (c : Dev nD) :
    (Gen.dat1 (F := Ideal) V c).arrAt 5 cfg1.N
      = Cert.Spec.layer (V c main_v51) (V c main_v33) (V c main_v32) (V c main_arg5) (V c main_arg6) :=
  (Gen.dat1 (F := Ideal) V c).arrAt_eq_of_cover 5
    (Cert.Spec.layer (V c main_v51) (V c main_v33) (V c main_v32) (V c main_arg5) (V c main_arg6))
    (fun t _ => flushed1_eq V c t) cover1

/-! ## REGION 2: from the ten row blocks to the array -/

/-- The printed index maps over the grid: at point t the three row-blocked inputs and the output are at row block t,
    the bias and the weights are whole at every point. -/
theorem index_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 1) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Entry (p, d) of point t's block of the aggregated features is entry (5000·t + p, d) of the array. -/
theorem emb2_0 (t : Fin cfg2.N) (p : Fin 5000) (d : Fin 128) (i : Fin 50000) (hi : i.val = t.val * 5000 + p.val) :
    ((cfg2.win 0).blk t).view.emb (ix2 p d) = ix2 i d := by
  obtain ⟨e0, e1, -⟩ := index_facts2 t
  funext a; apply Fin.ext
  match a with
  | ⟨0, _⟩ => show win2_0.index t (0 : Fin 2) * 5000 + 1 * p.val = i.val; omega
  | ⟨1, _⟩ => show win2_0.index t (1 : Fin 2) * 128 + 1 * d.val = d.val; omega

/-- The same for the previous layer's output. -/
theorem emb2_1 (t : Fin cfg2.N) (p : Fin 5000) (d : Fin 128) (i : Fin 50000) (hi : i.val = t.val * 5000 + p.val) :
    ((cfg2.win 1).blk t).view.emb (ix2 p d) = ix2 i d := by
  obtain ⟨-, -, e0, e1, -⟩ := index_facts2 t
  funext a; apply Fin.ext
  match a with
  | ⟨0, _⟩ => show win2_1.index t (0 : Fin 2) * 5000 + 1 * p.val = i.val; omega
  | ⟨1, _⟩ => show win2_1.index t (1 : Fin 2) * 128 + 1 * d.val = d.val; omega

/-- Entry p of point t's block of the row scales is entry 5000·t + p of the column. -/
theorem emb2_2 (t : Fin cfg2.N) (p : Fin 5000) (i : Fin 50000) (hi : i.val = t.val * 5000 + p.val) :
    ((cfg2.win 2).blk t).view.emb (ix2 p (0 : Fin 1)) = ix2 i (0 : Fin 1) := by
  obtain ⟨-, -, -, -, e0, e1, -⟩ := index_facts2 t
  funext a; apply Fin.ext
  match a with
  | ⟨0, _⟩ => show win2_2.index t (0 : Fin 2) * 5000 + 1 * p.val = i.val; omega
  | ⟨1, _⟩ => show win2_2.index t (1 : Fin 2) * 1 + 1 * 0 = 0; omega

/-- The bias block is the whole bias. -/
theorem emb2_3 (t : Fin cfg2.N) (d : Fin 128) :
    ((cfg2.win 3).blk t).view.emb (ix1 d) = ix1 d := by
  obtain ⟨-, -, -, -, -, -, e0, -⟩ := index_facts2 t
  funext a; apply Fin.ext
  match a with
  | ⟨0, _⟩ => show win2_3.index t (0 : Fin 1) * 128 + 1 * d.val = d.val; omega

/-- The weight block is the whole weight array. -/
theorem emb2_4 (t : Fin cfg2.N) (d : Fin 128) (q : Fin 128) :
    ((cfg2.win 4).blk t).view.emb (ix2 d q) = ix2 d q := by
  obtain ⟨-, -, -, -, -, -, -, e0, e1, -⟩ := index_facts2 t
  funext a; apply Fin.ext
  match a with
  | ⟨0, _⟩ => show win2_4.index t (0 : Fin 2) * 128 + 1 * d.val = d.val; omega
  | ⟨1, _⟩ => show win2_4.index t (1 : Fin 2) * 128 + 1 * q.val = q.val; omega

/-- Entry (p, q) of point t's output block is entry (5000·t + p, q) of the array. -/
theorem emb2_5 (t : Fin cfg2.N) (p : Fin 5000) (q : Fin 128) (i : Fin 50000) (hi : i.val = t.val * 5000 + p.val) :
    ((cfg2.win 5).blk t).view.emb (ix2 p q) = ix2 i q := by
  obtain ⟨-, -, -, -, -, -, -, -, -, e0, e1⟩ := index_facts2 t
  funext a; apply Fin.ext
  match a with
  | ⟨0, _⟩ => show win2_5.index t (0 : Fin 2) * 5000 + 1 * p.val = i.val; omega
  | ⟨1, _⟩ => show win2_5.index t (1 : Fin 2) * 128 + 1 * q.val = q.val; omega

/-- What point t writes back is row block t of the layer applied to the whole arrays. -/
theorem flushed2_eq (c : Dev nD) (t : Fin cfg2.N) :
    (Gen.dat2 (F := Ideal) V c).flushed 5 t
      = ((cfg2.win 5).blk t).view.read (Elt Ideal)
          (Cert.Spec.layer (V c main_v70) (V c main_v52) (V c main_v32) (V c main_arg7) (V c main_arg8)) := by
  show (cfg2.win 5).cut (grid2.coords t) ((Gen.dat2 (F := Ideal) V c).after 5 t) = _
  rw [Gen.after2_5]
  unfold Gen.out2_5
  rw [View.canon_unit_zero zero_off2]
  simp only [View.ld_unit_zero (S := S5000x128) zero_off2, View.ld_unit_zero (S := S5000x1) zero_off2,
    View.ld_unit_zero (S := S128) zero_off1, View.ld_unit_zero (S := S128x128) zero_off2]
  funext (j : S5000x128.Idx)
  obtain ⟨p, q, rfl⟩ : ∃ (p : Fin 5000) (q : Fin 128), j = ix2 p q := ⟨j 0, j 1, eq_ix2 j⟩
  have ht : t.val < 10 := t.isLt
  have hi : t.val * 5000 + p.val < 50000 := by have := p.isLt; omega
  show Gen.k2_pay1 (F := Ideal) (Gen.iblk2 V c 0 t) (Gen.iblk2 V c 1 t) (Gen.iblk2 V c 2 t) (Gen.iblk2 V c 3 t)
      (Gen.iblk2 V c 4 t) (ix2 p q)
    = Cert.Spec.layer (V c main_v70) (V c main_v52) (V c main_v32) (V c main_arg7) (V c main_arg8)
        (((cfg2.win 5).blk t).view.emb (ix2 p q))
  rw [emb2_5 t p q ⟨t.val * 5000 + p.val, hi⟩ rfl, layer_apply]
  refine (k2_pay1_apply (Gen.iblk2 V c 0 t) (Gen.iblk2 V c 1 t) (Gen.iblk2 V c 2 t) (Gen.iblk2 V c 3 t)
    (Gen.iblk2 V c 4 t) p q).trans ?_
  refine Finset.sum_congr rfl fun d _ => ?_
  refine congrArg₂ (fun a b : EReal => a * b) (combPt_congr ?_ ?_ ?_ ?_) ?_
  · exact congrArg (V c main_v70) (emb2_0 t p d ⟨t.val * 5000 + p.val, hi⟩ rfl)
  · exact congrArg (V c main_v52) (emb2_1 t p d ⟨t.val * 5000 + p.val, hi⟩ rfl)
  · exact congrArg (V c main_v32) (emb2_2 t p ⟨t.val * 5000 + p.val, hi⟩ rfl)
  · exact congrArg (V c main_arg7) (emb2_3 t d)
  · exact congrArg (V c main_arg8) (emb2_4 t d q)

/-- An index of the array is in point t's block iff each coordinate is in the block's range on its axis. -/
theorem mem_blk2 (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v71).slice (win2_5.rect t)).set ↔ _
  rw [View.set_slice_whole, Rect.mem_set_unit]
  exact Iff.rfl

/-- Row r lies in the block of point r / 5000: the ten blocks of rows tile the array. -/
theorem cover2 (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 10 := rfl
  let t : Fin cfg2.N := ⟨(i 0).val / 5000, by omega⟩
  obtain ⟨-, -, -, -, -, -, -, -, -, e0, e1⟩ := index_facts2 t
  have e0' : win2_5.index t (0 : Fin 2) = (i 0).val / 5000 := e0
  refine ⟨t, Gen.flush2_5 t, ?_⟩
  rw [mem_blk2]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- After the region the output array is the layer applied to the whole arrays. -/
theorem region2_value (c : Dev nD) :
    (Gen.dat2 (F := Ideal) V c).arrAt 5 cfg2.N
      = Cert.Spec.layer (V c main_v70) (V c main_v52) (V c main_v32) (V c main_arg7) (V c main_arg8) :=
  (Gen.dat2 (F := Ideal) V c).arrAt_eq_of_cover 5
    (Cert.Spec.layer (V c main_v70) (V c main_v52) (V c main_v32) (V c main_arg7) (V c main_arg8))
    (fun t _ => flushed2_eq V c t) cover2

end Cert.KernelIdeal.RegionValue

end
-- ==== Proof.Region3.lean ====
/-
  The last combination region as one function of whole arrays.

  The region runs the combination lrelu (agg + h ⊙ sn + b) on ten blocks of 5000 nodes: at point t the
  output's block is rows 5000·t … 5000·t + 4999 and all 128 features, the two [50000,128] inputs and the
  [50000,1] column are cut the same way, and the [128] row is whole at every point. Entry (p, q) of what
  point t computes reads entries (5000·t + p, q), (5000·t + p, q), (5000·t + p, 0) and q of the four arrays,
  which is what the specification's combination of the whole arrays reads at (5000·t + p, q). The ten blocks
  cover the output (row r lies in block r / 5000), so after the region the output array is that combination.
-/
import proofs.«170490_j47047071761043_1_alg».proof.Proof.Gen.KernelIdeal.Frame
import proofs.«170490_j47047071761043_1_alg».proof.Proof.CombPoint

set_option maxRecDepth 16384

noncomputable section

namespace Cert.KernelIdeal.RegionValue

open Idealize.ShloMosaic Idealize.ShloMosaic.TcCoe Idealize.SL.Sem Cert.KernelIdeal
open Idealize.ShloMosaic.Pipeline (Dat)
open Idealize.ShloMosaic.ValueIdx

theorem off2_zero3 : (![0, 0] : Fin 2 → Nat) = fun _ => 0 := funext fun a => by fin_cases a <;> rfl
theorem off1_zero3 : (![0] : Fin 1 → Nat) = fun _ => 0 := funext fun a => by fin_cases a; rfl

/-- The printed index maps over the ten points: the three blocked inputs and the output sit at row block t
    and column block 0; the row of biases is block 0 at every point. -/
theorem index_facts3 : ∀ t : Fin cfg3.N, win3_0.index t (0 : Fin 2) = t.val
    ∧ win3_0.index t (1 : Fin 2) = 0
    ∧ win3_1.index t (0 : Fin 2) = t.val
    ∧ win3_1.index t (1 : Fin 2) = 0
    ∧ win3_2.index t (0 : Fin 2) = t.val
    ∧ win3_2.index t (1 : Fin 2) = 0
    ∧ win3_3.index t (0 : Fin 1) = 0
    ∧ win3_4.index t (0 : Fin 2) = t.val
    ∧ win3_4.index t (1 : Fin 2) = 0 :=
  (by decide +kernel : ∀ t : Fin grid3.N, _)

/-- Entry (p, q) of point t's block of the aggregated features is entry (5000·t + p, q) of the array. -/
theorem emb3_0 (t : Fin cfg3.N) (p : Fin 5000) (q : Fin 128) (i : Fin 50000) (hi : i.val = t.val * 5000 + p.val) :
    ((cfg3.win 0).blk t).view.emb (ix2 p q) = ix2 i q := by
  obtain ⟨e0, e1, -, -, -, -, -, -, -⟩ := index_facts3 t
  funext a; apply Fin.ext
  match a with
  | ⟨0, _⟩ => show win3_0.index t (0 : Fin 2) * 5000 + 1 * p.val = i.val; omega
  | ⟨1, _⟩ => show win3_0.index t (1 : Fin 2) * 128 + 1 * q.val = q.val; omega

/-- The same for the previous features. -/
theorem emb3_1 (t : Fin cfg3.N) (p : Fin 5000) (q : Fin 128) (i : Fin 50000) (hi : i.val = t.val * 5000 + p.val) :
    ((cfg3.win 1).blk t).view.emb (ix2 p q) = ix2 i q := by
  obtain ⟨-, -, e2, e3, -, -, -, -, -⟩ := index_facts3 t
  funext a; apply Fin.ext
  match a with
  | ⟨0, _⟩ => show win3_1.index t (0 : Fin 2) * 5000 + 1 * p.val = i.val; omega
  | ⟨1, _⟩ => show win3_1.index t (1 : Fin 2) * 128 + 1 * q.val = q.val; omega

/-- Entry (p, 0) of point t's block of the column of scales is entry (5000·t + p, 0) of the column. -/
theorem emb3_2 (t : Fin cfg3.N) (p : Fin 5000) (u : Fin 1) (i : Fin 50000) (hi : i.val = t.val * 5000 + p.val) :
    ((cfg3.win 2).blk t).view.emb (ix2 p u) = ix2 i u := by
  obtain ⟨-, -, -, -, e4, e5, -, -, -⟩ := index_facts3 t
  funext a; apply Fin.ext
  match a with
  | ⟨0, _⟩ => show win3_2.index t (0 : Fin 2) * 5000 + 1 * p.val = i.val; omega
  | ⟨1, _⟩ => show win3_2.index t (1 : Fin 2) * 1 + 1 * u.val = u.val; omega

/-- The block of the row of biases is the whole row. -/
theorem emb3_3 (t : Fin cfg3.N) (q : Fin 128) :
    ((cfg3.win 3).blk t).view.emb (ix1 q) = ix1 q := by
  obtain ⟨-, -, -, -, -, -, e6, -, -⟩ := index_facts3 t
  funext a; apply Fin.ext
  match a with
  | ⟨0, _⟩ => show win3_3.index t (0 : Fin 1) * 128 + 1 * q.val = q.val; omega

/-- Entry (p, q) of point t's output block is entry (5000·t + p, q) of the array. -/
theorem emb3_4 (t : Fin cfg3.N) (p : Fin 5000) (q : Fin 128) (i : Fin 50000) (hi : i.val = t.val * 5000 + p.val) :
    ((cfg3.win 4).blk t).view.emb (ix2 p q) = ix2 i q := by
  obtain ⟨-, -, -, -, -, -, -, e7, e8⟩ := index_facts3 t
  funext a; apply Fin.ext
  match a with
  | ⟨0, _⟩ => show win3_4.index t (0 : Fin 2) * 5000 + 1 * p.val = i.val; omega
  | ⟨1, _⟩ => show win3_4.index t (1 : Fin 2) * 128 + 1 * q.val = q.val; omega

variable (V : (c : Dev nD) → (b : Ref sig .tc) → Buf (Elt Ideal) ((c : Thread nD τ).loc b))

/-- What point t writes back is row block t of the combination of the whole arrays. -/
theorem flushed3_eq (c : Dev nD) (t : Fin cfg3.N) :
    (Gen.dat3 (F := Ideal) V c).flushed 4 t
      = ((cfg3.win 4).blk t).view.read (Elt Ideal)
          (Cert.Spec.comb (V c main_v89) (V c main_v71) (V c main_v32) (V c main_arg9)) := by
  show (cfg3.win 4).cut (grid3.coords t) ((Gen.dat3 (F := Ideal) V c).after 4 t) = _
  rw [Gen.after3_4]
  unfold Gen.out3_4
  rw [View.canon_unit_zero off2_zero3]
  simp only [View.ld_unit_zero (S := S5000x128) off2_zero3, View.ld_unit_zero (S := S5000x1) off2_zero3,
    View.ld_unit_zero (S := S128) off1_zero3]
  funext (j : S5000x128.Idx)
  obtain ⟨p, q, rfl⟩ : ∃ (p : Fin 5000) (q : Fin 128), j = ix2 p q := ⟨j 0, j 1, eq_ix2 j⟩
  have ht : t.val < 10 := t.isLt
  have hi : t.val * 5000 + p.val < 50000 := by have := p.isLt; omega
  show Gen.k3_pay1 (F := Ideal) (Gen.iblk3 V c 0 t) (Gen.iblk3 V c 1 t) (Gen.iblk3 V c 2 t) (Gen.iblk3 V c 3 t) (ix2 p q)
    = Cert.Spec.comb (V c main_v89) (V c main_v71) (V c main_v32) (V c main_arg9) (((cfg3.win 4).blk t).view.emb (ix2 p q))
  rw [emb3_4 t p q ⟨t.val * 5000 + p.val, hi⟩ rfl]
  refine comb_block_point _ _ _ _ (Gen.iblk3 V c 0 t) (Gen.iblk3 V c 1 t) (Gen.iblk3 V c 2 t) (Gen.iblk3 V c 3 t) p q
    ⟨t.val * 5000 + p.val, hi⟩ ?_ ?_ ?_ ?_
  · exact congrArg (V c main_v89) (emb3_0 t p q ⟨t.val * 5000 + p.val, hi⟩ rfl)
  · exact congrArg (V c main_v71) (emb3_1 t p q ⟨t.val * 5000 + p.val, hi⟩ rfl)
  · exact congrArg (V c main_v32) (emb3_2 t p 0 ⟨t.val * 5000 + p.val, hi⟩ rfl)
  · exact congrArg (V c main_arg9) (emb3_3 t q)

/-- An index of the array is in point t's block iff each coordinate is in the block's range on its axis. -/
theorem mem_blk3 (t : Fin cfg3.N) (i : S50000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v90).slice (win3_4.rect t)).set ↔ _
  rw [View.set_slice_whole, Rect.mem_set_unit]
  exact Iff.rfl

/-- Row r lies in the block of point r / 5000: the ten blocks of rows tile the array. -/
theorem cover3 (i : S50000x128.Idx) :
    ∃ t : Fin cfg3.N, (cfg3.win 4).flush t = true ∧ i ∈ ((cfg3.win 4).blk t).view.set := by
  have hi0 : (i 0).val < 50000 := (i 0).isLt
  have hi1 : (i 1).val < 128 := (i 1).isLt
  have hN : cfg3.N = 10 := rfl
  let t : Fin cfg3.N := ⟨(i 0).val / 5000, by omega⟩
  obtain ⟨-, -, -, -, -, -, -, e7, e8⟩ := index_facts3 t
  have e7' : win3_4.index t (0 : Fin 2) = (i 0).val / 5000 := e7
  refine ⟨t, Gen.flush3_4 t, ?_⟩
  rw [mem_blk3]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 128 ≤ (i 1).val ∧ (i 1).val < win3_4.index t (1 : Fin 2) * 128 + 128; omega

/-- After the region the output array is the combination of the four arrays as the region finds them. -/
theorem region3_value (c : Dev nD) :
    (Gen.dat3 (F := Ideal) V c).arrAt 4 cfg3.N
      = Cert.Spec.comb (V c main_v89) (V c main_v71) (V c main_v32) (V c main_arg9) :=
  (Gen.dat3 (F := Ideal) V c).arrAt_eq_of_cover 4
    (Cert.Spec.comb (V c main_v89) (V c main_v71) (V c main_v32) (V c main_arg9))
    (fun t _ => flushed3_eq V c t) cover3

end Cert.KernelIdeal.RegionValue

end
-- ==== Proof.HeadPoint.lean ====
/-
  The head region's body as one function of whole arrays.

  The body computes, on the pooled features f : [100,138],
    z1 = f · W1 + b1,  a1 = lrelu z1,  n1 = BN(a1; g1, be1),
    z2 = n1 · W2 + b2, a2 = lrelu z2,  n2 = BN(a2; g2, be2),
    z3 = n2 · W3 + b3,
  where BN subtracts the column mean over the 100 rows and scales by rsqrt (var + ε), var the mean of the
  squared deviations.  The body keeps each bias, mean, variance and scale as a row [1,n] and broadcasts the
  row over the 100 rows; the specification keeps them as vectors [n] and broadcasts along named axes.  Each
  stage of the body is shown equal, as a function of whole arrays on the extended reals, to the
  specification's stage:
    • a product accumulated into the zero splat is the sum over the contracted coordinate of the operands'
      products, which is what the host's product of the same operands reads (no accumulator, 0 + s = s);
    • a column sum is the sum over the 100 row coordinates on both sides (the host's starts from 0);
    • a vector cast to a row and a row broadcast over rows read the same entries as the host's broadcasts;
    • a pointwise operation commutes with such re-indexings;
    • the specification's variance divides by 100 − 0 under the guard 100 − 0 > 0: the divisor is 100 and
      the guard holds, so it is the body's quotient by the splat of 100.
-/
import proofs.«170490_j47047071761043_1_alg».proof.Proof.Gen.KernelIdeal.Frame
import proofs.«170490_j47047071761043_1_alg».proof.Proof.Spec
import Idealize.ShloMosaic.PureOps.Ideal.Laws
import Idealize.ShloMosaic.Lib.Pipeline.Value
import Idealize.ShloMosaic.Lib.ValueIdx
import Idealize.ShloMosaic.Lib.ValueLayout
import Idealize.ShloMosaic.Lib.IdealHost

noncomputable section
open Idealize.ShloMosaic Idealize.SL.Sem Cert.KernelIdeal
open scoped BigOperators

namespace Cert.KernelIdeal.RegionValue.Head

section Layout
open Idealize.ShloMosaic.ValueIdx
variable {α : Type}

/-- A row `[1, b]` broadcast along axes (0, 1) to `[a, b]` reads, at `(p, c)`, the row at `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[b]` broadcast along axis 1 to the row `[1, b]` reads, at `(u, c)`, the vector at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply ![1] h x (ix2 u c) (ix1 c) fun ax => ?_
  match ax with
  | ⟨0, _⟩ =>
    show c.val = if b = 1 then 0 else c.val
    split
    · have := c.isLt; omega
    · rfl

/-- The kernel's broadcast of a row over the rows of `[m, n]` is the host's broadcast along axes (0, 1). -/
theorem broadcastTo_row_eq {m n : ℕ} (y : (⟨2, ![1, n]⟩ : Shape).Idx → α)
    (h : (⟨2, ![1, n]⟩ : Shape).Broadcasts ⟨2, ![m, n]⟩)
    (h' : (⟨2, ![1, n]⟩ : Shape).BroadcastsInDim ⟨2, ![m, n]⟩ ![0, 1]) :
    broadcastTo ⟨2, ![m, n]⟩ y h = broadcastInDim ⟨2, ![m, n]⟩ ![0, 1] h' y := by
  funext j
  obtain ⟨p, q, rfl⟩ : ∃ (p : Fin m) (q : Fin n), j = ix2 p q := ⟨j 0, j 1, eq_ix2 j⟩
  rw [broadcastTo_1b_ab_apply, broadcastInDim_1b_ab_apply]

/-- The kernel's cast of a vector to a row is the host's broadcast of it along axis 1. -/
theorem shapeCast_row_eq {n : ℕ} (b : (⟨1, ![n]⟩ : Shape).Idx → α)
    (h : (⟨1, ![n]⟩ : Shape).ShapeCasts ⟨2, ![1, n]⟩)
    (h' : (⟨1, ![n]⟩ : Shape).BroadcastsInDim ⟨2, ![1, n]⟩ ![1]) :
    shapeCast ⟨2, ![1, n]⟩ b h = broadcastInDim ⟨2, ![1, n]⟩ ![1] h' b := by
  funext j
  obtain ⟨p, q, rfl⟩ : ∃ (p : Fin 1) (q : Fin n), j = ix2 p q := ⟨j 0, j 1, eq_ix2 j⟩
  rw [shapeCast_a_1a_apply, broadcastInDim_b_1b_apply]

end Layout

/-- The word of the float 100.0 is the real 100. -/
theorem hundred : Ideal.ofBits .f32 0x42C80000#32 = ((100 : ℝ) : EReal) := by
  simp [Ideal.ofBits, Ideal.ieee, -EReal.coe_mul]; norm_num

/-- The variance's divisor 100 − 0 is 100. -/
theorem varDen_apply (i : Cert.ReferenceIdeal.S_.Idx) : Cert.Spec.varDen i = Ideal.ofBits .f32 0x42C80000#32 := by
  show Ideal.ofBits .f32 0x42C80000#32 - (((0#32 : BitVec 32).toInt : ℝ) : EReal) = _
  simp

/-- The guard 100 − 0 > 0 holds. -/
theorem varDen_pos (i : Cert.ReferenceIdeal.S_.Idx) :
    cmpf .ogt Cert.Spec.varDen (constant (F := Ideal) Cert.ReferenceIdeal.S_ .f32 0x00000000#32) i = 1#1 := by
  show Ideal.cmp .ogt (Cert.Spec.varDen i) (Ideal.ofBits .f32 0x00000000#32) = 1#1
  rw [varDen_apply, hundred, Ideal.ofBits_zero_f32]
  show BitVec.ofBool (decide ((0 : EReal) < ((100 : ℝ) : EReal))) = 1#1
  rw [decide_eq_true (EReal.coe_pos.mpr (by norm_num))]
  rfl

/-- A product accumulated into the zero splat is the host's product of the same operands. -/
theorem matmul_zero_eq_dot {sl sr so : Shape} {φ₁ φ₂ : FTy} (d : DotDims sl sr so) (p q : Option ContractPrecision)
    (x : FVec Ideal sl φ₁) (w : FVec Ideal sr φ₂) :
    matmul d p x w (constant (F := Ideal) so .f32 0x00000000#32) = Host.dotGeneral d q x w := by
  funext j
  show FloatOps.matmul d p x w (constant so .f32 0x00000000#32) j = FloatOps.dotGeneral d q .single x w j
  rw [Ideal.matmul_constant_zero_apply, Ideal.dotGeneral_apply]

/-! ## Width 92 -/

/-- The kernel's column sums of a [100, 92] array. -/
def kcolsum92 (a : FVec Ideal S100x92 .f32) : FVec Ideal S92 .f32 :=
  multiReduction (F := Ideal) .add [0] S92 a 0x00000000#32 Cert.KernelIdeal.Facts₀.reduces_S100x92_S92 (.inl rfl) rfl

/-- They are the host's. -/
theorem kcolsum92_eq (a : FVec Ideal S100x92 .f32) :
    kcolsum92 a
      = Host.reduceAdd (F := Ideal) a (constant Cert.ReferenceIdeal.S_ .f32 0x00000000#32) Cert.ReferenceIdeal.Facts₀.reducesTo_S100x92_S92_d0 Cert.ReferenceIdeal.Facts₀.h_S_ := by
  funext j
  refine (Ideal.multiReduction_add_single a 0x00000000#32 Cert.KernelIdeal.Facts₀.reduces_S100x92_S92 (.inl rfl) rfl j).trans ?_
  refine ((Ideal.hostReduceAdd_single Cert.ReferenceIdeal.Facts₀.reducesTo_S100x92_S92_d0 Cert.KernelIdeal.Facts₀.reduces_S100x92_S92 a (Ideal.ofBits .f32 0x00000000#32) j).trans ?_).symm
  rw [Ideal.ofBits_zero_f32, zero_add]

/-- Under the guard the variance is the quotient. -/
theorem select_varDen92 (X Y : FVec Ideal S92 .f32) :
    select (broadcastInDim S92 ![] Cert.ReferenceIdeal.Facts₀.bcast_S_S92 (cmpf .ogt Cert.Spec.varDen (constant (F := Ideal) Cert.ReferenceIdeal.S_ .f32 0x00000000#32))) X Y = X := by
  funext j
  show Scalar.select (cmpf .ogt Cert.Spec.varDen (constant (F := Ideal) Cert.ReferenceIdeal.S_ .f32 0x00000000#32) _) (X j) (Y j) = X j
  rw [varDen_pos]
  exact Idealize.ShloMosaic.ValueIdx.select_one _ _

/-- The divisor broadcast is the splat of 100.0. -/
theorem bc_varDen92 : broadcastInDim S92 ![] Cert.ReferenceIdeal.Facts₀.bcast_S_S92 Cert.Spec.varDen
    = broadcast S92 (Scalar.ofBits (F := Ideal) .f32 0x42C80000#32) := by
  funext j
  exact varDen_apply _

/-- The kernel's leaky rectifier. -/
def klrelu92 (s : FVec Ideal S100x92 .f32) : FVec Ideal S100x92 .f32 :=
  select (cmpf .ogt s (broadcast S100x92 (Scalar.ofBits (F := Ideal) .f32 0x00000000#32))) s
    (mulf (broadcast S100x92 (Scalar.ofBits (F := Ideal) .f32 0x3C23D70A#32)) s)

theorem klrelu92_eq (s : FVec Ideal S100x92 .f32) : klrelu92 s = Cert.Spec.lrelu92 s := rfl

/-- The kernel's batch normalisation over the 100 rows: mean and variance kept as rows. -/
def kbn92 (a : FVec Ideal S100x92 .f32) (g be : FVec Ideal S92 .f32) : FVec Ideal S100x92 .f32 :=
  have mrow : FVec Ideal S1x92 .f32 :=
    divf (shapeCast S1x92 (kcolsum92 a) Cert.KernelIdeal.Facts₀.shapeCasts_S92_S1x92)
      (broadcast S1x92 (Scalar.ofBits (F := Ideal) .f32 0x42C80000#32))
  have cen : FVec Ideal S100x92 .f32 := subf a (broadcastTo S100x92 mrow Cert.KernelIdeal.Facts₀.broadcasts_S1x92_S100x92)
  have vrow : FVec Ideal S1x92 .f32 :=
    divf (shapeCast S1x92 (kcolsum92 (mulf cen cen)) Cert.KernelIdeal.Facts₀.shapeCasts_S92_S1x92)
      (broadcast S1x92 (Scalar.ofBits (F := Ideal) .f32 0x42C80000#32))
  have inv : FVec Ideal S1x92 .f32 := rsqrt (addf vrow (broadcast S1x92 (Scalar.ofBits (F := Ideal) .f32 0x3727C5AC#32)))
  addf (mulf (mulf cen (broadcastTo S100x92 inv Cert.KernelIdeal.Facts₀.broadcasts_S1x92_S100x92))
      (broadcastTo S100x92 (shapeCast S1x92 g Cert.KernelIdeal.Facts₀.shapeCasts_S92_S1x92) Cert.KernelIdeal.Facts₀.broadcasts_S1x92_S100x92))
    (broadcastTo S100x92 (shapeCast S1x92 be Cert.KernelIdeal.Facts₀.shapeCasts_S92_S1x92) Cert.KernelIdeal.Facts₀.broadcasts_S1x92_S100x92)

theorem kbn92_eq (a : FVec Ideal S100x92 .f32) (g be : FVec Ideal S92 .f32) : kbn92 a g be = Cert.Spec.bn92 a g be := by
  unfold kbn92 Cert.Spec.bn92 Cert.Spec.var92
  rw [select_varDen92, bc_varDen92]
  simp only [kcolsum92_eq, shapeCast_row_eq (n := 92) (h' := Cert.ReferenceIdeal.Facts₀.bcast_S92_S1x92_1),
    broadcastTo_row_eq (m := 100) (n := 92) (h' := Cert.ReferenceIdeal.Facts₀.bcast_S1x92_S100x92_0_1)]
  rfl

/-! ## Width 46 -/

/-- The kernel's column sums of a [100, 46] array. -/
def kcolsum46 (a : FVec Ideal S100x46 .f32) : FVec Ideal S46 .f32 :=
  multiReduction (F := Ideal) .add [0] S46 a 0x00000000#32 Cert.KernelIdeal.Facts₀.reduces_S100x46_S46 (.inl rfl) rfl

/-- They are the host's. -/
theorem kcolsum46_eq (a : FVec Ideal S100x46 .f32) :
    kcolsum46 a
      = Host.reduceAdd (F := Ideal) a (constant Cert.ReferenceIdeal.S_ .f32 0x00000000#32) Cert.ReferenceIdeal.Facts₀.reducesTo_S100x46_S46_d0 Cert.ReferenceIdeal.Facts₀.h_S_ := by
  funext j
  refine (Ideal.multiReduction_add_single a 0x00000000#32 Cert.KernelIdeal.Facts₀.reduces_S100x46_S46 (.inl rfl) rfl j).trans ?_
  refine ((Ideal.hostReduceAdd_single Cert.ReferenceIdeal.Facts₀.reducesTo_S100x46_S46_d0 Cert.KernelIdeal.Facts₀.reduces_S100x46_S46 a (Ideal.ofBits .f32 0x00000000#32) j).trans ?_).symm
  rw [Ideal.ofBits_zero_f32, zero_add]

/-- Under the guard the variance is the quotient. -/
theorem select_varDen46 (X Y : FVec Ideal S46 .f32) :
    select (broadcastInDim S46 ![] Cert.ReferenceIdeal.Facts₀.bcast_S_S46 (cmpf .ogt Cert.Spec.varDen (constant (F := Ideal) Cert.ReferenceIdeal.S_ .f32 0x00000000#32))) X Y = X := by
  funext j
  show Scalar.select (cmpf .ogt Cert.Spec.varDen (constant (F := Ideal) Cert.ReferenceIdeal.S_ .f32 0x00000000#32) _) (X j) (Y j) = X j
  rw [varDen_pos]
  exact Idealize.ShloMosaic.ValueIdx.select_one _ _

/-- The divisor broadcast is the splat of 100.0. -/
theorem bc_varDen46 : broadcastInDim S46 ![] Cert.ReferenceIdeal.Facts₀.bcast_S_S46 Cert.Spec.varDen
    = broadcast S46 (Scalar.ofBits (F := Ideal) .f32 0x42C80000#32) := by
  funext j
  exact varDen_apply _

/-- The kernel's leaky rectifier. -/
def klrelu46 (s : FVec Ideal S100x46 .f32) : FVec Ideal S100x46 .f32 :=
  select (cmpf .ogt s (broadcast S100x46 (Scalar.ofBits (F := Ideal) .f32 0x00000000#32))) s
    (mulf (broadcast S100x46 (Scalar.ofBits (F := Ideal) .f32 0x3C23D70A#32)) s)

theorem klrelu46_eq (s : FVec Ideal S100x46 .f32) : klrelu46 s = Cert.Spec.lrelu46 s := rfl

/-- The kernel's batch normalisation over the 100 rows: mean and variance kept as rows. -/
def kbn46 (a : FVec Ideal S100x46 .f32) (g be : FVec Ideal S46 .f32) : FVec Ideal S100x46 .f32 :=
  have mrow : FVec Ideal S1x46 .f32 :=
    divf (shapeCast S1x46 (kcolsum46 a) Cert.KernelIdeal.Facts₀.shapeCasts_S46_S1x46)
      (broadcast S1x46 (Scalar.ofBits (F := Ideal) .f32 0x42C80000#32))
  have cen : FVec Ideal S100x46 .f32 := subf a (broadcastTo S100x46 mrow Cert.KernelIdeal.Facts₀.broadcasts_S1x46_S100x46)
  have vrow : FVec Ideal S1x46 .f32 :=
    divf (shapeCast S1x46 (kcolsum46 (mulf cen cen)) Cert.KernelIdeal.Facts₀.shapeCasts_S46_S1x46)
      (broadcast S1x46 (Scalar.ofBits (F := Ideal) .f32 0x42C80000#32))
  have inv : FVec Ideal S1x46 .f32 := rsqrt (addf vrow (broadcast S1x46 (Scalar.ofBits (F := Ideal) .f32 0x3727C5AC#32)))
  addf (mulf (mulf cen (broadcastTo S100x46 inv Cert.KernelIdeal.Facts₀.broadcasts_S1x46_S100x46))
      (broadcastTo S100x46 (shapeCast S1x46 g Cert.KernelIdeal.Facts₀.shapeCasts_S46_S1x46) Cert.KernelIdeal.Facts₀.broadcasts_S1x46_S100x46))
    (broadcastTo S100x46 (shapeCast S1x46 be Cert.KernelIdeal.Facts₀.shapeCasts_S46_S1x46) Cert.KernelIdeal.Facts₀.broadcasts_S1x46_S100x46)

theorem kbn46_eq (a : FVec Ideal S100x46 .f32) (g be : FVec Ideal S46 .f32) : kbn46 a g be = Cert.Spec.bn46 a g be := by
  unfold kbn46 Cert.Spec.bn46 Cert.Spec.var46
  rw [select_varDen46, bc_varDen46]
  simp only [kcolsum46_eq, shapeCast_row_eq (n := 46) (h' := Cert.ReferenceIdeal.Facts₀.bcast_S46_S1x46_1),
    broadcastTo_row_eq (m := 100) (n := 46) (h' := Cert.ReferenceIdeal.Facts₀.bcast_S1x46_S100x46_0_1)]
  rfl

/-! ## The three affine layers and the payloads as compositions of the stages -/

/-- The kernel's first layer before its activation: f · w + b. -/
def kz1 (f : FVec Ideal S100x138 .f32) (w : FVec Ideal S138x92 .f32) (b : FVec Ideal S92 .f32) : FVec Ideal S100x92 .f32 :=
  addf (matmul (F := Ideal) dot_S100x138_S138x92_S100x92_1_0_0_1_n_n (some .fp32)
      (shapeCast S100x138 f Cert.KernelIdeal.Facts₀.shapeCasts_S100x138_S100x138) w (constant S100x92 .f32 0x00000000#32))
    (broadcastTo S100x92 (shapeCast S1x92 b Cert.KernelIdeal.Facts₀.shapeCasts_S92_S1x92) Cert.KernelIdeal.Facts₀.broadcasts_S1x92_S100x92)

theorem kz1_eq (f : FVec Ideal S100x138 .f32) (w : FVec Ideal S138x92 .f32) (b : FVec Ideal S92 .f32) :
    kz1 f w b = Cert.Spec.z1 f w b := by
  unfold kz1 Cert.Spec.z1
  rw [shapeCast_self, matmul_zero_eq_dot _ _ none, shapeCast_row_eq (n := 92) (h' := Cert.ReferenceIdeal.Facts₀.bcast_S92_S1x92_1),
    broadcastTo_row_eq (m := 100) (n := 92) (h' := Cert.ReferenceIdeal.Facts₀.bcast_S1x92_S100x92_0_1)]
  rfl

/-- The first part of the body is its stages composed, ending in the second product. -/
theorem pay1_stages (f : FVec Ideal S100x138 .f32) (w1 : FVec Ideal S138x92 .f32) (b1 g1 be1 : FVec Ideal S92 .f32)
    (w2 : FVec Ideal S92x46 .f32) :
    Gen.k4_pay1 (F := Ideal) f w1 b1 g1 be1 w2
      = matmul (F := Ideal) dot_S100x92_S92x46_S100x46_1_0_0_1_n_n (some .fp32) (kbn92 (klrelu92 (kz1 f w1 b1)) g1 be1) w2
          (constant S100x46 .f32 0x00000000#32) := rfl

/-- The first part is the reference's second product of the normalised first layer. -/
theorem k4_pay1_eq (f : FVec Ideal S100x138 .f32) (w1 : FVec Ideal S138x92 .f32) (b1 g1 be1 : FVec Ideal S92 .f32)
    (w2 : FVec Ideal S92x46 .f32) :
    Gen.k4_pay1 (F := Ideal) f w1 b1 g1 be1 w2
      = Host.dotGeneral (F := Ideal) Cert.ReferenceIdeal.dot_S100x92_S92x46_S100x46_1_0_0_1_n_n none
          (Cert.Spec.bn92 (Cert.Spec.lrelu92 (Cert.Spec.z1 f w1 b1)) g1 be1) w2 := by
  rw [pay1_stages, kz1_eq, klrelu92_eq, kbn92_eq, matmul_zero_eq_dot _ _ none]
  rfl

/-- The second part of the body is its stages composed. -/
theorem pay2_stages (v40 : FVec Ideal S100x46 .f32) (b2 g2 be2 : FVec Ideal S46 .f32) (w3 : FVec Ideal S46x1 .f32)
    (b3 : FVec Ideal S1 .f32) :
    Gen.k4_pay2 (F := Ideal) v40 b2 g2 be2 w3 b3
      = addf (matmul (F := Ideal) dot_S100x46_S46x1_S100x1_1_0_0_1_n_n (some .fp32)
            (kbn46 (klrelu46 (addf v40 (broadcastTo S100x46 (shapeCast S1x46 b2 Cert.KernelIdeal.Facts₀.shapeCasts_S46_S1x46) Cert.KernelIdeal.Facts₀.broadcasts_S1x46_S100x46))) g2 be2)
            w3 (constant S100x1 .f32 0x00000000#32))
          (broadcastTo S100x1 (shapeCast S1x1 b3 Cert.KernelIdeal.Facts₀.shapeCasts_S1_S1x1) Cert.KernelIdeal.Facts₀.broadcasts_S1x1_S100x1) := rfl

/-- THE BODY'S RESULT is the head of the specification on the eleven arrays. -/
theorem head_eq (f : FVec Ideal S100x138 .f32) (w1 : FVec Ideal S138x92 .f32) (b1 g1 be1 : FVec Ideal S92 .f32)
    (w2 : FVec Ideal S92x46 .f32) (b2 g2 be2 : FVec Ideal S46 .f32) (w3 : FVec Ideal S46x1 .f32) (b3 : FVec Ideal S1 .f32) :
    Gen.k4_pay2 (F := Ideal) (Gen.k4_pay1 (F := Ideal) f w1 b1 g1 be1 w2) b2 g2 be2 w3 b3
      = Cert.Spec.head f w1 b1 g1 be1 w2 b2 g2 be2 w3 b3 := by
  rw [pay2_stages, k4_pay1_eq]
  unfold Cert.Spec.head Cert.Spec.z3 Cert.Spec.z2
  rw [shapeCast_row_eq (n := 46) (h' := Cert.ReferenceIdeal.Facts₀.bcast_S46_S1x46_1),
    broadcastTo_row_eq (m := 100) (n := 46) (h' := Cert.ReferenceIdeal.Facts₀.bcast_S1x46_S100x46_0_1),
    shapeCast_row_eq (n := 1) (h' := Cert.ReferenceIdeal.Facts₀.bcast_S1_S1x1_1),
    broadcastTo_row_eq (m := 100) (n := 1) (h' := Cert.ReferenceIdeal.Facts₀.bcast_S1x1_S100x1_0_1),
    klrelu46_eq, kbn46_eq, matmul_zero_eq_dot _ _ none]
  rfl

end Cert.KernelIdeal.RegionValue.Head

end
-- ==== Proof.Region4.lean ====
/-
  The head region as one function of whole arrays.

  The region's grid has one point and every window's block is its whole array: each index map is constantly
  block 0, and the block's extents are the array's.  So the eleven input blocks at the point are the eleven
  arrays as the region finds them, the body's result is the specification's head of those arrays (the
  payload's stages, composed), and the one block the point writes back is the whole output array, which it
  covers.  After the region the output array is therefore the head of the eleven arrays.
-/
import proofs.«170490_j47047071761043_1_alg».proof.Proof.Gen.KernelIdeal.Frame
import proofs.«170490_j47047071761043_1_alg».proof.Proof.HeadPoint

set_option maxRecDepth 16384

noncomputable section

namespace Cert.KernelIdeal.RegionValue

open Idealize.ShloMosaic Idealize.ShloMosaic.TcCoe Idealize.SL.Sem Cert.KernelIdeal
open Idealize.ShloMosaic.Pipeline (Dat)
open Idealize.ShloMosaic.ValueIdx

theorem off2_zero4 : (![0, 0] : Fin 2 → Nat) = fun _ => 0 := funext fun a => by fin_cases a <;> rfl
theorem off1_zero4 : (![0] : Fin 1 → Nat) = fun _ => 0 := funext fun a => by fin_cases a; rfl

/-! ## The printed index maps over the one point: every window sits at block 0 on every axis -/

theorem idx4_0 : ∀ t : Fin cfg4.N, win4_0.index t (0 : Fin 2) = 0 ∧ win4_0.index t (1 : Fin 2) = 0 :=
  (by decide +kernel : ∀ t : Fin grid4.N, _)

theorem idx4_1 : ∀ t : Fin cfg4.N, win4_1.index t (0 : Fin 2) = 0 ∧ win4_1.index t (1 : Fin 2) = 0 :=
  (by decide +kernel : ∀ t : Fin grid4.N, _)

theorem idx4_2 : ∀ t : Fin cfg4.N, win4_2.index t (0 : Fin 1) = 0 :=
  (by decide +kernel : ∀ t : Fin grid4.N, _)

theorem idx4_3 : ∀ t : Fin cfg4.N, win4_3.index t (0 : Fin 1) = 0 :=
  (by decide +kernel : ∀ t : Fin grid4.N, _)

theorem idx4_4 : ∀ t : Fin cfg4.N, win4_4.index t (0 : Fin 1) = 0 :=
  (by decide +kernel : ∀ t : Fin grid4.N, _)

theorem idx4_5 : ∀ t : Fin cfg4.N, win4_5.index t (0 : Fin 2) = 0 ∧ win4_5.index t (1 : Fin 2) = 0 :=
  (by decide +kernel : ∀ t : Fin grid4.N, _)

theorem idx4_6 : ∀ t : Fin cfg4.N, win4_6.index t (0 : Fin 1) = 0 :=
  (by decide +kernel : ∀ t : Fin grid4.N, _)

theorem idx4_7 : ∀ t : Fin cfg4.N, win4_7.index t (0 : Fin 1) = 0 :=
  (by decide +kernel : ∀ t : Fin grid4.N, _)

theorem idx4_8 : ∀ t : Fin cfg4.N, win4_8.index t (0 : Fin 1) = 0 :=
  (by decide +kernel : ∀ t : Fin grid4.N, _)

theorem idx4_9 : ∀ t : Fin cfg4.N, win4_9.index t (0 : Fin 2) = 0 ∧ win4_9.index t (1 : Fin 2) = 0 :=
  (by decide +kernel : ∀ t : Fin grid4.N, _)

theorem idx4_10 : ∀ t : Fin cfg4.N, win4_10.index t (0 : Fin 1) = 0 :=
  (by decide +kernel : ∀ t : Fin grid4.N, _)

theorem idx4_11 : ∀ t : Fin cfg4.N, win4_11.index t (0 : Fin 2) = 0 ∧ win4_11.index t (1 : Fin 2) = 0 :=
  (by decide +kernel : ∀ t : Fin grid4.N, _)

variable (V : (c : Dev nD) → (b : Ref sig .tc) → Buf (Elt Ideal) ((c : Thread nD τ).loc b))

/-! ## Each input window's block at the point is its whole array -/

theorem iblk4_0_eq (c : Dev nD) (t : Fin cfg4.N) :
    (Gen.iblk4 (F := Ideal) V c 0 t : S100x138.Idx → EReal) = V c main_v120 := by
  obtain ⟨e0, e1⟩ := idx4_0 t
  funext j
  unfold Gen.iblk4
  rw [View.read_apply]
  show V c main_v120 (((cfg4.win 0).blk t).view.emb j) = V c main_v120 j
  refine congrArg (V c main_v120) (funext fun a => Fin.ext ?_)
  match a with
  | ⟨0, _⟩ => show win4_0.index t (0 : Fin 2) * 100 + 1 * (j 0).val = (j 0).val; omega
  | ⟨1, _⟩ => show win4_0.index t (1 : Fin 2) * 138 + 1 * (j 1).val = (j 1).val; omega

theorem iblk4_1_eq (c : Dev nD) (t : Fin cfg4.N) :
    (Gen.iblk4 (F := Ideal) V c 1 t : S138x92.Idx → EReal) = V c main_arg14 := by
  obtain ⟨e0, e1⟩ := idx4_1 t
  funext j
  unfold Gen.iblk4
  rw [View.read_apply]
  show V c main_arg14 (((cfg4.win 1).blk t).view.emb j) = V c main_arg14 j
  refine congrArg (V c main_arg14) (funext fun a => Fin.ext ?_)
  match a with
  | ⟨0, _⟩ => show win4_1.index t (0 : Fin 2) * 138 + 1 * (j 0).val = (j 0).val; omega
  | ⟨1, _⟩ => show win4_1.index t (1 : Fin 2) * 92 + 1 * (j 1).val = (j 1).val; omega

theorem iblk4_2_eq (c : Dev nD) (t : Fin cfg4.N) :
    (Gen.iblk4 (F := Ideal) V c 2 t : S92.Idx → EReal) = V c main_arg15 := by
  obtain e0 := idx4_2 t
  funext j
  unfold Gen.iblk4
  rw [View.read_apply]
  show V c main_arg15 (((cfg4.win 2).blk t).view.emb j) = V c main_arg15 j
  refine congrArg (V c main_arg15) (funext fun a => Fin.ext ?_)
  match a with
  | ⟨0, _⟩ => show win4_2.index t (0 : Fin 1) * 92 + 1 * (j 0).val = (j 0).val; omega

theorem iblk4_3_eq (c : Dev nD) (t : Fin cfg4.N) :
    (Gen.iblk4 (F := Ideal) V c 3 t : S92.Idx → EReal) = V c main_arg16 := by
  obtain e0 := idx4_3 t
  funext j
  unfold Gen.iblk4
  rw [View.read_apply]
  show V c main_arg16 (((cfg4.win 3).blk t).view.emb j) = V c main_arg16 j
  refine congrArg (V c main_arg16) (funext fun a => Fin.ext ?_)
  match a with
  | ⟨0, _⟩ => show win4_3.index t (0 : Fin 1) * 92 + 1 * (j 0).val = (j 0).val; omega

theorem iblk4_4_eq (c : Dev nD) (t : Fin cfg4.N) :
    (Gen.iblk4 (F := Ideal) V c 4 t : S92.Idx → EReal) = V c main_arg17 := by
  obtain e0 := idx4_4 t
  funext j
  unfold Gen.iblk4
  rw [View.read_apply]
  show V c main_arg17 (((cfg4.win 4).blk t).view.emb j) = V c main_arg17 j
  refine congrArg (V c main_arg17) (funext fun a => Fin.ext ?_)
  match a with
  | ⟨0, _⟩ => show win4_4.index t (0 : Fin 1) * 92 + 1 * (j 0).val = (j 0).val; omega

theorem iblk4_5_eq (c : Dev nD) (t : Fin cfg4.N) :
    (Gen.iblk4 (F := Ideal) V c 5 t : S92x46.Idx → EReal) = V c main_arg18 := by
  obtain ⟨e0, e1⟩ := idx4_5 t
  funext j
  unfold Gen.iblk4
  rw [View.read_apply]
  show V c main_arg18 (((cfg4.win 5).blk t).view.emb j) = V c main_arg18 j
  refine congrArg (V c main_arg18) (funext fun a => Fin.ext ?_)
  match a with
  | ⟨0, _⟩ => show win4_5.index t (0 : Fin 2) * 92 + 1 * (j 0).val = (j 0).val; omega
  | ⟨1, _⟩ => show win4_5.index t (1 : Fin 2) * 46 + 1 * (j 1).val = (j 1).val; omega

theorem iblk4_6_eq (c : Dev nD) (t : Fin cfg4.N) :
    (Gen.iblk4 (F := Ideal) V c 6 t : S46.Idx → EReal) = V c main_arg19 := by
  obtain e0 := idx4_6 t
  funext j
  unfold Gen.iblk4
  rw [View.read_apply]
  show V c main_arg19 (((cfg4.win 6).blk t).view.emb j) = V c main_arg19 j
  refine congrArg (V c main_arg19) (funext fun a => Fin.ext ?_)
  match a with
  | ⟨0, _⟩ => show win4_6.index t (0 : Fin 1) * 46 + 1 * (j 0).val = (j 0).val; omega

theorem iblk4_7_eq (c : Dev nD) (t : Fin cfg4.N) :
    (Gen.iblk4 (F := Ideal) V c 7 t : S46.Idx → EReal) = V c main_arg20 := by
  obtain e0 := idx4_7 t
  funext j
  unfold Gen.iblk4
  rw [View.read_apply]
  show V c main_arg20 (((cfg4.win 7).blk t).view.emb j) = V c main_arg20 j
  refine congrArg (V c main_arg20) (funext fun a => Fin.ext ?_)
  match a with
  | ⟨0, _⟩ => show win4_7.index t (0 : Fin 1) * 46 + 1 * (j 0).val = (j 0).val; omega

theorem iblk4_8_eq (c : Dev nD) (t : Fin cfg4.N) :
    (Gen.iblk4 (F := Ideal) V c 8 t : S46.Idx → EReal) = V c main_arg21 := by
  obtain e0 := idx4_8 t
  funext j
  unfold Gen.iblk4
  rw [View.read_apply]
  show V c main_arg21 (((cfg4.win 8).blk t).view.emb j) = V c main_arg21 j
  refine congrArg (V c main_arg21) (funext fun a => Fin.ext ?_)
  match a with
  | ⟨0, _⟩ => show win4_8.index t (0 : Fin 1) * 46 + 1 * (j 0).val = (j 0).val; omega

theorem iblk4_9_eq (c : Dev nD) (t : Fin cfg4.N) :
    (Gen.iblk4 (F := Ideal) V c 9 t : S46x1.Idx → EReal) = V c main_arg22 := by
  obtain ⟨e0, e1⟩ := idx4_9 t
  funext j
  unfold Gen.iblk4
  rw [View.read_apply]
  show V c main_arg22 (((cfg4.win 9).blk t).view.emb j) = V c main_arg22 j
  refine congrArg (V c main_arg22) (funext fun a => Fin.ext ?_)
  match a with
  | ⟨0, _⟩ => show win4_9.index t (0 : Fin 2) * 46 + 1 * (j 0).val = (j 0).val; omega
  | ⟨1, _⟩ => show win4_9.index t (1 : Fin 2) * 1 + 1 * (j 1).val = (j 1).val; omega

theorem iblk4_10_eq (c : Dev nD) (t : Fin cfg4.N) :
    (Gen.iblk4 (F := Ideal) V c 10 t : S1.Idx → EReal) = V c main_arg23 := by
  obtain e0 := idx4_10 t
  funext j
  unfold Gen.iblk4
  rw [View.read_apply]
  show V c main_arg23 (((cfg4.win 10).blk t).view.emb j) = V c main_arg23 j
  refine congrArg (V c main_arg23) (funext fun a => Fin.ext ?_)
  match a with
  | ⟨0, _⟩ => show win4_10.index t (0 : Fin 1) * 1 + 1 * (j 0).val = (j 0).val; omega

/-- An entry of the output's block is the same entry of the output array. -/
theorem emb4_11 (t : Fin cfg4.N) (j : S100x1.Idx) : ((cfg4.win 11).blk t).view.emb j = j := by
  obtain ⟨e0, e1⟩ := idx4_11 t
  funext a; apply Fin.ext
  match a with
  | ⟨0, _⟩ => show win4_11.index t (0 : Fin 2) * 100 + 1 * (j 0).val = (j 0).val; omega
  | ⟨1, _⟩ => show win4_11.index t (1 : Fin 2) * 1 + 1 * (j 1).val = (j 1).val; omega

/-- What the point writes back is the (whole) block of the head of the eleven arrays. -/
theorem flushed4_eq (c : Dev nD) (t : Fin cfg4.N) :
    (Gen.dat4 (F := Ideal) V c).flushed 11 t
      = ((cfg4.win 11).blk t).view.read (Elt Ideal) (Cert.Spec.head (V c main_v120) (V c main_arg14) (V c main_arg15) (V c main_arg16) (V c main_arg17) (V c main_arg18) (V c main_arg19) (V c main_arg20) (V c main_arg21) (V c main_arg22) (V c main_arg23)) := by
  show (cfg4.win 11).cut (grid4.coords t) ((Gen.dat4 (F := Ideal) V c).after 11 t) = _
  rw [Gen.after4_11]
  unfold Gen.out4_11
  rw [View.canon_unit_zero off2_zero4]
  simp only [View.ld_unit_zero (S := S100x138) off2_zero4, View.ld_unit_zero (S := S138x92) off2_zero4,
    View.ld_unit_zero (S := S92) off1_zero4, View.ld_unit_zero (S := S92x46) off2_zero4,
    View.ld_unit_zero (S := S46) off1_zero4, View.ld_unit_zero (S := S46x1) off2_zero4,
    View.ld_unit_zero (S := S1) off1_zero4]
  funext (j : S100x1.Idx)
  show Gen.k4_pay2 (F := Ideal) (Gen.k4_pay1 (F := Ideal) (Gen.iblk4 V c 0 t) (Gen.iblk4 V c 1 t) (Gen.iblk4 V c 2 t) (Gen.iblk4 V c 3 t) (Gen.iblk4 V c 4 t) (Gen.iblk4 V c 5 t))
      (Gen.iblk4 V c 6 t) (Gen.iblk4 V c 7 t) (Gen.iblk4 V c 8 t) (Gen.iblk4 V c 9 t) (Gen.iblk4 V c 10 t) j
    = Cert.Spec.head (V c main_v120) (V c main_arg14) (V c main_arg15) (V c main_arg16) (V c main_arg17) (V c main_arg18) (V c main_arg19) (V c main_arg20) (V c main_arg21) (V c main_arg22) (V c main_arg23) (((cfg4.win 11).blk t).view.emb j)
  rw [emb4_11 t j]
  refine (congrFun (Head.head_eq (Gen.iblk4 V c 0 t) (Gen.iblk4 V c 1 t) (Gen.iblk4 V c 2 t) (Gen.iblk4 V c 3 t) (Gen.iblk4 V c 4 t) (Gen.iblk4 V c 5 t) (Gen.iblk4 V c 6 t) (Gen.iblk4 V c 7 t) (Gen.iblk4 V c 8 t) (Gen.iblk4 V c 9 t) (Gen.iblk4 V c 10 t)) j).trans ?_
  rw [iblk4_0_eq V c t, iblk4_1_eq V c t, iblk4_2_eq V c t, iblk4_3_eq V c t, iblk4_4_eq V c t, iblk4_5_eq V c t, iblk4_6_eq V c t, iblk4_7_eq V c t, iblk4_8_eq V c t, iblk4_9_eq V c t, iblk4_10_eq V c t]

/-- An index of the output array is in the point's block iff each coordinate is in the block's range. -/
theorem mem_blk4 (t : Fin cfg4.N) (i : S100x1.Idx) :
    i ∈ ((cfg4.win 11).blk t).view.set ↔ ∀ a : Fin 2, win4_11.index t a * S100x1.size a ≤ (i a).val ∧ (i a).val < win4_11.index t a * S100x1.size a + S100x1.size a := by
  show i ∈ ((View.whole main_v121).slice (win4_11.rect t)).set ↔ _
  rw [View.set_slice_whole, Rect.mem_set_unit]
  exact Iff.rfl

/-- The one block is the whole output array. -/
theorem cover4 (i : S100x1.Idx) :
    ∃ t : Fin cfg4.N, (cfg4.win 11).flush t = true ∧ i ∈ ((cfg4.win 11).blk t).view.set := by
  have hi0 : (i 0).val < 100 := (i 0).isLt
  have hi1 : (i 1).val < 1 := (i 1).isLt
  have hN : cfg4.N = 1 := rfl
  let t : Fin cfg4.N := ⟨0, by omega⟩
  obtain ⟨e0, e1⟩ := idx4_11 t
  refine ⟨t, Gen.flush4_11 t, ?_⟩
  rw [mem_blk4]
  intro a
  match a with
  | ⟨0, _⟩ => show win4_11.index t (0 : Fin 2) * 100 ≤ (i 0).val ∧ (i 0).val < win4_11.index t (0 : Fin 2) * 100 + 100; omega
  | ⟨1, _⟩ => show win4_11.index t (1 : Fin 2) * 1 ≤ (i 1).val ∧ (i 1).val < win4_11.index t (1 : Fin 2) * 1 + 1; omega

/-- After the region the output array is the head of the eleven arrays as the region finds them. -/
theorem region4_value (c : Dev nD) :
    (Gen.dat4 (F := Ideal) V c).arrAt 11 cfg4.N
      = Cert.Spec.head (V c main_v120) (V c main_arg14) (V c main_arg15) (V c main_arg16) (V c main_arg17) (V c main_arg18) (V c main_arg19) (V c main_arg20) (V c main_arg21) (V c main_arg22) (V c main_arg23) :=
  (Gen.dat4 (F := Ideal) V c).arrAt_eq_of_cover 11
    (Cert.Spec.head (V c main_v120) (V c main_arg14) (V c main_arg15) (V c main_arg16) (V c main_arg17) (V c main_arg18) (V c main_arg19) (V c main_arg20) (V c main_arg21) (V c main_arg22) (V c main_arg23))
    (fun t _ => flushed4_eq V c t) cover4

end Cert.KernelIdeal.RegionValue

end
-- ==== Proof.RefRun.lean ====
/-
  The reference program's @main read as a list of host operations: the list `ops`, cut into ten consecutive chunks, is @main's
  statements in program order, each call of a module-local function replaced by the callee's body over that call's buffers;
  `main = seq ops`, and the run of `onTc main` from any memory with zero counters ends with every TensorCore buffer at the
  operations' fold over the launch contents (`StableHlo.run_seq`).
-/
import proofs.«170490_j47047071761043_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations, chunk by chunk -/

/-- @main's operations %0 … %32, in program order: the two rows of the edge table as vectors (%1, %3), the in-degree counts by a
    scatter-add of ones (%12), `rsqrt (count + 1)` (%15), its values gathered at either end of each edge and their product (%30), and its
    square as a column (%32). -/
abbrev opsPrep : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_cst (constant S_ .f32 0x00000000#32),
    unary main_cst main_v4 (broadcastInDim S50000 ![] bcast_S_S50000 : (⟨S_, .f32⟩ : BufTy).Contents (Elt F) → (⟨S50000, .f32⟩ : BufTy).Contents (Elt F)),
    nullary main_c (constantI S_ 32 0#32),
    unary main_c main_v5 (broadcastInDim S800000 ![] bcast_S_S800000 : (⟨S_, .i32⟩ : BufTy).Contents (Elt F) → (⟨S800000, .i32⟩ : BufTy).Contents (Elt F)),
    binary main_v3 main_v5 main_v6 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v7 (broadcastInDim S800000 ![] bcast_S_S800000 : (⟨S_, .i32⟩ : BufTy).Contents (Elt F) → (⟨S800000, .i32⟩ : BufTy).Contents (Elt F)),
    binary main_v3 main_v7 main_v8 (addi : (⟨S800000, .i32⟩ : BufTy).Contents (Elt F) → (⟨S800000, .i32⟩ : BufTy).Contents (Elt F) → (⟨S800000, .i32⟩ : BufTy).Contents (Elt F)),
    ternary main_v6 main_v8 main_v3 main_v9 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v9 main_v10 (broadcastInDim S800000x1 ![0] bcast_S800000_S800000x1_0 : (⟨S800000, .i32⟩ : BufTy).Contents (Elt F) → (⟨S800000x1, .i32⟩ : BufTy).Contents (Elt F)),
    nullary main_cst_1 (constant S_ .f32 0x3F800000#32),
    unary main_cst_1 main_v11 (broadcastInDim S800000 ![] bcast_S_S800000 : (⟨S_, .f32⟩ : BufTy).Contents (Elt F) → (⟨S800000, .f32⟩ : BufTy).Contents (Elt F)),
    ternary main_v4 main_v10 main_v11 main_v12 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_2 (constant S_ .f32 0x3F800000#32),
    unary main_cst_2 main_v13 (broadcastInDim S50000 ![] bcast_S_S50000 : (⟨S_, .f32⟩ : BufTy).Contents (Elt F) → (⟨S50000, .f32⟩ : BufTy).Contents (Elt F)),
    binary main_v12 main_v13 main_v14 (addf : (⟨S50000, .f32⟩ : BufTy).Contents (Elt F) → (⟨S50000, .f32⟩ : BufTy).Contents (Elt F) → (⟨S50000, .f32⟩ : BufTy).Contents (Elt F)),
    unary main_v14 main_v15 (Host.rsqrt : (⟨S50000, .f32⟩ : BufTy).Contents (Elt F) → (⟨S50000, .f32⟩ : BufTy).Contents (Elt F)),
    nullary main_c_3 (constantI S_ 32 0#32),
    unary main_c_3 main_v16 (broadcastInDim S800000 ![] bcast_S_S800000 : (⟨S_, .i32⟩ : BufTy).Contents (Elt F) → (⟨S800000, .i32⟩ : BufTy).Contents (Elt F)),
    binary main_v1 main_v16 main_v17 (cmpi .slt : (⟨S800000, .i32⟩ : BufTy).Contents (Elt F) → (⟨S800000, .i32⟩ : BufTy).Contents (Elt F) → (⟨S800000, .i1⟩ : BufTy).Contents (Elt F)),
    nullary main_c_4 (constantI S_ 32 50000#32),
    unary main_c_4 main_v18 (broadcastInDim S800000 ![] bcast_S_S800000 : (⟨S_, .i32⟩ : BufTy).Contents (Elt F) → (⟨S800000, .i32⟩ : BufTy).Contents (Elt F)),
    binary main_v1 main_v18 main_v19 (addi : (⟨S800000, .i32⟩ : BufTy).Contents (Elt F) → (⟨S800000, .i32⟩ : BufTy).Contents (Elt F) → (⟨S800000, .i32⟩ : BufTy).Contents (Elt F)),
    ternary main_v17 main_v19 main_v1 main_v20 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v20 main_v21 (broadcastInDim S800000x1 ![0] bcast_S800000_S800000x1_0 : (⟨S800000, .i32⟩ : BufTy).Contents (Elt F) → (⟨S800000x1, .i32⟩ : BufTy).Contents (Elt F)),
    binary main_v15 main_v21 main_v22 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_5 (constantI S_ 32 0#32),
    unary main_c_5 main_v23 (broadcastInDim S800000 ![] bcast_S_S800000 : (⟨S_, .i32⟩ : BufTy).Contents (Elt F) → (⟨S800000, .i32⟩ : BufTy).Contents (Elt F)),
    binary main_v3 main_v23 main_v24 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v25 (broadcastInDim S800000 ![] bcast_S_S800000 : (⟨S_, .i32⟩ : BufTy).Contents (Elt F) → (⟨S800000, .i32⟩ : BufTy).Contents (Elt F)),
    binary main_v3 main_v25 main_v26 (addi : (⟨S800000, .i32⟩ : BufTy).Contents (Elt F) → (⟨S800000, .i32⟩ : BufTy).Contents (Elt F) → (⟨S800000, .i32⟩ : BufTy).Contents (Elt F)),
    ternary main_v24 main_v26 main_v3 main_v27 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v27 main_v28 (broadcastInDim S800000x1 ![0] bcast_S800000_S800000x1_0 : (⟨S800000, .i32⟩ : BufTy).Contents (Elt F) → (⟨S800000x1, .i32⟩ : BufTy).Contents (Elt F)),
    binary main_v15 main_v28 main_v29 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v22 main_v29 main_v30 (mulf : (⟨S800000, .f32⟩ : BufTy).Contents (Elt F) → (⟨S800000, .f32⟩ : BufTy).Contents (Elt F) → (⟨S800000, .f32⟩ : BufTy).Contents (Elt F)),
    binary main_v15 main_v15 main_v31 (mulf : (⟨S50000, .f32⟩ : BufTy).Contents (Elt F) → (⟨S50000, .f32⟩ : BufTy).Contents (Elt F) → (⟨S50000, .f32⟩ : BufTy).Contents (Elt F)),
    unary main_v31 main_v32 (broadcastInDim S50000x1 ![0] bcast_S50000_S50000x1_0 : (⟨S50000, .f32⟩ : BufTy).Contents (Elt F) → (⟨S50000x1, .f32⟩ : BufTy).Contents (Elt F)) ]

/-- @main's operation %33: the first layer's product of `%arg0` with `%arg4`. -/
abbrev opsLin1 : List (HloOp τ sig (Elt F)) :=
  [ binary main_arg0 main_arg4 main_v33 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

/-- @main's operations %cst_7 … %51, in program order: the rows of %33 gathered at the edges' first ends (%41), scaled by the edge
    weights %30 (%44), and scatter-added at the edges' second ends into zeros (%51). -/
abbrev opsAgg1 : List (HloOp τ sig (Elt F)) :=
  [ nullary main_cst_7 (constant S_ .f32 0x00000000#32),
    unary main_cst_7 main_v34 (broadcastInDim S50000x128 ![] bcast_S_S50000x128 : (⟨S_, .f32⟩ : BufTy).Contents (Elt F) → (⟨S50000x128, .f32⟩ : BufTy).Contents (Elt F)),
    nullary main_c_8 (constantI S_ 32 0#32),
    unary main_c_8 main_v35 (broadcastInDim S800000 ![] bcast_S_S800000 : (⟨S_, .i32⟩ : BufTy).Contents (Elt F) → (⟨S800000, .i32⟩ : BufTy).Contents (Elt F)),
    binary main_v1 main_v35 main_v36 (cmpi .slt : (⟨S800000, .i32⟩ : BufTy).Contents (Elt F) → (⟨S800000, .i32⟩ : BufTy).Contents (Elt F) → (⟨S800000, .i1⟩ : BufTy).Contents (Elt F)),
    nullary main_c_9 (constantI S_ 32 50000#32),
    unary main_c_9 main_v37 (broadcastInDim S800000 ![] bcast_S_S800000 : (⟨S_, .i32⟩ : BufTy).Contents (Elt F) → (⟨S800000, .i32⟩ : BufTy).Contents (Elt F)),
    binary main_v1 main_v37 main_v38 (addi : (⟨S800000, .i32⟩ : BufTy).Contents (Elt F) → (⟨S800000, .i32⟩ : BufTy).Contents (Elt F) → (⟨S800000, .i32⟩ : BufTy).Contents (Elt F)),
    ternary main_v36 main_v38 main_v1 main_v39 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v39 main_v40 (broadcastInDim S800000x1 ![0] bcast_S800000_S800000x1_0 : (⟨S800000, .i32⟩ : BufTy).Contents (Elt F) → (⟨S800000x1, .i32⟩ : BufTy).Contents (Elt F)),
    binary main_v33 main_v40 main_v41 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v30 main_v42 (broadcastInDim S800000x1 ![0] bcast_S800000_S800000x1_0 : (⟨S800000, .f32⟩ : BufTy).Contents (Elt F) → (⟨S800000x1, .f32⟩ : BufTy).Contents (Elt F)),
    unary main_v42 main_v43 (broadcastInDim S800000x128 ![0, 1] bcast_S800000x1_S800000x128_0_1 : (⟨S800000x1, .f32⟩ : BufTy).Contents (Elt F) → (⟨S800000x128, .f32⟩ : BufTy).Contents (Elt F)),
    binary main_v41 main_v43 main_v44 (mulf : (⟨S800000x128, .f32⟩ : BufTy).Contents (Elt F) → (⟨S800000x128, .f32⟩ : BufTy).Contents (Elt F) → (⟨S800000x128, .f32⟩ : BufTy).Contents (Elt F)),
    nullary main_c_10 (constantI S_ 32 0#32),
    unary main_c_10 main_v45 (broadcastInDim S800000 ![] bcast_S_S800000 : (⟨S_, .i32⟩ : BufTy).Contents (Elt F) → (⟨S800000, .i32⟩ : BufTy).Contents (Elt F)),
    binary main_v3 main_v45 main_v46 (cmpi .slt : (⟨S800000, .i32⟩ : BufTy).Contents (Elt F) → (⟨S800000, .i32⟩ : BufTy).Contents (Elt F) → (⟨S800000, .i1⟩ : BufTy).Contents (Elt F)),
    nullary main_c_11 (constantI S_ 32 50000#32),
    unary main_c_11 main_v47 (broadcastInDim S800000 ![] bcast_S_S800000 : (⟨S_, .i32⟩ : BufTy).Contents (Elt F) → (⟨S800000, .i32⟩ : BufTy).Contents (Elt F)),
    binary main_v3 main_v47 main_v48 (addi : (⟨S800000, .i32⟩ : BufTy).Contents (Elt F) → (⟨S800000, .i32⟩ : BufTy).Contents (Elt F) → (⟨S800000, .i32⟩ : BufTy).Contents (Elt F)),
    ternary main_v46 main_v48 main_v3 main_v49 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v49 main_v50 (broadcastInDim S800000x1 ![0] bcast_S800000_S800000x1_0 : (⟨S800000, .i32⟩ : BufTy).Contents (Elt F) → (⟨S800000x1, .i32⟩ : BufTy).Contents (Elt F)),
    ternary main_v34 main_v50 main_v44 main_v51 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ]

/-- @main's operations %52 … %63, in program order: %33 scaled by the column %32 and added to %51 (%54), the bias `%arg5` (%57), the
    select between the sum and `0.01` times it on the sum's sign (`@_where`'s one operation, into %62), and the second layer's product with
    `%arg6` (%63). -/
abbrev opsLayer2 : List (HloOp τ sig (Elt F)) :=
  [ unary main_v32 main_v52 (broadcastInDim S50000x128 ![0, 1] bcast_S50000x1_S50000x128_0_1 : (⟨S50000x1, .f32⟩ : BufTy).Contents (Elt F) → (⟨S50000x128, .f32⟩ : BufTy).Contents (Elt F)),
    binary main_v33 main_v52 main_v53 (mulf : (⟨S50000x128, .f32⟩ : BufTy).Contents (Elt F) → (⟨S50000x128, .f32⟩ : BufTy).Contents (Elt F) → (⟨S50000x128, .f32⟩ : BufTy).Contents (Elt F)),
    binary main_v51 main_v53 main_v54 (addf : (⟨S50000x128, .f32⟩ : BufTy).Contents (Elt F) → (⟨S50000x128, .f32⟩ : BufTy).Contents (Elt F) → (⟨S50000x128, .f32⟩ : BufTy).Contents (Elt F)),
    unary main_arg5 main_v55 (broadcastInDim S1x128 ![1] bcast_S128_S1x128_1 : (⟨S128, .f32⟩ : BufTy).Contents (Elt F) → (⟨S1x128, .f32⟩ : BufTy).Contents (Elt F)),
    unary main_v55 main_v56 (broadcastInDim S50000x128 ![0, 1] bcast_S1x128_S50000x128_0_1 : (⟨S1x128, .f32⟩ : BufTy).Contents (Elt F) → (⟨S50000x128, .f32⟩ : BufTy).Contents (Elt F)),
    binary main_v54 main_v56 main_v57 (addf : (⟨S50000x128, .f32⟩ : BufTy).Contents (Elt F) → (⟨S50000x128, .f32⟩ : BufTy).Contents (Elt F) → (⟨S50000x128, .f32⟩ : BufTy).Contents (Elt F)),
    nullary main_cst_12 (constant S_ .f32 0x00000000#32),
    unary main_cst_12 main_v58 (broadcastInDim S50000x128 ![] bcast_S_S50000x128 : (⟨S_, .f32⟩ : BufTy).Contents (Elt F) → (⟨S50000x128, .f32⟩ : BufTy).Contents (Elt F)),
    binary main_v57 main_v58 main_v59 (cmpf .ogt : (⟨S50000x128, .f32⟩ : BufTy).Contents (Elt F) → (⟨S50000x128, .f32⟩ : BufTy).Contents (Elt F) → (⟨S50000x128, .i1⟩ : BufTy).Contents (Elt F)),
    nullary main_cst_13 (constant S_ .f32 0x3C23D70A#32),
    unary main_cst_13 main_v60 (broadcastInDim S50000x128 ![] bcast_S_S50000x128 : (⟨S_, .f32⟩ : BufTy).Contents (Elt F) → (⟨S50000x128, .f32⟩ : BufTy).Contents (Elt F)),
    binary main_v60 main_v57 main_v61 (mulf : (⟨S50000x128, .f32⟩ : BufTy).Contents (Elt F) → (⟨S50000x128, .f32⟩ : BufTy).Contents (Elt F) → (⟨S50000x128, .f32⟩ : BufTy).Contents (Elt F)),
    TRef.ternary (.of main_v59) (.of main_v57) (.of main_v61) main_call0.v0 select,
    binary main_v62 main_arg6 main_v63 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

/-- @main's operations %cst_14 … %81, in program order: the rows of %63 gathered at the edges' first ends (%71), scaled by %30 (%74),
    and scatter-added at the edges' second ends into zeros (%81). -/
abbrev opsAgg2 : List (HloOp τ sig (Elt F)) :=
  [ nullary main_cst_14 (constant S_ .f32 0x00000000#32),
    unary main_cst_14 main_v64 (broadcastInDim S50000x128 ![] bcast_S_S50000x128 : (⟨S_, .f32⟩ : BufTy).Contents (Elt F) → (⟨S50000x128, .f32⟩ : BufTy).Contents (Elt F)),
    nullary main_c_15 (constantI S_ 32 0#32),
    unary main_c_15 main_v65 (broadcastInDim S800000 ![] bcast_S_S800000 : (⟨S_, .i32⟩ : BufTy).Contents (Elt F) → (⟨S800000, .i32⟩ : BufTy).Contents (Elt F)),
    binary main_v1 main_v65 main_v66 (cmpi .slt : (⟨S800000, .i32⟩ : BufTy).Contents (Elt F) → (⟨S800000, .i32⟩ : BufTy).Contents (Elt F) → (⟨S800000, .i1⟩ : BufTy).Contents (Elt F)),
    nullary main_c_16 (constantI S_ 32 50000#32),
    unary main_c_16 main_v67 (broadcastInDim S800000 ![] bcast_S_S800000 : (⟨S_, .i32⟩ : BufTy).Contents (Elt F) → (⟨S800000, .i32⟩ : BufTy).Contents (Elt F)),
    binary main_v1 main_v67 main_v68 (addi : (⟨S800000, .i32⟩ : BufTy).Contents (Elt F) → (⟨S800000, .i32⟩ : BufTy).Contents (Elt F) → (⟨S800000, .i32⟩ : BufTy).Contents (Elt F)),
    ternary main_v66 main_v68 main_v1 main_v69 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v69 main_v70 (broadcastInDim S800000x1 ![0] bcast_S800000_S800000x1_0 : (⟨S800000, .i32⟩ : BufTy).Contents (Elt F) → (⟨S800000x1, .i32⟩ : BufTy).Contents (Elt F)),
    binary main_v63 main_v70 main_v71 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v30 main_v72 (broadcastInDim S800000x1 ![0] bcast_S800000_S800000x1_0 : (⟨S800000, .f32⟩ : BufTy).Contents (Elt F) → (⟨S800000x1, .f32⟩ : BufTy).Contents (Elt F)),
    unary main_v72 main_v73 (broadcastInDim S800000x128 ![0, 1] bcast_S800000x1_S800000x128_0_1 : (⟨S800000x1, .f32⟩ : BufTy).Contents (Elt F) → (⟨S800000x128, .f32⟩ : BufTy).Contents (Elt F)),
    binary main_v71 main_v73 main_v74 (mulf : (⟨S800000x128, .f32⟩ : BufTy).Contents (Elt F) → (⟨S800000x128, .f32⟩ : BufTy).Contents (Elt F) → (⟨S800000x128, .f32⟩ : BufTy).Contents (Elt F)),
    nullary main_c_17 (constantI S_ 32 0#32),
    unary main_c_17 main_v75 (broadcastInDim S800000 ![] bcast_S_S800000 : (⟨S_, .i32⟩ : BufTy).Contents (Elt F) → (⟨S800000, .i32⟩ : BufTy).Contents (Elt F)),
    binary main_v3 main_v75 main_v76 (cmpi .slt : (⟨S800000, .i32⟩ : BufTy).Contents (Elt F) → (⟨S800000, .i32⟩ : BufTy).Contents (Elt F) → (⟨S800000, .i1⟩ : BufTy).Contents (Elt F)),
    nullary main_c_18 (constantI S_ 32 50000#32),
    unary main_c_18 main_v77 (broadcastInDim S800000 ![] bcast_S_S800000 : (⟨S_, .i32⟩ : BufTy).Contents (Elt F) → (⟨S800000, .i32⟩ : BufTy).Contents (Elt F)),
    binary main_v3 main_v77 main_v78 (addi : (⟨S800000, .i32⟩ : BufTy).Contents (Elt F) → (⟨S800000, .i32⟩ : BufTy).Contents (Elt F) → (⟨S800000, .i32⟩ : BufTy).Contents (Elt F)),
    ternary main_v76 main_v78 main_v3 main_v79 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v79 main_v80 (broadcastInDim S800000x1 ![0] bcast_S800000_S800000x1_0 : (⟨S800000, .i32⟩ : BufTy).Contents (Elt F) → (⟨S800000x1, .i32⟩ : BufTy).Contents (Elt F)),
    ternary main_v64 main_v80 main_v74 main_v81 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ]

/-- @main's operations %82 … %93, in program order: %63 scaled by the column %32 and added to %81 (%84), the bias `%arg7` (%87), the
    select on the sum's sign (`@_where`'s one operation, into %92), and the third layer's product with `%arg8` (%93). -/
abbrev opsLayer3 : List (HloOp τ sig (Elt F)) :=
  [ unary main_v32 main_v82 (broadcastInDim S50000x128 ![0, 1] bcast_S50000x1_S50000x128_0_1 : (⟨S50000x1, .f32⟩ : BufTy).Contents (Elt F) → (⟨S50000x128, .f32⟩ : BufTy).Contents (Elt F)),
    binary main_v63 main_v82 main_v83 (mulf : (⟨S50000x128, .f32⟩ : BufTy).Contents (Elt F) → (⟨S50000x128, .f32⟩ : BufTy).Contents (Elt F) → (⟨S50000x128, .f32⟩ : BufTy).Contents (Elt F)),
    binary main_v81 main_v83 main_v84 (addf : (⟨S50000x128, .f32⟩ : BufTy).Contents (Elt F) → (⟨S50000x128, .f32⟩ : BufTy).Contents (Elt F) → (⟨S50000x128, .f32⟩ : BufTy).Contents (Elt F)),
    unary main_arg7 main_v85 (broadcastInDim S1x128 ![1] bcast_S128_S1x128_1 : (⟨S128, .f32⟩ : BufTy).Contents (Elt F) → (⟨S1x128, .f32⟩ : BufTy).Contents (Elt F)),
    unary main_v85 main_v86 (broadcastInDim S50000x128 ![0, 1] bcast_S1x128_S50000x128_0_1 : (⟨S1x128, .f32⟩ : BufTy).Contents (Elt F) → (⟨S50000x128, .f32⟩ : BufTy).Contents (Elt F)),
    binary main_v84 main_v86 main_v87 (addf : (⟨S50000x128, .f32⟩ : BufTy).Contents (Elt F) → (⟨S50000x128, .f32⟩ : BufTy).Contents (Elt F) → (⟨S50000x128, .f32⟩ : BufTy).Contents (Elt F)),
    nullary main_cst_19 (constant S_ .f32 0x00000000#32),
    unary main_cst_19 main_v88 (broadcastInDim S50000x128 ![] bcast_S_S50000x128 : (⟨S_, .f32⟩ : BufTy).Contents (Elt F) → (⟨S50000x128, .f32⟩ : BufTy).Contents (Elt F)),
    binary main_v87 main_v88 main_v89 (cmpf .ogt : (⟨S50000x128, .f32⟩ : BufTy).Contents (Elt F) → (⟨S50000x128, .f32⟩ : BufTy).Contents (Elt F) → (⟨S50000x128, .i1⟩ : BufTy).Contents (Elt F)),
    nullary main_cst_20 (constant S_ .f32 0x3C23D70A#32),
    unary main_cst_20 main_v90 (broadcastInDim S50000x128 ![] bcast_S_S50000x128 : (⟨S_, .f32⟩ : BufTy).Contents (Elt F) → (⟨S50000x128, .f32⟩ : BufTy).Contents (Elt F)),
    binary main_v90 main_v87 main_v91 (mulf : (⟨S50000x128, .f32⟩ : BufTy).Contents (Elt F) → (⟨S50000x128, .f32⟩ : BufTy).Contents (Elt F) → (⟨S50000x128, .f32⟩ : BufTy).Contents (Elt F)),
    TRef.ternary (.of main_v89) (.of main_v87) (.of main_v91) main_call1.v0 select,
    binary main_v92 main_arg8 main_v93 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

/-- @main's operations %cst_21 … %111, in program order: the rows of %93 gathered at the edges' first ends (%101), scaled by %30 (%104),
    and scatter-added at the edges' second ends into zeros (%111). -/
abbrev opsAgg3 : List (HloOp τ sig (Elt F)) :=
  [ nullary main_cst_21 (constant S_ .f32 0x00000000#32),
    unary main_cst_21 main_v94 (broadcastInDim S50000x128 ![] bcast_S_S50000x128 : (⟨S_, .f32⟩ : BufTy).Contents (Elt F) → (⟨S50000x128, .f32⟩ : BufTy).Contents (Elt F)),
    nullary main_c_22 (constantI S_ 32 0#32),
    unary main_c_22 main_v95 (broadcastInDim S800000 ![] bcast_S_S800000 : (⟨S_, .i32⟩ : BufTy).Contents (Elt F) → (⟨S800000, .i32⟩ : BufTy).Contents (Elt F)),
    binary main_v1 main_v95 main_v96 (cmpi .slt : (⟨S800000, .i32⟩ : BufTy).Contents (Elt F) → (⟨S800000, .i32⟩ : BufTy).Contents (Elt F) → (⟨S800000, .i1⟩ : BufTy).Contents (Elt F)),
    nullary main_c_23 (constantI S_ 32 50000#32),
    unary main_c_23 main_v97 (broadcastInDim S800000 ![] bcast_S_S800000 : (⟨S_, .i32⟩ : BufTy).Contents (Elt F) → (⟨S800000, .i32⟩ : BufTy).Contents (Elt F)),
    binary main_v1 main_v97 main_v98 (addi : (⟨S800000, .i32⟩ : BufTy).Contents (Elt F) → (⟨S800000, .i32⟩ : BufTy).Contents (Elt F) → (⟨S800000, .i32⟩ : BufTy).Contents (Elt F)),
    ternary main_v96 main_v98 main_v1 main_v99 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v99 main_v100 (broadcastInDim S800000x1 ![0] bcast_S800000_S800000x1_0 : (⟨S800000, .i32⟩ : BufTy).Contents (Elt F) → (⟨S800000x1, .i32⟩ : BufTy).Contents (Elt F)),
    binary main_v93 main_v100 main_v101 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v30 main_v102 (broadcastInDim S800000x1 ![0] bcast_S800000_S800000x1_0 : (⟨S800000, .f32⟩ : BufTy).Contents (Elt F) → (⟨S800000x1, .f32⟩ : BufTy).Contents (Elt F)),
    unary main_v102 main_v103 (broadcastInDim S800000x128 ![0, 1] bcast_S800000x1_S800000x128_0_1 : (⟨S800000x1, .f32⟩ : BufTy).Contents (Elt F) → (⟨S800000x128, .f32⟩ : BufTy).Contents (Elt F)),
    binary main_v101 main_v103 main_v104 (mulf : (⟨S800000x128, .f32⟩ : BufTy).Contents (Elt F) → (⟨S800000x128, .f32⟩ : BufTy).Contents (Elt F) → (⟨S800000x128, .f32⟩ : BufTy).Contents (Elt F)),
    nullary main_c_24 (constantI S_ 32 0#32),
    unary main_c_24 main_v105 (broadcastInDim S800000 ![] bcast_S_S800000 : (⟨S_, .i32⟩ : BufTy).Contents (Elt F) → (⟨S800000, .i32⟩ : BufTy).Contents (Elt F)),
    binary main_v3 main_v105 main_v106 (cmpi .slt : (⟨S800000, .i32⟩ : BufTy).Contents (Elt F) → (⟨S800000, .i32⟩ : BufTy).Contents (Elt F) → (⟨S800000, .i1⟩ : BufTy).Contents (Elt F)),
    nullary main_c_25 (constantI S_ 32 50000#32),
    unary main_c_25 main_v107 (broadcastInDim S800000 ![] bcast_S_S800000 : (⟨S_, .i32⟩ : BufTy).Contents (Elt F) → (⟨S800000, .i32⟩ : BufTy).Contents (Elt F)),
    binary main_v3 main_v107 main_v108 (addi : (⟨S800000, .i32⟩ : BufTy).Contents (Elt F) → (⟨S800000, .i32⟩ : BufTy).Contents (Elt F) → (⟨S800000, .i32⟩ : BufTy).Contents (Elt F)),
    ternary main_v106 main_v108 main_v3 main_v109 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v109 main_v110 (broadcastInDim S800000x1 ![0] bcast_S800000_S800000x1_0 : (⟨S800000, .i32⟩ : BufTy).Contents (Elt F) → (⟨S800000x1, .i32⟩ : BufTy).Contents (Elt F)),
    ternary main_v94 main_v110 main_v104 main_v111 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ]

/-- @main's operations %112 … %122, in program order: %93 scaled by the column %32 and added to %111 (%114), the bias `%arg9` (%117),
    and the select on the sum's sign (`@_where`'s one operation, into %122). -/
abbrev opsComb : List (HloOp τ sig (Elt F)) :=
  [ unary main_v32 main_v112 (broadcastInDim S50000x128 ![0, 1] bcast_S50000x1_S50000x128_0_1 : (⟨S50000x1, .f32⟩ : BufTy).Contents (Elt F) → (⟨S50000x128, .f32⟩ : BufTy).Contents (Elt F)),
    binary main_v93 main_v112 main_v113 (mulf : (⟨S50000x128, .f32⟩ : BufTy).Contents (Elt F) → (⟨S50000x128, .f32⟩ : BufTy).Contents (Elt F) → (⟨S50000x128, .f32⟩ : BufTy).Contents (Elt F)),
    binary main_v111 main_v113 main_v114 (addf : (⟨S50000x128, .f32⟩ : BufTy).Contents (Elt F) → (⟨S50000x128, .f32⟩ : BufTy).Contents (Elt F) → (⟨S50000x128, .f32⟩ : BufTy).Contents (Elt F)),
    unary main_arg9 main_v115 (broadcastInDim S1x128 ![1] bcast_S128_S1x128_1 : (⟨S128, .f32⟩ : BufTy).Contents (Elt F) → (⟨S1x128, .f32⟩ : BufTy).Contents (Elt F)),
    unary main_v115 main_v116 (broadcastInDim S50000x128 ![0, 1] bcast_S1x128_S50000x128_0_1 : (⟨S1x128, .f32⟩ : BufTy).Contents (Elt F) → (⟨S50000x128, .f32⟩ : BufTy).Contents (Elt F)),
    binary main_v114 main_v116 main_v117 (addf : (⟨S50000x128, .f32⟩ : BufTy).Contents (Elt F) → (⟨S50000x128, .f32⟩ : BufTy).Contents (Elt F) → (⟨S50000x128, .f32⟩ : BufTy).Contents (Elt F)),
    nullary main_cst_26 (constant S_ .f32 0x00000000#32),
    unary main_cst_26 main_v118 (broadcastInDim S50000x128 ![] bcast_S_S50000x128 : (⟨S_, .f32⟩ : BufTy).Contents (Elt F) → (⟨S50000x128, .f32⟩ : BufTy).Contents (Elt F)),
    binary main_v117 main_v118 main_v119 (cmpf .ogt : (⟨S50000x128, .f32⟩ : BufTy).Contents (Elt F) → (⟨S50000x128, .f32⟩ : BufTy).Contents (Elt F) → (⟨S50000x128, .i1⟩ : BufTy).Contents (Elt F)),
    nullary main_cst_27 (constant S_ .f32 0x3C23D70A#32),
    unary main_cst_27 main_v120 (broadcastInDim S50000x128 ![] bcast_S_S50000x128 : (⟨S_, .f32⟩ : BufTy).Contents (Elt F) → (⟨S50000x128, .f32⟩ : BufTy).Contents (Elt F)),
    binary main_v120 main_v117 main_v121 (mulf : (⟨S50000x128, .f32⟩ : BufTy).Contents (Elt F) → (⟨S50000x128, .f32⟩ : BufTy).Contents (Elt F) → (⟨S50000x128, .f32⟩ : BufTy).Contents (Elt F)),
    TRef.ternary (.of main_v119) (.of main_v117) (.of main_v121) main_call2.v0 select ]

/-- @main's operations %cst_28 … %152, in program order: the number of rows of each segment of `%arg2` (%126), the segments' sums of
    %122 (%129) and their quotient (%132); `%arg3` as a column through the two small dense layers (`%arg10`, `%arg11`, then `%arg12`, `%arg13`),
    each followed by the select on its sign (`@_where_0` into %142, `@_where_1` into %151); the two joined along the columns (%152). -/
abbrev opsTail : List (HloOp τ sig (Elt F)) :=
  [ nullary main_cst_28 (constant S_ .f32 0x3F800000#32),
    unary main_cst_28 main_v123 (broadcastInDim S50000 ![] bcast_S_S50000 : (⟨S_, .f32⟩ : BufTy).Contents (Elt F) → (⟨S50000, .f32⟩ : BufTy).Contents (Elt F)),
    nullary main_cst_29 (constant S_ .f32 0x00000000#32),
    unary main_cst_29 main_v124 (broadcastInDim S100 ![] bcast_S_S100 : (⟨S_, .f32⟩ : BufTy).Contents (Elt F) → (⟨S100, .f32⟩ : BufTy).Contents (Elt F)),
    unary main_arg2 main_v125 (broadcastInDim S50000x1 ![0] bcast_S50000_S50000x1_0 : (⟨S50000, .i32⟩ : BufTy).Contents (Elt F) → (⟨S50000x1, .i32⟩ : BufTy).Contents (Elt F)),
    ternary main_v124 main_v125 main_v123 main_v126 ((fun x i u => Host.scatterAdd scatter_S100_S50000x1_S50000_n_0_0_1 x i u) : (⟨S100, .f32⟩ : BufTy).Contents (Elt F) → (⟨S50000x1, .i32⟩ : BufTy).Contents (Elt F) → (⟨S50000, .f32⟩ : BufTy).Contents (Elt F) → (⟨S100, .f32⟩ : BufTy).Contents (Elt F)),
    nullary main_cst_30 (constant S_ .f32 0x00000000#32),
    unary main_cst_30 main_v127 (broadcastInDim S100x128 ![] bcast_S_S100x128 : (⟨S_, .f32⟩ : BufTy).Contents (Elt F) → (⟨S100x128, .f32⟩ : BufTy).Contents (Elt F)),
    unary main_arg2 main_v128 (broadcastInDim S50000x1 ![0] bcast_S50000_S50000x1_0 : (⟨S50000, .i32⟩ : BufTy).Contents (Elt F) → (⟨S50000x1, .i32⟩ : BufTy).Contents (Elt F)),
    ternary main_v127 main_v128 main_v122 main_v129 ((fun x i u => Host.scatterAdd scatter_S100x128_S50000x1_S50000x128_1_0_0_1 x i u) : (⟨S100x128, .f32⟩ : BufTy).Contents (Elt F) → (⟨S50000x1, .i32⟩ : BufTy).Contents (Elt F) → (⟨S50000x128, .f32⟩ : BufTy).Contents (Elt F) → (⟨S100x128, .f32⟩ : BufTy).Contents (Elt F)),
    unary main_v126 main_v130 (broadcastInDim S100x1 ![0] bcast_S100_S100x1_0 : (⟨S100, .f32⟩ : BufTy).Contents (Elt F) → (⟨S100x1, .f32⟩ : BufTy).Contents (Elt F)),
    unary main_v130 main_v131 (broadcastInDim S100x128 ![0, 1] bcast_S100x1_S100x128_0_1 : (⟨S100x1, .f32⟩ : BufTy).Contents (Elt F) → (⟨S100x128, .f32⟩ : BufTy).Contents (Elt F)),
    binary main_v129 main_v131 main_v132 (Host.divf : (⟨S100x128, .f32⟩ : BufTy).Contents (Elt F) → (⟨S100x128, .f32⟩ : BufTy).Contents (Elt F) → (⟨S100x128, .f32⟩ : BufTy).Contents (Elt F)),
    unary main_arg3 main_v133 (broadcastInDim S100x1 ![0] bcast_S100_S100x1_0 : (⟨S100, .f32⟩ : BufTy).Contents (Elt F) → (⟨S100x1, .f32⟩ : BufTy).Contents (Elt F)),
    binary main_v133 main_arg10 main_v134 ((fun l r => Host.dotGeneral dot_S100x1_S1x20_S100x20_1_0_0_1_n_n none l r) : (⟨S100x1, .f32⟩ : BufTy).Contents (Elt F) → (⟨S1x20, .f32⟩ : BufTy).Contents (Elt F) → (⟨S100x20, .f32⟩ : BufTy).Contents (Elt F)),
    unary main_arg11 main_v135 (broadcastInDim S1x20 ![1] bcast_S20_S1x20_1 : (⟨S20, .f32⟩ : BufTy).Contents (Elt F) → (⟨S1x20, .f32⟩ : BufTy).Contents (Elt F)),
    unary main_v135 main_v136 (broadcastInDim S100x20 ![0, 1] bcast_S1x20_S100x20_0_1 : (⟨S1x20, .f32⟩ : BufTy).Contents (Elt F) → (⟨S100x20, .f32⟩ : BufTy).Contents (Elt F)),
    binary main_v134 main_v136 main_v137 (addf : (⟨S100x20, .f32⟩ : BufTy).Contents (Elt F) → (⟨S100x20, .f32⟩ : BufTy).Contents (Elt F) → (⟨S100x20, .f32⟩ : BufTy).Contents (Elt F)),
    nullary main_cst_31 (constant S_ .f32 0x00000000#32),
    unary main_cst_31 main_v138 (broadcastInDim S100x20 ![] bcast_S_S100x20 : (⟨S_, .f32⟩ : BufTy).Contents (Elt F) → (⟨S100x20, .f32⟩ : BufTy).Contents (Elt F)),
    binary main_v137 main_v138 main_v139 (cmpf .ogt : (⟨S100x20, .f32⟩ : BufTy).Contents (Elt F) → (⟨S100x20, .f32⟩ : BufTy).Contents (Elt F) → (⟨S100x20, .i1⟩ : BufTy).Contents (Elt F)),
    nullary main_cst_32 (constant S_ .f32 0x3C23D70A#32),
    unary main_cst_32 main_v140 (broadcastInDim S100x20 ![] bcast_S_S100x20 : (⟨S_, .f32⟩ : BufTy).Contents (Elt F) → (⟨S100x20, .f32⟩ : BufTy).Contents (Elt F)),
    binary main_v140 main_v137 main_v141 (mulf : (⟨S100x20, .f32⟩ : BufTy).Contents (Elt F) → (⟨S100x20, .f32⟩ : BufTy).Contents (Elt F) → (⟨S100x20, .f32⟩ : BufTy).Contents (Elt F)),
    TRef.ternary (.of main_v139) (.of main_v137) (.of main_v141) main_call3.v0 select,
    binary main_v142 main_arg12 main_v143 ((fun l r => Host.dotGeneral dot_S100x20_S20x10_S100x10_1_0_0_1_n_n none l r) : (⟨S100x20, .f32⟩ : BufTy).Contents (Elt F) → (⟨S20x10, .f32⟩ : BufTy).Contents (Elt F) → (⟨S100x10, .f32⟩ : BufTy).Contents (Elt F)),
    unary main_arg13 main_v144 (broadcastInDim S1x10 ![1] bcast_S10_S1x10_1 : (⟨S10, .f32⟩ : BufTy).Contents (Elt F) → (⟨S1x10, .f32⟩ : BufTy).Contents (Elt F)),
    unary main_v144 main_v145 (broadcastInDim S100x10 ![0, 1] bcast_S1x10_S100x10_0_1 : (⟨S1x10, .f32⟩ : BufTy).Contents (Elt F) → (⟨S100x10, .f32⟩ : BufTy).Contents (Elt F)),
    binary main_v143 main_v145 main_v146 (addf : (⟨S100x10, .f32⟩ : BufTy).Contents (Elt F) → (⟨S100x10, .f32⟩ : BufTy).Contents (Elt F) → (⟨S100x10, .f32⟩ : BufTy).Contents (Elt F)),
    nullary main_cst_33 (constant S_ .f32 0x00000000#32),
    unary main_cst_33 main_v147 (broadcastInDim S100x10 ![] bcast_S_S100x10 : (⟨S_, .f32⟩ : BufTy).Contents (Elt F) → (⟨S100x10, .f32⟩ : BufTy).Contents (Elt F)),
    binary main_v146 main_v147 main_v148 (cmpf .ogt : (⟨S100x10, .f32⟩ : BufTy).Contents (Elt F) → (⟨S100x10, .f32⟩ : BufTy).Contents (Elt F) → (⟨S100x10, .i1⟩ : BufTy).Contents (Elt F)),
    nullary main_cst_34 (constant S_ .f32 0x3C23D70A#32),
    unary main_cst_34 main_v149 (broadcastInDim S100x10 ![] bcast_S_S100x10 : (⟨S_, .f32⟩ : BufTy).Contents (Elt F) → (⟨S100x10, .f32⟩ : BufTy).Contents (Elt F)),
    binary main_v149 main_v146 main_v150 (mulf : (⟨S100x10, .f32⟩ : BufTy).Contents (Elt F) → (⟨S100x10, .f32⟩ : BufTy).Contents (Elt F) → (⟨S100x10, .f32⟩ : BufTy).Contents (Elt F)),
    TRef.ternary (.of main_v148) (.of main_v146) (.of main_v150) main_call4.v0 select,
    binary main_v132 main_v151 main_v152 ((fun a b => concatenate S100x138 1 [⟨S100x128, a⟩, ⟨S100x10, b⟩] concatenates_S100x128_S100x10_S100x138_d1) : (⟨S100x128, .f32⟩ : BufTy).Contents (Elt F) → (⟨S100x10, .f32⟩ : BufTy).Contents (Elt F) → (⟨S100x138, .f32⟩ : BufTy).Contents (Elt F)) ]

/-- @main's operations %153 … %212, in program order: the dense layer `%arg14`, `%arg15` and the select on its sign (`@_where_2`, into
    %161); its column mean (%164) and `@_var`'s operations (the column variance, the last three `@_where_3`'s, into %165), the centred value
    times `rsqrt (variance + 1e-5)`, scaled by `%arg16` and shifted by `%arg17` (%180); the dense layer `%arg18`, `%arg19` and the select on
    its sign (`@_where_4`, into %189); its column mean (%192) and `@_var_5`'s operations (the last three `@_where_6`'s, into %193), the same
    normalization with `%arg20` and `%arg21` (%208); the last dense layer `%arg22`, `%arg23` (%212). -/
abbrev opsHead : List (HloOp τ sig (Elt F)) :=
  [ binary main_v152 main_arg14 main_v153 ((fun l r => Host.dotGeneral dot_S100x138_S138x92_S100x92_1_0_0_1_n_n none l r) : (⟨S100x138, .f32⟩ : BufTy).Contents (Elt F) → (⟨S138x92, .f32⟩ : BufTy).Contents (Elt F) → (⟨S100x92, .f32⟩ : BufTy).Contents (Elt F)),
    unary main_arg15 main_v154 (broadcastInDim S1x92 ![1] bcast_S92_S1x92_1 : (⟨S92, .f32⟩ : BufTy).Contents (Elt F) → (⟨S1x92, .f32⟩ : BufTy).Contents (Elt F)),
    unary main_v154 main_v155 (broadcastInDim S100x92 ![0, 1] bcast_S1x92_S100x92_0_1 : (⟨S1x92, .f32⟩ : BufTy).Contents (Elt F) → (⟨S100x92, .f32⟩ : BufTy).Contents (Elt F)),
    binary main_v153 main_v155 main_v156 (addf : (⟨S100x92, .f32⟩ : BufTy).Contents (Elt F) → (⟨S100x92, .f32⟩ : BufTy).Contents (Elt F) → (⟨S100x92, .f32⟩ : BufTy).Contents (Elt F)),
    nullary main_cst_35 (constant S_ .f32 0x00000000#32),
    unary main_cst_35 main_v157 (broadcastInDim S100x92 ![] bcast_S_S100x92 : (⟨S_, .f32⟩ : BufTy).Contents (Elt F) → (⟨S100x92, .f32⟩ : BufTy).Contents (Elt F)),
    binary main_v156 main_v157 main_v158 (cmpf .ogt : (⟨S100x92, .f32⟩ : BufTy).Contents (Elt F) → (⟨S100x92, .f32⟩ : BufTy).Contents (Elt F) → (⟨S100x92, .i1⟩ : BufTy).Contents (Elt F)),
    nullary main_cst_36 (constant S_ .f32 0x3C23D70A#32),
    unary main_cst_36 main_v159 (broadcastInDim S100x92 ![] bcast_S_S100x92 : (⟨S_, .f32⟩ : BufTy).Contents (Elt F) → (⟨S100x92, .f32⟩ : BufTy).Contents (Elt F)),
    binary main_v159 main_v156 main_v160 (mulf : (⟨S100x92, .f32⟩ : BufTy).Contents (Elt F) → (⟨S100x92, .f32⟩ : BufTy).Contents (Elt F) → (⟨S100x92, .f32⟩ : BufTy).Contents (Elt F)),
    TRef.ternary (.of main_v158) (.of main_v156) (.of main_v160) main_call5.v0 select,
    nullary main_cst_37 (constant S_ .f32 0x00000000#32),
    binary main_v161 main_cst_37 main_v162 ((fun x v => Host.reduceAdd x v reducesTo_S100x92_S92_d0 h_S_) : (⟨S100x92, .f32⟩ : BufTy).Contents (Elt F) → (⟨S_, .f32⟩ : BufTy).Contents (Elt F) → (⟨S92, .f32⟩ : BufTy).Contents (Elt F)),
    nullary main_cst_38 (constant S_ .f32 0x42C80000#32),
    unary main_cst_38 main_v163 (broadcastInDim S92 ![] bcast_S_S92 : (⟨S_, .f32⟩ : BufTy).Contents (Elt F) → (⟨S92, .f32⟩ : BufTy).Contents (Elt F)),
    binary main_v162 main_v163 main_v164 (Host.divf : (⟨S92, .f32⟩ : BufTy).Contents (Elt F) → (⟨S92, .f32⟩ : BufTy).Contents (Elt F) → (⟨S92, .f32⟩ : BufTy).Contents (Elt F)),
    nullary main_c_39 (constantI S_ 32 0#32),
    TRef.nullary main_call6.cst (constant S_ .f32 0x00000000#32),
    TRef.binary (.of main_v161) main_call6.cst main_call6.v0 (fun x v => Host.reduceAdd x v reducesTo_S100x92_S92_d0 h_S_),
    TRef.unary main_call6.v0 main_call6.v1 (broadcastInDim S1x92 ![1] bcast_S92_S1x92_1),
    TRef.nullary main_call6.cst_0 (constant S_ .f32 0x42C80000#32),
    TRef.unary main_call6.cst_0 main_call6.v2 (broadcastInDim S1x92 ![] bcast_S_S1x92),
    TRef.binary main_call6.v1 main_call6.v2 main_call6.v3 Host.divf,
    TRef.unary main_call6.v3 main_call6.v4 (broadcastInDim S100x92 ![0, 1] bcast_S1x92_S100x92_0_1),
    TRef.binary (.of main_v161) main_call6.v4 main_call6.v5 subf,
    TRef.binary main_call6.v5 main_call6.v5 main_call6.v6 mulf,
    TRef.unary (.of main_c_39) main_call6.v7 (sitofp .f32),
    TRef.nullary main_call6.cst_1 (constant S_ .f32 0x42C80000#32),
    TRef.binary main_call6.cst_1 main_call6.v7 main_call6.v8 subf,
    TRef.nullary main_call6.cst_2 (constant S_ .f32 0x00000000#32),
    TRef.binary main_call6.v6 main_call6.cst_2 main_call6.v9 (fun x v => Host.reduceAdd x v reducesTo_S100x92_S92_d0 h_S_),
    TRef.unary main_call6.v8 main_call6.v10 (broadcastInDim S92 ![] bcast_S_S92),
    TRef.binary main_call6.v9 main_call6.v10 main_call6.v11 Host.divf,
    TRef.nullary main_call6.cst_3 (constant S_ .f32 0x00000000#32),
    TRef.binary main_call6.v8 main_call6.cst_3 main_call6.v12 (cmpf .ogt),
    TRef.nullary main_call6.cst_4 (constant S_ .f32 0x7FC00000#32),
    TRef.unary main_call6.cst_4 main_call6.call0.v0 id,
    TRef.unary main_call6.call0.v0 main_call6.call0.v1 (broadcastInDim S92 ![] bcast_S_S92),
    TRef.ternary main_call6.v12 main_call6.v11 main_call6.call0.v1 main_call6.call0.v2 (fun p a b => select (broadcastInDim S92 ![] bcast_S_S92 p) a b),
    unary main_v164 main_v166 (broadcastInDim S1x92 ![1] bcast_S92_S1x92_1 : (⟨S92, .f32⟩ : BufTy).Contents (Elt F) → (⟨S1x92, .f32⟩ : BufTy).Contents (Elt F)),
    unary main_v166 main_v167 (broadcastInDim S100x92 ![0, 1] bcast_S1x92_S100x92_0_1 : (⟨S1x92, .f32⟩ : BufTy).Contents (Elt F) → (⟨S100x92, .f32⟩ : BufTy).Contents (Elt F)),
    binary main_v161 main_v167 main_v168 (subf : (⟨S100x92, .f32⟩ : BufTy).Contents (Elt F) → (⟨S100x92, .f32⟩ : BufTy).Contents (Elt F) → (⟨S100x92, .f32⟩ : BufTy).Contents (Elt F)),
    nullary main_cst_40 (constant S_ .f32 0x3727C5AC#32),
    unary main_cst_40 main_v169 (broadcastInDim S92 ![] bcast_S_S92 : (⟨S_, .f32⟩ : BufTy).Contents (Elt F) → (⟨S92, .f32⟩ : BufTy).Contents (Elt F)),
    binary main_v165 main_v169 main_v170 (addf : (⟨S92, .f32⟩ : BufTy).Contents (Elt F) → (⟨S92, .f32⟩ : BufTy).Contents (Elt F) → (⟨S92, .f32⟩ : BufTy).Contents (Elt F)),
    unary main_v170 main_v171 (Host.rsqrt : (⟨S92, .f32⟩ : BufTy).Contents (Elt F) → (⟨S92, .f32⟩ : BufTy).Contents (Elt F)),
    unary main_v171 main_v172 (broadcastInDim S1x92 ![1] bcast_S92_S1x92_1 : (⟨S92, .f32⟩ : BufTy).Contents (Elt F) → (⟨S1x92, .f32⟩ : BufTy).Contents (Elt F)),
    unary main_v172 main_v173 (broadcastInDim S100x92 ![0, 1] bcast_S1x92_S100x92_0_1 : (⟨S1x92, .f32⟩ : BufTy).Contents (Elt F) → (⟨S100x92, .f32⟩ : BufTy).Contents (Elt F)),
    binary main_v168 main_v173 main_v174 (mulf : (⟨S100x92, .f32⟩ : BufTy).Contents (Elt F) → (⟨S100x92, .f32⟩ : BufTy).Contents (Elt F) → (⟨S100x92, .f32⟩ : BufTy).Contents (Elt F)),
    unary main_arg16 main_v175 (broadcastInDim S1x92 ![1] bcast_S92_S1x92_1 : (⟨S92, .f32⟩ : BufTy).Contents (Elt F) → (⟨S1x92, .f32⟩ : BufTy).Contents (Elt F)),
    unary main_v175 main_v176 (broadcastInDim S100x92 ![0, 1] bcast_S1x92_S100x92_0_1 : (⟨S1x92, .f32⟩ : BufTy).Contents (Elt F) → (⟨S100x92, .f32⟩ : BufTy).Contents (Elt F)),
    binary main_v174 main_v176 main_v177 (mulf : (⟨S100x92, .f32⟩ : BufTy).Contents (Elt F) → (⟨S100x92, .f32⟩ : BufTy).Contents (Elt F) → (⟨S100x92, .f32⟩ : BufTy).Contents (Elt F)),
    unary main_arg17 main_v178 (broadcastInDim S1x92 ![1] bcast_S92_S1x92_1 : (⟨S92, .f32⟩ : BufTy).Contents (Elt F) → (⟨S1x92, .f32⟩ : BufTy).Contents (Elt F)),
    unary main_v178 main_v179 (broadcastInDim S100x92 ![0, 1] bcast_S1x92_S100x92_0_1 : (⟨S1x92, .f32⟩ : BufTy).Contents (Elt F) → (⟨S100x92, .f32⟩ : BufTy).Contents (Elt F)),
    binary main_v177 main_v179 main_v180 (addf : (⟨S100x92, .f32⟩ : BufTy).Contents (Elt F) → (⟨S100x92, .f32⟩ : BufTy).Contents (Elt F) → (⟨S100x92, .f32⟩ : BufTy).Contents (Elt F)),
    binary main_v180 main_arg18 main_v181 ((fun l r => Host.dotGeneral dot_S100x92_S92x46_S100x46_1_0_0_1_n_n none l r) : (⟨S100x92, .f32⟩ : BufTy).Contents (Elt F) → (⟨S92x46, .f32⟩ : BufTy).Contents (Elt F) → (⟨S100x46, .f32⟩ : BufTy).Contents (Elt F)),
    unary main_arg19 main_v182 (broadcastInDim S1x46 ![1] bcast_S46_S1x46_1 : (⟨S46, .f32⟩ : BufTy).Contents (Elt F) → (⟨S1x46, .f32⟩ : BufTy).Contents (Elt F)),
    unary main_v182 main_v183 (broadcastInDim S100x46 ![0, 1] bcast_S1x46_S100x46_0_1 : (⟨S1x46, .f32⟩ : BufTy).Contents (Elt F) → (⟨S100x46, .f32⟩ : BufTy).Contents (Elt F)),
    binary main_v181 main_v183 main_v184 (addf : (⟨S100x46, .f32⟩ : BufTy).Contents (Elt F) → (⟨S100x46, .f32⟩ : BufTy).Contents (Elt F) → (⟨S100x46, .f32⟩ : BufTy).Contents (Elt F)),
    nullary main_cst_41 (constant S_ .f32 0x00000000#32),
    unary main_cst_41 main_v185 (broadcastInDim S100x46 ![] bcast_S_S100x46 : (⟨S_, .f32⟩ : BufTy).Contents (Elt F) → (⟨S100x46, .f32⟩ : BufTy).Contents (Elt F)),
    binary main_v184 main_v185 main_v186 (cmpf .ogt : (⟨S100x46, .f32⟩ : BufTy).Contents (Elt F) → (⟨S100x46, .f32⟩ : BufTy).Contents (Elt F) → (⟨S100x46, .i1⟩ : BufTy).Contents (Elt F)),
    nullary main_cst_42 (constant S_ .f32 0x3C23D70A#32),
    unary main_cst_42 main_v187 (broadcastInDim S100x46 ![] bcast_S_S100x46 : (⟨S_, .f32⟩ : BufTy).Contents (Elt F) → (⟨S100x46, .f32⟩ : BufTy).Contents (Elt F)),
    binary main_v187 main_v184 main_v188 (mulf : (⟨S100x46, .f32⟩ : BufTy).Contents (Elt F) → (⟨S100x46, .f32⟩ : BufTy).Contents (Elt F) → (⟨S100x46, .f32⟩ : BufTy).Contents (Elt F)),
    TRef.ternary (.of main_v186) (.of main_v184) (.of main_v188) main_call7.v0 select,
    nullary main_cst_43 (constant S_ .f32 0x00000000#32),
    binary main_v189 main_cst_43 main_v190 ((fun x v => Host.reduceAdd x v reducesTo_S100x46_S46_d0 h_S_) : (⟨S100x46, .f32⟩ : BufTy).Contents (Elt F) → (⟨S_, .f32⟩ : BufTy).Contents (Elt F) → (⟨S46, .f32⟩ : BufTy).Contents (Elt F)),
    nullary main_cst_44 (constant S_ .f32 0x42C80000#32),
    unary main_cst_44 main_v191 (broadcastInDim S46 ![] bcast_S_S46 : (⟨S_, .f32⟩ : BufTy).Contents (Elt F) → (⟨S46, .f32⟩ : BufTy).Contents (Elt F)),
    binary main_v190 main_v191 main_v192 (Host.divf : (⟨S46, .f32⟩ : BufTy).Contents (Elt F) → (⟨S46, .f32⟩ : BufTy).Contents (Elt F) → (⟨S46, .f32⟩ : BufTy).Contents (Elt F)),
    nullary main_c_45 (constantI S_ 32 0#32),
    TRef.nullary main_call8.cst (constant S_ .f32 0x00000000#32),
    TRef.binary (.of main_v189) main_call8.cst main_call8.v0 (fun x v => Host.reduceAdd x v reducesTo_S100x46_S46_d0 h_S_),
    TRef.unary main_call8.v0 main_call8.v1 (broadcastInDim S1x46 ![1] bcast_S46_S1x46_1),
    TRef.nullary main_call8.cst_0 (constant S_ .f32 0x42C80000#32),
    TRef.unary main_call8.cst_0 main_call8.v2 (broadcastInDim S1x46 ![] bcast_S_S1x46),
    TRef.binary main_call8.v1 main_call8.v2 main_call8.v3 Host.divf,
    TRef.unary main_call8.v3 main_call8.v4 (broadcastInDim S100x46 ![0, 1] bcast_S1x46_S100x46_0_1),
    TRef.binary (.of main_v189) main_call8.v4 main_call8.v5 subf,
    TRef.binary main_call8.v5 main_call8.v5 main_call8.v6 mulf,
    TRef.unary (.of main_c_45) main_call8.v7 (sitofp .f32),
    TRef.nullary main_call8.cst_1 (constant S_ .f32 0x42C80000#32),
    TRef.binary main_call8.cst_1 main_call8.v7 main_call8.v8 subf,
    TRef.nullary main_call8.cst_2 (constant S_ .f32 0x00000000#32),
    TRef.binary main_call8.v6 main_call8.cst_2 main_call8.v9 (fun x v => Host.reduceAdd x v reducesTo_S100x46_S46_d0 h_S_),
    TRef.unary main_call8.v8 main_call8.v10 (broadcastInDim S46 ![] bcast_S_S46),
    TRef.binary main_call8.v9 main_call8.v10 main_call8.v11 Host.divf,
    TRef.nullary main_call8.cst_3 (constant S_ .f32 0x00000000#32),
    TRef.binary main_call8.v8 main_call8.cst_3 main_call8.v12 (cmpf .ogt),
    TRef.nullary main_call8.cst_4 (constant S_ .f32 0x7FC00000#32),
    TRef.unary main_call8.cst_4 main_call8.call0.v0 id,
    TRef.unary main_call8.call0.v0 main_call8.call0.v1 (broadcastInDim S46 ![] bcast_S_S46),
    TRef.ternary main_call8.v12 main_call8.v11 main_call8.call0.v1 main_call8.call0.v2 (fun p a b => select (broadcastInDim S46 ![] bcast_S_S46 p) a b),
    unary main_v192 main_v194 (broadcastInDim S1x46 ![1] bcast_S46_S1x46_1 : (⟨S46, .f32⟩ : BufTy).Contents (Elt F) → (⟨S1x46, .f32⟩ : BufTy).Contents (Elt F)),
    unary main_v194 main_v195 (broadcastInDim S100x46 ![0, 1] bcast_S1x46_S100x46_0_1 : (⟨S1x46, .f32⟩ : BufTy).Contents (Elt F) → (⟨S100x46, .f32⟩ : BufTy).Contents (Elt F)),
    binary main_v189 main_v195 main_v196 (subf : (⟨S100x46, .f32⟩ : BufTy).Contents (Elt F) → (⟨S100x46, .f32⟩ : BufTy).Contents (Elt F) → (⟨S100x46, .f32⟩ : BufTy).Contents (Elt F)),
    nullary main_cst_46 (constant S_ .f32 0x3727C5AC#32),
    unary main_cst_46 main_v197 (broadcastInDim S46 ![] bcast_S_S46 : (⟨S_, .f32⟩ : BufTy).Contents (Elt F) → (⟨S46, .f32⟩ : BufTy).Contents (Elt F)),
    binary main_v193 main_v197 main_v198 (addf : (⟨S46, .f32⟩ : BufTy).Contents (Elt F) → (⟨S46, .f32⟩ : BufTy).Contents (Elt F) → (⟨S46, .f32⟩ : BufTy).Contents (Elt F)),
    unary main_v198 main_v199 (Host.rsqrt : (⟨S46, .f32⟩ : BufTy).Contents (Elt F) → (⟨S46, .f32⟩ : BufTy).Contents (Elt F)),
    unary main_v199 main_v200 (broadcastInDim S1x46 ![1] bcast_S46_S1x46_1 : (⟨S46, .f32⟩ : BufTy).Contents (Elt F) → (⟨S1x46, .f32⟩ : BufTy).Contents (Elt F)),
    unary main_v200 main_v201 (broadcastInDim S100x46 ![0, 1] bcast_S1x46_S100x46_0_1 : (⟨S1x46, .f32⟩ : BufTy).Contents (Elt F) → (⟨S100x46, .f32⟩ : BufTy).Contents (Elt F)),
    binary main_v196 main_v201 main_v202 (mulf : (⟨S100x46, .f32⟩ : BufTy).Contents (Elt F) → (⟨S100x46, .f32⟩ : BufTy).Contents (Elt F) → (⟨S100x46, .f32⟩ : BufTy).Contents (Elt F)),
    unary main_arg20 main_v203 (broadcastInDim S1x46 ![1] bcast_S46_S1x46_1 : (⟨S46, .f32⟩ : BufTy).Contents (Elt F) → (⟨S1x46, .f32⟩ : BufTy).Contents (Elt F)),
    unary main_v203 main_v204 (broadcastInDim S100x46 ![0, 1] bcast_S1x46_S100x46_0_1 : (⟨S1x46, .f32⟩ : BufTy).Contents (Elt F) → (⟨S100x46, .f32⟩ : BufTy).Contents (Elt F)),
    binary main_v202 main_v204 main_v205 (mulf : (⟨S100x46, .f32⟩ : BufTy).Contents (Elt F) → (⟨S100x46, .f32⟩ : BufTy).Contents (Elt F) → (⟨S100x46, .f32⟩ : BufTy).Contents (Elt F)),
    unary main_arg21 main_v206 (broadcastInDim S1x46 ![1] bcast_S46_S1x46_1 : (⟨S46, .f32⟩ : BufTy).Contents (Elt F) → (⟨S1x46, .f32⟩ : BufTy).Contents (Elt F)),
    unary main_v206 main_v207 (broadcastInDim S100x46 ![0, 1] bcast_S1x46_S100x46_0_1 : (⟨S1x46, .f32⟩ : BufTy).Contents (Elt F) → (⟨S100x46, .f32⟩ : BufTy).Contents (Elt F)),
    binary main_v205 main_v207 main_v208 (addf : (⟨S100x46, .f32⟩ : BufTy).Contents (Elt F) → (⟨S100x46, .f32⟩ : BufTy).Contents (Elt F) → (⟨S100x46, .f32⟩ : BufTy).Contents (Elt F)),
    binary main_v208 main_arg22 main_v209 ((fun l r => Host.dotGeneral dot_S100x46_S46x1_S100x1_1_0_0_1_n_n none l r) : (⟨S100x46, .f32⟩ : BufTy).Contents (Elt F) → (⟨S46x1, .f32⟩ : BufTy).Contents (Elt F) → (⟨S100x1, .f32⟩ : BufTy).Contents (Elt F)),
    unary main_arg23 main_v210 (broadcastInDim S1x1 ![1] bcast_S1_S1x1_1 : (⟨S1, .f32⟩ : BufTy).Contents (Elt F) → (⟨S1x1, .f32⟩ : BufTy).Contents (Elt F)),
    unary main_v210 main_v211 (broadcastInDim S100x1 ![0, 1] bcast_S1x1_S100x1_0_1 : (⟨S1x1, .f32⟩ : BufTy).Contents (Elt F) → (⟨S100x1, .f32⟩ : BufTy).Contents (Elt F)),
    binary main_v209 main_v211 main_v212 (addf : (⟨S100x1, .f32⟩ : BufTy).Contents (Elt F) → (⟨S100x1, .f32⟩ : BufTy).Contents (Elt F) → (⟨S100x1, .f32⟩ : BufTy).Contents (Elt F)) ]

/-- @main's operations in program order, the calls unfolded: the ten chunks one after the other. -/
abbrev ops : List (HloOp τ sig (Elt F)) :=
  opsPrep ++ opsLin1 ++ opsAgg1 ++ opsLayer2 ++ opsAgg2 ++ opsLayer3 ++ opsAgg3 ++ opsComb ++ opsTail ++ opsHead

/-! ## @main is the sequence of these operations

@main is printed as five consecutive windows of statements. Each window is the sequence of its own operations (`win0` … `win4`: the
same operations as above, listed window by window), by unfolding; the windows' lists one after the other are `ops`, two spellings of one
list; and sequences compose along concatenation (`seq_append`). -/

/-- The operations of @main's window `main_part0`, in program order, the calls unfolded. -/
abbrev win0 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_cst (constant S_ .f32 0x00000000#32),
    unary main_cst main_v4 (broadcastInDim S50000 ![] bcast_S_S50000 : (⟨S_, .f32⟩ : BufTy).Contents (Elt F) → (⟨S50000, .f32⟩ : BufTy).Contents (Elt F)),
    nullary main_c (constantI S_ 32 0#32),
    unary main_c main_v5 (broadcastInDim S800000 ![] bcast_S_S800000 : (⟨S_, .i32⟩ : BufTy).Contents (Elt F) → (⟨S800000, .i32⟩ : BufTy).Contents (Elt F)),
    binary main_v3 main_v5 main_v6 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v7 (broadcastInDim S800000 ![] bcast_S_S800000 : (⟨S_, .i32⟩ : BufTy).Contents (Elt F) → (⟨S800000, .i32⟩ : BufTy).Contents (Elt F)),
    binary main_v3 main_v7 main_v8 (addi : (⟨S800000, .i32⟩ : BufTy).Contents (Elt F) → (⟨S800000, .i32⟩ : BufTy).Contents (Elt F) → (⟨S800000, .i32⟩ : BufTy).Contents (Elt F)),
    ternary main_v6 main_v8 main_v3 main_v9 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v9 main_v10 (broadcastInDim S800000x1 ![0] bcast_S800000_S800000x1_0 : (⟨S800000, .i32⟩ : BufTy).Contents (Elt F) → (⟨S800000x1, .i32⟩ : BufTy).Contents (Elt F)),
    nullary main_cst_1 (constant S_ .f32 0x3F800000#32),
    unary main_cst_1 main_v11 (broadcastInDim S800000 ![] bcast_S_S800000 : (⟨S_, .f32⟩ : BufTy).Contents (Elt F) → (⟨S800000, .f32⟩ : BufTy).Contents (Elt F)),
    ternary main_v4 main_v10 main_v11 main_v12 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_2 (constant S_ .f32 0x3F800000#32),
    unary main_cst_2 main_v13 (broadcastInDim S50000 ![] bcast_S_S50000 : (⟨S_, .f32⟩ : BufTy).Contents (Elt F) → (⟨S50000, .f32⟩ : BufTy).Contents (Elt F)),
    binary main_v12 main_v13 main_v14 (addf : (⟨S50000, .f32⟩ : BufTy).Contents (Elt F) → (⟨S50000, .f32⟩ : BufTy).Contents (Elt F) → (⟨S50000, .f32⟩ : BufTy).Contents (Elt F)),
    unary main_v14 main_v15 (Host.rsqrt : (⟨S50000, .f32⟩ : BufTy).Contents (Elt F) → (⟨S50000, .f32⟩ : BufTy).Contents (Elt F)),
    nullary main_c_3 (constantI S_ 32 0#32),
    unary main_c_3 main_v16 (broadcastInDim S800000 ![] bcast_S_S800000 : (⟨S_, .i32⟩ : BufTy).Contents (Elt F) → (⟨S800000, .i32⟩ : BufTy).Contents (Elt F)),
    binary main_v1 main_v16 main_v17 (cmpi .slt : (⟨S800000, .i32⟩ : BufTy).Contents (Elt F) → (⟨S800000, .i32⟩ : BufTy).Contents (Elt F) → (⟨S800000, .i1⟩ : BufTy).Contents (Elt F)),
    nullary main_c_4 (constantI S_ 32 50000#32),
    unary main_c_4 main_v18 (broadcastInDim S800000 ![] bcast_S_S800000 : (⟨S_, .i32⟩ : BufTy).Contents (Elt F) → (⟨S800000, .i32⟩ : BufTy).Contents (Elt F)),
    binary main_v1 main_v18 main_v19 (addi : (⟨S800000, .i32⟩ : BufTy).Contents (Elt F) → (⟨S800000, .i32⟩ : BufTy).Contents (Elt F) → (⟨S800000, .i32⟩ : BufTy).Contents (Elt F)),
    ternary main_v17 main_v19 main_v1 main_v20 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v20 main_v21 (broadcastInDim S800000x1 ![0] bcast_S800000_S800000x1_0 : (⟨S800000, .i32⟩ : BufTy).Contents (Elt F) → (⟨S800000x1, .i32⟩ : BufTy).Contents (Elt F)),
    binary main_v15 main_v21 main_v22 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_5 (constantI S_ 32 0#32),
    unary main_c_5 main_v23 (broadcastInDim S800000 ![] bcast_S_S800000 : (⟨S_, .i32⟩ : BufTy).Contents (Elt F) → (⟨S800000, .i32⟩ : BufTy).Contents (Elt F)),
    binary main_v3 main_v23 main_v24 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v25 (broadcastInDim S800000 ![] bcast_S_S800000 : (⟨S_, .i32⟩ : BufTy).Contents (Elt F) → (⟨S800000, .i32⟩ : BufTy).Contents (Elt F)),
    binary main_v3 main_v25 main_v26 (addi : (⟨S800000, .i32⟩ : BufTy).Contents (Elt F) → (⟨S800000, .i32⟩ : BufTy).Contents (Elt F) → (⟨S800000, .i32⟩ : BufTy).Contents (Elt F)),
    ternary main_v24 main_v26 main_v3 main_v27 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v27 main_v28 (broadcastInDim S800000x1 ![0] bcast_S800000_S800000x1_0 : (⟨S800000, .i32⟩ : BufTy).Contents (Elt F) → (⟨S800000x1, .i32⟩ : BufTy).Contents (Elt F)),
    binary main_v15 main_v28 main_v29 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v22 main_v29 main_v30 (mulf : (⟨S800000, .f32⟩ : BufTy).Contents (Elt F) → (⟨S800000, .f32⟩ : BufTy).Contents (Elt F) → (⟨S800000, .f32⟩ : BufTy).Contents (Elt F)),
    binary main_v15 main_v15 main_v31 (mulf : (⟨S50000, .f32⟩ : BufTy).Contents (Elt F) → (⟨S50000, .f32⟩ : BufTy).Contents (Elt F) → (⟨S50000, .f32⟩ : BufTy).Contents (Elt F)),
    unary main_v31 main_v32 (broadcastInDim S50000x1 ![0] bcast_S50000_S50000x1_0 : (⟨S50000, .f32⟩ : BufTy).Contents (Elt F) → (⟨S50000x1, .f32⟩ : BufTy).Contents (Elt F)),
    binary main_arg0 main_arg4 main_v33 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_cst_7 (constant S_ .f32 0x00000000#32),
    unary main_cst_7 main_v34 (broadcastInDim S50000x128 ![] bcast_S_S50000x128 : (⟨S_, .f32⟩ : BufTy).Contents (Elt F) → (⟨S50000x128, .f32⟩ : BufTy).Contents (Elt F)),
    nullary main_c_8 (constantI S_ 32 0#32),
    unary main_c_8 main_v35 (broadcastInDim S800000 ![] bcast_S_S800000 : (⟨S_, .i32⟩ : BufTy).Contents (Elt F) → (⟨S800000, .i32⟩ : BufTy).Contents (Elt F)),
    binary main_v1 main_v35 main_v36 (cmpi .slt : (⟨S800000, .i32⟩ : BufTy).Contents (Elt F) → (⟨S800000, .i32⟩ : BufTy).Contents (Elt F) → (⟨S800000, .i1⟩ : BufTy).Contents (Elt F)),
    nullary main_c_9 (constantI S_ 32 50000#32),
    unary main_c_9 main_v37 (broadcastInDim S800000 ![] bcast_S_S800000 : (⟨S_, .i32⟩ : BufTy).Contents (Elt F) → (⟨S800000, .i32⟩ : BufTy).Contents (Elt F)),
    binary main_v1 main_v37 main_v38 (addi : (⟨S800000, .i32⟩ : BufTy).Contents (Elt F) → (⟨S800000, .i32⟩ : BufTy).Contents (Elt F) → (⟨S800000, .i32⟩ : BufTy).Contents (Elt F)),
    ternary main_v36 main_v38 main_v1 main_v39 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v39 main_v40 (broadcastInDim S800000x1 ![0] bcast_S800000_S800000x1_0 : (⟨S800000, .i32⟩ : BufTy).Contents (Elt F) → (⟨S800000x1, .i32⟩ : BufTy).Contents (Elt F)),
    binary main_v33 main_v40 main_v41 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v30 main_v42 (broadcastInDim S800000x1 ![0] bcast_S800000_S800000x1_0 : (⟨S800000, .f32⟩ : BufTy).Contents (Elt F) → (⟨S800000x1, .f32⟩ : BufTy).Contents (Elt F)),
    unary main_v42 main_v43 (broadcastInDim S800000x128 ![0, 1] bcast_S800000x1_S800000x128_0_1 : (⟨S800000x1, .f32⟩ : BufTy).Contents (Elt F) → (⟨S800000x128, .f32⟩ : BufTy).Contents (Elt F)),
    binary main_v41 main_v43 main_v44 (mulf : (⟨S800000x128, .f32⟩ : BufTy).Contents (Elt F) → (⟨S800000x128, .f32⟩ : BufTy).Contents (Elt F) → (⟨S800000x128, .f32⟩ : BufTy).Contents (Elt F)),
    nullary main_c_10 (constantI S_ 32 0#32),
    unary main_c_10 main_v45 (broadcastInDim S800000 ![] bcast_S_S800000 : (⟨S_, .i32⟩ : BufTy).Contents (Elt F) → (⟨S800000, .i32⟩ : BufTy).Contents (Elt F)),
    binary main_v3 main_v45 main_v46 (cmpi .slt : (⟨S800000, .i32⟩ : BufTy).Contents (Elt F) → (⟨S800000, .i32⟩ : BufTy).Contents (Elt F) → (⟨S800000, .i1⟩ : BufTy).Contents (Elt F)) ]

/-- The operations of @main's window `main_part1`, in program order, the calls unfolded. -/
abbrev win1 : List (HloOp τ sig (Elt F)) :=
  [ nullary main_c_11 (constantI S_ 32 50000#32),
    unary main_c_11 main_v47 (broadcastInDim S800000 ![] bcast_S_S800000 : (⟨S_, .i32⟩ : BufTy).Contents (Elt F) → (⟨S800000, .i32⟩ : BufTy).Contents (Elt F)),
    binary main_v3 main_v47 main_v48 (addi : (⟨S800000, .i32⟩ : BufTy).Contents (Elt F) → (⟨S800000, .i32⟩ : BufTy).Contents (Elt F) → (⟨S800000, .i32⟩ : BufTy).Contents (Elt F)),
    ternary main_v46 main_v48 main_v3 main_v49 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v49 main_v50 (broadcastInDim S800000x1 ![0] bcast_S800000_S800000x1_0 : (⟨S800000, .i32⟩ : BufTy).Contents (Elt F) → (⟨S800000x1, .i32⟩ : BufTy).Contents (Elt F)),
    ternary main_v34 main_v50 main_v44 main_v51 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v32 main_v52 (broadcastInDim S50000x128 ![0, 1] bcast_S50000x1_S50000x128_0_1 : (⟨S50000x1, .f32⟩ : BufTy).Contents (Elt F) → (⟨S50000x128, .f32⟩ : BufTy).Contents (Elt F)),
    binary main_v33 main_v52 main_v53 (mulf : (⟨S50000x128, .f32⟩ : BufTy).Contents (Elt F) → (⟨S50000x128, .f32⟩ : BufTy).Contents (Elt F) → (⟨S50000x128, .f32⟩ : BufTy).Contents (Elt F)),
    binary main_v51 main_v53 main_v54 (addf : (⟨S50000x128, .f32⟩ : BufTy).Contents (Elt F) → (⟨S50000x128, .f32⟩ : BufTy).Contents (Elt F) → (⟨S50000x128, .f32⟩ : BufTy).Contents (Elt F)),
    unary main_arg5 main_v55 (broadcastInDim S1x128 ![1] bcast_S128_S1x128_1 : (⟨S128, .f32⟩ : BufTy).Contents (Elt F) → (⟨S1x128, .f32⟩ : BufTy).Contents (Elt F)),
    unary main_v55 main_v56 (broadcastInDim S50000x128 ![0, 1] bcast_S1x128_S50000x128_0_1 : (⟨S1x128, .f32⟩ : BufTy).Contents (Elt F) → (⟨S50000x128, .f32⟩ : BufTy).Contents (Elt F)),
    binary main_v54 main_v56 main_v57 (addf : (⟨S50000x128, .f32⟩ : BufTy).Contents (Elt F) → (⟨S50000x128, .f32⟩ : BufTy).Contents (Elt F) → (⟨S50000x128, .f32⟩ : BufTy).Contents (Elt F)),
    nullary main_cst_12 (constant S_ .f32 0x00000000#32),
    unary main_cst_12 main_v58 (broadcastInDim S50000x128 ![] bcast_S_S50000x128 : (⟨S_, .f32⟩ : BufTy).Contents (Elt F) → (⟨S50000x128, .f32⟩ : BufTy).Contents (Elt F)),
    binary main_v57 main_v58 main_v59 (cmpf .ogt : (⟨S50000x128, .f32⟩ : BufTy).Contents (Elt F) → (⟨S50000x128, .f32⟩ : BufTy).Contents (Elt F) → (⟨S50000x128, .i1⟩ : BufTy).Contents (Elt F)),
    nullary main_cst_13 (constant S_ .f32 0x3C23D70A#32),
    unary main_cst_13 main_v60 (broadcastInDim S50000x128 ![] bcast_S_S50000x128 : (⟨S_, .f32⟩ : BufTy).Contents (Elt F) → (⟨S50000x128, .f32⟩ : BufTy).Contents (Elt F)),
    binary main_v60 main_v57 main_v61 (mulf : (⟨S50000x128, .f32⟩ : BufTy).Contents (Elt F) → (⟨S50000x128, .f32⟩ : BufTy).Contents (Elt F) → (⟨S50000x128, .f32⟩ : BufTy).Contents (Elt F)),
    TRef.ternary (.of main_v59) (.of main_v57) (.of main_v61) main_call0.v0 select,
    binary main_v62 main_arg6 main_v63 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_cst_14 (constant S_ .f32 0x00000000#32),
    unary main_cst_14 main_v64 (broadcastInDim S50000x128 ![] bcast_S_S50000x128 : (⟨S_, .f32⟩ : BufTy).Contents (Elt F) → (⟨S50000x128, .f32⟩ : BufTy).Contents (Elt F)),
    nullary main_c_15 (constantI S_ 32 0#32),
    unary main_c_15 main_v65 (broadcastInDim S800000 ![] bcast_S_S800000 : (⟨S_, .i32⟩ : BufTy).Contents (Elt F) → (⟨S800000, .i32⟩ : BufTy).Contents (Elt F)),
    binary main_v1 main_v65 main_v66 (cmpi .slt : (⟨S800000, .i32⟩ : BufTy).Contents (Elt F) → (⟨S800000, .i32⟩ : BufTy).Contents (Elt F) → (⟨S800000, .i1⟩ : BufTy).Contents (Elt F)),
    nullary main_c_16 (constantI S_ 32 50000#32),
    unary main_c_16 main_v67 (broadcastInDim S800000 ![] bcast_S_S800000 : (⟨S_, .i32⟩ : BufTy).Contents (Elt F) → (⟨S800000, .i32⟩ : BufTy).Contents (Elt F)),
    binary main_v1 main_v67 main_v68 (addi : (⟨S800000, .i32⟩ : BufTy).Contents (Elt F) → (⟨S800000, .i32⟩ : BufTy).Contents (Elt F) → (⟨S800000, .i32⟩ : BufTy).Contents (Elt F)),
    ternary main_v66 main_v68 main_v1 main_v69 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v69 main_v70 (broadcastInDim S800000x1 ![0] bcast_S800000_S800000x1_0 : (⟨S800000, .i32⟩ : BufTy).Contents (Elt F) → (⟨S800000x1, .i32⟩ : BufTy).Contents (Elt F)),
    binary main_v63 main_v70 main_v71 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v30 main_v72 (broadcastInDim S800000x1 ![0] bcast_S800000_S800000x1_0 : (⟨S800000, .f32⟩ : BufTy).Contents (Elt F) → (⟨S800000x1, .f32⟩ : BufTy).Contents (Elt F)),
    unary main_v72 main_v73 (broadcastInDim S800000x128 ![0, 1] bcast_S800000x1_S800000x128_0_1 : (⟨S800000x1, .f32⟩ : BufTy).Contents (Elt F) → (⟨S800000x128, .f32⟩ : BufTy).Contents (Elt F)),
    binary main_v71 main_v73 main_v74 (mulf : (⟨S800000x128, .f32⟩ : BufTy).Contents (Elt F) → (⟨S800000x128, .f32⟩ : BufTy).Contents (Elt F) → (⟨S800000x128, .f32⟩ : BufTy).Contents (Elt F)),
    nullary main_c_17 (constantI S_ 32 0#32),
    unary main_c_17 main_v75 (broadcastInDim S800000 ![] bcast_S_S800000 : (⟨S_, .i32⟩ : BufTy).Contents (Elt F) → (⟨S800000, .i32⟩ : BufTy).Contents (Elt F)),
    binary main_v3 main_v75 main_v76 (cmpi .slt : (⟨S800000, .i32⟩ : BufTy).Contents (Elt F) → (⟨S800000, .i32⟩ : BufTy).Contents (Elt F) → (⟨S800000, .i1⟩ : BufTy).Contents (Elt F)),
    nullary main_c_18 (constantI S_ 32 50000#32),
    unary main_c_18 main_v77 (broadcastInDim S800000 ![] bcast_S_S800000 : (⟨S_, .i32⟩ : BufTy).Contents (Elt F) → (⟨S800000, .i32⟩ : BufTy).Contents (Elt F)),
    binary main_v3 main_v77 main_v78 (addi : (⟨S800000, .i32⟩ : BufTy).Contents (Elt F) → (⟨S800000, .i32⟩ : BufTy).Contents (Elt F) → (⟨S800000, .i32⟩ : BufTy).Contents (Elt F)),
    ternary main_v76 main_v78 main_v3 main_v79 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v79 main_v80 (broadcastInDim S800000x1 ![0] bcast_S800000_S800000x1_0 : (⟨S800000, .i32⟩ : BufTy).Contents (Elt F) → (⟨S800000x1, .i32⟩ : BufTy).Contents (Elt F)),
    ternary main_v64 main_v80 main_v74 main_v81 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v32 main_v82 (broadcastInDim S50000x128 ![0, 1] bcast_S50000x1_S50000x128_0_1 : (⟨S50000x1, .f32⟩ : BufTy).Contents (Elt F) → (⟨S50000x128, .f32⟩ : BufTy).Contents (Elt F)),
    binary main_v63 main_v82 main_v83 (mulf : (⟨S50000x128, .f32⟩ : BufTy).Contents (Elt F) → (⟨S50000x128, .f32⟩ : BufTy).Contents (Elt F) → (⟨S50000x128, .f32⟩ : BufTy).Contents (Elt F)),
    binary main_v81 main_v83 main_v84 (addf : (⟨S50000x128, .f32⟩ : BufTy).Contents (Elt F) → (⟨S50000x128, .f32⟩ : BufTy).Contents (Elt F) → (⟨S50000x128, .f32⟩ : BufTy).Contents (Elt F)),
    unary main_arg7 main_v85 (broadcastInDim S1x128 ![1] bcast_S128_S1x128_1 : (⟨S128, .f32⟩ : BufTy).Contents (Elt F) → (⟨S1x128, .f32⟩ : BufTy).Contents (Elt F)),
    unary main_v85 main_v86 (broadcastInDim S50000x128 ![0, 1] bcast_S1x128_S50000x128_0_1 : (⟨S1x128, .f32⟩ : BufTy).Contents (Elt F) → (⟨S50000x128, .f32⟩ : BufTy).Contents (Elt F)),
    binary main_v84 main_v86 main_v87 (addf : (⟨S50000x128, .f32⟩ : BufTy).Contents (Elt F) → (⟨S50000x128, .f32⟩ : BufTy).Contents (Elt F) → (⟨S50000x128, .f32⟩ : BufTy).Contents (Elt F)),
    nullary main_cst_19 (constant S_ .f32 0x00000000#32),
    unary main_cst_19 main_v88 (broadcastInDim S50000x128 ![] bcast_S_S50000x128 : (⟨S_, .f32⟩ : BufTy).Contents (Elt F) → (⟨S50000x128, .f32⟩ : BufTy).Contents (Elt F)),
    binary main_v87 main_v88 main_v89 (cmpf .ogt : (⟨S50000x128, .f32⟩ : BufTy).Contents (Elt F) → (⟨S50000x128, .f32⟩ : BufTy).Contents (Elt F) → (⟨S50000x128, .i1⟩ : BufTy).Contents (Elt F)),
    nullary main_cst_20 (constant S_ .f32 0x3C23D70A#32),
    unary main_cst_20 main_v90 (broadcastInDim S50000x128 ![] bcast_S_S50000x128 : (⟨S_, .f32⟩ : BufTy).Contents (Elt F) → (⟨S50000x128, .f32⟩ : BufTy).Contents (Elt F)),
    binary main_v90 main_v87 main_v91 (mulf : (⟨S50000x128, .f32⟩ : BufTy).Contents (Elt F) → (⟨S50000x128, .f32⟩ : BufTy).Contents (Elt F) → (⟨S50000x128, .f32⟩ : BufTy).Contents (Elt F)),
    TRef.ternary (.of main_v89) (.of main_v87) (.of main_v91) main_call1.v0 select,
    binary main_v92 main_arg8 main_v93 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_cst_21 (constant S_ .f32 0x00000000#32),
    unary main_cst_21 main_v94 (broadcastInDim S50000x128 ![] bcast_S_S50000x128 : (⟨S_, .f32⟩ : BufTy).Contents (Elt F) → (⟨S50000x128, .f32⟩ : BufTy).Contents (Elt F)),
    nullary main_c_22 (constantI S_ 32 0#32) ]

/-- The operations of @main's window `main_part2`, in program order, the calls unfolded. -/
abbrev win2 : List (HloOp τ sig (Elt F)) :=
  [ unary main_c_22 main_v95 (broadcastInDim S800000 ![] bcast_S_S800000 : (⟨S_, .i32⟩ : BufTy).Contents (Elt F) → (⟨S800000, .i32⟩ : BufTy).Contents (Elt F)),
    binary main_v1 main_v95 main_v96 (cmpi .slt : (⟨S800000, .i32⟩ : BufTy).Contents (Elt F) → (⟨S800000, .i32⟩ : BufTy).Contents (Elt F) → (⟨S800000, .i1⟩ : BufTy).Contents (Elt F)),
    nullary main_c_23 (constantI S_ 32 50000#32),
    unary main_c_23 main_v97 (broadcastInDim S800000 ![] bcast_S_S800000 : (⟨S_, .i32⟩ : BufTy).Contents (Elt F) → (⟨S800000, .i32⟩ : BufTy).Contents (Elt F)),
    binary main_v1 main_v97 main_v98 (addi : (⟨S800000, .i32⟩ : BufTy).Contents (Elt F) → (⟨S800000, .i32⟩ : BufTy).Contents (Elt F) → (⟨S800000, .i32⟩ : BufTy).Contents (Elt F)),
    ternary main_v96 main_v98 main_v1 main_v99 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v99 main_v100 (broadcastInDim S800000x1 ![0] bcast_S800000_S800000x1_0 : (⟨S800000, .i32⟩ : BufTy).Contents (Elt F) → (⟨S800000x1, .i32⟩ : BufTy).Contents (Elt F)),
    binary main_v93 main_v100 main_v101 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v30 main_v102 (broadcastInDim S800000x1 ![0] bcast_S800000_S800000x1_0 : (⟨S800000, .f32⟩ : BufTy).Contents (Elt F) → (⟨S800000x1, .f32⟩ : BufTy).Contents (Elt F)),
    unary main_v102 main_v103 (broadcastInDim S800000x128 ![0, 1] bcast_S800000x1_S800000x128_0_1 : (⟨S800000x1, .f32⟩ : BufTy).Contents (Elt F) → (⟨S800000x128, .f32⟩ : BufTy).Contents (Elt F)),
    binary main_v101 main_v103 main_v104 (mulf : (⟨S800000x128, .f32⟩ : BufTy).Contents (Elt F) → (⟨S800000x128, .f32⟩ : BufTy).Contents (Elt F) → (⟨S800000x128, .f32⟩ : BufTy).Contents (Elt F)),
    nullary main_c_24 (constantI S_ 32 0#32),
    unary main_c_24 main_v105 (broadcastInDim S800000 ![] bcast_S_S800000 : (⟨S_, .i32⟩ : BufTy).Contents (Elt F) → (⟨S800000, .i32⟩ : BufTy).Contents (Elt F)),
    binary main_v3 main_v105 main_v106 (cmpi .slt : (⟨S800000, .i32⟩ : BufTy).Contents (Elt F) → (⟨S800000, .i32⟩ : BufTy).Contents (Elt F) → (⟨S800000, .i1⟩ : BufTy).Contents (Elt F)),
    nullary main_c_25 (constantI S_ 32 50000#32),
    unary main_c_25 main_v107 (broadcastInDim S800000 ![] bcast_S_S800000 : (⟨S_, .i32⟩ : BufTy).Contents (Elt F) → (⟨S800000, .i32⟩ : BufTy).Contents (Elt F)),
    binary main_v3 main_v107 main_v108 (addi : (⟨S800000, .i32⟩ : BufTy).Contents (Elt F) → (⟨S800000, .i32⟩ : BufTy).Contents (Elt F) → (⟨S800000, .i32⟩ : BufTy).Contents (Elt F)),
    ternary main_v106 main_v108 main_v3 main_v109 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v109 main_v110 (broadcastInDim S800000x1 ![0] bcast_S800000_S800000x1_0 : (⟨S800000, .i32⟩ : BufTy).Contents (Elt F) → (⟨S800000x1, .i32⟩ : BufTy).Contents (Elt F)),
    ternary main_v94 main_v110 main_v104 main_v111 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v32 main_v112 (broadcastInDim S50000x128 ![0, 1] bcast_S50000x1_S50000x128_0_1 : (⟨S50000x1, .f32⟩ : BufTy).Contents (Elt F) → (⟨S50000x128, .f32⟩ : BufTy).Contents (Elt F)),
    binary main_v93 main_v112 main_v113 (mulf : (⟨S50000x128, .f32⟩ : BufTy).Contents (Elt F) → (⟨S50000x128, .f32⟩ : BufTy).Contents (Elt F) → (⟨S50000x128, .f32⟩ : BufTy).Contents (Elt F)),
    binary main_v111 main_v113 main_v114 (addf : (⟨S50000x128, .f32⟩ : BufTy).Contents (Elt F) → (⟨S50000x128, .f32⟩ : BufTy).Contents (Elt F) → (⟨S50000x128, .f32⟩ : BufTy).Contents (Elt F)),
    unary main_arg9 main_v115 (broadcastInDim S1x128 ![1] bcast_S128_S1x128_1 : (⟨S128, .f32⟩ : BufTy).Contents (Elt F) → (⟨S1x128, .f32⟩ : BufTy).Contents (Elt F)),
    unary main_v115 main_v116 (broadcastInDim S50000x128 ![0, 1] bcast_S1x128_S50000x128_0_1 : (⟨S1x128, .f32⟩ : BufTy).Contents (Elt F) → (⟨S50000x128, .f32⟩ : BufTy).Contents (Elt F)),
    binary main_v114 main_v116 main_v117 (addf : (⟨S50000x128, .f32⟩ : BufTy).Contents (Elt F) → (⟨S50000x128, .f32⟩ : BufTy).Contents (Elt F) → (⟨S50000x128, .f32⟩ : BufTy).Contents (Elt F)),
    nullary main_cst_26 (constant S_ .f32 0x00000000#32),
    unary main_cst_26 main_v118 (broadcastInDim S50000x128 ![] bcast_S_S50000x128 : (⟨S_, .f32⟩ : BufTy).Contents (Elt F) → (⟨S50000x128, .f32⟩ : BufTy).Contents (Elt F)),
    binary main_v117 main_v118 main_v119 (cmpf .ogt : (⟨S50000x128, .f32⟩ : BufTy).Contents (Elt F) → (⟨S50000x128, .f32⟩ : BufTy).Contents (Elt F) → (⟨S50000x128, .i1⟩ : BufTy).Contents (Elt F)),
    nullary main_cst_27 (constant S_ .f32 0x3C23D70A#32),
    unary main_cst_27 main_v120 (broadcastInDim S50000x128 ![] bcast_S_S50000x128 : (⟨S_, .f32⟩ : BufTy).Contents (Elt F) → (⟨S50000x128, .f32⟩ : BufTy).Contents (Elt F)),
    binary main_v120 main_v117 main_v121 (mulf : (⟨S50000x128, .f32⟩ : BufTy).Contents (Elt F) → (⟨S50000x128, .f32⟩ : BufTy).Contents (Elt F) → (⟨S50000x128, .f32⟩ : BufTy).Contents (Elt F)),
    TRef.ternary (.of main_v119) (.of main_v117) (.of main_v121) main_call2.v0 select,
    nullary main_cst_28 (constant S_ .f32 0x3F800000#32),
    unary main_cst_28 main_v123 (broadcastInDim S50000 ![] bcast_S_S50000 : (⟨S_, .f32⟩ : BufTy).Contents (Elt F) → (⟨S50000, .f32⟩ : BufTy).Contents (Elt F)),
    nullary main_cst_29 (constant S_ .f32 0x00000000#32),
    unary main_cst_29 main_v124 (broadcastInDim S100 ![] bcast_S_S100 : (⟨S_, .f32⟩ : BufTy).Contents (Elt F) → (⟨S100, .f32⟩ : BufTy).Contents (Elt F)),
    unary main_arg2 main_v125 (broadcastInDim S50000x1 ![0] bcast_S50000_S50000x1_0 : (⟨S50000, .i32⟩ : BufTy).Contents (Elt F) → (⟨S50000x1, .i32⟩ : BufTy).Contents (Elt F)),
    ternary main_v124 main_v125 main_v123 main_v126 ((fun x i u => Host.scatterAdd scatter_S100_S50000x1_S50000_n_0_0_1 x i u) : (⟨S100, .f32⟩ : BufTy).Contents (Elt F) → (⟨S50000x1, .i32⟩ : BufTy).Contents (Elt F) → (⟨S50000, .f32⟩ : BufTy).Contents (Elt F) → (⟨S100, .f32⟩ : BufTy).Contents (Elt F)),
    nullary main_cst_30 (constant S_ .f32 0x00000000#32),
    unary main_cst_30 main_v127 (broadcastInDim S100x128 ![] bcast_S_S100x128 : (⟨S_, .f32⟩ : BufTy).Contents (Elt F) → (⟨S100x128, .f32⟩ : BufTy).Contents (Elt F)),
    unary main_arg2 main_v128 (broadcastInDim S50000x1 ![0] bcast_S50000_S50000x1_0 : (⟨S50000, .i32⟩ : BufTy).Contents (Elt F) → (⟨S50000x1, .i32⟩ : BufTy).Contents (Elt F)),
    ternary main_v127 main_v128 main_v122 main_v129 ((fun x i u => Host.scatterAdd scatter_S100x128_S50000x1_S50000x128_1_0_0_1 x i u) : (⟨S100x128, .f32⟩ : BufTy).Contents (Elt F) → (⟨S50000x1, .i32⟩ : BufTy).Contents (Elt F) → (⟨S50000x128, .f32⟩ : BufTy).Contents (Elt F) → (⟨S100x128, .f32⟩ : BufTy).Contents (Elt F)),
    unary main_v126 main_v130 (broadcastInDim S100x1 ![0] bcast_S100_S100x1_0 : (⟨S100, .f32⟩ : BufTy).Contents (Elt F) → (⟨S100x1, .f32⟩ : BufTy).Contents (Elt F)),
    unary main_v130 main_v131 (broadcastInDim S100x128 ![0, 1] bcast_S100x1_S100x128_0_1 : (⟨S100x1, .f32⟩ : BufTy).Contents (Elt F) → (⟨S100x128, .f32⟩ : BufTy).Contents (Elt F)),
    binary main_v129 main_v131 main_v132 (Host.divf : (⟨S100x128, .f32⟩ : BufTy).Contents (Elt F) → (⟨S100x128, .f32⟩ : BufTy).Contents (Elt F) → (⟨S100x128, .f32⟩ : BufTy).Contents (Elt F)),
    unary main_arg3 main_v133 (broadcastInDim S100x1 ![0] bcast_S100_S100x1_0 : (⟨S100, .f32⟩ : BufTy).Contents (Elt F) → (⟨S100x1, .f32⟩ : BufTy).Contents (Elt F)),
    binary main_v133 main_arg10 main_v134 ((fun l r => Host.dotGeneral dot_S100x1_S1x20_S100x20_1_0_0_1_n_n none l r) : (⟨S100x1, .f32⟩ : BufTy).Contents (Elt F) → (⟨S1x20, .f32⟩ : BufTy).Contents (Elt F) → (⟨S100x20, .f32⟩ : BufTy).Contents (Elt F)),
    unary main_arg11 main_v135 (broadcastInDim S1x20 ![1] bcast_S20_S1x20_1 : (⟨S20, .f32⟩ : BufTy).Contents (Elt F) → (⟨S1x20, .f32⟩ : BufTy).Contents (Elt F)),
    unary main_v135 main_v136 (broadcastInDim S100x20 ![0, 1] bcast_S1x20_S100x20_0_1 : (⟨S1x20, .f32⟩ : BufTy).Contents (Elt F) → (⟨S100x20, .f32⟩ : BufTy).Contents (Elt F)),
    binary main_v134 main_v136 main_v137 (addf : (⟨S100x20, .f32⟩ : BufTy).Contents (Elt F) → (⟨S100x20, .f32⟩ : BufTy).Contents (Elt F) → (⟨S100x20, .f32⟩ : BufTy).Contents (Elt F)),
    nullary main_cst_31 (constant S_ .f32 0x00000000#32),
    unary main_cst_31 main_v138 (broadcastInDim S100x20 ![] bcast_S_S100x20 : (⟨S_, .f32⟩ : BufTy).Contents (Elt F) → (⟨S100x20, .f32⟩ : BufTy).Contents (Elt F)),
    binary main_v137 main_v138 main_v139 (cmpf .ogt : (⟨S100x20, .f32⟩ : BufTy).Contents (Elt F) → (⟨S100x20, .f32⟩ : BufTy).Contents (Elt F) → (⟨S100x20, .i1⟩ : BufTy).Contents (Elt F)),
    nullary main_cst_32 (constant S_ .f32 0x3C23D70A#32),
    unary main_cst_32 main_v140 (broadcastInDim S100x20 ![] bcast_S_S100x20 : (⟨S_, .f32⟩ : BufTy).Contents (Elt F) → (⟨S100x20, .f32⟩ : BufTy).Contents (Elt F)),
    binary main_v140 main_v137 main_v141 (mulf : (⟨S100x20, .f32⟩ : BufTy).Contents (Elt F) → (⟨S100x20, .f32⟩ : BufTy).Contents (Elt F) → (⟨S100x20, .f32⟩ : BufTy).Contents (Elt F)),
    TRef.ternary (.of main_v139) (.of main_v137) (.of main_v141) main_call3.v0 select,
    binary main_v142 main_arg12 main_v143 ((fun l r => Host.dotGeneral dot_S100x20_S20x10_S100x10_1_0_0_1_n_n none l r) : (⟨S100x20, .f32⟩ : BufTy).Contents (Elt F) → (⟨S20x10, .f32⟩ : BufTy).Contents (Elt F) → (⟨S100x10, .f32⟩ : BufTy).Contents (Elt F)),
    unary main_arg13 main_v144 (broadcastInDim S1x10 ![1] bcast_S10_S1x10_1 : (⟨S10, .f32⟩ : BufTy).Contents (Elt F) → (⟨S1x10, .f32⟩ : BufTy).Contents (Elt F)) ]

/-- The operations of @main's window `main_part3`, in program order, the calls unfolded. -/
abbrev win3 : List (HloOp τ sig (Elt F)) :=
  [ unary main_v144 main_v145 (broadcastInDim S100x10 ![0, 1] bcast_S1x10_S100x10_0_1 : (⟨S1x10, .f32⟩ : BufTy).Contents (Elt F) → (⟨S100x10, .f32⟩ : BufTy).Contents (Elt F)),
    binary main_v143 main_v145 main_v146 (addf : (⟨S100x10, .f32⟩ : BufTy).Contents (Elt F) → (⟨S100x10, .f32⟩ : BufTy).Contents (Elt F) → (⟨S100x10, .f32⟩ : BufTy).Contents (Elt F)),
    nullary main_cst_33 (constant S_ .f32 0x00000000#32),
    unary main_cst_33 main_v147 (broadcastInDim S100x10 ![] bcast_S_S100x10 : (⟨S_, .f32⟩ : BufTy).Contents (Elt F) → (⟨S100x10, .f32⟩ : BufTy).Contents (Elt F)),
    binary main_v146 main_v147 main_v148 (cmpf .ogt : (⟨S100x10, .f32⟩ : BufTy).Contents (Elt F) → (⟨S100x10, .f32⟩ : BufTy).Contents (Elt F) → (⟨S100x10, .i1⟩ : BufTy).Contents (Elt F)),
    nullary main_cst_34 (constant S_ .f32 0x3C23D70A#32),
    unary main_cst_34 main_v149 (broadcastInDim S100x10 ![] bcast_S_S100x10 : (⟨S_, .f32⟩ : BufTy).Contents (Elt F) → (⟨S100x10, .f32⟩ : BufTy).Contents (Elt F)),
    binary main_v149 main_v146 main_v150 (mulf : (⟨S100x10, .f32⟩ : BufTy).Contents (Elt F) → (⟨S100x10, .f32⟩ : BufTy).Contents (Elt F) → (⟨S100x10, .f32⟩ : BufTy).Contents (Elt F)),
    TRef.ternary (.of main_v148) (.of main_v146) (.of main_v150) main_call4.v0 select,
    binary main_v132 main_v151 main_v152 ((fun a b => concatenate S100x138 1 [⟨S100x128, a⟩, ⟨S100x10, b⟩] concatenates_S100x128_S100x10_S100x138_d1) : (⟨S100x128, .f32⟩ : BufTy).Contents (Elt F) → (⟨S100x10, .f32⟩ : BufTy).Contents (Elt F) → (⟨S100x138, .f32⟩ : BufTy).Contents (Elt F)),
    binary main_v152 main_arg14 main_v153 ((fun l r => Host.dotGeneral dot_S100x138_S138x92_S100x92_1_0_0_1_n_n none l r) : (⟨S100x138, .f32⟩ : BufTy).Contents (Elt F) → (⟨S138x92, .f32⟩ : BufTy).Contents (Elt F) → (⟨S100x92, .f32⟩ : BufTy).Contents (Elt F)),
    unary main_arg15 main_v154 (broadcastInDim S1x92 ![1] bcast_S92_S1x92_1 : (⟨S92, .f32⟩ : BufTy).Contents (Elt F) → (⟨S1x92, .f32⟩ : BufTy).Contents (Elt F)),
    unary main_v154 main_v155 (broadcastInDim S100x92 ![0, 1] bcast_S1x92_S100x92_0_1 : (⟨S1x92, .f32⟩ : BufTy).Contents (Elt F) → (⟨S100x92, .f32⟩ : BufTy).Contents (Elt F)),
    binary main_v153 main_v155 main_v156 (addf : (⟨S100x92, .f32⟩ : BufTy).Contents (Elt F) → (⟨S100x92, .f32⟩ : BufTy).Contents (Elt F) → (⟨S100x92, .f32⟩ : BufTy).Contents (Elt F)),
    nullary main_cst_35 (constant S_ .f32 0x00000000#32),
    unary main_cst_35 main_v157 (broadcastInDim S100x92 ![] bcast_S_S100x92 : (⟨S_, .f32⟩ : BufTy).Contents (Elt F) → (⟨S100x92, .f32⟩ : BufTy).Contents (Elt F)),
    binary main_v156 main_v157 main_v158 (cmpf .ogt : (⟨S100x92, .f32⟩ : BufTy).Contents (Elt F) → (⟨S100x92, .f32⟩ : BufTy).Contents (Elt F) → (⟨S100x92, .i1⟩ : BufTy).Contents (Elt F)),
    nullary main_cst_36 (constant S_ .f32 0x3C23D70A#32),
    unary main_cst_36 main_v159 (broadcastInDim S100x92 ![] bcast_S_S100x92 : (⟨S_, .f32⟩ : BufTy).Contents (Elt F) → (⟨S100x92, .f32⟩ : BufTy).Contents (Elt F)),
    binary main_v159 main_v156 main_v160 (mulf : (⟨S100x92, .f32⟩ : BufTy).Contents (Elt F) → (⟨S100x92, .f32⟩ : BufTy).Contents (Elt F) → (⟨S100x92, .f32⟩ : BufTy).Contents (Elt F)),
    TRef.ternary (.of main_v158) (.of main_v156) (.of main_v160) main_call5.v0 select,
    nullary main_cst_37 (constant S_ .f32 0x00000000#32),
    binary main_v161 main_cst_37 main_v162 ((fun x v => Host.reduceAdd x v reducesTo_S100x92_S92_d0 h_S_) : (⟨S100x92, .f32⟩ : BufTy).Contents (Elt F) → (⟨S_, .f32⟩ : BufTy).Contents (Elt F) → (⟨S92, .f32⟩ : BufTy).Contents (Elt F)),
    nullary main_cst_38 (constant S_ .f32 0x42C80000#32),
    unary main_cst_38 main_v163 (broadcastInDim S92 ![] bcast_S_S92 : (⟨S_, .f32⟩ : BufTy).Contents (Elt F) → (⟨S92, .f32⟩ : BufTy).Contents (Elt F)),
    binary main_v162 main_v163 main_v164 (Host.divf : (⟨S92, .f32⟩ : BufTy).Contents (Elt F) → (⟨S92, .f32⟩ : BufTy).Contents (Elt F) → (⟨S92, .f32⟩ : BufTy).Contents (Elt F)),
    nullary main_c_39 (constantI S_ 32 0#32),
    TRef.nullary main_call6.cst (constant S_ .f32 0x00000000#32),
    TRef.binary (.of main_v161) main_call6.cst main_call6.v0 (fun x v => Host.reduceAdd x v reducesTo_S100x92_S92_d0 h_S_),
    TRef.unary main_call6.v0 main_call6.v1 (broadcastInDim S1x92 ![1] bcast_S92_S1x92_1),
    TRef.nullary main_call6.cst_0 (constant S_ .f32 0x42C80000#32),
    TRef.unary main_call6.cst_0 main_call6.v2 (broadcastInDim S1x92 ![] bcast_S_S1x92),
    TRef.binary main_call6.v1 main_call6.v2 main_call6.v3 Host.divf,
    TRef.unary main_call6.v3 main_call6.v4 (broadcastInDim S100x92 ![0, 1] bcast_S1x92_S100x92_0_1),
    TRef.binary (.of main_v161) main_call6.v4 main_call6.v5 subf,
    TRef.binary main_call6.v5 main_call6.v5 main_call6.v6 mulf,
    TRef.unary (.of main_c_39) main_call6.v7 (sitofp .f32),
    TRef.nullary main_call6.cst_1 (constant S_ .f32 0x42C80000#32),
    TRef.binary main_call6.cst_1 main_call6.v7 main_call6.v8 subf,
    TRef.nullary main_call6.cst_2 (constant S_ .f32 0x00000000#32),
    TRef.binary main_call6.v6 main_call6.cst_2 main_call6.v9 (fun x v => Host.reduceAdd x v reducesTo_S100x92_S92_d0 h_S_),
    TRef.unary main_call6.v8 main_call6.v10 (broadcastInDim S92 ![] bcast_S_S92),
    TRef.binary main_call6.v9 main_call6.v10 main_call6.v11 Host.divf,
    TRef.nullary main_call6.cst_3 (constant S_ .f32 0x00000000#32),
    TRef.binary main_call6.v8 main_call6.cst_3 main_call6.v12 (cmpf .ogt),
    TRef.nullary main_call6.cst_4 (constant S_ .f32 0x7FC00000#32),
    TRef.unary main_call6.cst_4 main_call6.call0.v0 id,
    TRef.unary main_call6.call0.v0 main_call6.call0.v1 (broadcastInDim S92 ![] bcast_S_S92),
    TRef.ternary main_call6.v12 main_call6.v11 main_call6.call0.v1 main_call6.call0.v2 (fun p a b => select (broadcastInDim S92 ![] bcast_S_S92 p) a b),
    unary main_v164 main_v166 (broadcastInDim S1x92 ![1] bcast_S92_S1x92_1 : (⟨S92, .f32⟩ : BufTy).Contents (Elt F) → (⟨S1x92, .f32⟩ : BufTy).Contents (Elt F)),
    unary main_v166 main_v167 (broadcastInDim S100x92 ![0, 1] bcast_S1x92_S100x92_0_1 : (⟨S1x92, .f32⟩ : BufTy).Contents (Elt F) → (⟨S100x92, .f32⟩ : BufTy).Contents (Elt F)),
    binary main_v161 main_v167 main_v168 (subf : (⟨S100x92, .f32⟩ : BufTy).Contents (Elt F) → (⟨S100x92, .f32⟩ : BufTy).Contents (Elt F) → (⟨S100x92, .f32⟩ : BufTy).Contents (Elt F)),
    nullary main_cst_40 (constant S_ .f32 0x3727C5AC#32),
    unary main_cst_40 main_v169 (broadcastInDim S92 ![] bcast_S_S92 : (⟨S_, .f32⟩ : BufTy).Contents (Elt F) → (⟨S92, .f32⟩ : BufTy).Contents (Elt F)),
    binary main_v165 main_v169 main_v170 (addf : (⟨S92, .f32⟩ : BufTy).Contents (Elt F) → (⟨S92, .f32⟩ : BufTy).Contents (Elt F) → (⟨S92, .f32⟩ : BufTy).Contents (Elt F)),
    unary main_v170 main_v171 (Host.rsqrt : (⟨S92, .f32⟩ : BufTy).Contents (Elt F) → (⟨S92, .f32⟩ : BufTy).Contents (Elt F)),
    unary main_v171 main_v172 (broadcastInDim S1x92 ![1] bcast_S92_S1x92_1 : (⟨S92, .f32⟩ : BufTy).Contents (Elt F) → (⟨S1x92, .f32⟩ : BufTy).Contents (Elt F)),
    unary main_v172 main_v173 (broadcastInDim S100x92 ![0, 1] bcast_S1x92_S100x92_0_1 : (⟨S1x92, .f32⟩ : BufTy).Contents (Elt F) → (⟨S100x92, .f32⟩ : BufTy).Contents (Elt F)),
    binary main_v168 main_v173 main_v174 (mulf : (⟨S100x92, .f32⟩ : BufTy).Contents (Elt F) → (⟨S100x92, .f32⟩ : BufTy).Contents (Elt F) → (⟨S100x92, .f32⟩ : BufTy).Contents (Elt F)),
    unary main_arg16 main_v175 (broadcastInDim S1x92 ![1] bcast_S92_S1x92_1 : (⟨S92, .f32⟩ : BufTy).Contents (Elt F) → (⟨S1x92, .f32⟩ : BufTy).Contents (Elt F)),
    unary main_v175 main_v176 (broadcastInDim S100x92 ![0, 1] bcast_S1x92_S100x92_0_1 : (⟨S1x92, .f32⟩ : BufTy).Contents (Elt F) → (⟨S100x92, .f32⟩ : BufTy).Contents (Elt F)),
    binary main_v174 main_v176 main_v177 (mulf : (⟨S100x92, .f32⟩ : BufTy).Contents (Elt F) → (⟨S100x92, .f32⟩ : BufTy).Contents (Elt F) → (⟨S100x92, .f32⟩ : BufTy).Contents (Elt F)),
    unary main_arg17 main_v178 (broadcastInDim S1x92 ![1] bcast_S92_S1x92_1 : (⟨S92, .f32⟩ : BufTy).Contents (Elt F) → (⟨S1x92, .f32⟩ : BufTy).Contents (Elt F)),
    unary main_v178 main_v179 (broadcastInDim S100x92 ![0, 1] bcast_S1x92_S100x92_0_1 : (⟨S1x92, .f32⟩ : BufTy).Contents (Elt F) → (⟨S100x92, .f32⟩ : BufTy).Contents (Elt F)),
    binary main_v177 main_v179 main_v180 (addf : (⟨S100x92, .f32⟩ : BufTy).Contents (Elt F) → (⟨S100x92, .f32⟩ : BufTy).Contents (Elt F) → (⟨S100x92, .f32⟩ : BufTy).Contents (Elt F)),
    binary main_v180 main_arg18 main_v181 ((fun l r => Host.dotGeneral dot_S100x92_S92x46_S100x46_1_0_0_1_n_n none l r) : (⟨S100x92, .f32⟩ : BufTy).Contents (Elt F) → (⟨S92x46, .f32⟩ : BufTy).Contents (Elt F) → (⟨S100x46, .f32⟩ : BufTy).Contents (Elt F)),
    unary main_arg19 main_v182 (broadcastInDim S1x46 ![1] bcast_S46_S1x46_1 : (⟨S46, .f32⟩ : BufTy).Contents (Elt F) → (⟨S1x46, .f32⟩ : BufTy).Contents (Elt F)),
    unary main_v182 main_v183 (broadcastInDim S100x46 ![0, 1] bcast_S1x46_S100x46_0_1 : (⟨S1x46, .f32⟩ : BufTy).Contents (Elt F) → (⟨S100x46, .f32⟩ : BufTy).Contents (Elt F)),
    binary main_v181 main_v183 main_v184 (addf : (⟨S100x46, .f32⟩ : BufTy).Contents (Elt F) → (⟨S100x46, .f32⟩ : BufTy).Contents (Elt F) → (⟨S100x46, .f32⟩ : BufTy).Contents (Elt F)),
    nullary main_cst_41 (constant S_ .f32 0x00000000#32),
    unary main_cst_41 main_v185 (broadcastInDim S100x46 ![] bcast_S_S100x46 : (⟨S_, .f32⟩ : BufTy).Contents (Elt F) → (⟨S100x46, .f32⟩ : BufTy).Contents (Elt F)),
    binary main_v184 main_v185 main_v186 (cmpf .ogt : (⟨S100x46, .f32⟩ : BufTy).Contents (Elt F) → (⟨S100x46, .f32⟩ : BufTy).Contents (Elt F) → (⟨S100x46, .i1⟩ : BufTy).Contents (Elt F)),
    nullary main_cst_42 (constant S_ .f32 0x3C23D70A#32),
    unary main_cst_42 main_v187 (broadcastInDim S100x46 ![] bcast_S_S100x46 : (⟨S_, .f32⟩ : BufTy).Contents (Elt F) → (⟨S100x46, .f32⟩ : BufTy).Contents (Elt F)),
    binary main_v187 main_v184 main_v188 (mulf : (⟨S100x46, .f32⟩ : BufTy).Contents (Elt F) → (⟨S100x46, .f32⟩ : BufTy).Contents (Elt F) → (⟨S100x46, .f32⟩ : BufTy).Contents (Elt F)),
    TRef.ternary (.of main_v186) (.of main_v184) (.of main_v188) main_call7.v0 select,
    nullary main_cst_43 (constant S_ .f32 0x00000000#32),
    binary main_v189 main_cst_43 main_v190 ((fun x v => Host.reduceAdd x v reducesTo_S100x46_S46_d0 h_S_) : (⟨S100x46, .f32⟩ : BufTy).Contents (Elt F) → (⟨S_, .f32⟩ : BufTy).Contents (Elt F) → (⟨S46, .f32⟩ : BufTy).Contents (Elt F)),
    nullary main_cst_44 (constant S_ .f32 0x42C80000#32),
    unary main_cst_44 main_v191 (broadcastInDim S46 ![] bcast_S_S46 : (⟨S_, .f32⟩ : BufTy).Contents (Elt F) → (⟨S46, .f32⟩ : BufTy).Contents (Elt F)),
    binary main_v190 main_v191 main_v192 (Host.divf : (⟨S46, .f32⟩ : BufTy).Contents (Elt F) → (⟨S46, .f32⟩ : BufTy).Contents (Elt F) → (⟨S46, .f32⟩ : BufTy).Contents (Elt F)) ]

/-- The operations of @main's window `main_part4`, in program order, the calls unfolded. -/
abbrev win4 : List (HloOp τ sig (Elt F)) :=
  [ nullary main_c_45 (constantI S_ 32 0#32),
    TRef.nullary main_call8.cst (constant S_ .f32 0x00000000#32),
    TRef.binary (.of main_v189) main_call8.cst main_call8.v0 (fun x v => Host.reduceAdd x v reducesTo_S100x46_S46_d0 h_S_),
    TRef.unary main_call8.v0 main_call8.v1 (broadcastInDim S1x46 ![1] bcast_S46_S1x46_1),
    TRef.nullary main_call8.cst_0 (constant S_ .f32 0x42C80000#32),
    TRef.unary main_call8.cst_0 main_call8.v2 (broadcastInDim S1x46 ![] bcast_S_S1x46),
    TRef.binary main_call8.v1 main_call8.v2 main_call8.v3 Host.divf,
    TRef.unary main_call8.v3 main_call8.v4 (broadcastInDim S100x46 ![0, 1] bcast_S1x46_S100x46_0_1),
    TRef.binary (.of main_v189) main_call8.v4 main_call8.v5 subf,
    TRef.binary main_call8.v5 main_call8.v5 main_call8.v6 mulf,
    TRef.unary (.of main_c_45) main_call8.v7 (sitofp .f32),
    TRef.nullary main_call8.cst_1 (constant S_ .f32 0x42C80000#32),
    TRef.binary main_call8.cst_1 main_call8.v7 main_call8.v8 subf,
    TRef.nullary main_call8.cst_2 (constant S_ .f32 0x00000000#32),
    TRef.binary main_call8.v6 main_call8.cst_2 main_call8.v9 (fun x v => Host.reduceAdd x v reducesTo_S100x46_S46_d0 h_S_),
    TRef.unary main_call8.v8 main_call8.v10 (broadcastInDim S46 ![] bcast_S_S46),
    TRef.binary main_call8.v9 main_call8.v10 main_call8.v11 Host.divf,
    TRef.nullary main_call8.cst_3 (constant S_ .f32 0x00000000#32),
    TRef.binary main_call8.v8 main_call8.cst_3 main_call8.v12 (cmpf .ogt),
    TRef.nullary main_call8.cst_4 (constant S_ .f32 0x7FC00000#32),
    TRef.unary main_call8.cst_4 main_call8.call0.v0 id,
    TRef.unary main_call8.call0.v0 main_call8.call0.v1 (broadcastInDim S46 ![] bcast_S_S46),
    TRef.ternary main_call8.v12 main_call8.v11 main_call8.call0.v1 main_call8.call0.v2 (fun p a b => select (broadcastInDim S46 ![] bcast_S_S46 p) a b),
    unary main_v192 main_v194 (broadcastInDim S1x46 ![1] bcast_S46_S1x46_1 : (⟨S46, .f32⟩ : BufTy).Contents (Elt F) → (⟨S1x46, .f32⟩ : BufTy).Contents (Elt F)),
    unary main_v194 main_v195 (broadcastInDim S100x46 ![0, 1] bcast_S1x46_S100x46_0_1 : (⟨S1x46, .f32⟩ : BufTy).Contents (Elt F) → (⟨S100x46, .f32⟩ : BufTy).Contents (Elt F)),
    binary main_v189 main_v195 main_v196 (subf : (⟨S100x46, .f32⟩ : BufTy).Contents (Elt F) → (⟨S100x46, .f32⟩ : BufTy).Contents (Elt F) → (⟨S100x46, .f32⟩ : BufTy).Contents (Elt F)),
    nullary main_cst_46 (constant S_ .f32 0x3727C5AC#32),
    unary main_cst_46 main_v197 (broadcastInDim S46 ![] bcast_S_S46 : (⟨S_, .f32⟩ : BufTy).Contents (Elt F) → (⟨S46, .f32⟩ : BufTy).Contents (Elt F)),
    binary main_v193 main_v197 main_v198 (addf : (⟨S46, .f32⟩ : BufTy).Contents (Elt F) → (⟨S46, .f32⟩ : BufTy).Contents (Elt F) → (⟨S46, .f32⟩ : BufTy).Contents (Elt F)),
    unary main_v198 main_v199 (Host.rsqrt : (⟨S46, .f32⟩ : BufTy).Contents (Elt F) → (⟨S46, .f32⟩ : BufTy).Contents (Elt F)),
    unary main_v199 main_v200 (broadcastInDim S1x46 ![1] bcast_S46_S1x46_1 : (⟨S46, .f32⟩ : BufTy).Contents (Elt F) → (⟨S1x46, .f32⟩ : BufTy).Contents (Elt F)),
    unary main_v200 main_v201 (broadcastInDim S100x46 ![0, 1] bcast_S1x46_S100x46_0_1 : (⟨S1x46, .f32⟩ : BufTy).Contents (Elt F) → (⟨S100x46, .f32⟩ : BufTy).Contents (Elt F)),
    binary main_v196 main_v201 main_v202 (mulf : (⟨S100x46, .f32⟩ : BufTy).Contents (Elt F) → (⟨S100x46, .f32⟩ : BufTy).Contents (Elt F) → (⟨S100x46, .f32⟩ : BufTy).Contents (Elt F)),
    unary main_arg20 main_v203 (broadcastInDim S1x46 ![1] bcast_S46_S1x46_1 : (⟨S46, .f32⟩ : BufTy).Contents (Elt F) → (⟨S1x46, .f32⟩ : BufTy).Contents (Elt F)),
    unary main_v203 main_v204 (broadcastInDim S100x46 ![0, 1] bcast_S1x46_S100x46_0_1 : (⟨S1x46, .f32⟩ : BufTy).Contents (Elt F) → (⟨S100x46, .f32⟩ : BufTy).Contents (Elt F)),
    binary main_v202 main_v204 main_v205 (mulf : (⟨S100x46, .f32⟩ : BufTy).Contents (Elt F) → (⟨S100x46, .f32⟩ : BufTy).Contents (Elt F) → (⟨S100x46, .f32⟩ : BufTy).Contents (Elt F)),
    unary main_arg21 main_v206 (broadcastInDim S1x46 ![1] bcast_S46_S1x46_1 : (⟨S46, .f32⟩ : BufTy).Contents (Elt F) → (⟨S1x46, .f32⟩ : BufTy).Contents (Elt F)),
    unary main_v206 main_v207 (broadcastInDim S100x46 ![0, 1] bcast_S1x46_S100x46_0_1 : (⟨S1x46, .f32⟩ : BufTy).Contents (Elt F) → (⟨S100x46, .f32⟩ : BufTy).Contents (Elt F)),
    binary main_v205 main_v207 main_v208 (addf : (⟨S100x46, .f32⟩ : BufTy).Contents (Elt F) → (⟨S100x46, .f32⟩ : BufTy).Contents (Elt F) → (⟨S100x46, .f32⟩ : BufTy).Contents (Elt F)),
    binary main_v208 main_arg22 main_v209 ((fun l r => Host.dotGeneral dot_S100x46_S46x1_S100x1_1_0_0_1_n_n none l r) : (⟨S100x46, .f32⟩ : BufTy).Contents (Elt F) → (⟨S46x1, .f32⟩ : BufTy).Contents (Elt F) → (⟨S100x1, .f32⟩ : BufTy).Contents (Elt F)),
    unary main_arg23 main_v210 (broadcastInDim S1x1 ![1] bcast_S1_S1x1_1 : (⟨S1, .f32⟩ : BufTy).Contents (Elt F) → (⟨S1x1, .f32⟩ : BufTy).Contents (Elt F)),
    unary main_v210 main_v211 (broadcastInDim S100x1 ![0, 1] bcast_S1x1_S100x1_0_1 : (⟨S1x1, .f32⟩ : BufTy).Contents (Elt F) → (⟨S100x1, .f32⟩ : BufTy).Contents (Elt F)),
    binary main_v209 main_v211 main_v212 (addf : (⟨S100x1, .f32⟩ : BufTy).Contents (Elt F) → (⟨S100x1, .f32⟩ : BufTy).Contents (Elt F) → (⟨S100x1, .f32⟩ : BufTy).Contents (Elt F)) ]

set_option maxRecDepth 8192 in
theorem main_part0_eq (c : Dev nD) : main_part0 (F := F) c = seq win0 := rfl

set_option maxRecDepth 8192 in
theorem main_part1_eq (c : Dev nD) : main_part1 (F := F) c = seq win1 := rfl

set_option maxRecDepth 8192 in
theorem main_part2_eq (c : Dev nD) : main_part2 (F := F) c = seq win2 := rfl

set_option maxRecDepth 8192 in
theorem main_part3_eq (c : Dev nD) : main_part3 (F := F) c = seq win3 := rfl

set_option maxRecDepth 8192 in
theorem main_part4_eq (c : Dev nD) : main_part4 (F := F) c = seq win4 := rfl

set_option maxRecDepth 8192 in
/-- The windows' lists, one after the other, are the chunks', one after the other: the same operations in the same order. -/
theorem wins_eq : (win0 ++ (win1 ++ (win2 ++ (win3 ++ win4))) : List (HloOp τ sig (Elt F))) = ops := rfl

theorem main_eq_wins (c : Dev nD) : main (F := F) c = seq (win0 ++ (win1 ++ (win2 ++ (win3 ++ win4)))) := by
  simp only [seq_append, ← main_part0_eq c, ← main_part1_eq c, ← main_part2_eq c, ← main_part3_eq c, ← main_part4_eq c]
  rfl

/-- @main is the straight line of `ops`. -/
theorem main_eq (c : Dev nD) : main (F := F) c = seq ops :=
  (main_eq_wins c).trans (congrArg seq wins_eq)

/-! ## The run -/

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem opsPrep_sub : (opsPrep : List (HloOp τ sig (Elt F))).Forall fun op => op.bufs ⊆ tcRefs τ sig :=
  ⟨unary_bufs_sub .., reshape_bufs_sub .., unary_bufs_sub .., reshape_bufs_sub .., nullary_bufs_sub .., unary_bufs_sub ..,
    nullary_bufs_sub .., unary_bufs_sub .., binary_bufs_sub .., nullary_bufs_sub .., unary_bufs_sub .., binary_bufs_sub ..,
    ternary_bufs_sub .., unary_bufs_sub .., nullary_bufs_sub .., unary_bufs_sub .., ternary_bufs_sub .., nullary_bufs_sub ..,
    unary_bufs_sub .., binary_bufs_sub .., unary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., binary_bufs_sub .., unary_bufs_sub ..⟩

set_option maxRecDepth 8192 in
theorem opsLin1_sub : (opsLin1 : List (HloOp τ sig (Elt F))).Forall fun op => op.bufs ⊆ tcRefs τ sig :=
  binary_bufs_sub ..

set_option maxRecDepth 8192 in
theorem opsAgg1_sub : (opsAgg1 : List (HloOp τ sig (Elt F))).Forall fun op => op.bufs ⊆ tcRefs τ sig :=
  ⟨nullary_bufs_sub .., unary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., ternary_bufs_sub ..⟩

set_option maxRecDepth 8192 in
theorem opsLayer2_sub : (opsLayer2 : List (HloOp τ sig (Elt F))).Forall fun op => op.bufs ⊆ tcRefs τ sig :=
  ⟨unary_bufs_sub .., binary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    ternary_bufs_sub .., binary_bufs_sub ..⟩

set_option maxRecDepth 8192 in
theorem opsAgg2_sub : (opsAgg2 : List (HloOp τ sig (Elt F))).Forall fun op => op.bufs ⊆ tcRefs τ sig :=
  ⟨nullary_bufs_sub .., unary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., ternary_bufs_sub ..⟩

set_option maxRecDepth 8192 in
theorem opsLayer3_sub : (opsLayer3 : List (HloOp τ sig (Elt F))).Forall fun op => op.bufs ⊆ tcRefs τ sig :=
  ⟨unary_bufs_sub .., binary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    ternary_bufs_sub .., binary_bufs_sub ..⟩

set_option maxRecDepth 8192 in
theorem opsAgg3_sub : (opsAgg3 : List (HloOp τ sig (Elt F))).Forall fun op => op.bufs ⊆ tcRefs τ sig :=
  ⟨nullary_bufs_sub .., unary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., ternary_bufs_sub ..⟩

set_option maxRecDepth 8192 in
theorem opsComb_sub : (opsComb : List (HloOp τ sig (Elt F))).Forall fun op => op.bufs ⊆ tcRefs τ sig :=
  ⟨unary_bufs_sub .., binary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    ternary_bufs_sub ..⟩

set_option maxRecDepth 8192 in
theorem opsTail_sub : (opsTail : List (HloOp τ sig (Elt F))).Forall fun op => op.bufs ⊆ tcRefs τ sig :=
  ⟨nullary_bufs_sub .., unary_bufs_sub .., nullary_bufs_sub .., unary_bufs_sub .., unary_bufs_sub .., ternary_bufs_sub ..,
    nullary_bufs_sub .., unary_bufs_sub .., unary_bufs_sub .., ternary_bufs_sub .., unary_bufs_sub .., unary_bufs_sub ..,
    binary_bufs_sub .., unary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    ternary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., ternary_bufs_sub ..,
    binary_bufs_sub ..⟩

set_option maxRecDepth 8192 in
theorem opsHead_sub : (opsHead : List (HloOp τ sig (Elt F))).Forall fun op => op.bufs ⊆ tcRefs τ sig :=
  ⟨binary_bufs_sub .., unary_bufs_sub .., unary_bufs_sub .., binary_bufs_sub .., nullary_bufs_sub .., unary_bufs_sub ..,
    binary_bufs_sub .., nullary_bufs_sub .., unary_bufs_sub .., binary_bufs_sub .., ternary_bufs_sub .., nullary_bufs_sub ..,
    binary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub ..,
    unary_bufs_sub .., unary_bufs_sub .., ternary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., unary_bufs_sub .., unary_bufs_sub ..,
    binary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., ternary_bufs_sub ..,
    nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., binary_bufs_sub .., unary_bufs_sub .., unary_bufs_sub .., binary_bufs_sub ..⟩

/-- Every operation touches TensorCore references only. -/
theorem ops_sub : (ops : List (HloOp τ sig (Elt F))).Forall fun op => op.bufs ⊆ tcRefs τ sig :=
  List.forall_iff_forall_mem.mpr fun op h => by
    simp only [ops, List.mem_append] at h
    rcases h with ((((((((h | h) | h) | h) | h) | h) | h) | h) | h) | h
    exacts [List.forall_iff_forall_mem.mp opsPrep_sub op h,
      List.forall_iff_forall_mem.mp opsLin1_sub op h,
      List.forall_iff_forall_mem.mp opsAgg1_sub op h,
      List.forall_iff_forall_mem.mp opsLayer2_sub op h,
      List.forall_iff_forall_mem.mp opsAgg2_sub op h,
      List.forall_iff_forall_mem.mp opsLayer3_sub op h,
      List.forall_iff_forall_mem.mp opsAgg3_sub op h,
      List.forall_iff_forall_mem.mp opsComb_sub op h,
      List.forall_iff_forall_mem.mp opsTail_sub op h,
      List.forall_iff_forall_mem.mp opsHead_sub op h]

/-- At the compiled mesh, for any float values, from any memory with zero counters: every weakly fair execution of @main on the
    TensorCores terminates, and every final state has each TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.LibTypedHEq.lean ====
/-
  A transport along a typed reference's type equation is, heterogeneously, its argument (a general lemma file; nothing
  here mentions a particular program).

  A typed reference carries an equation between its buffer's type and the type `T` of the tensor value it holds, and
  operations over typed references store and read values through a transport along that equation. Whatever the
  reference, the transported value is heterogeneously equal to the value: destructure the reference and substitute
  the equation. At a LITERAL reference the two types are the same by computation, so the heterogeneous equality is
  an equation — `eq_of_heq (toBuf_heq x v) : x.toBuf v = v` — which removes the transport without ever reducing it.
-/
import Idealize.ShloMosaic.Lib.StableHlo.Run

noncomputable section

namespace Cert.TypedRead

open Idealize.ShloMosaic Idealize.ShloMosaic.StableHlo

variable {sig : RefSig} {Val : EltTy → Type} {T : BufTy}

/-- Stored through a typed reference, a value is heterogeneously itself. -/
theorem toBuf_heq (x : TRef sig T) (v : T.Contents Val) : HEq (x.toBuf v) v := by
  obtain ⟨r, h, h1, h2⟩ := x
  subst h
  rfl

/-- Read back through a typed reference, a buffer's contents are heterogeneously themselves. -/
theorem ofBuf_heq (x : TRef sig T) (v : x.ref.ty.Contents Val) : HEq (x.ofBuf v) v := by
  obtain ⟨r, h, h1, h2⟩ := x
  subst h
  rfl

end Cert.TypedRead

end
-- ==== Proof.LibTypedRead.lean ====
/-
  Typed reads of a line of host operations (a general lemma file; nothing here mentions a particular program).

  A host operation built over TYPED references (`TRef sig T`: a buffer reference that carries the type `T` of the tensor
  value it holds) stores its result through a transport along the reference's type equation, and reads its operands
  back through the inverse transport. Read at the value's type, the transports cancel:

      get y W := the contents of `y`'s buffer under the valuation `W`, at the type `T` that `y` carries.

  After a typed operation the typed read of its result is the operation's function of the typed reads of its operands
  (`get_nullary` … `get_ternary`), and the typed read of any other reference is what it was (`get_…_ne`). Rewriting
  with these walks a line of operations from its last to its first without ever meeting a transport, so the composed
  term that is left is the plain composition of the operations' functions. `eq_toBuf_of_get` goes back from a typed
  read to the raw contents of the buffer.
-/
import Idealize.ShloMosaic.Lib.StableHlo.Run

noncomputable section

namespace Cert.TypedRead

open Idealize.ShloMosaic Idealize.ShloMosaic.StableHlo

variable {τ : Topo} {sig : RefSig} {Val : EltTy → Type} {T Tx Ta Tb Tc Ty : BufTy}

/-- The contents of a typed reference's buffer under a valuation, at the type the reference carries. -/
def get (x : TRef sig T) (W : Valuation τ sig Val) : T.Contents Val := x.ofBuf (W (Proc.devRef .tc x.ref))

/-- Transport to the buffer's type and back is the identity. -/
theorem ofBuf_toBuf (x : TRef sig T) (v : T.Contents Val) : x.ofBuf (x.toBuf v) = v := by
  obtain ⟨r, h, h1, h2⟩ := x
  subst h
  rfl

/-- Transport to the value's type and back is the identity. -/
theorem toBuf_ofBuf (x : TRef sig T) (v : x.ref.ty.Contents Val) : x.toBuf (x.ofBuf v) = v := by
  obtain ⟨r, h, h1, h2⟩ := x
  subst h
  rfl

/-- The raw contents of a buffer whose typed read is `t`. -/
theorem eq_toBuf_of_get (x : TRef sig T) (W : Valuation τ sig Val) (t : T.Contents Val) (h : get x W = t) :
    W (Proc.devRef .tc x.ref) = x.toBuf t := by
  subst h
  exact (toBuf_ofBuf x _).symm

/-! ## The result of a typed operation, read at its type -/

theorem get_nullary (y : TRef sig Ty) (v : Ty.Contents Val) (W : Valuation τ sig Val) :
    get y ((TRef.nullary y v : HloOp τ sig Val).result W) = v :=
  (congrArg y.ofBuf (nullary_result y.ref (y.toBuf v) y.dev W)).trans (ofBuf_toBuf y v)

theorem get_unary (x : TRef sig Tx) (y : TRef sig Ty) (f : Tx.Contents Val → Ty.Contents Val) (W : Valuation τ sig Val) :
    get y ((TRef.unary x y f : HloOp τ sig Val).result W) = f (get x W) :=
  (congrArg y.ofBuf (unary_result x.ref y.ref (fun u => y.toBuf (f (x.ofBuf u))) x.dev y.dev W)).trans (ofBuf_toBuf y _)

theorem get_binary (a : TRef sig Ta) (b : TRef sig Tb) (y : TRef sig Ty)
    (f : Ta.Contents Val → Tb.Contents Val → Ty.Contents Val) (W : Valuation τ sig Val) :
    get y ((TRef.binary a b y f : HloOp τ sig Val).result W) = f (get a W) (get b W) :=
  (congrArg y.ofBuf (binary_result a.ref b.ref y.ref (fun u v => y.toBuf (f (a.ofBuf u) (b.ofBuf v))) a.dev b.dev y.dev W)).trans
    (ofBuf_toBuf y _)

theorem get_ternary (c : TRef sig Tc) (a : TRef sig Ta) (b : TRef sig Tb) (y : TRef sig Ty)
    (f : Tc.Contents Val → Ta.Contents Val → Tb.Contents Val → Ty.Contents Val) (W : Valuation τ sig Val) :
    get y ((TRef.ternary c a b y f : HloOp τ sig Val).result W) = f (get c W) (get a W) (get b W) :=
  (congrArg y.ofBuf (ternary_result c.ref a.ref b.ref y.ref
    (fun w u v => y.toBuf (f (c.ofBuf w) (a.ofBuf u) (b.ofBuf v))) c.dev a.dev b.dev y.dev W)).trans (ofBuf_toBuf y _)

/-! ## Any other reference keeps its typed read -/

theorem get_nullary_ne (y : TRef sig Ty) (v : Ty.Contents Val) (W : Valuation τ sig Val) (z : TRef sig T)
    (h : z.ref ≠ y.ref) : get z ((TRef.nullary y v : HloOp τ sig Val).result W) = get z W :=
  congrArg z.ofBuf (nullary_result_ne (y := y.ref) (y.toBuf v) y.dev W h)

theorem get_unary_ne (x : TRef sig Tx) (y : TRef sig Ty) (f : Tx.Contents Val → Ty.Contents Val) (W : Valuation τ sig Val)
    (z : TRef sig T) (h : z.ref ≠ y.ref) : get z ((TRef.unary x y f : HloOp τ sig Val).result W) = get z W :=
  congrArg z.ofBuf (unary_result_ne (x := x.ref) (y := y.ref) (fun u => y.toBuf (f (x.ofBuf u))) x.dev y.dev W h)

theorem get_binary_ne (a : TRef sig Ta) (b : TRef sig Tb) (y : TRef sig Ty)
    (f : Ta.Contents Val → Tb.Contents Val → Ty.Contents Val) (W : Valuation τ sig Val) (z : TRef sig T)
    (h : z.ref ≠ y.ref) : get z ((TRef.binary a b y f : HloOp τ sig Val).result W) = get z W :=
  congrArg z.ofBuf (binary_result_ne (a := a.ref) (b := b.ref) (y := y.ref)
    (fun u v => y.toBuf (f (a.ofBuf u) (b.ofBuf v))) a.dev b.dev y.dev W h)

theorem get_ternary_ne (c : TRef sig Tc) (a : TRef sig Ta) (b : TRef sig Tb) (y : TRef sig Ty)
    (f : Tc.Contents Val → Ta.Contents Val → Tb.Contents Val → Ty.Contents Val) (W : Valuation τ sig Val) (z : TRef sig T)
    (h : z.ref ≠ y.ref) : get z ((TRef.ternary c a b y f : HloOp τ sig Val).result W) = get z W :=
  congrArg z.ofBuf (ternary_result_ne (c := c.ref) (a := a.ref) (b := b.ref) (y := y.ref)
    (fun w u v => y.toBuf (f (c.ofBuf w) (a.ofBuf u) (b.ofBuf v))) c.dev a.dev b.dev y.dev W h)

/-! ## An operation over a literal family of three references

(the library states the four-operand form, `nary4_result`; a concatenation of three pieces needs this one) -/

/-- The result of an operation over the literal family `![x, a, b]`, each operand's contents at its own reference. -/
theorem nary3_result {x a b y : Ref sig .tc}
    (f : ((k : Fin 3) → ((![x, a, b] : Fin 3 → Ref sig .tc) k).ty.Contents Val) → y.ty.Contents Val) (hxs hy)
    (W : Valuation τ sig Val) :
    (nary (τ := τ) ![x, a, b] y f hxs hy).result W (Proc.devRef .tc y)
      = f (Fin.cons (W (Proc.devRef .tc x)) (Fin.cons (W (Proc.devRef .tc a)) (Fin.cons (W (Proc.devRef .tc b)) (fun i => i.elim0)))) := by
  rw [nary_result]; congr 1; funext k; fin_cases k <;> rfl

end Cert.TypedRead

end
-- ==== Proof.RefRead.lean ====
/-
  The reference's stretches read as the named functions of Spec.lean. For each chunk of the reference's operations that stands where the
  other program runs a region — the first product, the two middle layers, the last combination, the head — the fold of the chunk
  (`StableHlo.after`) from any contents `V`, at the chunk's last result buffer, is the corresponding function of `V` at the buffers the
  chunk reads: each operation's result is its function of its operands' contents, any other buffer keeps what it held, a called function's
  operations store and read through transports that are the identity at these literal references, and what is left is the named function
  unfolded — one term on both sides.
-/
import proofs.«170490_j47047071761043_1_alg».proof.Proof.RefRun
import proofs.«170490_j47047071761043_1_alg».proof.Proof.Spec
import proofs.«170490_j47047071761043_1_alg».proof.Proof.LibTypedHEq
import proofs.«170490_j47047071761043_1_alg».proof.Proof.LibTypedRead

noncomputable section

namespace Cert.ReferenceIdeal.RefRead

open Cert.ReferenceIdeal Cert.ReferenceIdeal.Gen Cert.ReferenceIdeal.RefRun Idealize.ShloMosaic Idealize.ShloMosaic.TcCoe Idealize.SL.Sem Idealize.ShloMosaic.StableHlo

/-- The fold over two lines run one after the other is the second line's fold over the first's. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The chunk `opsLin1` leaves `Spec.lin` of the node features and the first weight at %33. -/
theorem lin1_read (V : Valuation τ sig (Elt Ideal)) :
    after (opsLin1 (F := Ideal)) V (Proc.devRef .tc main_v33 : DevRef τ sig) = Cert.Spec.lin (V (Proc.devRef .tc main_arg0 : DevRef τ sig)) (V (Proc.devRef .tc main_arg4 : DevRef τ sig)) := by
  after_results
  rfl

set_option maxRecDepth 8192 in
/-- The chunk `opsLayer2` leaves `Spec.layer` of the aggregate %51, the product %33, the column %32, the bias and the next weight at %63. -/
theorem layer2_read (V : Valuation τ sig (Elt Ideal)) :
    after (opsLayer2 (F := Ideal)) V (Proc.devRef .tc main_v63 : DevRef τ sig)
      = Cert.Spec.layer (V (Proc.devRef .tc main_v51 : DevRef τ sig)) (V (Proc.devRef .tc main_v33 : DevRef τ sig)) (V (Proc.devRef .tc main_v32 : DevRef τ sig)) (V (Proc.devRef .tc main_arg5 : DevRef τ sig)) (V (Proc.devRef .tc main_arg6 : DevRef τ sig)) := by
  after_results_simp
  rfl

set_option maxRecDepth 8192 in
/-- The chunk `opsLayer3` leaves `Spec.layer` of the aggregate %81, the product %63, the column %32, the bias and the next weight at %93. -/
theorem layer3_read (V : Valuation τ sig (Elt Ideal)) :
    after (opsLayer3 (F := Ideal)) V (Proc.devRef .tc main_v93 : DevRef τ sig)
      = Cert.Spec.layer (V (Proc.devRef .tc main_v81 : DevRef τ sig)) (V (Proc.devRef .tc main_v63 : DevRef τ sig)) (V (Proc.devRef .tc main_v32 : DevRef τ sig)) (V (Proc.devRef .tc main_arg7 : DevRef τ sig)) (V (Proc.devRef .tc main_arg8 : DevRef τ sig)) := by
  after_results_simp
  rfl

set_option maxRecDepth 8192 in
/-- The chunk `opsComb` leaves `Spec.comb` of the aggregate %111, the product %93, the column %32 and the bias at %122. -/
theorem comb_read (V : Valuation τ sig (Elt Ideal)) :
    after (opsComb (F := Ideal)) V (Proc.devRef .tc main_v122 : DevRef τ sig)
      = Cert.Spec.comb (V (Proc.devRef .tc main_v111 : DevRef τ sig)) (V (Proc.devRef .tc main_v93 : DevRef τ sig)) (V (Proc.devRef .tc main_v32 : DevRef τ sig)) (V (Proc.devRef .tc main_arg9 : DevRef τ sig)) := by
  after_results_simp
  rfl

set_option maxRecDepth 8192 in
set_option maxHeartbeats 4000000 in
/-- The chunk `opsHead` leaves `Spec.head` of the pooled features %152 and the head's ten parameters at %212. -/
theorem head_read (V : Valuation τ sig (Elt Ideal)) :
    after (opsHead (F := Ideal)) V (Proc.devRef .tc main_v212 : DevRef τ sig)
      = Cert.Spec.head (V (Proc.devRef .tc main_v152 : DevRef τ sig)) (V (Proc.devRef .tc main_arg14 : DevRef τ sig)) (V (Proc.devRef .tc main_arg15 : DevRef τ sig)) (V (Proc.devRef .tc main_arg16 : DevRef τ sig)) (V (Proc.devRef .tc main_arg17 : DevRef τ sig)) (V (Proc.devRef .tc main_arg18 : DevRef τ sig)) (V (Proc.devRef .tc main_arg19 : DevRef τ sig)) (V (Proc.devRef .tc main_arg20 : DevRef τ sig)) (V (Proc.devRef .tc main_arg21 : DevRef τ sig)) (V (Proc.devRef .tc main_arg22 : DevRef τ sig)) (V (Proc.devRef .tc main_arg23 : DevRef τ sig)) := by
  after_results_simp
  rfl

end Cert.ReferenceIdeal.RefRead

end
-- ==== Proof.RKeep.lean ====
/-
  Which buffers of the reference program survive which stretch of its operations: each stretch writes the
  buffers of its own results and nothing else, so an argument array, the edge endpoints and weights
  computed first, or a layer's output leaves every later stretch as it entered.
-/
import proofs.«170490_j47047071761043_1_alg».proof.Proof.RefRun

set_option maxRecDepth 16384

noncomputable section

namespace Cert.ReferenceIdeal.Keep

open Cert.ReferenceIdeal Cert.ReferenceIdeal.Gen Cert.ReferenceIdeal.RefRun
open Idealize.ShloMosaic Idealize.ShloMosaic.TcCoe Idealize.ShloMosaic.StableHlo Idealize.SL.Sem

variable {F : FTy → Type} [FloatOps F]

/-- Every operation of a literal list writes one buffer, and that buffer is in the list of written buffers. -/
syntax "writes_tac " ident : tactic
macro_rules
  | `(tactic| writes_tac $ops:ident) => `(tactic|
      (simp only [$ops:ident, List.Forall, StableHlo.nullary_writes, StableHlo.unary_writes, StableHlo.binary_writes,
         StableHlo.ternary_writes, StableHlo.quaternary_writes, StableHlo.reshape_writes, StableHlo.binaryIndexed_writes]
       repeat' apply And.intro
       all_goals exact Finset.singleton_subset_iff.mpr (List.mem_toFinset.mpr (List.mem_map_of_mem (by decide)))))

/-- The buffers `opsPrep` writes, in order. -/
def wrPrep : List (Ref sig .tc) := [main_v0, main_v1, main_v2, main_v3, main_cst, main_v4, main_c, main_v5, main_v6, main_c_0, main_v7, main_v8, main_v9, main_v10, main_cst_1, main_v11, main_v12, main_cst_2, main_v13, main_v14, main_v15, main_c_3, main_v16, main_v17, main_c_4, main_v18, main_v19, main_v20, main_v21, main_v22, main_c_5, main_v23, main_v24, main_c_6, main_v25, main_v26, main_v27, main_v28, main_v29, main_v30, main_v31, main_v32]
theorem writesPrep : (opsPrep : List (HloOp τ sig (Elt F))).Forall fun op => op.writes ⊆ ((wrPrep).map (Proc.devRef (τ := τ) .tc)).toFinset := by
  writes_tac opsPrep
theorem keepPrep (V : Valuation τ sig (Elt F)) (r : Ref sig .tc) (hr : r ∉ wrPrep) :
    after (opsPrep (F := F)) V (Proc.devRef .tc r) = V (Proc.devRef .tc r) :=
  after_of_writes_sub _ V writesPrep hr

/-- The buffers `opsLin1` writes, in order. -/
def wrLin1 : List (Ref sig .tc) := [main_v33]
theorem writesLin1 : (opsLin1 : List (HloOp τ sig (Elt F))).Forall fun op => op.writes ⊆ ((wrLin1).map (Proc.devRef (τ := τ) .tc)).toFinset := by
  writes_tac opsLin1
theorem keepLin1 (V : Valuation τ sig (Elt F)) (r : Ref sig .tc) (hr : r ∉ wrLin1) :
    after (opsLin1 (F := F)) V (Proc.devRef .tc r) = V (Proc.devRef .tc r) :=
  after_of_writes_sub _ V writesLin1 hr

/-- The buffers `opsAgg1` writes, in order. -/
def wrAgg1 : List (Ref sig .tc) := [main_cst_7, main_v34, main_c_8, main_v35, main_v36, main_c_9, main_v37, main_v38, main_v39, main_v40, main_v41, main_v42, main_v43, main_v44, main_c_10, main_v45, main_v46, main_c_11, main_v47, main_v48, main_v49, main_v50, main_v51]
theorem writesAgg1 : (opsAgg1 : List (HloOp τ sig (Elt F))).Forall fun op => op.writes ⊆ ((wrAgg1).map (Proc.devRef (τ := τ) .tc)).toFinset := by
  writes_tac opsAgg1
theorem keepAgg1 (V : Valuation τ sig (Elt F)) (r : Ref sig .tc) (hr : r ∉ wrAgg1) :
    after (opsAgg1 (F := F)) V (Proc.devRef .tc r) = V (Proc.devRef .tc r) :=
  after_of_writes_sub _ V writesAgg1 hr

/-- The buffers `opsLayer2` writes, in order. -/
def wrLayer2 : List (Ref sig .tc) := [main_v52, main_v53, main_v54, main_v55, main_v56, main_v57, main_cst_12, main_v58, main_v59, main_cst_13, main_v60, main_v61, main_call0.v0.ref, main_v63]
theorem writesLayer2 : (opsLayer2 : List (HloOp τ sig (Elt F))).Forall fun op => op.writes ⊆ ((wrLayer2).map (Proc.devRef (τ := τ) .tc)).toFinset := by
  writes_tac opsLayer2
theorem keepLayer2 (V : Valuation τ sig (Elt F)) (r : Ref sig .tc) (hr : r ∉ wrLayer2) :
    after (opsLayer2 (F := F)) V (Proc.devRef .tc r) = V (Proc.devRef .tc r) :=
  after_of_writes_sub _ V writesLayer2 hr

/-- The buffers `opsAgg2` writes, in order. -/
def wrAgg2 : List (Ref sig .tc) := [main_cst_14, main_v64, main_c_15, main_v65, main_v66, main_c_16, main_v67, main_v68, main_v69, main_v70, main_v71, main_v72, main_v73, main_v74, main_c_17, main_v75, main_v76, main_c_18, main_v77, main_v78, main_v79, main_v80, main_v81]
theorem writesAgg2 : (opsAgg2 : List (HloOp τ sig (Elt F))).Forall fun op => op.writes ⊆ ((wrAgg2).map (Proc.devRef (τ := τ) .tc)).toFinset := by
  writes_tac opsAgg2
theorem keepAgg2 (V : Valuation τ sig (Elt F)) (r : Ref sig .tc) (hr : r ∉ wrAgg2) :
    after (opsAgg2 (F := F)) V (Proc.devRef .tc r) = V (Proc.devRef .tc r) :=
  after_of_writes_sub _ V writesAgg2 hr

/-- The buffers `opsLayer3` writes, in order. -/
def wrLayer3 : List (Ref sig .tc) := [main_v82, main_v83, main_v84, main_v85, main_v86, main_v87, main_cst_19, main_v88, main_v89, main_cst_20, main_v90, main_v91, main_call1.v0.ref, main_v93]
theorem writesLayer3 : (opsLayer3 : List (HloOp τ sig (Elt F))).Forall fun op => op.writes ⊆ ((wrLayer3).map (Proc.devRef (τ := τ) .tc)).toFinset := by
  writes_tac opsLayer3
theorem keepLayer3 (V : Valuation τ sig (Elt F)) (r : Ref sig .tc) (hr : r ∉ wrLayer3) :
    after (opsLayer3 (F := F)) V (Proc.devRef .tc r) = V (Proc.devRef .tc r) :=
  after_of_writes_sub _ V writesLayer3 hr

/-- The buffers `opsAgg3` writes, in order. -/
def wrAgg3 : List (Ref sig .tc) := [main_cst_21, main_v94, main_c_22, main_v95, main_v96, main_c_23, main_v97, main_v98, main_v99, main_v100, main_v101, main_v102, main_v103, main_v104, main_c_24, main_v105, main_v106, main_c_25, main_v107, main_v108, main_v109, main_v110, main_v111]
theorem writesAgg3 : (opsAgg3 : List (HloOp τ sig (Elt F))).Forall fun op => op.writes ⊆ ((wrAgg3).map (Proc.devRef (τ := τ) .tc)).toFinset := by
  writes_tac opsAgg3
theorem keepAgg3 (V : Valuation τ sig (Elt F)) (r : Ref sig .tc) (hr : r ∉ wrAgg3) :
    after (opsAgg3 (F := F)) V (Proc.devRef .tc r) = V (Proc.devRef .tc r) :=
  after_of_writes_sub _ V writesAgg3 hr

/-- The buffers `opsComb` writes, in order. -/
def wrComb : List (Ref sig .tc) := [main_v112, main_v113, main_v114, main_v115, main_v116, main_v117, main_cst_26, main_v118, main_v119, main_cst_27, main_v120, main_v121, main_call2.v0.ref]
theorem writesComb : (opsComb : List (HloOp τ sig (Elt F))).Forall fun op => op.writes ⊆ ((wrComb).map (Proc.devRef (τ := τ) .tc)).toFinset := by
  writes_tac opsComb
theorem keepComb (V : Valuation τ sig (Elt F)) (r : Ref sig .tc) (hr : r ∉ wrComb) :
    after (opsComb (F := F)) V (Proc.devRef .tc r) = V (Proc.devRef .tc r) :=
  after_of_writes_sub _ V writesComb hr

/-- The buffers `opsTail` writes, in order. -/
def wrTail : List (Ref sig .tc) := [main_cst_28, main_v123, main_cst_29, main_v124, main_v125, main_v126, main_cst_30, main_v127, main_v128, main_v129, main_v130, main_v131, main_v132, main_v133, main_v134, main_v135, main_v136, main_v137, main_cst_31, main_v138, main_v139, main_cst_32, main_v140, main_v141, main_call3.v0.ref, main_v143, main_v144, main_v145, main_v146, main_cst_33, main_v147, main_v148, main_cst_34, main_v149, main_v150, main_call4.v0.ref, main_v152]
theorem writesTail : (opsTail : List (HloOp τ sig (Elt F))).Forall fun op => op.writes ⊆ ((wrTail).map (Proc.devRef (τ := τ) .tc)).toFinset := by
  writes_tac opsTail
theorem keepTail (V : Valuation τ sig (Elt F)) (r : Ref sig .tc) (hr : r ∉ wrTail) :
    after (opsTail (F := F)) V (Proc.devRef .tc r) = V (Proc.devRef .tc r) :=
  after_of_writes_sub _ V writesTail hr

/-- The buffers `opsHead` writes, in order. -/
def wrHead : List (Ref sig .tc) := [main_v153, main_v154, main_v155, main_v156, main_cst_35, main_v157, main_v158, main_cst_36, main_v159, main_v160, main_call5.v0.ref, main_cst_37, main_v162, main_cst_38, main_v163, main_v164, main_c_39, main_call6.cst.ref, main_call6.v0.ref, main_call6.v1.ref, main_call6.cst_0.ref, main_call6.v2.ref, main_call6.v3.ref, main_call6.v4.ref, main_call6.v5.ref, main_call6.v6.ref, main_call6.v7.ref, main_call6.cst_1.ref, main_call6.v8.ref, main_call6.cst_2.ref, main_call6.v9.ref, main_call6.v10.ref, main_call6.v11.ref, main_call6.cst_3.ref, main_call6.v12.ref, main_call6.cst_4.ref, main_call6.call0.v0.ref, main_call6.call0.v1.ref, main_call6.call0.v2.ref, main_v166, main_v167, main_v168, main_cst_40, main_v169, main_v170, main_v171, main_v172, main_v173, main_v174, main_v175, main_v176, main_v177, main_v178, main_v179, main_v180, main_v181, main_v182, main_v183, main_v184, main_cst_41, main_v185, main_v186, main_cst_42, main_v187, main_v188, main_call7.v0.ref, main_cst_43, main_v190, main_cst_44, main_v191, main_v192, main_c_45, main_call8.cst.ref, main_call8.v0.ref, main_call8.v1.ref, main_call8.cst_0.ref, main_call8.v2.ref, main_call8.v3.ref, main_call8.v4.ref, main_call8.v5.ref, main_call8.v6.ref, main_call8.v7.ref, main_call8.cst_1.ref, main_call8.v8.ref, main_call8.cst_2.ref, main_call8.v9.ref, main_call8.v10.ref, main_call8.v11.ref, main_call8.cst_3.ref, main_call8.v12.ref, main_call8.cst_4.ref, main_call8.call0.v0.ref, main_call8.call0.v1.ref, main_call8.call0.v2.ref, main_v194, main_v195, main_v196, main_cst_46, main_v197, main_v198, main_v199, main_v200, main_v201, main_v202, main_v203, main_v204, main_v205, main_v206, main_v207, main_v208, main_v209, main_v210, main_v211, main_v212]
theorem writesHead : (opsHead : List (HloOp τ sig (Elt F))).Forall fun op => op.writes ⊆ ((wrHead).map (Proc.devRef (τ := τ) .tc)).toFinset := by
  writes_tac opsHead
theorem keepHead (V : Valuation τ sig (Elt F)) (r : Ref sig .tc) (hr : r ∉ wrHead) :
    after (opsHead (F := F)) V (Proc.devRef .tc r) = V (Proc.devRef .tc r) :=
  after_of_writes_sub _ V writesHead hr

end Cert.ReferenceIdeal.Keep

end
-- ==== Proof.RefArgs.lean ====
/-
  The reference leaves its arguments as launched. A buffer that none of the ten chunks writes keeps its contents through the whole line of
  operations: the fold over `ops` is the chunks' folds one inside the other (`after_append`), and each chunk keeps every buffer outside the
  list of those it writes. The twenty-four argument buffers are in no chunk's list, so the run of @main, which ends with every buffer at the
  fold over the launch contents, ends with each argument at its launch contents.
-/
import proofs.«170490_j47047071761043_1_alg».proof.Proof.RefRead
import proofs.«170490_j47047071761043_1_alg».proof.Proof.RKeep

noncomputable section

namespace Cert.ReferenceIdeal.RefRead

open Cert.ReferenceIdeal Cert.ReferenceIdeal.Gen Cert.ReferenceIdeal.RefRun Cert.ReferenceIdeal.Keep Idealize.ShloMosaic Idealize.ShloMosaic.TcCoe Idealize.SL.Sem Idealize.ShloMosaic.StableHlo

variable {F : FTy → Type} [FloatOps F]

/-- A buffer that no chunk writes holds after all the operations what it held before them. -/
theorem ops_keep (V : Valuation τ sig (Elt F)) (r : Ref sig .tc)
    (h : r ∉ wrPrep ++ wrLin1 ++ wrAgg1 ++ wrLayer2 ++ wrAgg2 ++ wrLayer3 ++ wrAgg3 ++ wrComb ++ wrTail ++ wrHead) :
    after (ops (F := F)) V (Proc.devRef .tc r) = V (Proc.devRef .tc r) := by
  simp only [List.mem_append, not_or] at h
  obtain ⟨⟨⟨⟨⟨⟨⟨⟨⟨h0, h1⟩, h2⟩, h3⟩, h4⟩, h5⟩, h6⟩, h7⟩, h8⟩, h9⟩ := h
  unfold ops
  rw [after_append, keepHead _ r h9,
    after_append, keepTail _ r h8,
    after_append, keepComb _ r h7,
    after_append, keepAgg3 _ r h6,
    after_append, keepLayer3 _ r h5,
    after_append, keepAgg2 _ r h4,
    after_append, keepLayer2 _ r h3,
    after_append, keepAgg1 _ r h2,
    after_append, keepLin1 _ r h1,
    keepPrep _ r h0]

/-- At the compiled mesh, for any float values, from any memory with zero counters: every weakly fair execution of @main on the
    TensorCores terminates, and in every final state each of the twenty-four argument buffers holds its launch contents. -/
theorem run_args (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23) :=
  (θ_run defs _ _).mono (fun _ h c =>
    ⟨(h c main_arg0).trans (ops_keep _ main_arg0 (by decide)),
     (h c main_arg1).trans (ops_keep _ main_arg1 (by decide)),
     (h c main_arg2).trans (ops_keep _ main_arg2 (by decide)),
     (h c main_arg3).trans (ops_keep _ main_arg3 (by decide)),
     (h c main_arg4).trans (ops_keep _ main_arg4 (by decide)),
     (h c main_arg5).trans (ops_keep _ main_arg5 (by decide)),
     (h c main_arg6).trans (ops_keep _ main_arg6 (by decide)),
     (h c main_arg7).trans (ops_keep _ main_arg7 (by decide)),
     (h c main_arg8).trans (ops_keep _ main_arg8 (by decide)),
     (h c main_arg9).trans (ops_keep _ main_arg9 (by decide)),
     (h c main_arg10).trans (ops_keep _ main_arg10 (by decide)),
     (h c main_arg11).trans (ops_keep _ main_arg11 (by decide)),
     (h c main_arg12).trans (ops_keep _ main_arg12 (by decide)),
     (h c main_arg13).trans (ops_keep _ main_arg13 (by decide)),
     (h c main_arg14).trans (ops_keep _ main_arg14 (by decide)),
     (h c main_arg15).trans (ops_keep _ main_arg15 (by decide)),
     (h c main_arg16).trans (ops_keep _ main_arg16 (by decide)),
     (h c main_arg17).trans (ops_keep _ main_arg17 (by decide)),
     (h c main_arg18).trans (ops_keep _ main_arg18 (by decide)),
     (h c main_arg19).trans (ops_keep _ main_arg19 (by decide)),
     (h c main_arg20).trans (ops_keep _ main_arg20 (by decide)),
     (h c main_arg21).trans (ops_keep _ main_arg21 (by decide)),
     (h c main_arg22).trans (ops_keep _ main_arg22 (by decide)),
     (h c main_arg23).trans (ops_keep _ main_arg23 (by decide))⟩)
    (run_main m ρ)

end Cert.ReferenceIdeal.RefRead

end
-- ==== Proof.KKeep.lean ====
/-
  Which buffers of the kernel program survive which stretch.  Each stretch of array operations writes
  the buffers of its own results and nothing else, so any other buffer — an argument array, the edge
  endpoints and weights computed before the first region, a layer's output — leaves the stretch as it
  entered; and a region changes nothing but its own output array.
-/
import proofs.«170490_j47047071761043_1_alg».proof.Proof.Gen.KernelIdeal.Frame

set_option maxRecDepth 16384

noncomputable section

namespace Cert.KernelIdeal.Keep

open Cert.KernelIdeal Cert.KernelIdeal.Gen
open Idealize.ShloMosaic Idealize.ShloMosaic.TcCoe Idealize.ShloMosaic.StableHlo Idealize.SL.Sem
open Idealize.ShloMosaic.Pipeline (Dat)

variable {F : FTy → Type} [FloatOps F]

/-- Every operation of a literal list writes one buffer, and that buffer is in the list of written buffers. -/
syntax "writes_tac " ident : tactic
macro_rules
  | `(tactic| writes_tac $ops:ident) => `(tactic|
      (simp only [$ops:ident, List.Forall, StableHlo.nullary_writes, StableHlo.unary_writes, StableHlo.binary_writes,
         StableHlo.ternary_writes, StableHlo.quaternary_writes, StableHlo.reshape_writes, StableHlo.binaryIndexed_writes]
       repeat' apply And.intro
       all_goals exact Finset.singleton_subset_iff.mpr (List.mem_toFinset.mpr (List.mem_map_of_mem (by decide)))))

/-- The buffers `hostOps0` writes, in order. -/
def wr0 : List (Ref sig .tc) := [main_v0, main_v1, main_v2, main_v3, main_cst, main_v4, main_c, main_v5, main_v6, main_c_0, main_v7, main_v8, main_v9, main_v10, main_cst_1, main_v11, main_v12, main_cst_2, main_v13, main_v14, main_v15, main_c_3, main_v16, main_v17, main_c_4, main_v18, main_v19, main_v20, main_v21, main_v22, main_c_5, main_v23, main_v24, main_c_6, main_v25, main_v26, main_v27, main_v28, main_v29, main_v30, main_v31, main_v32]
theorem writes0 : (hostOps0 : List (HloOp τ sig (Elt F))).Forall fun op => op.writes ⊆ ((wr0).map (Proc.devRef (τ := τ) .tc)).toFinset := by
  writes_tac hostOps0
theorem keep0 (V : Valuation τ sig (Elt F)) (r : Ref sig .tc) (hr : r ∉ wr0) :
    after (hostOps0 (F := F)) V (Proc.devRef .tc r) = V (Proc.devRef .tc r) :=
  after_of_writes_sub _ V writes0 hr

/-- The buffers `hostOps1` writes, in order. -/
def wr1 : List (Ref sig .tc) := [main_c_7, main_v34, main_v35, main_c_8, main_v36, main_v37, main_v38, main_v39, main_v40, main_v41, main_v42, main_v43, main_cst_9, main_v44, main_c_10, main_v45, main_v46, main_c_11, main_v47, main_v48, main_v49, main_v50, main_v51]
theorem writes1 : (hostOps1 : List (HloOp τ sig (Elt F))).Forall fun op => op.writes ⊆ ((wr1).map (Proc.devRef (τ := τ) .tc)).toFinset := by
  writes_tac hostOps1
theorem keep1 (V : Valuation τ sig (Elt F)) (r : Ref sig .tc) (hr : r ∉ wr1) :
    after (hostOps1 (F := F)) V (Proc.devRef .tc r) = V (Proc.devRef .tc r) :=
  after_of_writes_sub _ V writes1 hr

/-- The buffers `hostOps2` writes, in order. -/
def wr2 : List (Ref sig .tc) := [main_c_12, main_v53, main_v54, main_c_13, main_v55, main_v56, main_v57, main_v58, main_v59, main_v60, main_v61, main_v62, main_cst_14, main_v63, main_c_15, main_v64, main_v65, main_c_16, main_v66, main_v67, main_v68, main_v69, main_v70]
theorem writes2 : (hostOps2 : List (HloOp τ sig (Elt F))).Forall fun op => op.writes ⊆ ((wr2).map (Proc.devRef (τ := τ) .tc)).toFinset := by
  writes_tac hostOps2
theorem keep2 (V : Valuation τ sig (Elt F)) (r : Ref sig .tc) (hr : r ∉ wr2) :
    after (hostOps2 (F := F)) V (Proc.devRef .tc r) = V (Proc.devRef .tc r) :=
  after_of_writes_sub _ V writes2 hr

/-- The buffers `hostOps3` writes, in order. -/
def wr3 : List (Ref sig .tc) := [main_c_17, main_v72, main_v73, main_c_18, main_v74, main_v75, main_v76, main_v77, main_v78, main_v79, main_v80, main_v81, main_cst_19, main_v82, main_c_20, main_v83, main_v84, main_c_21, main_v85, main_v86, main_v87, main_v88, main_v89]
theorem writes3 : (hostOps3 : List (HloOp τ sig (Elt F))).Forall fun op => op.writes ⊆ ((wr3).map (Proc.devRef (τ := τ) .tc)).toFinset := by
  writes_tac hostOps3
theorem keep3 (V : Valuation τ sig (Elt F)) (r : Ref sig .tc) (hr : r ∉ wr3) :
    after (hostOps3 (F := F)) V (Proc.devRef .tc r) = V (Proc.devRef .tc r) :=
  after_of_writes_sub _ V writes3 hr

/-- The buffers `hostOps4` writes, in order. -/
def wr4 : List (Ref sig .tc) := [main_cst_22, main_v91, main_cst_23, main_v92, main_v93, main_v94, main_cst_24, main_v95, main_v96, main_v97, main_v98, main_v99, main_v100, main_v101, main_v102, main_v103, main_v104, main_v105, main_cst_25, main_v106, main_v107, main_cst_26, main_v108, main_v109]
theorem writes4 : (hostOps4 : List (HloOp τ sig (Elt F))).Forall fun op => op.writes ⊆ ((wr4).map (Proc.devRef (τ := τ) .tc)).toFinset := by
  writes_tac hostOps4
theorem keep4 (V : Valuation τ sig (Elt F)) (r : Ref sig .tc) (hr : r ∉ wr4) :
    after (hostOps4 (F := F)) V (Proc.devRef .tc r) = V (Proc.devRef .tc r) :=
  after_of_writes_sub _ V writes4 hr

/-- The buffers `hostOps4_1` writes, in order. -/
def wr4_1 : List (Ref sig .tc) := [main_v110]
theorem writes4_1 : (hostOps4_1 : List (HloOp τ sig (Elt F))).Forall fun op => op.writes ⊆ ((wr4_1).map (Proc.devRef (τ := τ) .tc)).toFinset := by
  writes_tac hostOps4_1
theorem keep4_1 (V : Valuation τ sig (Elt F)) (r : Ref sig .tc) (hr : r ∉ wr4_1) :
    after (hostOps4_1 (F := F)) V (Proc.devRef .tc r) = V (Proc.devRef .tc r) :=
  after_of_writes_sub _ V writes4_1 hr

/-- The buffers `hostOps4_2` writes, in order. -/
def wr4_2 : List (Ref sig .tc) := [main_v111, main_v112, main_v113, main_v114, main_cst_27, main_v115, main_v116, main_cst_28, main_v117, main_v118]
theorem writes4_2 : (hostOps4_2 : List (HloOp τ sig (Elt F))).Forall fun op => op.writes ⊆ ((wr4_2).map (Proc.devRef (τ := τ) .tc)).toFinset := by
  writes_tac hostOps4_2
theorem keep4_2 (V : Valuation τ sig (Elt F)) (r : Ref sig .tc) (hr : r ∉ wr4_2) :
    after (hostOps4_2 (F := F)) V (Proc.devRef .tc r) = V (Proc.devRef .tc r) :=
  after_of_writes_sub _ V writes4_2 hr

/-- The buffers `hostOps4_3` writes, in order. -/
def wr4_3 : List (Ref sig .tc) := [main_v119]
theorem writes4_3 : (hostOps4_3 : List (HloOp τ sig (Elt F))).Forall fun op => op.writes ⊆ ((wr4_3).map (Proc.devRef (τ := τ) .tc)).toFinset := by
  writes_tac hostOps4_3
theorem keep4_3 (V : Valuation τ sig (Elt F)) (r : Ref sig .tc) (hr : r ∉ wr4_3) :
    after (hostOps4_3 (F := F)) V (Proc.devRef .tc r) = V (Proc.devRef .tc r) :=
  after_of_writes_sub _ V writes4_3 hr

/-- The buffers `hostOps4_4` writes, in order. -/
def wr4_4 : List (Ref sig .tc) := [main_v120]
theorem writes4_4 : (hostOps4_4 : List (HloOp τ sig (Elt F))).Forall fun op => op.writes ⊆ ((wr4_4).map (Proc.devRef (τ := τ) .tc)).toFinset := by
  writes_tac hostOps4_4
theorem keep4_4 (V : Valuation τ sig (Elt F)) (r : Ref sig .tc) (hr : r ∉ wr4_4) :
    after (hostOps4_4 (F := F)) V (Proc.devRef .tc r) = V (Proc.devRef .tc r) :=
  after_of_writes_sub _ V writes4_4 hr

variable (m : (ℓ : Loc nD τ sig) → Buf (Elt F) ℓ) (ρ : Dev nD → PrngReg)

/-- Region 0 writes its output array only: every other buffer leaves the region as it entered. -/
theorem W2_keep (c : Dev nD) (b : Ref sig .tc) (hb : b ≠ Pipeline.arrRef spec0 2) :
    W2 m ρ c (Proc.devRef .tc b) = W1 m ρ c (Proc.devRef .tc b) := by
  by_cases h : ∃ w, Pipeline.arrRef spec0 w = b
  · obtain ⟨w, rfl⟩ := h
    fin_cases w
    · exact (W2_arr m ρ c 0).trans (((dat0 (V1 m ρ) c).arrAt_in 0 rfl _).trans (A_eq0 (V1 m ρ) c 0))
    · exact (W2_arr m ρ c 1).trans (((dat0 (V1 m ρ) c).arrAt_in 1 rfl _).trans (A_eq0 (V1 m ρ) c 1))
    · exact absurd rfl hb
  · exact W2_of_ne m ρ c b (fun w e => h ⟨w, e⟩)

/-- Region 1 writes its output array only: every other buffer leaves the region as it entered. -/
theorem W4_keep (c : Dev nD) (b : Ref sig .tc) (hb : b ≠ Pipeline.arrRef spec1 5) :
    W4 m ρ c (Proc.devRef .tc b) = W3 m ρ c (Proc.devRef .tc b) := by
  by_cases h : ∃ w, Pipeline.arrRef spec1 w = b
  · obtain ⟨w, rfl⟩ := h
    fin_cases w
    · exact (W4_arr m ρ c 0).trans (((dat1 (V3 m ρ) c).arrAt_in 0 rfl _).trans (A_eq1 (V3 m ρ) c 0))
    · exact (W4_arr m ρ c 1).trans (((dat1 (V3 m ρ) c).arrAt_in 1 rfl _).trans (A_eq1 (V3 m ρ) c 1))
    · exact (W4_arr m ρ c 2).trans (((dat1 (V3 m ρ) c).arrAt_in 2 rfl _).trans (A_eq1 (V3 m ρ) c 2))
    · exact (W4_arr m ρ c 3).trans (((dat1 (V3 m ρ) c).arrAt_in 3 rfl _).trans (A_eq1 (V3 m ρ) c 3))
    · exact (W4_arr m ρ c 4).trans (((dat1 (V3 m ρ) c).arrAt_in 4 rfl _).trans (A_eq1 (V3 m ρ) c 4))
    · exact absurd rfl hb
  · exact W4_of_ne m ρ c b (fun w e => h ⟨w, e⟩)

/-- Region 2 writes its output array only: every other buffer leaves the region as it entered. -/
theorem W6_keep (c : Dev nD) (b : Ref sig .tc) (hb : b ≠ Pipeline.arrRef spec2 5) :
    W6 m ρ c (Proc.devRef .tc b) = W5 m ρ c (Proc.devRef .tc b) := by
  by_cases h : ∃ w, Pipeline.arrRef spec2 w = b
  · obtain ⟨w, rfl⟩ := h
    fin_cases w
    · exact (W6_arr m ρ c 0).trans (((dat2 (V5 m ρ) c).arrAt_in 0 rfl _).trans (A_eq2 (V5 m ρ) c 0))
    · exact (W6_arr m ρ c 1).trans (((dat2 (V5 m ρ) c).arrAt_in 1 rfl _).trans (A_eq2 (V5 m ρ) c 1))
    · exact (W6_arr m ρ c 2).trans (((dat2 (V5 m ρ) c).arrAt_in 2 rfl _).trans (A_eq2 (V5 m ρ) c 2))
    · exact (W6_arr m ρ c 3).trans (((dat2 (V5 m ρ) c).arrAt_in 3 rfl _).trans (A_eq2 (V5 m ρ) c 3))
    · exact (W6_arr m ρ c 4).trans (((dat2 (V5 m ρ) c).arrAt_in 4 rfl _).trans (A_eq2 (V5 m ρ) c 4))
    · exact absurd rfl hb
  · exact W6_of_ne m ρ c b (fun w e => h ⟨w, e⟩)

/-- Region 3 writes its output array only: every other buffer leaves the region as it entered. -/
theorem W8_keep (c : Dev nD) (b : Ref sig .tc) (hb : b ≠ Pipeline.arrRef spec3 4) :
    W8 m ρ c (Proc.devRef .tc b) = W7 m ρ c (Proc.devRef .tc b) := by
  by_cases h : ∃ w, Pipeline.arrRef spec3 w = b
  · obtain ⟨w, rfl⟩ := h
    fin_cases w
    · exact (W8_arr m ρ c 0).trans (((dat3 (V7 m ρ) c).arrAt_in 0 rfl _).trans (A_eq3 (V7 m ρ) c 0))
    · exact (W8_arr m ρ c 1).trans (((dat3 (V7 m ρ) c).arrAt_in 1 rfl _).trans (A_eq3 (V7 m ρ) c 1))
    · exact (W8_arr m ρ c 2).trans (((dat3 (V7 m ρ) c).arrAt_in 2 rfl _).trans (A_eq3 (V7 m ρ) c 2))
    · exact (W8_arr m ρ c 3).trans (((dat3 (V7 m ρ) c).arrAt_in 3 rfl _).trans (A_eq3 (V7 m ρ) c 3))
    · exact absurd rfl hb
  · exact W8_of_ne m ρ c b (fun w e => h ⟨w, e⟩)

/-- Region 4 writes its output array only: every other buffer leaves the region as it entered. -/
theorem W14_keep (c : Dev nD) (b : Ref sig .tc) (hb : b ≠ Pipeline.arrRef spec4 11) :
    W14 m ρ c (Proc.devRef .tc b) = W13 m ρ c (Proc.devRef .tc b) := by
  by_cases h : ∃ w, Pipeline.arrRef spec4 w = b
  · obtain ⟨w, rfl⟩ := h
    fin_cases w
    · exact (W14_arr m ρ c 0).trans (((dat4 (V13 m ρ) c).arrAt_in 0 rfl _).trans (A_eq4 (V13 m ρ) c 0))
    · exact (W14_arr m ρ c 1).trans (((dat4 (V13 m ρ) c).arrAt_in 1 rfl _).trans (A_eq4 (V13 m ρ) c 1))
    · exact (W14_arr m ρ c 2).trans (((dat4 (V13 m ρ) c).arrAt_in 2 rfl _).trans (A_eq4 (V13 m ρ) c 2))
    · exact (W14_arr m ρ c 3).trans (((dat4 (V13 m ρ) c).arrAt_in 3 rfl _).trans (A_eq4 (V13 m ρ) c 3))
    · exact (W14_arr m ρ c 4).trans (((dat4 (V13 m ρ) c).arrAt_in 4 rfl _).trans (A_eq4 (V13 m ρ) c 4))
    · exact (W14_arr m ρ c 5).trans (((dat4 (V13 m ρ) c).arrAt_in 5 rfl _).trans (A_eq4 (V13 m ρ) c 5))
    · exact (W14_arr m ρ c 6).trans (((dat4 (V13 m ρ) c).arrAt_in 6 rfl _).trans (A_eq4 (V13 m ρ) c 6))
    · exact (W14_arr m ρ c 7).trans (((dat4 (V13 m ρ) c).arrAt_in 7 rfl _).trans (A_eq4 (V13 m ρ) c 7))
    · exact (W14_arr m ρ c 8).trans (((dat4 (V13 m ρ) c).arrAt_in 8 rfl _).trans (A_eq4 (V13 m ρ) c 8))
    · exact (W14_arr m ρ c 9).trans (((dat4 (V13 m ρ) c).arrAt_in 9 rfl _).trans (A_eq4 (V13 m ρ) c 9))
    · exact (W14_arr m ρ c 10).trans (((dat4 (V13 m ρ) c).arrAt_in 10 rfl _).trans (A_eq4 (V13 m ρ) c 10))
    · exact absurd rfl hb
  · exact W14_of_ne m ρ c b (fun w e => h ⟨w, e⟩)

end Cert.KernelIdeal.Keep

end
-- ==== Proof.Sim.lean ====
/-
  The stretches of array operations the two programs share.  Before the first region both programs
  compute, from the edge list alone, the edges' sources and targets, the edge weights
  rsqrt(deg src) · rsqrt(deg dst) and the self-loop weights 1/deg; after each layer's linear map both
  aggregate its rows along the edges; and before the head both pool the node features per graph,
  embed the per-graph scalar through two small layers and concatenate.  In each case the two
  programs run the same operations in the same order on buffers of different names, so from equal
  inputs they reach equal outputs.
-/
import proofs.«170490_j47047071761043_1_alg».proof.Proof.Gen.KernelIdeal.Launch
import proofs.«170490_j47047071761043_1_alg».proof.Proof.RefRun

set_option maxRecDepth 16384

noncomputable section

namespace Cert.Sim

open Idealize.ShloMosaic Idealize.ShloMosaic.TcCoe Idealize.ShloMosaic.StableHlo Idealize.SL.Sem

variable {F : FTy → Type} [FloatOps F]

/-- The edges' sources: row 0 of the edge list. -/
theorem prep_v1_sim (VK : Valuation Cert.KernelIdeal.τ Cert.KernelIdeal.sig (Elt F)) (VR : Valuation Cert.ReferenceIdeal.τ Cert.ReferenceIdeal.sig (Elt F))
    (h : VK (Proc.devRef .tc Cert.KernelIdeal.main_arg1) = VR (Proc.devRef .tc Cert.ReferenceIdeal.main_arg1)) :
    after (Cert.KernelIdeal.Gen.hostOps0 (F := F)) VK (Proc.devRef .tc Cert.KernelIdeal.main_v1)
      = after (Cert.ReferenceIdeal.RefRun.opsPrep (F := F)) VR (Proc.devRef .tc Cert.ReferenceIdeal.main_v1) := by
  after_results_simp
  rw [h]
  rfl

/-- The edges' targets: row 1 of the edge list. -/
theorem prep_v3_sim (VK : Valuation Cert.KernelIdeal.τ Cert.KernelIdeal.sig (Elt F)) (VR : Valuation Cert.ReferenceIdeal.τ Cert.ReferenceIdeal.sig (Elt F))
    (h : VK (Proc.devRef .tc Cert.KernelIdeal.main_arg1) = VR (Proc.devRef .tc Cert.ReferenceIdeal.main_arg1)) :
    after (Cert.KernelIdeal.Gen.hostOps0 (F := F)) VK (Proc.devRef .tc Cert.KernelIdeal.main_v3)
      = after (Cert.ReferenceIdeal.RefRun.opsPrep (F := F)) VR (Proc.devRef .tc Cert.ReferenceIdeal.main_v3) := by
  after_results_simp
  rw [h]
  rfl

/-- The edge weights: with deg = 1 + the number of edges into a node, rsqrt(deg) gathered at each edge's source times the same at its target. -/
theorem prep_v30_sim (VK : Valuation Cert.KernelIdeal.τ Cert.KernelIdeal.sig (Elt F)) (VR : Valuation Cert.ReferenceIdeal.τ Cert.ReferenceIdeal.sig (Elt F))
    (h : VK (Proc.devRef .tc Cert.KernelIdeal.main_arg1) = VR (Proc.devRef .tc Cert.ReferenceIdeal.main_arg1)) :
    after (Cert.KernelIdeal.Gen.hostOps0 (F := F)) VK (Proc.devRef .tc Cert.KernelIdeal.main_v30)
      = after (Cert.ReferenceIdeal.RefRun.opsPrep (F := F)) VR (Proc.devRef .tc Cert.ReferenceIdeal.main_v30) := by
  after_results_simp
  rw [h]
  rfl

/-- The self-loop weights: rsqrt(deg) squared, as a column. -/
theorem prep_v32_sim (VK : Valuation Cert.KernelIdeal.τ Cert.KernelIdeal.sig (Elt F)) (VR : Valuation Cert.ReferenceIdeal.τ Cert.ReferenceIdeal.sig (Elt F))
    (h : VK (Proc.devRef .tc Cert.KernelIdeal.main_arg1) = VR (Proc.devRef .tc Cert.ReferenceIdeal.main_arg1)) :
    after (Cert.KernelIdeal.Gen.hostOps0 (F := F)) VK (Proc.devRef .tc Cert.KernelIdeal.main_v32)
      = after (Cert.ReferenceIdeal.RefRun.opsPrep (F := F)) VR (Proc.devRef .tc Cert.ReferenceIdeal.main_v32) := by
  after_results_simp
  rw [h]
  rfl

/-- Layer 1's aggregation: both programs gather the rows of the layer's linear output at the edges' sources, scale each by the edge's
    weight and scatter-add at the edges' targets into zeros — the same operations, so equal inputs give equal sums. -/
theorem agg1_sim (VK : Valuation Cert.KernelIdeal.τ Cert.KernelIdeal.sig (Elt F)) (VR : Valuation Cert.ReferenceIdeal.τ Cert.ReferenceIdeal.sig (Elt F))
    (h1 : VK (Proc.devRef .tc Cert.KernelIdeal.main_v1) = VR (Proc.devRef .tc Cert.ReferenceIdeal.main_v1))
    (h3 : VK (Proc.devRef .tc Cert.KernelIdeal.main_v3) = VR (Proc.devRef .tc Cert.ReferenceIdeal.main_v3))
    (h30 : VK (Proc.devRef .tc Cert.KernelIdeal.main_v30) = VR (Proc.devRef .tc Cert.ReferenceIdeal.main_v30))
    (hh : VK (Proc.devRef .tc Cert.KernelIdeal.main_v33) = VR (Proc.devRef .tc Cert.ReferenceIdeal.main_v33)) :
    after (Cert.KernelIdeal.Gen.hostOps1 (F := F)) VK (Proc.devRef .tc Cert.KernelIdeal.main_v51)
      = after (Cert.ReferenceIdeal.RefRun.opsAgg1 (F := F)) VR (Proc.devRef .tc Cert.ReferenceIdeal.main_v51) := by
  after_results_simp
  rw [h1, h3, h30, hh]
  rfl

/-- Layer 2's aggregation: both programs gather the rows of the layer's linear output at the edges' sources, scale each by the edge's
    weight and scatter-add at the edges' targets into zeros — the same operations, so equal inputs give equal sums. -/
theorem agg2_sim (VK : Valuation Cert.KernelIdeal.τ Cert.KernelIdeal.sig (Elt F)) (VR : Valuation Cert.ReferenceIdeal.τ Cert.ReferenceIdeal.sig (Elt F))
    (h1 : VK (Proc.devRef .tc Cert.KernelIdeal.main_v1) = VR (Proc.devRef .tc Cert.ReferenceIdeal.main_v1))
    (h3 : VK (Proc.devRef .tc Cert.KernelIdeal.main_v3) = VR (Proc.devRef .tc Cert.ReferenceIdeal.main_v3))
    (h30 : VK (Proc.devRef .tc Cert.KernelIdeal.main_v30) = VR (Proc.devRef .tc Cert.ReferenceIdeal.main_v30))
    (hh : VK (Proc.devRef .tc Cert.KernelIdeal.main_v52) = VR (Proc.devRef .tc Cert.ReferenceIdeal.main_v63)) :
    after (Cert.KernelIdeal.Gen.hostOps2 (F := F)) VK (Proc.devRef .tc Cert.KernelIdeal.main_v70)
      = after (Cert.ReferenceIdeal.RefRun.opsAgg2 (F := F)) VR (Proc.devRef .tc Cert.ReferenceIdeal.main_v81) := by
  after_results_simp
  rw [h1, h3, h30, hh]
  rfl

/-- Layer 3's aggregation: both programs gather the rows of the layer's linear output at the edges' sources, scale each by the edge's
    weight and scatter-add at the edges' targets into zeros — the same operations, so equal inputs give equal sums. -/
theorem agg3_sim (VK : Valuation Cert.KernelIdeal.τ Cert.KernelIdeal.sig (Elt F)) (VR : Valuation Cert.ReferenceIdeal.τ Cert.ReferenceIdeal.sig (Elt F))
    (h1 : VK (Proc.devRef .tc Cert.KernelIdeal.main_v1) = VR (Proc.devRef .tc Cert.ReferenceIdeal.main_v1))
    (h3 : VK (Proc.devRef .tc Cert.KernelIdeal.main_v3) = VR (Proc.devRef .tc Cert.ReferenceIdeal.main_v3))
    (h30 : VK (Proc.devRef .tc Cert.KernelIdeal.main_v30) = VR (Proc.devRef .tc Cert.ReferenceIdeal.main_v30))
    (hh : VK (Proc.devRef .tc Cert.KernelIdeal.main_v71) = VR (Proc.devRef .tc Cert.ReferenceIdeal.main_v93)) :
    after (Cert.KernelIdeal.Gen.hostOps3 (F := F)) VK (Proc.devRef .tc Cert.KernelIdeal.main_v89)
      = after (Cert.ReferenceIdeal.RefRun.opsAgg3 (F := F)) VR (Proc.devRef .tc Cert.ReferenceIdeal.main_v111) := by
  after_results_simp
  rw [h1, h3, h30, hh]
  rfl

end Cert.Sim

end
-- ==== Proof.Tail.lean ====
/-
  The head's input, as one function of whole arrays.  Both programs build it with the same operations:
  the node features are summed per graph (a scatter-add along the graph index of each node) and divided by
  the graph's node count (the same scatter-add of ones), the per-graph scalar is passed through two small
  dense layers with leaky activations, and the two are concatenated along the feature axis into a
  [100, 138] array.  Naming that function once lets each program's stretch be read as it.
-/
import proofs.«170490_j47047071761043_1_alg».proof.Proof.Gen.KernelIdeal.Launch
import proofs.«170490_j47047071761043_1_alg».proof.Proof.RefRun
import Idealize.ShloMosaic.PureOps.Ideal

set_option maxRecDepth 16384

noncomputable section

namespace Cert.Spec

open Idealize.ShloMosaic Cert.ReferenceIdeal Cert.ReferenceIdeal.Facts₀ Cert.ReferenceIdeal.Facts

/-- Mean pool of the node features per graph, beside the two-layer embedding of the per-graph scalar. -/
def tail (hF : FVec Ideal S50000x128 .f32) (batch : (⟨S50000, .i32⟩ : BufTy).Contents (Elt Ideal)) (ogt : FVec Ideal S100 .f32)
    (wo1 : FVec Ideal S1x20 .f32) (bo1 : FVec Ideal S20 .f32) (wo2 : FVec Ideal S20x10 .f32) (bo2 : FVec Ideal S10 .f32) :
    FVec Ideal S100x138 .f32 :=
  concatenate S100x138 1
    [⟨S100x128,
        Host.divf
          (Host.scatterAdd scatter_S100x128_S50000x1_S50000x128_1_0_0_1
            (broadcastInDim S100x128 ![] bcast_S_S100x128 (constant S_ .f32 0x00000000#32))
            (broadcastInDim S50000x1 ![0] bcast_S50000_S50000x1_0 batch) hF)
          (broadcastInDim S100x128 ![0, 1] bcast_S100x1_S100x128_0_1
            (broadcastInDim S100x1 ![0] bcast_S100_S100x1_0
              (Host.scatterAdd scatter_S100_S50000x1_S50000_n_0_0_1
                (broadcastInDim S100 ![] bcast_S_S100 (constant S_ .f32 0x00000000#32))
                (broadcastInDim S50000x1 ![0] bcast_S50000_S50000x1_0 batch)
                (broadcastInDim S50000 ![] bcast_S_S50000 (constant S_ .f32 0x3F800000#32)))))⟩,
      ⟨S100x10,
        (fun z2 : FVec Ideal S100x10 .f32 =>
          select (cmpf .ogt z2 (broadcastInDim S100x10 ![] bcast_S_S100x10 (constant S_ .f32 0x00000000#32))) z2
            (mulf (broadcastInDim S100x10 ![] bcast_S_S100x10 (constant S_ .f32 0x3C23D70A#32)) z2))
          (addf
            (Host.dotGeneral dot_S100x20_S20x10_S100x10_1_0_0_1_n_n none
              ((fun z1 : FVec Ideal S100x20 .f32 =>
                select (cmpf .ogt z1 (broadcastInDim S100x20 ![] bcast_S_S100x20 (constant S_ .f32 0x00000000#32))) z1
                  (mulf (broadcastInDim S100x20 ![] bcast_S_S100x20 (constant S_ .f32 0x3C23D70A#32)) z1))
                (addf
                  (Host.dotGeneral dot_S100x1_S1x20_S100x20_1_0_0_1_n_n none
                    (broadcastInDim S100x1 ![0] bcast_S100_S100x1_0 ogt) wo1)
                  (broadcastInDim S100x20 ![0, 1] bcast_S1x20_S100x20_0_1 (broadcastInDim S1x20 ![1] bcast_S20_S1x20_1 bo1))))
              wo2)
            (broadcastInDim S100x10 ![0, 1] bcast_S1x10_S100x10_0_1 (broadcastInDim S1x10 ![1] bcast_S10_S1x10_1 bo2)))⟩]
    concatenates_S100x128_S100x10_S100x138_d1

end Cert.Spec

namespace Cert.Sim

open Idealize.ShloMosaic Idealize.ShloMosaic.TcCoe Idealize.ShloMosaic.StableHlo Idealize.SL.Sem

set_option maxHeartbeats 4000000 in
/-- The reference's stretch from the last layer's output to the head's input computes `tail`. -/
theorem tailR_read (V : Valuation Cert.ReferenceIdeal.τ Cert.ReferenceIdeal.sig (Elt Ideal)) :
    after (Cert.ReferenceIdeal.RefRun.opsTail (F := Ideal)) V (Proc.devRef .tc Cert.ReferenceIdeal.main_v152)
      = Cert.Spec.tail (V (Proc.devRef .tc Cert.ReferenceIdeal.main_v122)) (V (Proc.devRef .tc Cert.ReferenceIdeal.main_arg2)) (V (Proc.devRef .tc Cert.ReferenceIdeal.main_arg3)) (V (Proc.devRef .tc Cert.ReferenceIdeal.main_arg10))
          (V (Proc.devRef .tc Cert.ReferenceIdeal.main_arg11)) (V (Proc.devRef .tc Cert.ReferenceIdeal.main_arg12)) (V (Proc.devRef .tc Cert.ReferenceIdeal.main_arg13)) := by
  after_results_simp
  rfl

set_option maxHeartbeats 4000000 in
/-- The kernel program's stretches between its fourth and fifth regions compute `tail`. -/
theorem tailK_read (V : Valuation Cert.KernelIdeal.τ Cert.KernelIdeal.sig (Elt Ideal)) :
    after (Cert.KernelIdeal.Gen.hostOps4_4 (F := Ideal)) (after (Cert.KernelIdeal.Gen.hostOps4_3 (F := Ideal)) (after (Cert.KernelIdeal.Gen.hostOps4_2 (F := Ideal))
        (after (Cert.KernelIdeal.Gen.hostOps4_1 (F := Ideal)) (after (Cert.KernelIdeal.Gen.hostOps4 (F := Ideal)) V)))) (Proc.devRef .tc Cert.KernelIdeal.main_v120)
      = Cert.Spec.tail (V (Proc.devRef .tc Cert.KernelIdeal.main_v90)) (V (Proc.devRef .tc Cert.KernelIdeal.main_arg2)) (V (Proc.devRef .tc Cert.KernelIdeal.main_arg3)) (V (Proc.devRef .tc Cert.KernelIdeal.main_arg10))
          (V (Proc.devRef .tc Cert.KernelIdeal.main_arg11)) (V (Proc.devRef .tc Cert.KernelIdeal.main_arg12)) (V (Proc.devRef .tc Cert.KernelIdeal.main_arg13)) := by
  after_results_simp
  rfl

end Cert.Sim

end
-- ==== Proof.Bridge.lean ====
/-
  The two programs reach the same result.  Walking both from the launch: the edge quantities computed
  before the first region agree (the same operations on the same edge list); then, layer by layer,
  the region's output array is the reference's stretch of operations applied to equal inputs (the
  region lemmas against the named functions `lin`, `layer`, `comb`, `head`; the reference's stretches read
  as the same functions), and the aggregation between layers is the same operations on both sides; the
  head's input is one function `tail` of equal inputs; and the head is `head` of equal inputs.  Buffers
  that a stretch does not write are carried across it unchanged on both sides.
-/
import proofs.«170490_j47047071761043_1_alg».proof.Proof.KernelRun
import proofs.«170490_j47047071761043_1_alg».proof.Proof.KKeep
import proofs.«170490_j47047071761043_1_alg».proof.Proof.RKeep
import proofs.«170490_j47047071761043_1_alg».proof.Proof.Sim
import proofs.«170490_j47047071761043_1_alg».proof.Proof.Tail
import proofs.«170490_j47047071761043_1_alg».proof.Proof.Spec
import proofs.«170490_j47047071761043_1_alg».proof.Proof.RefRead

set_option maxRecDepth 16384

noncomputable section

namespace Cert.Bridge

open Idealize.ShloMosaic Idealize.ShloMosaic.TcCoe Idealize.ShloMosaic.StableHlo Idealize.SL.Sem

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

set_option maxHeartbeats 4000000 in
/-- From launch memories that agree on the arguments, the kernel program's result array is the reference's. -/
theorem result_eq
    (R0 : ∀ (V : (c : Dev Cert.KernelIdeal.nD) → (b : Ref Cert.KernelIdeal.sig .tc) → Buf (Elt Ideal) ((c : Thread Cert.KernelIdeal.nD Cert.KernelIdeal.τ).loc b)) (c : Dev Cert.KernelIdeal.nD),
      (Cert.KernelIdeal.Gen.dat0 (F := Ideal) V c).arrAt 2 Cert.KernelIdeal.cfg0.N = Cert.Spec.lin (V c Cert.KernelIdeal.main_arg0) (V c Cert.KernelIdeal.main_arg4))
    (R1 : ∀ (V : (c : Dev Cert.KernelIdeal.nD) → (b : Ref Cert.KernelIdeal.sig .tc) → Buf (Elt Ideal) ((c : Thread Cert.KernelIdeal.nD Cert.KernelIdeal.τ).loc b)) (c : Dev Cert.KernelIdeal.nD),
      (Cert.KernelIdeal.Gen.dat1 (F := Ideal) V c).arrAt 5 Cert.KernelIdeal.cfg1.N = Cert.Spec.layer (V c Cert.KernelIdeal.main_v51) (V c Cert.KernelIdeal.main_v33) (V c Cert.KernelIdeal.main_v32) (V c Cert.KernelIdeal.main_arg5) (V c Cert.KernelIdeal.main_arg6))
    (R2 : ∀ (V : (c : Dev Cert.KernelIdeal.nD) → (b : Ref Cert.KernelIdeal.sig .tc) → Buf (Elt Ideal) ((c : Thread Cert.KernelIdeal.nD Cert.KernelIdeal.τ).loc b)) (c : Dev Cert.KernelIdeal.nD),
      (Cert.KernelIdeal.Gen.dat2 (F := Ideal) V c).arrAt 5 Cert.KernelIdeal.cfg2.N = Cert.Spec.layer (V c Cert.KernelIdeal.main_v70) (V c Cert.KernelIdeal.main_v52) (V c Cert.KernelIdeal.main_v32) (V c Cert.KernelIdeal.main_arg7) (V c Cert.KernelIdeal.main_arg8))
    (R3 : ∀ (V : (c : Dev Cert.KernelIdeal.nD) → (b : Ref Cert.KernelIdeal.sig .tc) → Buf (Elt Ideal) ((c : Thread Cert.KernelIdeal.nD Cert.KernelIdeal.τ).loc b)) (c : Dev Cert.KernelIdeal.nD),
      (Cert.KernelIdeal.Gen.dat3 (F := Ideal) V c).arrAt 4 Cert.KernelIdeal.cfg3.N = Cert.Spec.comb (V c Cert.KernelIdeal.main_v89) (V c Cert.KernelIdeal.main_v71) (V c Cert.KernelIdeal.main_v32) (V c Cert.KernelIdeal.main_arg9))
    (R4 : ∀ (V : (c : Dev Cert.KernelIdeal.nD) → (b : Ref Cert.KernelIdeal.sig .tc) → Buf (Elt Ideal) ((c : Thread Cert.KernelIdeal.nD Cert.KernelIdeal.τ).loc b)) (c : Dev Cert.KernelIdeal.nD),
      (Cert.KernelIdeal.Gen.dat4 (F := Ideal) V c).arrAt 11 Cert.KernelIdeal.cfg4.N = Cert.Spec.head (V c Cert.KernelIdeal.main_v120) (V c Cert.KernelIdeal.main_arg14) (V c Cert.KernelIdeal.main_arg15) (V c Cert.KernelIdeal.main_arg16) (V c Cert.KernelIdeal.main_arg17) (V c Cert.KernelIdeal.main_arg18) (V c Cert.KernelIdeal.main_arg19) (V c Cert.KernelIdeal.main_arg20) (V c Cert.KernelIdeal.main_arg21) (V c Cert.KernelIdeal.main_arg22) (V c Cert.KernelIdeal.main_arg23))
    (H : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) :
    Cert.KernelIdeal.Gen.W14 m ρ c (Proc.devRef .tc Cert.KernelIdeal.main_v121)
      = after (Cert.ReferenceIdeal.RefRun.ops (F := Ideal)) (launchContents m' c) (Proc.devRef .tc Cert.ReferenceIdeal.main_v212) := by
  -- the reference's fold, cut at the stretches
  obtain ⟨Q0, hQ0⟩ : ∃ Q0 : Valuation Cert.ReferenceIdeal.τ Cert.ReferenceIdeal.sig (Elt Ideal), Q0 = launchContents m' c := ⟨_, rfl⟩
  have hcut : after (Cert.ReferenceIdeal.RefRun.ops (F := Ideal)) (launchContents m' c) (Proc.devRef .tc Cert.ReferenceIdeal.main_v212) = ((after (Cert.ReferenceIdeal.RefRun.opsHead (F := Ideal)) (after (Cert.ReferenceIdeal.RefRun.opsTail (F := Ideal)) (after (Cert.ReferenceIdeal.RefRun.opsComb (F := Ideal)) (after (Cert.ReferenceIdeal.RefRun.opsAgg3 (F := Ideal)) (after (Cert.ReferenceIdeal.RefRun.opsLayer3 (F := Ideal)) (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0)))))))))) (Proc.devRef .tc Cert.ReferenceIdeal.main_v212)) := by
    rw [← hQ0]
    simp only [Cert.ReferenceIdeal.RefRun.ops, Cert.ReferenceIdeal.RefRead.after_append]
  rw [hcut]
  -- the launch memories agree on each argument
  have a0 : Cert.KernelIdeal.Gen.W0 m ρ c (Proc.devRef .tc Cert.KernelIdeal.main_arg0) = Q0 (Proc.devRef .tc Cert.ReferenceIdeal.main_arg0) := by rw [hQ0]; exact (H.1).symm
  have a1 : Cert.KernelIdeal.Gen.W0 m ρ c (Proc.devRef .tc Cert.KernelIdeal.main_arg1) = Q0 (Proc.devRef .tc Cert.ReferenceIdeal.main_arg1) := by rw [hQ0]; exact (H.2.1).symm
  have a2 : Cert.KernelIdeal.Gen.W0 m ρ c (Proc.devRef .tc Cert.KernelIdeal.main_arg2) = Q0 (Proc.devRef .tc Cert.ReferenceIdeal.main_arg2) := by rw [hQ0]; exact (H.2.2.1).symm
  have a3 : Cert.KernelIdeal.Gen.W0 m ρ c (Proc.devRef .tc Cert.KernelIdeal.main_arg3) = Q0 (Proc.devRef .tc Cert.ReferenceIdeal.main_arg3) := by rw [hQ0]; exact (H.2.2.2.1).symm
  have a4 : Cert.KernelIdeal.Gen.W0 m ρ c (Proc.devRef .tc Cert.KernelIdeal.main_arg4) = Q0 (Proc.devRef .tc Cert.ReferenceIdeal.main_arg4) := by rw [hQ0]; exact (H.2.2.2.2.1).symm
  have a5 : Cert.KernelIdeal.Gen.W0 m ρ c (Proc.devRef .tc Cert.KernelIdeal.main_arg5) = Q0 (Proc.devRef .tc Cert.ReferenceIdeal.main_arg5) := by rw [hQ0]; exact (H.2.2.2.2.2.1).symm
  have a6 : Cert.KernelIdeal.Gen.W0 m ρ c (Proc.devRef .tc Cert.KernelIdeal.main_arg6) = Q0 (Proc.devRef .tc Cert.ReferenceIdeal.main_arg6) := by rw [hQ0]; exact (H.2.2.2.2.2.2.1).symm
  have a7 : Cert.KernelIdeal.Gen.W0 m ρ c (Proc.devRef .tc Cert.KernelIdeal.main_arg7) = Q0 (Proc.devRef .tc Cert.ReferenceIdeal.main_arg7) := by rw [hQ0]; exact (H.2.2.2.2.2.2.2.1).symm
  have a8 : Cert.KernelIdeal.Gen.W0 m ρ c (Proc.devRef .tc Cert.KernelIdeal.main_arg8) = Q0 (Proc.devRef .tc Cert.ReferenceIdeal.main_arg8) := by rw [hQ0]; exact (H.2.2.2.2.2.2.2.2.1).symm
  have a9 : Cert.KernelIdeal.Gen.W0 m ρ c (Proc.devRef .tc Cert.KernelIdeal.main_arg9) = Q0 (Proc.devRef .tc Cert.ReferenceIdeal.main_arg9) := by rw [hQ0]; exact (H.2.2.2.2.2.2.2.2.2.1).symm
  have a10 : Cert.KernelIdeal.Gen.W0 m ρ c (Proc.devRef .tc Cert.KernelIdeal.main_arg10) = Q0 (Proc.devRef .tc Cert.ReferenceIdeal.main_arg10) := by rw [hQ0]; exact (H.2.2.2.2.2.2.2.2.2.2.1).symm
  have a11 : Cert.KernelIdeal.Gen.W0 m ρ c (Proc.devRef .tc Cert.KernelIdeal.main_arg11) = Q0 (Proc.devRef .tc Cert.ReferenceIdeal.main_arg11) := by rw [hQ0]; exact (H.2.2.2.2.2.2.2.2.2.2.2.1).symm
  have a12 : Cert.KernelIdeal.Gen.W0 m ρ c (Proc.devRef .tc Cert.KernelIdeal.main_arg12) = Q0 (Proc.devRef .tc Cert.ReferenceIdeal.main_arg12) := by rw [hQ0]; exact (H.2.2.2.2.2.2.2.2.2.2.2.2.1).symm
  have a13 : Cert.KernelIdeal.Gen.W0 m ρ c (Proc.devRef .tc Cert.KernelIdeal.main_arg13) = Q0 (Proc.devRef .tc Cert.ReferenceIdeal.main_arg13) := by rw [hQ0]; exact (H.2.2.2.2.2.2.2.2.2.2.2.2.2.1).symm
  have a14 : Cert.KernelIdeal.Gen.W0 m ρ c (Proc.devRef .tc Cert.KernelIdeal.main_arg14) = Q0 (Proc.devRef .tc Cert.ReferenceIdeal.main_arg14) := by rw [hQ0]; exact (H.2.2.2.2.2.2.2.2.2.2.2.2.2.2.1).symm
  have a15 : Cert.KernelIdeal.Gen.W0 m ρ c (Proc.devRef .tc Cert.KernelIdeal.main_arg15) = Q0 (Proc.devRef .tc Cert.ReferenceIdeal.main_arg15) := by rw [hQ0]; exact (H.2.2.2.2.2.2.2.2.2.2.2.2.2.2.2.1).symm
  have a16 : Cert.KernelIdeal.Gen.W0 m ρ c (Proc.devRef .tc Cert.KernelIdeal.main_arg16) = Q0 (Proc.devRef .tc Cert.ReferenceIdeal.main_arg16) := by rw [hQ0]; exact (H.2.2.2.2.2.2.2.2.2.2.2.2.2.2.2.2.1).symm
  have a17 : Cert.KernelIdeal.Gen.W0 m ρ c (Proc.devRef .tc Cert.KernelIdeal.main_arg17) = Q0 (Proc.devRef .tc Cert.ReferenceIdeal.main_arg17) := by rw [hQ0]; exact (H.2.2.2.2.2.2.2.2.2.2.2.2.2.2.2.2.2.1).symm
  have a18 : Cert.KernelIdeal.Gen.W0 m ρ c (Proc.devRef .tc Cert.KernelIdeal.main_arg18) = Q0 (Proc.devRef .tc Cert.ReferenceIdeal.main_arg18) := by rw [hQ0]; exact (H.2.2.2.2.2.2.2.2.2.2.2.2.2.2.2.2.2.2.1).symm
  have a19 : Cert.KernelIdeal.Gen.W0 m ρ c (Proc.devRef .tc Cert.KernelIdeal.main_arg19) = Q0 (Proc.devRef .tc Cert.ReferenceIdeal.main_arg19) := by rw [hQ0]; exact (H.2.2.2.2.2.2.2.2.2.2.2.2.2.2.2.2.2.2.2.1).symm
  have a20 : Cert.KernelIdeal.Gen.W0 m ρ c (Proc.devRef .tc Cert.KernelIdeal.main_arg20) = Q0 (Proc.devRef .tc Cert.ReferenceIdeal.main_arg20) := by rw [hQ0]; exact (H.2.2.2.2.2.2.2.2.2.2.2.2.2.2.2.2.2.2.2.2.1).symm
  have a21 : Cert.KernelIdeal.Gen.W0 m ρ c (Proc.devRef .tc Cert.KernelIdeal.main_arg21) = Q0 (Proc.devRef .tc Cert.ReferenceIdeal.main_arg21) := by rw [hQ0]; exact (H.2.2.2.2.2.2.2.2.2.2.2.2.2.2.2.2.2.2.2.2.2.1).symm
  have a22 : Cert.KernelIdeal.Gen.W0 m ρ c (Proc.devRef .tc Cert.KernelIdeal.main_arg22) = Q0 (Proc.devRef .tc Cert.ReferenceIdeal.main_arg22) := by rw [hQ0]; exact (H.2.2.2.2.2.2.2.2.2.2.2.2.2.2.2.2.2.2.2.2.2.2.1).symm
  have a23 : Cert.KernelIdeal.Gen.W0 m ρ c (Proc.devRef .tc Cert.KernelIdeal.main_arg23) = Q0 (Proc.devRef .tc Cert.ReferenceIdeal.main_arg23) := by rw [hQ0]; exact (H.2.2.2.2.2.2.2.2.2.2.2.2.2.2.2.2.2.2.2.2.2.2.2).symm
  -- the edge sources, targets, weights and self-loop weights
  have s_v1 : (Cert.KernelIdeal.Gen.W1 m ρ c (Proc.devRef .tc Cert.KernelIdeal.main_v1)) = ((after (Cert.ReferenceIdeal.RefRun.opsPrep (F := Ideal)) Q0) (Proc.devRef .tc Cert.ReferenceIdeal.main_v1)) := Cert.Sim.prep_v1_sim _ _ a1
  have s_v3 : (Cert.KernelIdeal.Gen.W1 m ρ c (Proc.devRef .tc Cert.KernelIdeal.main_v3)) = ((after (Cert.ReferenceIdeal.RefRun.opsPrep (F := Ideal)) Q0) (Proc.devRef .tc Cert.ReferenceIdeal.main_v3)) := Cert.Sim.prep_v3_sim _ _ a1
  have s_v30 : (Cert.KernelIdeal.Gen.W1 m ρ c (Proc.devRef .tc Cert.KernelIdeal.main_v30)) = ((after (Cert.ReferenceIdeal.RefRun.opsPrep (F := Ideal)) Q0) (Proc.devRef .tc Cert.ReferenceIdeal.main_v30)) := Cert.Sim.prep_v30_sim _ _ a1
  have s_v32 : (Cert.KernelIdeal.Gen.W1 m ρ c (Proc.devRef .tc Cert.KernelIdeal.main_v32)) = ((after (Cert.ReferenceIdeal.RefRun.opsPrep (F := Ideal)) Q0) (Proc.devRef .tc Cert.ReferenceIdeal.main_v32)) := Cert.Sim.prep_v32_sim _ _ a1
  -- layer 1: the linear map
  have e0_a0 : (Cert.KernelIdeal.Gen.V1 m ρ c Cert.KernelIdeal.main_arg0) = ((after (Cert.ReferenceIdeal.RefRun.opsPrep (F := Ideal)) Q0) (Proc.devRef .tc Cert.ReferenceIdeal.main_arg0)) := ((Cert.KernelIdeal.Keep.keep0 (Cert.KernelIdeal.Gen.W0 m ρ c) Cert.KernelIdeal.main_arg0 (by decide)).trans (a0.trans (Cert.ReferenceIdeal.Keep.keepPrep Q0 Cert.ReferenceIdeal.main_arg0 (by decide)).symm))
  have e0_a4 : (Cert.KernelIdeal.Gen.V1 m ρ c Cert.KernelIdeal.main_arg4) = ((after (Cert.ReferenceIdeal.RefRun.opsPrep (F := Ideal)) Q0) (Proc.devRef .tc Cert.ReferenceIdeal.main_arg4)) := ((Cert.KernelIdeal.Keep.keep0 (Cert.KernelIdeal.Gen.W0 m ρ c) Cert.KernelIdeal.main_arg4 (by decide)).trans (a4.trans (Cert.ReferenceIdeal.Keep.keepPrep Q0 Cert.ReferenceIdeal.main_arg4 (by decide)).symm))
  have h1 : (Cert.KernelIdeal.Gen.W2 m ρ c (Proc.devRef .tc Cert.KernelIdeal.main_v33)) = ((after (Cert.ReferenceIdeal.RefRun.opsLin1 (F := Ideal)) (after (Cert.ReferenceIdeal.RefRun.opsPrep (F := Ideal)) Q0)) (Proc.devRef .tc Cert.ReferenceIdeal.main_v33)) := by
    refine (Cert.KernelIdeal.Gen.W2_arr m ρ c 2).trans ((R0 (Cert.KernelIdeal.Gen.V1 m ρ) c).trans (Eq.trans ?_ (Cert.ReferenceIdeal.RefRead.lin1_read (after (Cert.ReferenceIdeal.RefRun.opsPrep (F := Ideal)) Q0)).symm))
    rw [e0_a0, e0_a4]
  -- layer 1: the aggregation along the edges
  have g1 : (Cert.KernelIdeal.Gen.W3 m ρ c (Proc.devRef .tc Cert.KernelIdeal.main_v51)) = ((after (Cert.ReferenceIdeal.RefRun.opsAgg1 (F := Ideal)) (after (Cert.ReferenceIdeal.RefRun.opsLin1 (F := Ideal)) (after (Cert.ReferenceIdeal.RefRun.opsPrep (F := Ideal)) Q0))) (Proc.devRef .tc Cert.ReferenceIdeal.main_v51)) :=
    Cert.Sim.agg1_sim _ _ ((Cert.KernelIdeal.Keep.W2_keep m ρ c Cert.KernelIdeal.main_v1 (by decide)).trans (s_v1.trans (Cert.ReferenceIdeal.Keep.keepLin1 (after (Cert.ReferenceIdeal.RefRun.opsPrep (F := Ideal)) Q0) Cert.ReferenceIdeal.main_v1 (by decide)).symm)) ((Cert.KernelIdeal.Keep.W2_keep m ρ c Cert.KernelIdeal.main_v3 (by decide)).trans (s_v3.trans (Cert.ReferenceIdeal.Keep.keepLin1 (after (Cert.ReferenceIdeal.RefRun.opsPrep (F := Ideal)) Q0) Cert.ReferenceIdeal.main_v3 (by decide)).symm)) ((Cert.KernelIdeal.Keep.W2_keep m ρ c Cert.KernelIdeal.main_v30 (by decide)).trans (s_v30.trans (Cert.ReferenceIdeal.Keep.keepLin1 (after (Cert.ReferenceIdeal.RefRun.opsPrep (F := Ideal)) Q0) Cert.ReferenceIdeal.main_v30 (by decide)).symm)) h1
  -- layer 2
  have e1_0 : (Cert.KernelIdeal.Gen.V3 m ρ c Cert.KernelIdeal.main_v51) = ((after (Cert.ReferenceIdeal.RefRun.opsAgg1 (F := Ideal)) (after (Cert.ReferenceIdeal.RefRun.opsLin1 (F := Ideal)) (after (Cert.ReferenceIdeal.RefRun.opsPrep (F := Ideal)) Q0))) (Proc.devRef .tc Cert.ReferenceIdeal.main_v51)) := g1
  have e1_1 : (Cert.KernelIdeal.Gen.V3 m ρ c Cert.KernelIdeal.main_v33) = ((after (Cert.ReferenceIdeal.RefRun.opsAgg1 (F := Ideal)) (after (Cert.ReferenceIdeal.RefRun.opsLin1 (F := Ideal)) (after (Cert.ReferenceIdeal.RefRun.opsPrep (F := Ideal)) Q0))) (Proc.devRef .tc Cert.ReferenceIdeal.main_v33)) := ((Cert.KernelIdeal.Keep.keep1 (Cert.KernelIdeal.Gen.W2 m ρ c) Cert.KernelIdeal.main_v33 (by decide)).trans (h1.trans (Cert.ReferenceIdeal.Keep.keepAgg1 (after (Cert.ReferenceIdeal.RefRun.opsLin1 (F := Ideal)) (after (Cert.ReferenceIdeal.RefRun.opsPrep (F := Ideal)) Q0)) Cert.ReferenceIdeal.main_v33 (by decide)).symm))
  have e1_2 : (Cert.KernelIdeal.Gen.V3 m ρ c Cert.KernelIdeal.main_v32) = ((after (Cert.ReferenceIdeal.RefRun.opsAgg1 (F := Ideal)) (after (Cert.ReferenceIdeal.RefRun.opsLin1 (F := Ideal)) (after (Cert.ReferenceIdeal.RefRun.opsPrep (F := Ideal)) Q0))) (Proc.devRef .tc Cert.ReferenceIdeal.main_v32)) := (((Cert.KernelIdeal.Keep.keep1 (Cert.KernelIdeal.Gen.W2 m ρ c) Cert.KernelIdeal.main_v32 (by decide)).trans (Cert.KernelIdeal.Keep.W2_keep m ρ c Cert.KernelIdeal.main_v32 (by decide))).trans (s_v32.trans ((Cert.ReferenceIdeal.Keep.keepAgg1 (after (Cert.ReferenceIdeal.RefRun.opsLin1 (F := Ideal)) (after (Cert.ReferenceIdeal.RefRun.opsPrep (F := Ideal)) Q0)) Cert.ReferenceIdeal.main_v32 (by decide)).trans (Cert.ReferenceIdeal.Keep.keepLin1 (after (Cert.ReferenceIdeal.RefRun.opsPrep (F := Ideal)) Q0) Cert.ReferenceIdeal.main_v32 (by decide))).symm))
  have e1_3 : (Cert.KernelIdeal.Gen.V3 m ρ c Cert.KernelIdeal.main_arg5) = ((after (Cert.ReferenceIdeal.RefRun.opsAgg1 (F := Ideal)) (after (Cert.ReferenceIdeal.RefRun.opsLin1 (F := Ideal)) (after (Cert.ReferenceIdeal.RefRun.opsPrep (F := Ideal)) Q0))) (Proc.devRef .tc Cert.ReferenceIdeal.main_arg5)) := ((((Cert.KernelIdeal.Keep.keep1 (Cert.KernelIdeal.Gen.W2 m ρ c) Cert.KernelIdeal.main_arg5 (by decide)).trans (Cert.KernelIdeal.Keep.W2_keep m ρ c Cert.KernelIdeal.main_arg5 (by decide))).trans (Cert.KernelIdeal.Keep.keep0 (Cert.KernelIdeal.Gen.W0 m ρ c) Cert.KernelIdeal.main_arg5 (by decide))).trans (a5.trans (((Cert.ReferenceIdeal.Keep.keepAgg1 (after (Cert.ReferenceIdeal.RefRun.opsLin1 (F := Ideal)) (after (Cert.ReferenceIdeal.RefRun.opsPrep (F := Ideal)) Q0)) Cert.ReferenceIdeal.main_arg5 (by decide)).trans (Cert.ReferenceIdeal.Keep.keepLin1 (after (Cert.ReferenceIdeal.RefRun.opsPrep (F := Ideal)) Q0) Cert.ReferenceIdeal.main_arg5 (by decide))).trans (Cert.ReferenceIdeal.Keep.keepPrep Q0 Cert.ReferenceIdeal.main_arg5 (by decide))).symm))
  have e1_4 : (Cert.KernelIdeal.Gen.V3 m ρ c Cert.KernelIdeal.main_arg6) = ((after (Cert.ReferenceIdeal.RefRun.opsAgg1 (F := Ideal)) (after (Cert.ReferenceIdeal.RefRun.opsLin1 (F := Ideal)) (after (Cert.ReferenceIdeal.RefRun.opsPrep (F := Ideal)) Q0))) (Proc.devRef .tc Cert.ReferenceIdeal.main_arg6)) := ((((Cert.KernelIdeal.Keep.keep1 (Cert.KernelIdeal.Gen.W2 m ρ c) Cert.KernelIdeal.main_arg6 (by decide)).trans (Cert.KernelIdeal.Keep.W2_keep m ρ c Cert.KernelIdeal.main_arg6 (by decide))).trans (Cert.KernelIdeal.Keep.keep0 (Cert.KernelIdeal.Gen.W0 m ρ c) Cert.KernelIdeal.main_arg6 (by decide))).trans (a6.trans (((Cert.ReferenceIdeal.Keep.keepAgg1 (after (Cert.ReferenceIdeal.RefRun.opsLin1 (F := Ideal)) (after (Cert.ReferenceIdeal.RefRun.opsPrep (F := Ideal)) Q0)) Cert.ReferenceIdeal.main_arg6 (by decide)).trans (Cert.ReferenceIdeal.Keep.keepLin1 (after (Cert.ReferenceIdeal.RefRun.opsPrep (F := Ideal)) Q0) Cert.ReferenceIdeal.main_arg6 (by decide))).trans (Cert.ReferenceIdeal.Keep.keepPrep Q0 Cert.ReferenceIdeal.main_arg6 (by decide))).symm))
  have h2 : (Cert.KernelIdeal.Gen.W4 m ρ c (Proc.devRef .tc Cert.KernelIdeal.main_v52)) = ((after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0)))) (Proc.devRef .tc Cert.ReferenceIdeal.main_v63)) := by
    refine (Cert.KernelIdeal.Gen.W4_arr m ρ c 5).trans ((R1 (Cert.KernelIdeal.Gen.V3 m ρ) c).trans (Eq.trans ?_ (Cert.ReferenceIdeal.RefRead.layer2_read (after (Cert.ReferenceIdeal.RefRun.opsAgg1 (F := Ideal)) (after (Cert.ReferenceIdeal.RefRun.opsLin1 (F := Ideal)) (after (Cert.ReferenceIdeal.RefRun.opsPrep (F := Ideal)) Q0)))).symm))
    rw [e1_0, e1_1, e1_2, e1_3, e1_4]
  have g2 : (Cert.KernelIdeal.Gen.W5 m ρ c (Proc.devRef .tc Cert.KernelIdeal.main_v70)) = ((after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0))))) (Proc.devRef .tc Cert.ReferenceIdeal.main_v81)) :=
    Cert.Sim.agg2_sim _ _ ((((Cert.KernelIdeal.Keep.W4_keep m ρ c Cert.KernelIdeal.main_v1 (by decide)).trans (Cert.KernelIdeal.Keep.keep1 (Cert.KernelIdeal.Gen.W2 m ρ c) Cert.KernelIdeal.main_v1 (by decide))).trans (Cert.KernelIdeal.Keep.W2_keep m ρ c Cert.KernelIdeal.main_v1 (by decide))).trans (s_v1.trans (((Cert.ReferenceIdeal.Keep.keepLayer2 (after (Cert.ReferenceIdeal.RefRun.opsAgg1 (F := Ideal)) (after (Cert.ReferenceIdeal.RefRun.opsLin1 (F := Ideal)) (after (Cert.ReferenceIdeal.RefRun.opsPrep (F := Ideal)) Q0))) Cert.ReferenceIdeal.main_v1 (by decide)).trans (Cert.ReferenceIdeal.Keep.keepAgg1 (after (Cert.ReferenceIdeal.RefRun.opsLin1 (F := Ideal)) (after (Cert.ReferenceIdeal.RefRun.opsPrep (F := Ideal)) Q0)) Cert.ReferenceIdeal.main_v1 (by decide))).trans (Cert.ReferenceIdeal.Keep.keepLin1 (after (Cert.ReferenceIdeal.RefRun.opsPrep (F := Ideal)) Q0) Cert.ReferenceIdeal.main_v1 (by decide))).symm)) ((((Cert.KernelIdeal.Keep.W4_keep m ρ c Cert.KernelIdeal.main_v3 (by decide)).trans (Cert.KernelIdeal.Keep.keep1 (Cert.KernelIdeal.Gen.W2 m ρ c) Cert.KernelIdeal.main_v3 (by decide))).trans (Cert.KernelIdeal.Keep.W2_keep m ρ c Cert.KernelIdeal.main_v3 (by decide))).trans (s_v3.trans (((Cert.ReferenceIdeal.Keep.keepLayer2 (after (Cert.ReferenceIdeal.RefRun.opsAgg1 (F := Ideal)) (after (Cert.ReferenceIdeal.RefRun.opsLin1 (F := Ideal)) (after (Cert.ReferenceIdeal.RefRun.opsPrep (F := Ideal)) Q0))) Cert.ReferenceIdeal.main_v3 (by decide)).trans (Cert.ReferenceIdeal.Keep.keepAgg1 (after (Cert.ReferenceIdeal.RefRun.opsLin1 (F := Ideal)) (after (Cert.ReferenceIdeal.RefRun.opsPrep (F := Ideal)) Q0)) Cert.ReferenceIdeal.main_v3 (by decide))).trans (Cert.ReferenceIdeal.Keep.keepLin1 (after (Cert.ReferenceIdeal.RefRun.opsPrep (F := Ideal)) Q0) Cert.ReferenceIdeal.main_v3 (by decide))).symm)) ((((Cert.KernelIdeal.Keep.W4_keep m ρ c Cert.KernelIdeal.main_v30 (by decide)).trans (Cert.KernelIdeal.Keep.keep1 (Cert.KernelIdeal.Gen.W2 m ρ c) Cert.KernelIdeal.main_v30 (by decide))).trans (Cert.KernelIdeal.Keep.W2_keep m ρ c Cert.KernelIdeal.main_v30 (by decide))).trans (s_v30.trans (((Cert.ReferenceIdeal.Keep.keepLayer2 (after (Cert.ReferenceIdeal.RefRun.opsAgg1 (F := Ideal)) (after (Cert.ReferenceIdeal.RefRun.opsLin1 (F := Ideal)) (after (Cert.ReferenceIdeal.RefRun.opsPrep (F := Ideal)) Q0))) Cert.ReferenceIdeal.main_v30 (by decide)).trans (Cert.ReferenceIdeal.Keep.keepAgg1 (after (Cert.ReferenceIdeal.RefRun.opsLin1 (F := Ideal)) (after (Cert.ReferenceIdeal.RefRun.opsPrep (F := Ideal)) Q0)) Cert.ReferenceIdeal.main_v30 (by decide))).trans (Cert.ReferenceIdeal.Keep.keepLin1 (after (Cert.ReferenceIdeal.RefRun.opsPrep (F := Ideal)) Q0) Cert.ReferenceIdeal.main_v30 (by decide))).symm)) h2
  -- layer 3
  have e2_0 : (Cert.KernelIdeal.Gen.V5 m ρ c Cert.KernelIdeal.main_v70) = ((after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0))))) (Proc.devRef .tc Cert.ReferenceIdeal.main_v81)) := g2
  have e2_1 : (Cert.KernelIdeal.Gen.V5 m ρ c Cert.KernelIdeal.main_v52) = ((after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0))))) (Proc.devRef .tc Cert.ReferenceIdeal.main_v63)) := ((Cert.KernelIdeal.Keep.keep2 (Cert.KernelIdeal.Gen.W4 m ρ c) Cert.KernelIdeal.main_v52 (by decide)).trans (h2.trans (Cert.ReferenceIdeal.Keep.keepAgg2 (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0)))) Cert.ReferenceIdeal.main_v63 (by decide)).symm))
  have e2_2 : (Cert.KernelIdeal.Gen.V5 m ρ c Cert.KernelIdeal.main_v32) = ((after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0))))) (Proc.devRef .tc Cert.ReferenceIdeal.main_v32)) := (((((Cert.KernelIdeal.Keep.keep2 (Cert.KernelIdeal.Gen.W4 m ρ c) Cert.KernelIdeal.main_v32 (by decide)).trans (Cert.KernelIdeal.Keep.W4_keep m ρ c Cert.KernelIdeal.main_v32 (by decide))).trans (Cert.KernelIdeal.Keep.keep1 (Cert.KernelIdeal.Gen.W2 m ρ c) Cert.KernelIdeal.main_v32 (by decide))).trans (Cert.KernelIdeal.Keep.W2_keep m ρ c Cert.KernelIdeal.main_v32 (by decide))).trans (s_v32.trans ((((Cert.ReferenceIdeal.Keep.keepAgg2 (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0)))) Cert.ReferenceIdeal.main_v32 (by decide)).trans (Cert.ReferenceIdeal.Keep.keepLayer2 (after (Cert.ReferenceIdeal.RefRun.opsAgg1 (F := Ideal)) (after (Cert.ReferenceIdeal.RefRun.opsLin1 (F := Ideal)) (after (Cert.ReferenceIdeal.RefRun.opsPrep (F := Ideal)) Q0))) Cert.ReferenceIdeal.main_v32 (by decide))).trans (Cert.ReferenceIdeal.Keep.keepAgg1 (after (Cert.ReferenceIdeal.RefRun.opsLin1 (F := Ideal)) (after (Cert.ReferenceIdeal.RefRun.opsPrep (F := Ideal)) Q0)) Cert.ReferenceIdeal.main_v32 (by decide))).trans (Cert.ReferenceIdeal.Keep.keepLin1 (after (Cert.ReferenceIdeal.RefRun.opsPrep (F := Ideal)) Q0) Cert.ReferenceIdeal.main_v32 (by decide))).symm))
  have e2_3 : (Cert.KernelIdeal.Gen.V5 m ρ c Cert.KernelIdeal.main_arg7) = ((after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0))))) (Proc.devRef .tc Cert.ReferenceIdeal.main_arg7)) := ((((((Cert.KernelIdeal.Keep.keep2 (Cert.KernelIdeal.Gen.W4 m ρ c) Cert.KernelIdeal.main_arg7 (by decide)).trans (Cert.KernelIdeal.Keep.W4_keep m ρ c Cert.KernelIdeal.main_arg7 (by decide))).trans (Cert.KernelIdeal.Keep.keep1 (Cert.KernelIdeal.Gen.W2 m ρ c) Cert.KernelIdeal.main_arg7 (by decide))).trans (Cert.KernelIdeal.Keep.W2_keep m ρ c Cert.KernelIdeal.main_arg7 (by decide))).trans (Cert.KernelIdeal.Keep.keep0 (Cert.KernelIdeal.Gen.W0 m ρ c) Cert.KernelIdeal.main_arg7 (by decide))).trans (a7.trans (((((Cert.ReferenceIdeal.Keep.keepAgg2 (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0)))) Cert.ReferenceIdeal.main_arg7 (by decide)).trans (Cert.ReferenceIdeal.Keep.keepLayer2 (after (Cert.ReferenceIdeal.RefRun.opsAgg1 (F := Ideal)) (after (Cert.ReferenceIdeal.RefRun.opsLin1 (F := Ideal)) (after (Cert.ReferenceIdeal.RefRun.opsPrep (F := Ideal)) Q0))) Cert.ReferenceIdeal.main_arg7 (by decide))).trans (Cert.ReferenceIdeal.Keep.keepAgg1 (after (Cert.ReferenceIdeal.RefRun.opsLin1 (F := Ideal)) (after (Cert.ReferenceIdeal.RefRun.opsPrep (F := Ideal)) Q0)) Cert.ReferenceIdeal.main_arg7 (by decide))).trans (Cert.ReferenceIdeal.Keep.keepLin1 (after (Cert.ReferenceIdeal.RefRun.opsPrep (F := Ideal)) Q0) Cert.ReferenceIdeal.main_arg7 (by decide))).trans (Cert.ReferenceIdeal.Keep.keepPrep Q0 Cert.ReferenceIdeal.main_arg7 (by decide))).symm))
  have e2_4 : (Cert.KernelIdeal.Gen.V5 m ρ c Cert.KernelIdeal.main_arg8) = ((after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0))))) (Proc.devRef .tc Cert.ReferenceIdeal.main_arg8)) := ((((((Cert.KernelIdeal.Keep.keep2 (Cert.KernelIdeal.Gen.W4 m ρ c) Cert.KernelIdeal.main_arg8 (by decide)).trans (Cert.KernelIdeal.Keep.W4_keep m ρ c Cert.KernelIdeal.main_arg8 (by decide))).trans (Cert.KernelIdeal.Keep.keep1 (Cert.KernelIdeal.Gen.W2 m ρ c) Cert.KernelIdeal.main_arg8 (by decide))).trans (Cert.KernelIdeal.Keep.W2_keep m ρ c Cert.KernelIdeal.main_arg8 (by decide))).trans (Cert.KernelIdeal.Keep.keep0 (Cert.KernelIdeal.Gen.W0 m ρ c) Cert.KernelIdeal.main_arg8 (by decide))).trans (a8.trans (((((Cert.ReferenceIdeal.Keep.keepAgg2 (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0)))) Cert.ReferenceIdeal.main_arg8 (by decide)).trans (Cert.ReferenceIdeal.Keep.keepLayer2 (after (Cert.ReferenceIdeal.RefRun.opsAgg1 (F := Ideal)) (after (Cert.ReferenceIdeal.RefRun.opsLin1 (F := Ideal)) (after (Cert.ReferenceIdeal.RefRun.opsPrep (F := Ideal)) Q0))) Cert.ReferenceIdeal.main_arg8 (by decide))).trans (Cert.ReferenceIdeal.Keep.keepAgg1 (after (Cert.ReferenceIdeal.RefRun.opsLin1 (F := Ideal)) (after (Cert.ReferenceIdeal.RefRun.opsPrep (F := Ideal)) Q0)) Cert.ReferenceIdeal.main_arg8 (by decide))).trans (Cert.ReferenceIdeal.Keep.keepLin1 (after (Cert.ReferenceIdeal.RefRun.opsPrep (F := Ideal)) Q0) Cert.ReferenceIdeal.main_arg8 (by decide))).trans (Cert.ReferenceIdeal.Keep.keepPrep Q0 Cert.ReferenceIdeal.main_arg8 (by decide))).symm))
  have h3 : (Cert.KernelIdeal.Gen.W6 m ρ c (Proc.devRef .tc Cert.KernelIdeal.main_v71)) = ((after (Cert.ReferenceIdeal.RefRun.opsLayer3 (F := Ideal)) (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0)))))) (Proc.devRef .tc Cert.ReferenceIdeal.main_v93)) := by
    refine (Cert.KernelIdeal.Gen.W6_arr m ρ c 5).trans ((R2 (Cert.KernelIdeal.Gen.V5 m ρ) c).trans (Eq.trans ?_ (Cert.ReferenceIdeal.RefRead.layer3_read (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0)))))).symm))
    rw [e2_0, e2_1, e2_2, e2_3, e2_4]
  have g3 : (Cert.KernelIdeal.Gen.W7 m ρ c (Proc.devRef .tc Cert.KernelIdeal.main_v89)) = ((after (Cert.ReferenceIdeal.RefRun.opsAgg3 (F := Ideal)) (after (Cert.ReferenceIdeal.RefRun.opsLayer3 (F := Ideal)) (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0))))))) (Proc.devRef .tc Cert.ReferenceIdeal.main_v111)) :=
    Cert.Sim.agg3_sim _ _ ((((((Cert.KernelIdeal.Keep.W6_keep m ρ c Cert.KernelIdeal.main_v1 (by decide)).trans (Cert.KernelIdeal.Keep.keep2 (Cert.KernelIdeal.Gen.W4 m ρ c) Cert.KernelIdeal.main_v1 (by decide))).trans (Cert.KernelIdeal.Keep.W4_keep m ρ c Cert.KernelIdeal.main_v1 (by decide))).trans (Cert.KernelIdeal.Keep.keep1 (Cert.KernelIdeal.Gen.W2 m ρ c) Cert.KernelIdeal.main_v1 (by decide))).trans (Cert.KernelIdeal.Keep.W2_keep m ρ c Cert.KernelIdeal.main_v1 (by decide))).trans (s_v1.trans (((((Cert.ReferenceIdeal.Keep.keepLayer3 (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0))))) Cert.ReferenceIdeal.main_v1 (by decide)).trans (Cert.ReferenceIdeal.Keep.keepAgg2 (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0)))) Cert.ReferenceIdeal.main_v1 (by decide))).trans (Cert.ReferenceIdeal.Keep.keepLayer2 (after (Cert.ReferenceIdeal.RefRun.opsAgg1 (F := Ideal)) (after (Cert.ReferenceIdeal.RefRun.opsLin1 (F := Ideal)) (after (Cert.ReferenceIdeal.RefRun.opsPrep (F := Ideal)) Q0))) Cert.ReferenceIdeal.main_v1 (by decide))).trans (Cert.ReferenceIdeal.Keep.keepAgg1 (after (Cert.ReferenceIdeal.RefRun.opsLin1 (F := Ideal)) (after (Cert.ReferenceIdeal.RefRun.opsPrep (F := Ideal)) Q0)) Cert.ReferenceIdeal.main_v1 (by decide))).trans (Cert.ReferenceIdeal.Keep.keepLin1 (after (Cert.ReferenceIdeal.RefRun.opsPrep (F := Ideal)) Q0) Cert.ReferenceIdeal.main_v1 (by decide))).symm)) ((((((Cert.KernelIdeal.Keep.W6_keep m ρ c Cert.KernelIdeal.main_v3 (by decide)).trans (Cert.KernelIdeal.Keep.keep2 (Cert.KernelIdeal.Gen.W4 m ρ c) Cert.KernelIdeal.main_v3 (by decide))).trans (Cert.KernelIdeal.Keep.W4_keep m ρ c Cert.KernelIdeal.main_v3 (by decide))).trans (Cert.KernelIdeal.Keep.keep1 (Cert.KernelIdeal.Gen.W2 m ρ c) Cert.KernelIdeal.main_v3 (by decide))).trans (Cert.KernelIdeal.Keep.W2_keep m ρ c Cert.KernelIdeal.main_v3 (by decide))).trans (s_v3.trans (((((Cert.ReferenceIdeal.Keep.keepLayer3 (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0))))) Cert.ReferenceIdeal.main_v3 (by decide)).trans (Cert.ReferenceIdeal.Keep.keepAgg2 (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0)))) Cert.ReferenceIdeal.main_v3 (by decide))).trans (Cert.ReferenceIdeal.Keep.keepLayer2 (after (Cert.ReferenceIdeal.RefRun.opsAgg1 (F := Ideal)) (after (Cert.ReferenceIdeal.RefRun.opsLin1 (F := Ideal)) (after (Cert.ReferenceIdeal.RefRun.opsPrep (F := Ideal)) Q0))) Cert.ReferenceIdeal.main_v3 (by decide))).trans (Cert.ReferenceIdeal.Keep.keepAgg1 (after (Cert.ReferenceIdeal.RefRun.opsLin1 (F := Ideal)) (after (Cert.ReferenceIdeal.RefRun.opsPrep (F := Ideal)) Q0)) Cert.ReferenceIdeal.main_v3 (by decide))).trans (Cert.ReferenceIdeal.Keep.keepLin1 (after (Cert.ReferenceIdeal.RefRun.opsPrep (F := Ideal)) Q0) Cert.ReferenceIdeal.main_v3 (by decide))).symm)) ((((((Cert.KernelIdeal.Keep.W6_keep m ρ c Cert.KernelIdeal.main_v30 (by decide)).trans (Cert.KernelIdeal.Keep.keep2 (Cert.KernelIdeal.Gen.W4 m ρ c) Cert.KernelIdeal.main_v30 (by decide))).trans (Cert.KernelIdeal.Keep.W4_keep m ρ c Cert.KernelIdeal.main_v30 (by decide))).trans (Cert.KernelIdeal.Keep.keep1 (Cert.KernelIdeal.Gen.W2 m ρ c) Cert.KernelIdeal.main_v30 (by decide))).trans (Cert.KernelIdeal.Keep.W2_keep m ρ c Cert.KernelIdeal.main_v30 (by decide))).trans (s_v30.trans (((((Cert.ReferenceIdeal.Keep.keepLayer3 (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0))))) Cert.ReferenceIdeal.main_v30 (by decide)).trans (Cert.ReferenceIdeal.Keep.keepAgg2 (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0)))) Cert.ReferenceIdeal.main_v30 (by decide))).trans (Cert.ReferenceIdeal.Keep.keepLayer2 (after (Cert.ReferenceIdeal.RefRun.opsAgg1 (F := Ideal)) (after (Cert.ReferenceIdeal.RefRun.opsLin1 (F := Ideal)) (after (Cert.ReferenceIdeal.RefRun.opsPrep (F := Ideal)) Q0))) Cert.ReferenceIdeal.main_v30 (by decide))).trans (Cert.ReferenceIdeal.Keep.keepAgg1 (after (Cert.ReferenceIdeal.RefRun.opsLin1 (F := Ideal)) (after (Cert.ReferenceIdeal.RefRun.opsPrep (F := Ideal)) Q0)) Cert.ReferenceIdeal.main_v30 (by decide))).trans (Cert.ReferenceIdeal.Keep.keepLin1 (after (Cert.ReferenceIdeal.RefRun.opsPrep (F := Ideal)) Q0) Cert.ReferenceIdeal.main_v30 (by decide))).symm)) h3
  -- the last combine
  have e3_0 : (Cert.KernelIdeal.Gen.V7 m ρ c Cert.KernelIdeal.main_v89) = ((after (Cert.ReferenceIdeal.RefRun.opsAgg3 (F := Ideal)) (after (Cert.ReferenceIdeal.RefRun.opsLayer3 (F := Ideal)) (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0))))))) (Proc.devRef .tc Cert.ReferenceIdeal.main_v111)) := g3
  have e3_1 : (Cert.KernelIdeal.Gen.V7 m ρ c Cert.KernelIdeal.main_v71) = ((after (Cert.ReferenceIdeal.RefRun.opsAgg3 (F := Ideal)) (after (Cert.ReferenceIdeal.RefRun.opsLayer3 (F := Ideal)) (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0))))))) (Proc.devRef .tc Cert.ReferenceIdeal.main_v93)) := ((Cert.KernelIdeal.Keep.keep3 (Cert.KernelIdeal.Gen.W6 m ρ c) Cert.KernelIdeal.main_v71 (by decide)).trans (h3.trans (Cert.ReferenceIdeal.Keep.keepAgg3 (after (Cert.ReferenceIdeal.RefRun.opsLayer3 (F := Ideal)) (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0)))))) Cert.ReferenceIdeal.main_v93 (by decide)).symm))
  have e3_2 : (Cert.KernelIdeal.Gen.V7 m ρ c Cert.KernelIdeal.main_v32) = ((after (Cert.ReferenceIdeal.RefRun.opsAgg3 (F := Ideal)) (after (Cert.ReferenceIdeal.RefRun.opsLayer3 (F := Ideal)) (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0))))))) (Proc.devRef .tc Cert.ReferenceIdeal.main_v32)) := (((((((Cert.KernelIdeal.Keep.keep3 (Cert.KernelIdeal.Gen.W6 m ρ c) Cert.KernelIdeal.main_v32 (by decide)).trans (Cert.KernelIdeal.Keep.W6_keep m ρ c Cert.KernelIdeal.main_v32 (by decide))).trans (Cert.KernelIdeal.Keep.keep2 (Cert.KernelIdeal.Gen.W4 m ρ c) Cert.KernelIdeal.main_v32 (by decide))).trans (Cert.KernelIdeal.Keep.W4_keep m ρ c Cert.KernelIdeal.main_v32 (by decide))).trans (Cert.KernelIdeal.Keep.keep1 (Cert.KernelIdeal.Gen.W2 m ρ c) Cert.KernelIdeal.main_v32 (by decide))).trans (Cert.KernelIdeal.Keep.W2_keep m ρ c Cert.KernelIdeal.main_v32 (by decide))).trans (s_v32.trans ((((((Cert.ReferenceIdeal.Keep.keepAgg3 (after (Cert.ReferenceIdeal.RefRun.opsLayer3 (F := Ideal)) (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0)))))) Cert.ReferenceIdeal.main_v32 (by decide)).trans (Cert.ReferenceIdeal.Keep.keepLayer3 (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0))))) Cert.ReferenceIdeal.main_v32 (by decide))).trans (Cert.ReferenceIdeal.Keep.keepAgg2 (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0)))) Cert.ReferenceIdeal.main_v32 (by decide))).trans (Cert.ReferenceIdeal.Keep.keepLayer2 (after (Cert.ReferenceIdeal.RefRun.opsAgg1 (F := Ideal)) (after (Cert.ReferenceIdeal.RefRun.opsLin1 (F := Ideal)) (after (Cert.ReferenceIdeal.RefRun.opsPrep (F := Ideal)) Q0))) Cert.ReferenceIdeal.main_v32 (by decide))).trans (Cert.ReferenceIdeal.Keep.keepAgg1 (after (Cert.ReferenceIdeal.RefRun.opsLin1 (F := Ideal)) (after (Cert.ReferenceIdeal.RefRun.opsPrep (F := Ideal)) Q0)) Cert.ReferenceIdeal.main_v32 (by decide))).trans (Cert.ReferenceIdeal.Keep.keepLin1 (after (Cert.ReferenceIdeal.RefRun.opsPrep (F := Ideal)) Q0) Cert.ReferenceIdeal.main_v32 (by decide))).symm))
  have e3_3 : (Cert.KernelIdeal.Gen.V7 m ρ c Cert.KernelIdeal.main_arg9) = ((after (Cert.ReferenceIdeal.RefRun.opsAgg3 (F := Ideal)) (after (Cert.ReferenceIdeal.RefRun.opsLayer3 (F := Ideal)) (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0))))))) (Proc.devRef .tc Cert.ReferenceIdeal.main_arg9)) := ((((((((Cert.KernelIdeal.Keep.keep3 (Cert.KernelIdeal.Gen.W6 m ρ c) Cert.KernelIdeal.main_arg9 (by decide)).trans (Cert.KernelIdeal.Keep.W6_keep m ρ c Cert.KernelIdeal.main_arg9 (by decide))).trans (Cert.KernelIdeal.Keep.keep2 (Cert.KernelIdeal.Gen.W4 m ρ c) Cert.KernelIdeal.main_arg9 (by decide))).trans (Cert.KernelIdeal.Keep.W4_keep m ρ c Cert.KernelIdeal.main_arg9 (by decide))).trans (Cert.KernelIdeal.Keep.keep1 (Cert.KernelIdeal.Gen.W2 m ρ c) Cert.KernelIdeal.main_arg9 (by decide))).trans (Cert.KernelIdeal.Keep.W2_keep m ρ c Cert.KernelIdeal.main_arg9 (by decide))).trans (Cert.KernelIdeal.Keep.keep0 (Cert.KernelIdeal.Gen.W0 m ρ c) Cert.KernelIdeal.main_arg9 (by decide))).trans (a9.trans (((((((Cert.ReferenceIdeal.Keep.keepAgg3 (after (Cert.ReferenceIdeal.RefRun.opsLayer3 (F := Ideal)) (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0)))))) Cert.ReferenceIdeal.main_arg9 (by decide)).trans (Cert.ReferenceIdeal.Keep.keepLayer3 (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0))))) Cert.ReferenceIdeal.main_arg9 (by decide))).trans (Cert.ReferenceIdeal.Keep.keepAgg2 (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0)))) Cert.ReferenceIdeal.main_arg9 (by decide))).trans (Cert.ReferenceIdeal.Keep.keepLayer2 (after (Cert.ReferenceIdeal.RefRun.opsAgg1 (F := Ideal)) (after (Cert.ReferenceIdeal.RefRun.opsLin1 (F := Ideal)) (after (Cert.ReferenceIdeal.RefRun.opsPrep (F := Ideal)) Q0))) Cert.ReferenceIdeal.main_arg9 (by decide))).trans (Cert.ReferenceIdeal.Keep.keepAgg1 (after (Cert.ReferenceIdeal.RefRun.opsLin1 (F := Ideal)) (after (Cert.ReferenceIdeal.RefRun.opsPrep (F := Ideal)) Q0)) Cert.ReferenceIdeal.main_arg9 (by decide))).trans (Cert.ReferenceIdeal.Keep.keepLin1 (after (Cert.ReferenceIdeal.RefRun.opsPrep (F := Ideal)) Q0) Cert.ReferenceIdeal.main_arg9 (by decide))).trans (Cert.ReferenceIdeal.Keep.keepPrep Q0 Cert.ReferenceIdeal.main_arg9 (by decide))).symm))
  have hF : (Cert.KernelIdeal.Gen.W8 m ρ c (Proc.devRef .tc Cert.KernelIdeal.main_v90)) = ((after (Cert.ReferenceIdeal.RefRun.opsComb (F := Ideal)) (after (Cert.ReferenceIdeal.RefRun.opsAgg3 (F := Ideal)) (after (Cert.ReferenceIdeal.RefRun.opsLayer3 (F := Ideal)) (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0)))))))) (Proc.devRef .tc Cert.ReferenceIdeal.main_v122)) := by
    refine (Cert.KernelIdeal.Gen.W8_arr m ρ c 4).trans ((R3 (Cert.KernelIdeal.Gen.V7 m ρ) c).trans (Eq.trans ?_ (Cert.ReferenceIdeal.RefRead.comb_read (after (Cert.ReferenceIdeal.RefRun.opsAgg3 (F := Ideal)) (after (Cert.ReferenceIdeal.RefRun.opsLayer3 (F := Ideal)) (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0)))))))).symm))
    rw [e3_0, e3_1, e3_2, e3_3]
  -- the head's input
  have t2 : (Cert.KernelIdeal.Gen.W8 m ρ c (Proc.devRef .tc Cert.KernelIdeal.main_arg2)) = ((after (Cert.ReferenceIdeal.RefRun.opsComb (F := Ideal)) (after (Cert.ReferenceIdeal.RefRun.opsAgg3 (F := Ideal)) (after (Cert.ReferenceIdeal.RefRun.opsLayer3 (F := Ideal)) (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0)))))))) (Proc.devRef .tc Cert.ReferenceIdeal.main_arg2)) := (((((((((Cert.KernelIdeal.Keep.W8_keep m ρ c Cert.KernelIdeal.main_arg2 (by decide)).trans (Cert.KernelIdeal.Keep.keep3 (Cert.KernelIdeal.Gen.W6 m ρ c) Cert.KernelIdeal.main_arg2 (by decide))).trans (Cert.KernelIdeal.Keep.W6_keep m ρ c Cert.KernelIdeal.main_arg2 (by decide))).trans (Cert.KernelIdeal.Keep.keep2 (Cert.KernelIdeal.Gen.W4 m ρ c) Cert.KernelIdeal.main_arg2 (by decide))).trans (Cert.KernelIdeal.Keep.W4_keep m ρ c Cert.KernelIdeal.main_arg2 (by decide))).trans (Cert.KernelIdeal.Keep.keep1 (Cert.KernelIdeal.Gen.W2 m ρ c) Cert.KernelIdeal.main_arg2 (by decide))).trans (Cert.KernelIdeal.Keep.W2_keep m ρ c Cert.KernelIdeal.main_arg2 (by decide))).trans (Cert.KernelIdeal.Keep.keep0 (Cert.KernelIdeal.Gen.W0 m ρ c) Cert.KernelIdeal.main_arg2 (by decide))).trans (a2.trans ((((((((Cert.ReferenceIdeal.Keep.keepComb (after (Cert.ReferenceIdeal.RefRun.opsAgg3 (F := Ideal)) (after (Cert.ReferenceIdeal.RefRun.opsLayer3 (F := Ideal)) (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0))))))) Cert.ReferenceIdeal.main_arg2 (by decide)).trans (Cert.ReferenceIdeal.Keep.keepAgg3 (after (Cert.ReferenceIdeal.RefRun.opsLayer3 (F := Ideal)) (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0)))))) Cert.ReferenceIdeal.main_arg2 (by decide))).trans (Cert.ReferenceIdeal.Keep.keepLayer3 (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0))))) Cert.ReferenceIdeal.main_arg2 (by decide))).trans (Cert.ReferenceIdeal.Keep.keepAgg2 (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0)))) Cert.ReferenceIdeal.main_arg2 (by decide))).trans (Cert.ReferenceIdeal.Keep.keepLayer2 (after (Cert.ReferenceIdeal.RefRun.opsAgg1 (F := Ideal)) (after (Cert.ReferenceIdeal.RefRun.opsLin1 (F := Ideal)) (after (Cert.ReferenceIdeal.RefRun.opsPrep (F := Ideal)) Q0))) Cert.ReferenceIdeal.main_arg2 (by decide))).trans (Cert.ReferenceIdeal.Keep.keepAgg1 (after (Cert.ReferenceIdeal.RefRun.opsLin1 (F := Ideal)) (after (Cert.ReferenceIdeal.RefRun.opsPrep (F := Ideal)) Q0)) Cert.ReferenceIdeal.main_arg2 (by decide))).trans (Cert.ReferenceIdeal.Keep.keepLin1 (after (Cert.ReferenceIdeal.RefRun.opsPrep (F := Ideal)) Q0) Cert.ReferenceIdeal.main_arg2 (by decide))).trans (Cert.ReferenceIdeal.Keep.keepPrep Q0 Cert.ReferenceIdeal.main_arg2 (by decide))).symm))
  have t3 : (Cert.KernelIdeal.Gen.W8 m ρ c (Proc.devRef .tc Cert.KernelIdeal.main_arg3)) = ((after (Cert.ReferenceIdeal.RefRun.opsComb (F := Ideal)) (after (Cert.ReferenceIdeal.RefRun.opsAgg3 (F := Ideal)) (after (Cert.ReferenceIdeal.RefRun.opsLayer3 (F := Ideal)) (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0)))))))) (Proc.devRef .tc Cert.ReferenceIdeal.main_arg3)) := (((((((((Cert.KernelIdeal.Keep.W8_keep m ρ c Cert.KernelIdeal.main_arg3 (by decide)).trans (Cert.KernelIdeal.Keep.keep3 (Cert.KernelIdeal.Gen.W6 m ρ c) Cert.KernelIdeal.main_arg3 (by decide))).trans (Cert.KernelIdeal.Keep.W6_keep m ρ c Cert.KernelIdeal.main_arg3 (by decide))).trans (Cert.KernelIdeal.Keep.keep2 (Cert.KernelIdeal.Gen.W4 m ρ c) Cert.KernelIdeal.main_arg3 (by decide))).trans (Cert.KernelIdeal.Keep.W4_keep m ρ c Cert.KernelIdeal.main_arg3 (by decide))).trans (Cert.KernelIdeal.Keep.keep1 (Cert.KernelIdeal.Gen.W2 m ρ c) Cert.KernelIdeal.main_arg3 (by decide))).trans (Cert.KernelIdeal.Keep.W2_keep m ρ c Cert.KernelIdeal.main_arg3 (by decide))).trans (Cert.KernelIdeal.Keep.keep0 (Cert.KernelIdeal.Gen.W0 m ρ c) Cert.KernelIdeal.main_arg3 (by decide))).trans (a3.trans ((((((((Cert.ReferenceIdeal.Keep.keepComb (after (Cert.ReferenceIdeal.RefRun.opsAgg3 (F := Ideal)) (after (Cert.ReferenceIdeal.RefRun.opsLayer3 (F := Ideal)) (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0))))))) Cert.ReferenceIdeal.main_arg3 (by decide)).trans (Cert.ReferenceIdeal.Keep.keepAgg3 (after (Cert.ReferenceIdeal.RefRun.opsLayer3 (F := Ideal)) (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0)))))) Cert.ReferenceIdeal.main_arg3 (by decide))).trans (Cert.ReferenceIdeal.Keep.keepLayer3 (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0))))) Cert.ReferenceIdeal.main_arg3 (by decide))).trans (Cert.ReferenceIdeal.Keep.keepAgg2 (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0)))) Cert.ReferenceIdeal.main_arg3 (by decide))).trans (Cert.ReferenceIdeal.Keep.keepLayer2 (after (Cert.ReferenceIdeal.RefRun.opsAgg1 (F := Ideal)) (after (Cert.ReferenceIdeal.RefRun.opsLin1 (F := Ideal)) (after (Cert.ReferenceIdeal.RefRun.opsPrep (F := Ideal)) Q0))) Cert.ReferenceIdeal.main_arg3 (by decide))).trans (Cert.ReferenceIdeal.Keep.keepAgg1 (after (Cert.ReferenceIdeal.RefRun.opsLin1 (F := Ideal)) (after (Cert.ReferenceIdeal.RefRun.opsPrep (F := Ideal)) Q0)) Cert.ReferenceIdeal.main_arg3 (by decide))).trans (Cert.ReferenceIdeal.Keep.keepLin1 (after (Cert.ReferenceIdeal.RefRun.opsPrep (F := Ideal)) Q0) Cert.ReferenceIdeal.main_arg3 (by decide))).trans (Cert.ReferenceIdeal.Keep.keepPrep Q0 Cert.ReferenceIdeal.main_arg3 (by decide))).symm))
  have t10 : (Cert.KernelIdeal.Gen.W8 m ρ c (Proc.devRef .tc Cert.KernelIdeal.main_arg10)) = ((after (Cert.ReferenceIdeal.RefRun.opsComb (F := Ideal)) (after (Cert.ReferenceIdeal.RefRun.opsAgg3 (F := Ideal)) (after (Cert.ReferenceIdeal.RefRun.opsLayer3 (F := Ideal)) (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0)))))))) (Proc.devRef .tc Cert.ReferenceIdeal.main_arg10)) := (((((((((Cert.KernelIdeal.Keep.W8_keep m ρ c Cert.KernelIdeal.main_arg10 (by decide)).trans (Cert.KernelIdeal.Keep.keep3 (Cert.KernelIdeal.Gen.W6 m ρ c) Cert.KernelIdeal.main_arg10 (by decide))).trans (Cert.KernelIdeal.Keep.W6_keep m ρ c Cert.KernelIdeal.main_arg10 (by decide))).trans (Cert.KernelIdeal.Keep.keep2 (Cert.KernelIdeal.Gen.W4 m ρ c) Cert.KernelIdeal.main_arg10 (by decide))).trans (Cert.KernelIdeal.Keep.W4_keep m ρ c Cert.KernelIdeal.main_arg10 (by decide))).trans (Cert.KernelIdeal.Keep.keep1 (Cert.KernelIdeal.Gen.W2 m ρ c) Cert.KernelIdeal.main_arg10 (by decide))).trans (Cert.KernelIdeal.Keep.W2_keep m ρ c Cert.KernelIdeal.main_arg10 (by decide))).trans (Cert.KernelIdeal.Keep.keep0 (Cert.KernelIdeal.Gen.W0 m ρ c) Cert.KernelIdeal.main_arg10 (by decide))).trans (a10.trans ((((((((Cert.ReferenceIdeal.Keep.keepComb (after (Cert.ReferenceIdeal.RefRun.opsAgg3 (F := Ideal)) (after (Cert.ReferenceIdeal.RefRun.opsLayer3 (F := Ideal)) (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0))))))) Cert.ReferenceIdeal.main_arg10 (by decide)).trans (Cert.ReferenceIdeal.Keep.keepAgg3 (after (Cert.ReferenceIdeal.RefRun.opsLayer3 (F := Ideal)) (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0)))))) Cert.ReferenceIdeal.main_arg10 (by decide))).trans (Cert.ReferenceIdeal.Keep.keepLayer3 (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0))))) Cert.ReferenceIdeal.main_arg10 (by decide))).trans (Cert.ReferenceIdeal.Keep.keepAgg2 (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0)))) Cert.ReferenceIdeal.main_arg10 (by decide))).trans (Cert.ReferenceIdeal.Keep.keepLayer2 (after (Cert.ReferenceIdeal.RefRun.opsAgg1 (F := Ideal)) (after (Cert.ReferenceIdeal.RefRun.opsLin1 (F := Ideal)) (after (Cert.ReferenceIdeal.RefRun.opsPrep (F := Ideal)) Q0))) Cert.ReferenceIdeal.main_arg10 (by decide))).trans (Cert.ReferenceIdeal.Keep.keepAgg1 (after (Cert.ReferenceIdeal.RefRun.opsLin1 (F := Ideal)) (after (Cert.ReferenceIdeal.RefRun.opsPrep (F := Ideal)) Q0)) Cert.ReferenceIdeal.main_arg10 (by decide))).trans (Cert.ReferenceIdeal.Keep.keepLin1 (after (Cert.ReferenceIdeal.RefRun.opsPrep (F := Ideal)) Q0) Cert.ReferenceIdeal.main_arg10 (by decide))).trans (Cert.ReferenceIdeal.Keep.keepPrep Q0 Cert.ReferenceIdeal.main_arg10 (by decide))).symm))
  have t11 : (Cert.KernelIdeal.Gen.W8 m ρ c (Proc.devRef .tc Cert.KernelIdeal.main_arg11)) = ((after (Cert.ReferenceIdeal.RefRun.opsComb (F := Ideal)) (after (Cert.ReferenceIdeal.RefRun.opsAgg3 (F := Ideal)) (after (Cert.ReferenceIdeal.RefRun.opsLayer3 (F := Ideal)) (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0)))))))) (Proc.devRef .tc Cert.ReferenceIdeal.main_arg11)) := (((((((((Cert.KernelIdeal.Keep.W8_keep m ρ c Cert.KernelIdeal.main_arg11 (by decide)).trans (Cert.KernelIdeal.Keep.keep3 (Cert.KernelIdeal.Gen.W6 m ρ c) Cert.KernelIdeal.main_arg11 (by decide))).trans (Cert.KernelIdeal.Keep.W6_keep m ρ c Cert.KernelIdeal.main_arg11 (by decide))).trans (Cert.KernelIdeal.Keep.keep2 (Cert.KernelIdeal.Gen.W4 m ρ c) Cert.KernelIdeal.main_arg11 (by decide))).trans (Cert.KernelIdeal.Keep.W4_keep m ρ c Cert.KernelIdeal.main_arg11 (by decide))).trans (Cert.KernelIdeal.Keep.keep1 (Cert.KernelIdeal.Gen.W2 m ρ c) Cert.KernelIdeal.main_arg11 (by decide))).trans (Cert.KernelIdeal.Keep.W2_keep m ρ c Cert.KernelIdeal.main_arg11 (by decide))).trans (Cert.KernelIdeal.Keep.keep0 (Cert.KernelIdeal.Gen.W0 m ρ c) Cert.KernelIdeal.main_arg11 (by decide))).trans (a11.trans ((((((((Cert.ReferenceIdeal.Keep.keepComb (after (Cert.ReferenceIdeal.RefRun.opsAgg3 (F := Ideal)) (after (Cert.ReferenceIdeal.RefRun.opsLayer3 (F := Ideal)) (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0))))))) Cert.ReferenceIdeal.main_arg11 (by decide)).trans (Cert.ReferenceIdeal.Keep.keepAgg3 (after (Cert.ReferenceIdeal.RefRun.opsLayer3 (F := Ideal)) (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0)))))) Cert.ReferenceIdeal.main_arg11 (by decide))).trans (Cert.ReferenceIdeal.Keep.keepLayer3 (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0))))) Cert.ReferenceIdeal.main_arg11 (by decide))).trans (Cert.ReferenceIdeal.Keep.keepAgg2 (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0)))) Cert.ReferenceIdeal.main_arg11 (by decide))).trans (Cert.ReferenceIdeal.Keep.keepLayer2 (after (Cert.ReferenceIdeal.RefRun.opsAgg1 (F := Ideal)) (after (Cert.ReferenceIdeal.RefRun.opsLin1 (F := Ideal)) (after (Cert.ReferenceIdeal.RefRun.opsPrep (F := Ideal)) Q0))) Cert.ReferenceIdeal.main_arg11 (by decide))).trans (Cert.ReferenceIdeal.Keep.keepAgg1 (after (Cert.ReferenceIdeal.RefRun.opsLin1 (F := Ideal)) (after (Cert.ReferenceIdeal.RefRun.opsPrep (F := Ideal)) Q0)) Cert.ReferenceIdeal.main_arg11 (by decide))).trans (Cert.ReferenceIdeal.Keep.keepLin1 (after (Cert.ReferenceIdeal.RefRun.opsPrep (F := Ideal)) Q0) Cert.ReferenceIdeal.main_arg11 (by decide))).trans (Cert.ReferenceIdeal.Keep.keepPrep Q0 Cert.ReferenceIdeal.main_arg11 (by decide))).symm))
  have t12 : (Cert.KernelIdeal.Gen.W8 m ρ c (Proc.devRef .tc Cert.KernelIdeal.main_arg12)) = ((after (Cert.ReferenceIdeal.RefRun.opsComb (F := Ideal)) (after (Cert.ReferenceIdeal.RefRun.opsAgg3 (F := Ideal)) (after (Cert.ReferenceIdeal.RefRun.opsLayer3 (F := Ideal)) (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0)))))))) (Proc.devRef .tc Cert.ReferenceIdeal.main_arg12)) := (((((((((Cert.KernelIdeal.Keep.W8_keep m ρ c Cert.KernelIdeal.main_arg12 (by decide)).trans (Cert.KernelIdeal.Keep.keep3 (Cert.KernelIdeal.Gen.W6 m ρ c) Cert.KernelIdeal.main_arg12 (by decide))).trans (Cert.KernelIdeal.Keep.W6_keep m ρ c Cert.KernelIdeal.main_arg12 (by decide))).trans (Cert.KernelIdeal.Keep.keep2 (Cert.KernelIdeal.Gen.W4 m ρ c) Cert.KernelIdeal.main_arg12 (by decide))).trans (Cert.KernelIdeal.Keep.W4_keep m ρ c Cert.KernelIdeal.main_arg12 (by decide))).trans (Cert.KernelIdeal.Keep.keep1 (Cert.KernelIdeal.Gen.W2 m ρ c) Cert.KernelIdeal.main_arg12 (by decide))).trans (Cert.KernelIdeal.Keep.W2_keep m ρ c Cert.KernelIdeal.main_arg12 (by decide))).trans (Cert.KernelIdeal.Keep.keep0 (Cert.KernelIdeal.Gen.W0 m ρ c) Cert.KernelIdeal.main_arg12 (by decide))).trans (a12.trans ((((((((Cert.ReferenceIdeal.Keep.keepComb (after (Cert.ReferenceIdeal.RefRun.opsAgg3 (F := Ideal)) (after (Cert.ReferenceIdeal.RefRun.opsLayer3 (F := Ideal)) (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0))))))) Cert.ReferenceIdeal.main_arg12 (by decide)).trans (Cert.ReferenceIdeal.Keep.keepAgg3 (after (Cert.ReferenceIdeal.RefRun.opsLayer3 (F := Ideal)) (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0)))))) Cert.ReferenceIdeal.main_arg12 (by decide))).trans (Cert.ReferenceIdeal.Keep.keepLayer3 (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0))))) Cert.ReferenceIdeal.main_arg12 (by decide))).trans (Cert.ReferenceIdeal.Keep.keepAgg2 (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0)))) Cert.ReferenceIdeal.main_arg12 (by decide))).trans (Cert.ReferenceIdeal.Keep.keepLayer2 (after (Cert.ReferenceIdeal.RefRun.opsAgg1 (F := Ideal)) (after (Cert.ReferenceIdeal.RefRun.opsLin1 (F := Ideal)) (after (Cert.ReferenceIdeal.RefRun.opsPrep (F := Ideal)) Q0))) Cert.ReferenceIdeal.main_arg12 (by decide))).trans (Cert.ReferenceIdeal.Keep.keepAgg1 (after (Cert.ReferenceIdeal.RefRun.opsLin1 (F := Ideal)) (after (Cert.ReferenceIdeal.RefRun.opsPrep (F := Ideal)) Q0)) Cert.ReferenceIdeal.main_arg12 (by decide))).trans (Cert.ReferenceIdeal.Keep.keepLin1 (after (Cert.ReferenceIdeal.RefRun.opsPrep (F := Ideal)) Q0) Cert.ReferenceIdeal.main_arg12 (by decide))).trans (Cert.ReferenceIdeal.Keep.keepPrep Q0 Cert.ReferenceIdeal.main_arg12 (by decide))).symm))
  have t13 : (Cert.KernelIdeal.Gen.W8 m ρ c (Proc.devRef .tc Cert.KernelIdeal.main_arg13)) = ((after (Cert.ReferenceIdeal.RefRun.opsComb (F := Ideal)) (after (Cert.ReferenceIdeal.RefRun.opsAgg3 (F := Ideal)) (after (Cert.ReferenceIdeal.RefRun.opsLayer3 (F := Ideal)) (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0)))))))) (Proc.devRef .tc Cert.ReferenceIdeal.main_arg13)) := (((((((((Cert.KernelIdeal.Keep.W8_keep m ρ c Cert.KernelIdeal.main_arg13 (by decide)).trans (Cert.KernelIdeal.Keep.keep3 (Cert.KernelIdeal.Gen.W6 m ρ c) Cert.KernelIdeal.main_arg13 (by decide))).trans (Cert.KernelIdeal.Keep.W6_keep m ρ c Cert.KernelIdeal.main_arg13 (by decide))).trans (Cert.KernelIdeal.Keep.keep2 (Cert.KernelIdeal.Gen.W4 m ρ c) Cert.KernelIdeal.main_arg13 (by decide))).trans (Cert.KernelIdeal.Keep.W4_keep m ρ c Cert.KernelIdeal.main_arg13 (by decide))).trans (Cert.KernelIdeal.Keep.keep1 (Cert.KernelIdeal.Gen.W2 m ρ c) Cert.KernelIdeal.main_arg13 (by decide))).trans (Cert.KernelIdeal.Keep.W2_keep m ρ c Cert.KernelIdeal.main_arg13 (by decide))).trans (Cert.KernelIdeal.Keep.keep0 (Cert.KernelIdeal.Gen.W0 m ρ c) Cert.KernelIdeal.main_arg13 (by decide))).trans (a13.trans ((((((((Cert.ReferenceIdeal.Keep.keepComb (after (Cert.ReferenceIdeal.RefRun.opsAgg3 (F := Ideal)) (after (Cert.ReferenceIdeal.RefRun.opsLayer3 (F := Ideal)) (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0))))))) Cert.ReferenceIdeal.main_arg13 (by decide)).trans (Cert.ReferenceIdeal.Keep.keepAgg3 (after (Cert.ReferenceIdeal.RefRun.opsLayer3 (F := Ideal)) (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0)))))) Cert.ReferenceIdeal.main_arg13 (by decide))).trans (Cert.ReferenceIdeal.Keep.keepLayer3 (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0))))) Cert.ReferenceIdeal.main_arg13 (by decide))).trans (Cert.ReferenceIdeal.Keep.keepAgg2 (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0)))) Cert.ReferenceIdeal.main_arg13 (by decide))).trans (Cert.ReferenceIdeal.Keep.keepLayer2 (after (Cert.ReferenceIdeal.RefRun.opsAgg1 (F := Ideal)) (after (Cert.ReferenceIdeal.RefRun.opsLin1 (F := Ideal)) (after (Cert.ReferenceIdeal.RefRun.opsPrep (F := Ideal)) Q0))) Cert.ReferenceIdeal.main_arg13 (by decide))).trans (Cert.ReferenceIdeal.Keep.keepAgg1 (after (Cert.ReferenceIdeal.RefRun.opsLin1 (F := Ideal)) (after (Cert.ReferenceIdeal.RefRun.opsPrep (F := Ideal)) Q0)) Cert.ReferenceIdeal.main_arg13 (by decide))).trans (Cert.ReferenceIdeal.Keep.keepLin1 (after (Cert.ReferenceIdeal.RefRun.opsPrep (F := Ideal)) Q0) Cert.ReferenceIdeal.main_arg13 (by decide))).trans (Cert.ReferenceIdeal.Keep.keepPrep Q0 Cert.ReferenceIdeal.main_arg13 (by decide))).symm))
  have hf : (Cert.KernelIdeal.Gen.V13 m ρ c Cert.KernelIdeal.main_v120) = ((after (Cert.ReferenceIdeal.RefRun.opsTail (F := Ideal)) (after (Cert.ReferenceIdeal.RefRun.opsComb (F := Ideal)) (after (Cert.ReferenceIdeal.RefRun.opsAgg3 (F := Ideal)) (after (Cert.ReferenceIdeal.RefRun.opsLayer3 (F := Ideal)) (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0))))))))) (Proc.devRef .tc Cert.ReferenceIdeal.main_v152)) := by
    refine (Cert.Sim.tailK_read (Cert.KernelIdeal.Gen.W8 m ρ c)).trans (Eq.trans ?_ (Cert.Sim.tailR_read (after (Cert.ReferenceIdeal.RefRun.opsComb (F := Ideal)) (after (Cert.ReferenceIdeal.RefRun.opsAgg3 (F := Ideal)) (after (Cert.ReferenceIdeal.RefRun.opsLayer3 (F := Ideal)) (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0))))))))).symm)
    rw [hF, t2, t3, t10, t11, t12, t13]
  -- the head
  have e4_14 : (Cert.KernelIdeal.Gen.V13 m ρ c Cert.KernelIdeal.main_arg14) = ((after (Cert.ReferenceIdeal.RefRun.opsTail (F := Ideal)) (after (Cert.ReferenceIdeal.RefRun.opsComb (F := Ideal)) (after (Cert.ReferenceIdeal.RefRun.opsAgg3 (F := Ideal)) (after (Cert.ReferenceIdeal.RefRun.opsLayer3 (F := Ideal)) (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0))))))))) (Proc.devRef .tc Cert.ReferenceIdeal.main_arg14)) := ((((((((((((((Cert.KernelIdeal.Keep.keep4_4 (Cert.KernelIdeal.Gen.W12 m ρ c) Cert.KernelIdeal.main_arg14 (by decide)).trans (Cert.KernelIdeal.Keep.keep4_3 (Cert.KernelIdeal.Gen.W11 m ρ c) Cert.KernelIdeal.main_arg14 (by decide))).trans (Cert.KernelIdeal.Keep.keep4_2 (Cert.KernelIdeal.Gen.W10 m ρ c) Cert.KernelIdeal.main_arg14 (by decide))).trans (Cert.KernelIdeal.Keep.keep4_1 (Cert.KernelIdeal.Gen.W9 m ρ c) Cert.KernelIdeal.main_arg14 (by decide))).trans (Cert.KernelIdeal.Keep.keep4 (Cert.KernelIdeal.Gen.W8 m ρ c) Cert.KernelIdeal.main_arg14 (by decide))).trans (Cert.KernelIdeal.Keep.W8_keep m ρ c Cert.KernelIdeal.main_arg14 (by decide))).trans (Cert.KernelIdeal.Keep.keep3 (Cert.KernelIdeal.Gen.W6 m ρ c) Cert.KernelIdeal.main_arg14 (by decide))).trans (Cert.KernelIdeal.Keep.W6_keep m ρ c Cert.KernelIdeal.main_arg14 (by decide))).trans (Cert.KernelIdeal.Keep.keep2 (Cert.KernelIdeal.Gen.W4 m ρ c) Cert.KernelIdeal.main_arg14 (by decide))).trans (Cert.KernelIdeal.Keep.W4_keep m ρ c Cert.KernelIdeal.main_arg14 (by decide))).trans (Cert.KernelIdeal.Keep.keep1 (Cert.KernelIdeal.Gen.W2 m ρ c) Cert.KernelIdeal.main_arg14 (by decide))).trans (Cert.KernelIdeal.Keep.W2_keep m ρ c Cert.KernelIdeal.main_arg14 (by decide))).trans (Cert.KernelIdeal.Keep.keep0 (Cert.KernelIdeal.Gen.W0 m ρ c) Cert.KernelIdeal.main_arg14 (by decide))).trans (a14.trans (((((((((Cert.ReferenceIdeal.Keep.keepTail (after (Cert.ReferenceIdeal.RefRun.opsComb (F := Ideal)) (after (Cert.ReferenceIdeal.RefRun.opsAgg3 (F := Ideal)) (after (Cert.ReferenceIdeal.RefRun.opsLayer3 (F := Ideal)) (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0)))))))) Cert.ReferenceIdeal.main_arg14 (by decide)).trans (Cert.ReferenceIdeal.Keep.keepComb (after (Cert.ReferenceIdeal.RefRun.opsAgg3 (F := Ideal)) (after (Cert.ReferenceIdeal.RefRun.opsLayer3 (F := Ideal)) (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0))))))) Cert.ReferenceIdeal.main_arg14 (by decide))).trans (Cert.ReferenceIdeal.Keep.keepAgg3 (after (Cert.ReferenceIdeal.RefRun.opsLayer3 (F := Ideal)) (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0)))))) Cert.ReferenceIdeal.main_arg14 (by decide))).trans (Cert.ReferenceIdeal.Keep.keepLayer3 (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0))))) Cert.ReferenceIdeal.main_arg14 (by decide))).trans (Cert.ReferenceIdeal.Keep.keepAgg2 (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0)))) Cert.ReferenceIdeal.main_arg14 (by decide))).trans (Cert.ReferenceIdeal.Keep.keepLayer2 (after (Cert.ReferenceIdeal.RefRun.opsAgg1 (F := Ideal)) (after (Cert.ReferenceIdeal.RefRun.opsLin1 (F := Ideal)) (after (Cert.ReferenceIdeal.RefRun.opsPrep (F := Ideal)) Q0))) Cert.ReferenceIdeal.main_arg14 (by decide))).trans (Cert.ReferenceIdeal.Keep.keepAgg1 (after (Cert.ReferenceIdeal.RefRun.opsLin1 (F := Ideal)) (after (Cert.ReferenceIdeal.RefRun.opsPrep (F := Ideal)) Q0)) Cert.ReferenceIdeal.main_arg14 (by decide))).trans (Cert.ReferenceIdeal.Keep.keepLin1 (after (Cert.ReferenceIdeal.RefRun.opsPrep (F := Ideal)) Q0) Cert.ReferenceIdeal.main_arg14 (by decide))).trans (Cert.ReferenceIdeal.Keep.keepPrep Q0 Cert.ReferenceIdeal.main_arg14 (by decide))).symm))
  have e4_15 : (Cert.KernelIdeal.Gen.V13 m ρ c Cert.KernelIdeal.main_arg15) = ((after (Cert.ReferenceIdeal.RefRun.opsTail (F := Ideal)) (after (Cert.ReferenceIdeal.RefRun.opsComb (F := Ideal)) (after (Cert.ReferenceIdeal.RefRun.opsAgg3 (F := Ideal)) (after (Cert.ReferenceIdeal.RefRun.opsLayer3 (F := Ideal)) (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0))))))))) (Proc.devRef .tc Cert.ReferenceIdeal.main_arg15)) := ((((((((((((((Cert.KernelIdeal.Keep.keep4_4 (Cert.KernelIdeal.Gen.W12 m ρ c) Cert.KernelIdeal.main_arg15 (by decide)).trans (Cert.KernelIdeal.Keep.keep4_3 (Cert.KernelIdeal.Gen.W11 m ρ c) Cert.KernelIdeal.main_arg15 (by decide))).trans (Cert.KernelIdeal.Keep.keep4_2 (Cert.KernelIdeal.Gen.W10 m ρ c) Cert.KernelIdeal.main_arg15 (by decide))).trans (Cert.KernelIdeal.Keep.keep4_1 (Cert.KernelIdeal.Gen.W9 m ρ c) Cert.KernelIdeal.main_arg15 (by decide))).trans (Cert.KernelIdeal.Keep.keep4 (Cert.KernelIdeal.Gen.W8 m ρ c) Cert.KernelIdeal.main_arg15 (by decide))).trans (Cert.KernelIdeal.Keep.W8_keep m ρ c Cert.KernelIdeal.main_arg15 (by decide))).trans (Cert.KernelIdeal.Keep.keep3 (Cert.KernelIdeal.Gen.W6 m ρ c) Cert.KernelIdeal.main_arg15 (by decide))).trans (Cert.KernelIdeal.Keep.W6_keep m ρ c Cert.KernelIdeal.main_arg15 (by decide))).trans (Cert.KernelIdeal.Keep.keep2 (Cert.KernelIdeal.Gen.W4 m ρ c) Cert.KernelIdeal.main_arg15 (by decide))).trans (Cert.KernelIdeal.Keep.W4_keep m ρ c Cert.KernelIdeal.main_arg15 (by decide))).trans (Cert.KernelIdeal.Keep.keep1 (Cert.KernelIdeal.Gen.W2 m ρ c) Cert.KernelIdeal.main_arg15 (by decide))).trans (Cert.KernelIdeal.Keep.W2_keep m ρ c Cert.KernelIdeal.main_arg15 (by decide))).trans (Cert.KernelIdeal.Keep.keep0 (Cert.KernelIdeal.Gen.W0 m ρ c) Cert.KernelIdeal.main_arg15 (by decide))).trans (a15.trans (((((((((Cert.ReferenceIdeal.Keep.keepTail (after (Cert.ReferenceIdeal.RefRun.opsComb (F := Ideal)) (after (Cert.ReferenceIdeal.RefRun.opsAgg3 (F := Ideal)) (after (Cert.ReferenceIdeal.RefRun.opsLayer3 (F := Ideal)) (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0)))))))) Cert.ReferenceIdeal.main_arg15 (by decide)).trans (Cert.ReferenceIdeal.Keep.keepComb (after (Cert.ReferenceIdeal.RefRun.opsAgg3 (F := Ideal)) (after (Cert.ReferenceIdeal.RefRun.opsLayer3 (F := Ideal)) (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0))))))) Cert.ReferenceIdeal.main_arg15 (by decide))).trans (Cert.ReferenceIdeal.Keep.keepAgg3 (after (Cert.ReferenceIdeal.RefRun.opsLayer3 (F := Ideal)) (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0)))))) Cert.ReferenceIdeal.main_arg15 (by decide))).trans (Cert.ReferenceIdeal.Keep.keepLayer3 (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0))))) Cert.ReferenceIdeal.main_arg15 (by decide))).trans (Cert.ReferenceIdeal.Keep.keepAgg2 (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0)))) Cert.ReferenceIdeal.main_arg15 (by decide))).trans (Cert.ReferenceIdeal.Keep.keepLayer2 (after (Cert.ReferenceIdeal.RefRun.opsAgg1 (F := Ideal)) (after (Cert.ReferenceIdeal.RefRun.opsLin1 (F := Ideal)) (after (Cert.ReferenceIdeal.RefRun.opsPrep (F := Ideal)) Q0))) Cert.ReferenceIdeal.main_arg15 (by decide))).trans (Cert.ReferenceIdeal.Keep.keepAgg1 (after (Cert.ReferenceIdeal.RefRun.opsLin1 (F := Ideal)) (after (Cert.ReferenceIdeal.RefRun.opsPrep (F := Ideal)) Q0)) Cert.ReferenceIdeal.main_arg15 (by decide))).trans (Cert.ReferenceIdeal.Keep.keepLin1 (after (Cert.ReferenceIdeal.RefRun.opsPrep (F := Ideal)) Q0) Cert.ReferenceIdeal.main_arg15 (by decide))).trans (Cert.ReferenceIdeal.Keep.keepPrep Q0 Cert.ReferenceIdeal.main_arg15 (by decide))).symm))
  have e4_16 : (Cert.KernelIdeal.Gen.V13 m ρ c Cert.KernelIdeal.main_arg16) = ((after (Cert.ReferenceIdeal.RefRun.opsTail (F := Ideal)) (after (Cert.ReferenceIdeal.RefRun.opsComb (F := Ideal)) (after (Cert.ReferenceIdeal.RefRun.opsAgg3 (F := Ideal)) (after (Cert.ReferenceIdeal.RefRun.opsLayer3 (F := Ideal)) (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0))))))))) (Proc.devRef .tc Cert.ReferenceIdeal.main_arg16)) := ((((((((((((((Cert.KernelIdeal.Keep.keep4_4 (Cert.KernelIdeal.Gen.W12 m ρ c) Cert.KernelIdeal.main_arg16 (by decide)).trans (Cert.KernelIdeal.Keep.keep4_3 (Cert.KernelIdeal.Gen.W11 m ρ c) Cert.KernelIdeal.main_arg16 (by decide))).trans (Cert.KernelIdeal.Keep.keep4_2 (Cert.KernelIdeal.Gen.W10 m ρ c) Cert.KernelIdeal.main_arg16 (by decide))).trans (Cert.KernelIdeal.Keep.keep4_1 (Cert.KernelIdeal.Gen.W9 m ρ c) Cert.KernelIdeal.main_arg16 (by decide))).trans (Cert.KernelIdeal.Keep.keep4 (Cert.KernelIdeal.Gen.W8 m ρ c) Cert.KernelIdeal.main_arg16 (by decide))).trans (Cert.KernelIdeal.Keep.W8_keep m ρ c Cert.KernelIdeal.main_arg16 (by decide))).trans (Cert.KernelIdeal.Keep.keep3 (Cert.KernelIdeal.Gen.W6 m ρ c) Cert.KernelIdeal.main_arg16 (by decide))).trans (Cert.KernelIdeal.Keep.W6_keep m ρ c Cert.KernelIdeal.main_arg16 (by decide))).trans (Cert.KernelIdeal.Keep.keep2 (Cert.KernelIdeal.Gen.W4 m ρ c) Cert.KernelIdeal.main_arg16 (by decide))).trans (Cert.KernelIdeal.Keep.W4_keep m ρ c Cert.KernelIdeal.main_arg16 (by decide))).trans (Cert.KernelIdeal.Keep.keep1 (Cert.KernelIdeal.Gen.W2 m ρ c) Cert.KernelIdeal.main_arg16 (by decide))).trans (Cert.KernelIdeal.Keep.W2_keep m ρ c Cert.KernelIdeal.main_arg16 (by decide))).trans (Cert.KernelIdeal.Keep.keep0 (Cert.KernelIdeal.Gen.W0 m ρ c) Cert.KernelIdeal.main_arg16 (by decide))).trans (a16.trans (((((((((Cert.ReferenceIdeal.Keep.keepTail (after (Cert.ReferenceIdeal.RefRun.opsComb (F := Ideal)) (after (Cert.ReferenceIdeal.RefRun.opsAgg3 (F := Ideal)) (after (Cert.ReferenceIdeal.RefRun.opsLayer3 (F := Ideal)) (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0)))))))) Cert.ReferenceIdeal.main_arg16 (by decide)).trans (Cert.ReferenceIdeal.Keep.keepComb (after (Cert.ReferenceIdeal.RefRun.opsAgg3 (F := Ideal)) (after (Cert.ReferenceIdeal.RefRun.opsLayer3 (F := Ideal)) (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0))))))) Cert.ReferenceIdeal.main_arg16 (by decide))).trans (Cert.ReferenceIdeal.Keep.keepAgg3 (after (Cert.ReferenceIdeal.RefRun.opsLayer3 (F := Ideal)) (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0)))))) Cert.ReferenceIdeal.main_arg16 (by decide))).trans (Cert.ReferenceIdeal.Keep.keepLayer3 (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0))))) Cert.ReferenceIdeal.main_arg16 (by decide))).trans (Cert.ReferenceIdeal.Keep.keepAgg2 (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0)))) Cert.ReferenceIdeal.main_arg16 (by decide))).trans (Cert.ReferenceIdeal.Keep.keepLayer2 (after (Cert.ReferenceIdeal.RefRun.opsAgg1 (F := Ideal)) (after (Cert.ReferenceIdeal.RefRun.opsLin1 (F := Ideal)) (after (Cert.ReferenceIdeal.RefRun.opsPrep (F := Ideal)) Q0))) Cert.ReferenceIdeal.main_arg16 (by decide))).trans (Cert.ReferenceIdeal.Keep.keepAgg1 (after (Cert.ReferenceIdeal.RefRun.opsLin1 (F := Ideal)) (after (Cert.ReferenceIdeal.RefRun.opsPrep (F := Ideal)) Q0)) Cert.ReferenceIdeal.main_arg16 (by decide))).trans (Cert.ReferenceIdeal.Keep.keepLin1 (after (Cert.ReferenceIdeal.RefRun.opsPrep (F := Ideal)) Q0) Cert.ReferenceIdeal.main_arg16 (by decide))).trans (Cert.ReferenceIdeal.Keep.keepPrep Q0 Cert.ReferenceIdeal.main_arg16 (by decide))).symm))
  have e4_17 : (Cert.KernelIdeal.Gen.V13 m ρ c Cert.KernelIdeal.main_arg17) = ((after (Cert.ReferenceIdeal.RefRun.opsTail (F := Ideal)) (after (Cert.ReferenceIdeal.RefRun.opsComb (F := Ideal)) (after (Cert.ReferenceIdeal.RefRun.opsAgg3 (F := Ideal)) (after (Cert.ReferenceIdeal.RefRun.opsLayer3 (F := Ideal)) (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0))))))))) (Proc.devRef .tc Cert.ReferenceIdeal.main_arg17)) := ((((((((((((((Cert.KernelIdeal.Keep.keep4_4 (Cert.KernelIdeal.Gen.W12 m ρ c) Cert.KernelIdeal.main_arg17 (by decide)).trans (Cert.KernelIdeal.Keep.keep4_3 (Cert.KernelIdeal.Gen.W11 m ρ c) Cert.KernelIdeal.main_arg17 (by decide))).trans (Cert.KernelIdeal.Keep.keep4_2 (Cert.KernelIdeal.Gen.W10 m ρ c) Cert.KernelIdeal.main_arg17 (by decide))).trans (Cert.KernelIdeal.Keep.keep4_1 (Cert.KernelIdeal.Gen.W9 m ρ c) Cert.KernelIdeal.main_arg17 (by decide))).trans (Cert.KernelIdeal.Keep.keep4 (Cert.KernelIdeal.Gen.W8 m ρ c) Cert.KernelIdeal.main_arg17 (by decide))).trans (Cert.KernelIdeal.Keep.W8_keep m ρ c Cert.KernelIdeal.main_arg17 (by decide))).trans (Cert.KernelIdeal.Keep.keep3 (Cert.KernelIdeal.Gen.W6 m ρ c) Cert.KernelIdeal.main_arg17 (by decide))).trans (Cert.KernelIdeal.Keep.W6_keep m ρ c Cert.KernelIdeal.main_arg17 (by decide))).trans (Cert.KernelIdeal.Keep.keep2 (Cert.KernelIdeal.Gen.W4 m ρ c) Cert.KernelIdeal.main_arg17 (by decide))).trans (Cert.KernelIdeal.Keep.W4_keep m ρ c Cert.KernelIdeal.main_arg17 (by decide))).trans (Cert.KernelIdeal.Keep.keep1 (Cert.KernelIdeal.Gen.W2 m ρ c) Cert.KernelIdeal.main_arg17 (by decide))).trans (Cert.KernelIdeal.Keep.W2_keep m ρ c Cert.KernelIdeal.main_arg17 (by decide))).trans (Cert.KernelIdeal.Keep.keep0 (Cert.KernelIdeal.Gen.W0 m ρ c) Cert.KernelIdeal.main_arg17 (by decide))).trans (a17.trans (((((((((Cert.ReferenceIdeal.Keep.keepTail (after (Cert.ReferenceIdeal.RefRun.opsComb (F := Ideal)) (after (Cert.ReferenceIdeal.RefRun.opsAgg3 (F := Ideal)) (after (Cert.ReferenceIdeal.RefRun.opsLayer3 (F := Ideal)) (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0)))))))) Cert.ReferenceIdeal.main_arg17 (by decide)).trans (Cert.ReferenceIdeal.Keep.keepComb (after (Cert.ReferenceIdeal.RefRun.opsAgg3 (F := Ideal)) (after (Cert.ReferenceIdeal.RefRun.opsLayer3 (F := Ideal)) (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0))))))) Cert.ReferenceIdeal.main_arg17 (by decide))).trans (Cert.ReferenceIdeal.Keep.keepAgg3 (after (Cert.ReferenceIdeal.RefRun.opsLayer3 (F := Ideal)) (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0)))))) Cert.ReferenceIdeal.main_arg17 (by decide))).trans (Cert.ReferenceIdeal.Keep.keepLayer3 (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0))))) Cert.ReferenceIdeal.main_arg17 (by decide))).trans (Cert.ReferenceIdeal.Keep.keepAgg2 (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0)))) Cert.ReferenceIdeal.main_arg17 (by decide))).trans (Cert.ReferenceIdeal.Keep.keepLayer2 (after (Cert.ReferenceIdeal.RefRun.opsAgg1 (F := Ideal)) (after (Cert.ReferenceIdeal.RefRun.opsLin1 (F := Ideal)) (after (Cert.ReferenceIdeal.RefRun.opsPrep (F := Ideal)) Q0))) Cert.ReferenceIdeal.main_arg17 (by decide))).trans (Cert.ReferenceIdeal.Keep.keepAgg1 (after (Cert.ReferenceIdeal.RefRun.opsLin1 (F := Ideal)) (after (Cert.ReferenceIdeal.RefRun.opsPrep (F := Ideal)) Q0)) Cert.ReferenceIdeal.main_arg17 (by decide))).trans (Cert.ReferenceIdeal.Keep.keepLin1 (after (Cert.ReferenceIdeal.RefRun.opsPrep (F := Ideal)) Q0) Cert.ReferenceIdeal.main_arg17 (by decide))).trans (Cert.ReferenceIdeal.Keep.keepPrep Q0 Cert.ReferenceIdeal.main_arg17 (by decide))).symm))
  have e4_18 : (Cert.KernelIdeal.Gen.V13 m ρ c Cert.KernelIdeal.main_arg18) = ((after (Cert.ReferenceIdeal.RefRun.opsTail (F := Ideal)) (after (Cert.ReferenceIdeal.RefRun.opsComb (F := Ideal)) (after (Cert.ReferenceIdeal.RefRun.opsAgg3 (F := Ideal)) (after (Cert.ReferenceIdeal.RefRun.opsLayer3 (F := Ideal)) (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0))))))))) (Proc.devRef .tc Cert.ReferenceIdeal.main_arg18)) := ((((((((((((((Cert.KernelIdeal.Keep.keep4_4 (Cert.KernelIdeal.Gen.W12 m ρ c) Cert.KernelIdeal.main_arg18 (by decide)).trans (Cert.KernelIdeal.Keep.keep4_3 (Cert.KernelIdeal.Gen.W11 m ρ c) Cert.KernelIdeal.main_arg18 (by decide))).trans (Cert.KernelIdeal.Keep.keep4_2 (Cert.KernelIdeal.Gen.W10 m ρ c) Cert.KernelIdeal.main_arg18 (by decide))).trans (Cert.KernelIdeal.Keep.keep4_1 (Cert.KernelIdeal.Gen.W9 m ρ c) Cert.KernelIdeal.main_arg18 (by decide))).trans (Cert.KernelIdeal.Keep.keep4 (Cert.KernelIdeal.Gen.W8 m ρ c) Cert.KernelIdeal.main_arg18 (by decide))).trans (Cert.KernelIdeal.Keep.W8_keep m ρ c Cert.KernelIdeal.main_arg18 (by decide))).trans (Cert.KernelIdeal.Keep.keep3 (Cert.KernelIdeal.Gen.W6 m ρ c) Cert.KernelIdeal.main_arg18 (by decide))).trans (Cert.KernelIdeal.Keep.W6_keep m ρ c Cert.KernelIdeal.main_arg18 (by decide))).trans (Cert.KernelIdeal.Keep.keep2 (Cert.KernelIdeal.Gen.W4 m ρ c) Cert.KernelIdeal.main_arg18 (by decide))).trans (Cert.KernelIdeal.Keep.W4_keep m ρ c Cert.KernelIdeal.main_arg18 (by decide))).trans (Cert.KernelIdeal.Keep.keep1 (Cert.KernelIdeal.Gen.W2 m ρ c) Cert.KernelIdeal.main_arg18 (by decide))).trans (Cert.KernelIdeal.Keep.W2_keep m ρ c Cert.KernelIdeal.main_arg18 (by decide))).trans (Cert.KernelIdeal.Keep.keep0 (Cert.KernelIdeal.Gen.W0 m ρ c) Cert.KernelIdeal.main_arg18 (by decide))).trans (a18.trans (((((((((Cert.ReferenceIdeal.Keep.keepTail (after (Cert.ReferenceIdeal.RefRun.opsComb (F := Ideal)) (after (Cert.ReferenceIdeal.RefRun.opsAgg3 (F := Ideal)) (after (Cert.ReferenceIdeal.RefRun.opsLayer3 (F := Ideal)) (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0)))))))) Cert.ReferenceIdeal.main_arg18 (by decide)).trans (Cert.ReferenceIdeal.Keep.keepComb (after (Cert.ReferenceIdeal.RefRun.opsAgg3 (F := Ideal)) (after (Cert.ReferenceIdeal.RefRun.opsLayer3 (F := Ideal)) (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0))))))) Cert.ReferenceIdeal.main_arg18 (by decide))).trans (Cert.ReferenceIdeal.Keep.keepAgg3 (after (Cert.ReferenceIdeal.RefRun.opsLayer3 (F := Ideal)) (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0)))))) Cert.ReferenceIdeal.main_arg18 (by decide))).trans (Cert.ReferenceIdeal.Keep.keepLayer3 (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0))))) Cert.ReferenceIdeal.main_arg18 (by decide))).trans (Cert.ReferenceIdeal.Keep.keepAgg2 (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0)))) Cert.ReferenceIdeal.main_arg18 (by decide))).trans (Cert.ReferenceIdeal.Keep.keepLayer2 (after (Cert.ReferenceIdeal.RefRun.opsAgg1 (F := Ideal)) (after (Cert.ReferenceIdeal.RefRun.opsLin1 (F := Ideal)) (after (Cert.ReferenceIdeal.RefRun.opsPrep (F := Ideal)) Q0))) Cert.ReferenceIdeal.main_arg18 (by decide))).trans (Cert.ReferenceIdeal.Keep.keepAgg1 (after (Cert.ReferenceIdeal.RefRun.opsLin1 (F := Ideal)) (after (Cert.ReferenceIdeal.RefRun.opsPrep (F := Ideal)) Q0)) Cert.ReferenceIdeal.main_arg18 (by decide))).trans (Cert.ReferenceIdeal.Keep.keepLin1 (after (Cert.ReferenceIdeal.RefRun.opsPrep (F := Ideal)) Q0) Cert.ReferenceIdeal.main_arg18 (by decide))).trans (Cert.ReferenceIdeal.Keep.keepPrep Q0 Cert.ReferenceIdeal.main_arg18 (by decide))).symm))
  have e4_19 : (Cert.KernelIdeal.Gen.V13 m ρ c Cert.KernelIdeal.main_arg19) = ((after (Cert.ReferenceIdeal.RefRun.opsTail (F := Ideal)) (after (Cert.ReferenceIdeal.RefRun.opsComb (F := Ideal)) (after (Cert.ReferenceIdeal.RefRun.opsAgg3 (F := Ideal)) (after (Cert.ReferenceIdeal.RefRun.opsLayer3 (F := Ideal)) (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0))))))))) (Proc.devRef .tc Cert.ReferenceIdeal.main_arg19)) := ((((((((((((((Cert.KernelIdeal.Keep.keep4_4 (Cert.KernelIdeal.Gen.W12 m ρ c) Cert.KernelIdeal.main_arg19 (by decide)).trans (Cert.KernelIdeal.Keep.keep4_3 (Cert.KernelIdeal.Gen.W11 m ρ c) Cert.KernelIdeal.main_arg19 (by decide))).trans (Cert.KernelIdeal.Keep.keep4_2 (Cert.KernelIdeal.Gen.W10 m ρ c) Cert.KernelIdeal.main_arg19 (by decide))).trans (Cert.KernelIdeal.Keep.keep4_1 (Cert.KernelIdeal.Gen.W9 m ρ c) Cert.KernelIdeal.main_arg19 (by decide))).trans (Cert.KernelIdeal.Keep.keep4 (Cert.KernelIdeal.Gen.W8 m ρ c) Cert.KernelIdeal.main_arg19 (by decide))).trans (Cert.KernelIdeal.Keep.W8_keep m ρ c Cert.KernelIdeal.main_arg19 (by decide))).trans (Cert.KernelIdeal.Keep.keep3 (Cert.KernelIdeal.Gen.W6 m ρ c) Cert.KernelIdeal.main_arg19 (by decide))).trans (Cert.KernelIdeal.Keep.W6_keep m ρ c Cert.KernelIdeal.main_arg19 (by decide))).trans (Cert.KernelIdeal.Keep.keep2 (Cert.KernelIdeal.Gen.W4 m ρ c) Cert.KernelIdeal.main_arg19 (by decide))).trans (Cert.KernelIdeal.Keep.W4_keep m ρ c Cert.KernelIdeal.main_arg19 (by decide))).trans (Cert.KernelIdeal.Keep.keep1 (Cert.KernelIdeal.Gen.W2 m ρ c) Cert.KernelIdeal.main_arg19 (by decide))).trans (Cert.KernelIdeal.Keep.W2_keep m ρ c Cert.KernelIdeal.main_arg19 (by decide))).trans (Cert.KernelIdeal.Keep.keep0 (Cert.KernelIdeal.Gen.W0 m ρ c) Cert.KernelIdeal.main_arg19 (by decide))).trans (a19.trans (((((((((Cert.ReferenceIdeal.Keep.keepTail (after (Cert.ReferenceIdeal.RefRun.opsComb (F := Ideal)) (after (Cert.ReferenceIdeal.RefRun.opsAgg3 (F := Ideal)) (after (Cert.ReferenceIdeal.RefRun.opsLayer3 (F := Ideal)) (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0)))))))) Cert.ReferenceIdeal.main_arg19 (by decide)).trans (Cert.ReferenceIdeal.Keep.keepComb (after (Cert.ReferenceIdeal.RefRun.opsAgg3 (F := Ideal)) (after (Cert.ReferenceIdeal.RefRun.opsLayer3 (F := Ideal)) (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0))))))) Cert.ReferenceIdeal.main_arg19 (by decide))).trans (Cert.ReferenceIdeal.Keep.keepAgg3 (after (Cert.ReferenceIdeal.RefRun.opsLayer3 (F := Ideal)) (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0)))))) Cert.ReferenceIdeal.main_arg19 (by decide))).trans (Cert.ReferenceIdeal.Keep.keepLayer3 (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0))))) Cert.ReferenceIdeal.main_arg19 (by decide))).trans (Cert.ReferenceIdeal.Keep.keepAgg2 (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0)))) Cert.ReferenceIdeal.main_arg19 (by decide))).trans (Cert.ReferenceIdeal.Keep.keepLayer2 (after (Cert.ReferenceIdeal.RefRun.opsAgg1 (F := Ideal)) (after (Cert.ReferenceIdeal.RefRun.opsLin1 (F := Ideal)) (after (Cert.ReferenceIdeal.RefRun.opsPrep (F := Ideal)) Q0))) Cert.ReferenceIdeal.main_arg19 (by decide))).trans (Cert.ReferenceIdeal.Keep.keepAgg1 (after (Cert.ReferenceIdeal.RefRun.opsLin1 (F := Ideal)) (after (Cert.ReferenceIdeal.RefRun.opsPrep (F := Ideal)) Q0)) Cert.ReferenceIdeal.main_arg19 (by decide))).trans (Cert.ReferenceIdeal.Keep.keepLin1 (after (Cert.ReferenceIdeal.RefRun.opsPrep (F := Ideal)) Q0) Cert.ReferenceIdeal.main_arg19 (by decide))).trans (Cert.ReferenceIdeal.Keep.keepPrep Q0 Cert.ReferenceIdeal.main_arg19 (by decide))).symm))
  have e4_20 : (Cert.KernelIdeal.Gen.V13 m ρ c Cert.KernelIdeal.main_arg20) = ((after (Cert.ReferenceIdeal.RefRun.opsTail (F := Ideal)) (after (Cert.ReferenceIdeal.RefRun.opsComb (F := Ideal)) (after (Cert.ReferenceIdeal.RefRun.opsAgg3 (F := Ideal)) (after (Cert.ReferenceIdeal.RefRun.opsLayer3 (F := Ideal)) (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0))))))))) (Proc.devRef .tc Cert.ReferenceIdeal.main_arg20)) := ((((((((((((((Cert.KernelIdeal.Keep.keep4_4 (Cert.KernelIdeal.Gen.W12 m ρ c) Cert.KernelIdeal.main_arg20 (by decide)).trans (Cert.KernelIdeal.Keep.keep4_3 (Cert.KernelIdeal.Gen.W11 m ρ c) Cert.KernelIdeal.main_arg20 (by decide))).trans (Cert.KernelIdeal.Keep.keep4_2 (Cert.KernelIdeal.Gen.W10 m ρ c) Cert.KernelIdeal.main_arg20 (by decide))).trans (Cert.KernelIdeal.Keep.keep4_1 (Cert.KernelIdeal.Gen.W9 m ρ c) Cert.KernelIdeal.main_arg20 (by decide))).trans (Cert.KernelIdeal.Keep.keep4 (Cert.KernelIdeal.Gen.W8 m ρ c) Cert.KernelIdeal.main_arg20 (by decide))).trans (Cert.KernelIdeal.Keep.W8_keep m ρ c Cert.KernelIdeal.main_arg20 (by decide))).trans (Cert.KernelIdeal.Keep.keep3 (Cert.KernelIdeal.Gen.W6 m ρ c) Cert.KernelIdeal.main_arg20 (by decide))).trans (Cert.KernelIdeal.Keep.W6_keep m ρ c Cert.KernelIdeal.main_arg20 (by decide))).trans (Cert.KernelIdeal.Keep.keep2 (Cert.KernelIdeal.Gen.W4 m ρ c) Cert.KernelIdeal.main_arg20 (by decide))).trans (Cert.KernelIdeal.Keep.W4_keep m ρ c Cert.KernelIdeal.main_arg20 (by decide))).trans (Cert.KernelIdeal.Keep.keep1 (Cert.KernelIdeal.Gen.W2 m ρ c) Cert.KernelIdeal.main_arg20 (by decide))).trans (Cert.KernelIdeal.Keep.W2_keep m ρ c Cert.KernelIdeal.main_arg20 (by decide))).trans (Cert.KernelIdeal.Keep.keep0 (Cert.KernelIdeal.Gen.W0 m ρ c) Cert.KernelIdeal.main_arg20 (by decide))).trans (a20.trans (((((((((Cert.ReferenceIdeal.Keep.keepTail (after (Cert.ReferenceIdeal.RefRun.opsComb (F := Ideal)) (after (Cert.ReferenceIdeal.RefRun.opsAgg3 (F := Ideal)) (after (Cert.ReferenceIdeal.RefRun.opsLayer3 (F := Ideal)) (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0)))))))) Cert.ReferenceIdeal.main_arg20 (by decide)).trans (Cert.ReferenceIdeal.Keep.keepComb (after (Cert.ReferenceIdeal.RefRun.opsAgg3 (F := Ideal)) (after (Cert.ReferenceIdeal.RefRun.opsLayer3 (F := Ideal)) (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0))))))) Cert.ReferenceIdeal.main_arg20 (by decide))).trans (Cert.ReferenceIdeal.Keep.keepAgg3 (after (Cert.ReferenceIdeal.RefRun.opsLayer3 (F := Ideal)) (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0)))))) Cert.ReferenceIdeal.main_arg20 (by decide))).trans (Cert.ReferenceIdeal.Keep.keepLayer3 (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0))))) Cert.ReferenceIdeal.main_arg20 (by decide))).trans (Cert.ReferenceIdeal.Keep.keepAgg2 (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0)))) Cert.ReferenceIdeal.main_arg20 (by decide))).trans (Cert.ReferenceIdeal.Keep.keepLayer2 (after (Cert.ReferenceIdeal.RefRun.opsAgg1 (F := Ideal)) (after (Cert.ReferenceIdeal.RefRun.opsLin1 (F := Ideal)) (after (Cert.ReferenceIdeal.RefRun.opsPrep (F := Ideal)) Q0))) Cert.ReferenceIdeal.main_arg20 (by decide))).trans (Cert.ReferenceIdeal.Keep.keepAgg1 (after (Cert.ReferenceIdeal.RefRun.opsLin1 (F := Ideal)) (after (Cert.ReferenceIdeal.RefRun.opsPrep (F := Ideal)) Q0)) Cert.ReferenceIdeal.main_arg20 (by decide))).trans (Cert.ReferenceIdeal.Keep.keepLin1 (after (Cert.ReferenceIdeal.RefRun.opsPrep (F := Ideal)) Q0) Cert.ReferenceIdeal.main_arg20 (by decide))).trans (Cert.ReferenceIdeal.Keep.keepPrep Q0 Cert.ReferenceIdeal.main_arg20 (by decide))).symm))
  have e4_21 : (Cert.KernelIdeal.Gen.V13 m ρ c Cert.KernelIdeal.main_arg21) = ((after (Cert.ReferenceIdeal.RefRun.opsTail (F := Ideal)) (after (Cert.ReferenceIdeal.RefRun.opsComb (F := Ideal)) (after (Cert.ReferenceIdeal.RefRun.opsAgg3 (F := Ideal)) (after (Cert.ReferenceIdeal.RefRun.opsLayer3 (F := Ideal)) (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0))))))))) (Proc.devRef .tc Cert.ReferenceIdeal.main_arg21)) := ((((((((((((((Cert.KernelIdeal.Keep.keep4_4 (Cert.KernelIdeal.Gen.W12 m ρ c) Cert.KernelIdeal.main_arg21 (by decide)).trans (Cert.KernelIdeal.Keep.keep4_3 (Cert.KernelIdeal.Gen.W11 m ρ c) Cert.KernelIdeal.main_arg21 (by decide))).trans (Cert.KernelIdeal.Keep.keep4_2 (Cert.KernelIdeal.Gen.W10 m ρ c) Cert.KernelIdeal.main_arg21 (by decide))).trans (Cert.KernelIdeal.Keep.keep4_1 (Cert.KernelIdeal.Gen.W9 m ρ c) Cert.KernelIdeal.main_arg21 (by decide))).trans (Cert.KernelIdeal.Keep.keep4 (Cert.KernelIdeal.Gen.W8 m ρ c) Cert.KernelIdeal.main_arg21 (by decide))).trans (Cert.KernelIdeal.Keep.W8_keep m ρ c Cert.KernelIdeal.main_arg21 (by decide))).trans (Cert.KernelIdeal.Keep.keep3 (Cert.KernelIdeal.Gen.W6 m ρ c) Cert.KernelIdeal.main_arg21 (by decide))).trans (Cert.KernelIdeal.Keep.W6_keep m ρ c Cert.KernelIdeal.main_arg21 (by decide))).trans (Cert.KernelIdeal.Keep.keep2 (Cert.KernelIdeal.Gen.W4 m ρ c) Cert.KernelIdeal.main_arg21 (by decide))).trans (Cert.KernelIdeal.Keep.W4_keep m ρ c Cert.KernelIdeal.main_arg21 (by decide))).trans (Cert.KernelIdeal.Keep.keep1 (Cert.KernelIdeal.Gen.W2 m ρ c) Cert.KernelIdeal.main_arg21 (by decide))).trans (Cert.KernelIdeal.Keep.W2_keep m ρ c Cert.KernelIdeal.main_arg21 (by decide))).trans (Cert.KernelIdeal.Keep.keep0 (Cert.KernelIdeal.Gen.W0 m ρ c) Cert.KernelIdeal.main_arg21 (by decide))).trans (a21.trans (((((((((Cert.ReferenceIdeal.Keep.keepTail (after (Cert.ReferenceIdeal.RefRun.opsComb (F := Ideal)) (after (Cert.ReferenceIdeal.RefRun.opsAgg3 (F := Ideal)) (after (Cert.ReferenceIdeal.RefRun.opsLayer3 (F := Ideal)) (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0)))))))) Cert.ReferenceIdeal.main_arg21 (by decide)).trans (Cert.ReferenceIdeal.Keep.keepComb (after (Cert.ReferenceIdeal.RefRun.opsAgg3 (F := Ideal)) (after (Cert.ReferenceIdeal.RefRun.opsLayer3 (F := Ideal)) (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0))))))) Cert.ReferenceIdeal.main_arg21 (by decide))).trans (Cert.ReferenceIdeal.Keep.keepAgg3 (after (Cert.ReferenceIdeal.RefRun.opsLayer3 (F := Ideal)) (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0)))))) Cert.ReferenceIdeal.main_arg21 (by decide))).trans (Cert.ReferenceIdeal.Keep.keepLayer3 (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0))))) Cert.ReferenceIdeal.main_arg21 (by decide))).trans (Cert.ReferenceIdeal.Keep.keepAgg2 (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0)))) Cert.ReferenceIdeal.main_arg21 (by decide))).trans (Cert.ReferenceIdeal.Keep.keepLayer2 (after (Cert.ReferenceIdeal.RefRun.opsAgg1 (F := Ideal)) (after (Cert.ReferenceIdeal.RefRun.opsLin1 (F := Ideal)) (after (Cert.ReferenceIdeal.RefRun.opsPrep (F := Ideal)) Q0))) Cert.ReferenceIdeal.main_arg21 (by decide))).trans (Cert.ReferenceIdeal.Keep.keepAgg1 (after (Cert.ReferenceIdeal.RefRun.opsLin1 (F := Ideal)) (after (Cert.ReferenceIdeal.RefRun.opsPrep (F := Ideal)) Q0)) Cert.ReferenceIdeal.main_arg21 (by decide))).trans (Cert.ReferenceIdeal.Keep.keepLin1 (after (Cert.ReferenceIdeal.RefRun.opsPrep (F := Ideal)) Q0) Cert.ReferenceIdeal.main_arg21 (by decide))).trans (Cert.ReferenceIdeal.Keep.keepPrep Q0 Cert.ReferenceIdeal.main_arg21 (by decide))).symm))
  have e4_22 : (Cert.KernelIdeal.Gen.V13 m ρ c Cert.KernelIdeal.main_arg22) = ((after (Cert.ReferenceIdeal.RefRun.opsTail (F := Ideal)) (after (Cert.ReferenceIdeal.RefRun.opsComb (F := Ideal)) (after (Cert.ReferenceIdeal.RefRun.opsAgg3 (F := Ideal)) (after (Cert.ReferenceIdeal.RefRun.opsLayer3 (F := Ideal)) (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0))))))))) (Proc.devRef .tc Cert.ReferenceIdeal.main_arg22)) := ((((((((((((((Cert.KernelIdeal.Keep.keep4_4 (Cert.KernelIdeal.Gen.W12 m ρ c) Cert.KernelIdeal.main_arg22 (by decide)).trans (Cert.KernelIdeal.Keep.keep4_3 (Cert.KernelIdeal.Gen.W11 m ρ c) Cert.KernelIdeal.main_arg22 (by decide))).trans (Cert.KernelIdeal.Keep.keep4_2 (Cert.KernelIdeal.Gen.W10 m ρ c) Cert.KernelIdeal.main_arg22 (by decide))).trans (Cert.KernelIdeal.Keep.keep4_1 (Cert.KernelIdeal.Gen.W9 m ρ c) Cert.KernelIdeal.main_arg22 (by decide))).trans (Cert.KernelIdeal.Keep.keep4 (Cert.KernelIdeal.Gen.W8 m ρ c) Cert.KernelIdeal.main_arg22 (by decide))).trans (Cert.KernelIdeal.Keep.W8_keep m ρ c Cert.KernelIdeal.main_arg22 (by decide))).trans (Cert.KernelIdeal.Keep.keep3 (Cert.KernelIdeal.Gen.W6 m ρ c) Cert.KernelIdeal.main_arg22 (by decide))).trans (Cert.KernelIdeal.Keep.W6_keep m ρ c Cert.KernelIdeal.main_arg22 (by decide))).trans (Cert.KernelIdeal.Keep.keep2 (Cert.KernelIdeal.Gen.W4 m ρ c) Cert.KernelIdeal.main_arg22 (by decide))).trans (Cert.KernelIdeal.Keep.W4_keep m ρ c Cert.KernelIdeal.main_arg22 (by decide))).trans (Cert.KernelIdeal.Keep.keep1 (Cert.KernelIdeal.Gen.W2 m ρ c) Cert.KernelIdeal.main_arg22 (by decide))).trans (Cert.KernelIdeal.Keep.W2_keep m ρ c Cert.KernelIdeal.main_arg22 (by decide))).trans (Cert.KernelIdeal.Keep.keep0 (Cert.KernelIdeal.Gen.W0 m ρ c) Cert.KernelIdeal.main_arg22 (by decide))).trans (a22.trans (((((((((Cert.ReferenceIdeal.Keep.keepTail (after (Cert.ReferenceIdeal.RefRun.opsComb (F := Ideal)) (after (Cert.ReferenceIdeal.RefRun.opsAgg3 (F := Ideal)) (after (Cert.ReferenceIdeal.RefRun.opsLayer3 (F := Ideal)) (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0)))))))) Cert.ReferenceIdeal.main_arg22 (by decide)).trans (Cert.ReferenceIdeal.Keep.keepComb (after (Cert.ReferenceIdeal.RefRun.opsAgg3 (F := Ideal)) (after (Cert.ReferenceIdeal.RefRun.opsLayer3 (F := Ideal)) (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0))))))) Cert.ReferenceIdeal.main_arg22 (by decide))).trans (Cert.ReferenceIdeal.Keep.keepAgg3 (after (Cert.ReferenceIdeal.RefRun.opsLayer3 (F := Ideal)) (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0)))))) Cert.ReferenceIdeal.main_arg22 (by decide))).trans (Cert.ReferenceIdeal.Keep.keepLayer3 (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0))))) Cert.ReferenceIdeal.main_arg22 (by decide))).trans (Cert.ReferenceIdeal.Keep.keepAgg2 (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0)))) Cert.ReferenceIdeal.main_arg22 (by decide))).trans (Cert.ReferenceIdeal.Keep.keepLayer2 (after (Cert.ReferenceIdeal.RefRun.opsAgg1 (F := Ideal)) (after (Cert.ReferenceIdeal.RefRun.opsLin1 (F := Ideal)) (after (Cert.ReferenceIdeal.RefRun.opsPrep (F := Ideal)) Q0))) Cert.ReferenceIdeal.main_arg22 (by decide))).trans (Cert.ReferenceIdeal.Keep.keepAgg1 (after (Cert.ReferenceIdeal.RefRun.opsLin1 (F := Ideal)) (after (Cert.ReferenceIdeal.RefRun.opsPrep (F := Ideal)) Q0)) Cert.ReferenceIdeal.main_arg22 (by decide))).trans (Cert.ReferenceIdeal.Keep.keepLin1 (after (Cert.ReferenceIdeal.RefRun.opsPrep (F := Ideal)) Q0) Cert.ReferenceIdeal.main_arg22 (by decide))).trans (Cert.ReferenceIdeal.Keep.keepPrep Q0 Cert.ReferenceIdeal.main_arg22 (by decide))).symm))
  have e4_23 : (Cert.KernelIdeal.Gen.V13 m ρ c Cert.KernelIdeal.main_arg23) = ((after (Cert.ReferenceIdeal.RefRun.opsTail (F := Ideal)) (after (Cert.ReferenceIdeal.RefRun.opsComb (F := Ideal)) (after (Cert.ReferenceIdeal.RefRun.opsAgg3 (F := Ideal)) (after (Cert.ReferenceIdeal.RefRun.opsLayer3 (F := Ideal)) (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0))))))))) (Proc.devRef .tc Cert.ReferenceIdeal.main_arg23)) := ((((((((((((((Cert.KernelIdeal.Keep.keep4_4 (Cert.KernelIdeal.Gen.W12 m ρ c) Cert.KernelIdeal.main_arg23 (by decide)).trans (Cert.KernelIdeal.Keep.keep4_3 (Cert.KernelIdeal.Gen.W11 m ρ c) Cert.KernelIdeal.main_arg23 (by decide))).trans (Cert.KernelIdeal.Keep.keep4_2 (Cert.KernelIdeal.Gen.W10 m ρ c) Cert.KernelIdeal.main_arg23 (by decide))).trans (Cert.KernelIdeal.Keep.keep4_1 (Cert.KernelIdeal.Gen.W9 m ρ c) Cert.KernelIdeal.main_arg23 (by decide))).trans (Cert.KernelIdeal.Keep.keep4 (Cert.KernelIdeal.Gen.W8 m ρ c) Cert.KernelIdeal.main_arg23 (by decide))).trans (Cert.KernelIdeal.Keep.W8_keep m ρ c Cert.KernelIdeal.main_arg23 (by decide))).trans (Cert.KernelIdeal.Keep.keep3 (Cert.KernelIdeal.Gen.W6 m ρ c) Cert.KernelIdeal.main_arg23 (by decide))).trans (Cert.KernelIdeal.Keep.W6_keep m ρ c Cert.KernelIdeal.main_arg23 (by decide))).trans (Cert.KernelIdeal.Keep.keep2 (Cert.KernelIdeal.Gen.W4 m ρ c) Cert.KernelIdeal.main_arg23 (by decide))).trans (Cert.KernelIdeal.Keep.W4_keep m ρ c Cert.KernelIdeal.main_arg23 (by decide))).trans (Cert.KernelIdeal.Keep.keep1 (Cert.KernelIdeal.Gen.W2 m ρ c) Cert.KernelIdeal.main_arg23 (by decide))).trans (Cert.KernelIdeal.Keep.W2_keep m ρ c Cert.KernelIdeal.main_arg23 (by decide))).trans (Cert.KernelIdeal.Keep.keep0 (Cert.KernelIdeal.Gen.W0 m ρ c) Cert.KernelIdeal.main_arg23 (by decide))).trans (a23.trans (((((((((Cert.ReferenceIdeal.Keep.keepTail (after (Cert.ReferenceIdeal.RefRun.opsComb (F := Ideal)) (after (Cert.ReferenceIdeal.RefRun.opsAgg3 (F := Ideal)) (after (Cert.ReferenceIdeal.RefRun.opsLayer3 (F := Ideal)) (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0)))))))) Cert.ReferenceIdeal.main_arg23 (by decide)).trans (Cert.ReferenceIdeal.Keep.keepComb (after (Cert.ReferenceIdeal.RefRun.opsAgg3 (F := Ideal)) (after (Cert.ReferenceIdeal.RefRun.opsLayer3 (F := Ideal)) (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0))))))) Cert.ReferenceIdeal.main_arg23 (by decide))).trans (Cert.ReferenceIdeal.Keep.keepAgg3 (after (Cert.ReferenceIdeal.RefRun.opsLayer3 (F := Ideal)) (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0)))))) Cert.ReferenceIdeal.main_arg23 (by decide))).trans (Cert.ReferenceIdeal.Keep.keepLayer3 (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0))))) Cert.ReferenceIdeal.main_arg23 (by decide))).trans (Cert.ReferenceIdeal.Keep.keepAgg2 (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0)))) Cert.ReferenceIdeal.main_arg23 (by decide))).trans (Cert.ReferenceIdeal.Keep.keepLayer2 (after (Cert.ReferenceIdeal.RefRun.opsAgg1 (F := Ideal)) (after (Cert.ReferenceIdeal.RefRun.opsLin1 (F := Ideal)) (after (Cert.ReferenceIdeal.RefRun.opsPrep (F := Ideal)) Q0))) Cert.ReferenceIdeal.main_arg23 (by decide))).trans (Cert.ReferenceIdeal.Keep.keepAgg1 (after (Cert.ReferenceIdeal.RefRun.opsLin1 (F := Ideal)) (after (Cert.ReferenceIdeal.RefRun.opsPrep (F := Ideal)) Q0)) Cert.ReferenceIdeal.main_arg23 (by decide))).trans (Cert.ReferenceIdeal.Keep.keepLin1 (after (Cert.ReferenceIdeal.RefRun.opsPrep (F := Ideal)) Q0) Cert.ReferenceIdeal.main_arg23 (by decide))).trans (Cert.ReferenceIdeal.Keep.keepPrep Q0 Cert.ReferenceIdeal.main_arg23 (by decide))).symm))
  refine (Cert.KernelIdeal.Gen.W14_arr m ρ c 11).trans ((R4 (Cert.KernelIdeal.Gen.V13 m ρ) c).trans (Eq.trans ?_ (Cert.ReferenceIdeal.RefRead.head_read (after (Cert.ReferenceIdeal.RefRun.opsTail (F := Ideal)) (after (Cert.ReferenceIdeal.RefRun.opsComb (F := Ideal)) (after (Cert.ReferenceIdeal.RefRun.opsAgg3 (F := Ideal)) (after (Cert.ReferenceIdeal.RefRun.opsLayer3 (F := Ideal)) (after (Cert.ReferenceIdeal.RefRun.opsAgg2 (F := Ideal)) (after (Cert.ReferenceIdeal.RefRun.opsLayer2 (F := Ideal)) (after (Cert.ReferenceIdeal.RefRun.opsAgg1 (F := Ideal)) (after (Cert.ReferenceIdeal.RefRun.opsLin1 (F := Ideal)) (after (Cert.ReferenceIdeal.RefRun.opsPrep (F := Ideal)) Q0)))))))))).symm))
  rw [hf, e4_14, e4_15, e4_16, e4_17, e4_18, e4_19, e4_20, e4_21, e4_22, e4_23]

end Cert.Bridge

end
-- ==== Proof.lean ====
/-
  Both programs are one network — three graph-convolution layers over 50000 nodes and 800000 edges,
  a mean pool over 100 graphs, a two-layer embedding of a per-graph scalar, and a three-layer head with
  batch normalisation — and on the extended reals they compute it with the same operations in the same
  order: the kernel program runs each layer's dense part as a Pallas region over row blocks of 5000
  nodes (a block of a matrix product is the product of the block; the activation is pointwise) and the
  head as one region, where the reference runs the corresponding array operations.  No algebraic law
  beyond that is needed, so the precondition is never opened.
    frames: the two kernel programs' frames are the generated ones; the reference's is its run with
      every buffer it never writes left as launched.
    preserves: the idealization rewrote no operation.
    algebraic: the kernel program's run names its result array as the program's fold over the launch
      contents; that fold is the reference's fold of agreeing launch contents (Bridge).
-/
import proofs.«170490_j47047071761043_1_alg».proof.Defs
import proofs.«170490_j47047071761043_1_alg».proof.Proof.Gen.Kernel
import proofs.«170490_j47047071761043_1_alg».proof.Proof.Gen.Kernel.Frame
import proofs.«170490_j47047071761043_1_alg».proof.Proof.Gen.KernelIdeal
import proofs.«170490_j47047071761043_1_alg».proof.Proof.Gen.KernelIdeal.Frame
import proofs.«170490_j47047071761043_1_alg».proof.Proof.Gen.ReferenceIdeal
import proofs.«170490_j47047071761043_1_alg».proof.Proof.Gen.Pre_finite_inputs
import proofs.«170490_j47047071761043_1_alg».proof.Proof.KernelRun
import proofs.«170490_j47047071761043_1_alg».proof.Proof.Region12
import proofs.«170490_j47047071761043_1_alg».proof.Proof.Region3
import proofs.«170490_j47047071761043_1_alg».proof.Proof.Region4
import proofs.«170490_j47047071761043_1_alg».proof.Proof.RefArgs
import proofs.«170490_j47047071761043_1_alg».proof.Proof.Bridge

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference's run leaves its argument arrays as launched: no operation writes one. -/
theorem frame_ri : Cert.frame_ReferenceIdeal := fun m ρ _ => Cert.ReferenceIdeal.RefRead.run_args (F := Ideal) m ρ

/-- From launch memories agreeing on the arguments both programs end with one result array: the kernel program's
    fold at its result buffer, which is the reference's fold at its own. -/
theorem algebraic : Cert.algebraic_KernelIdeal_ReferenceIdeal := by
  intro m ρ m' ρ' _ hagree
  refine ⟨fun c => Cert.KernelIdeal.Gen.W14 m ρ c (Proc.devRef .tc Cert.KernelIdeal.main_v121),
    Cert.KernelIdeal.KRun.run_value (F := Ideal) m ρ, ?_⟩
  refine (θ_run Cert.ReferenceIdeal.defs _ _).mono (fun r h c => ?_) (Cert.ReferenceIdeal.RefRun.run_main (F := Ideal) m' ρ')
  refine ⟨(h c Cert.ReferenceIdeal.main_v212).trans
      (Cert.Bridge.result_eq m ρ m' c Cert.KernelIdeal.RegionValue.region0_value Cert.KernelIdeal.RegionValue.region1_value
        Cert.KernelIdeal.RegionValue.region2_value Cert.KernelIdeal.RegionValue.region3_value
        Cert.KernelIdeal.RegionValue.region4_value (hagree c)).symm,
    (h c Cert.ReferenceIdeal.main_arg0).trans (Cert.ReferenceIdeal.RefRead.ops_keep _ Cert.ReferenceIdeal.main_arg0 (by decide)),
    (h c Cert.ReferenceIdeal.main_arg1).trans (Cert.ReferenceIdeal.RefRead.ops_keep _ Cert.ReferenceIdeal.main_arg1 (by decide)),
    (h c Cert.ReferenceIdeal.main_arg2).trans (Cert.ReferenceIdeal.RefRead.ops_keep _ Cert.ReferenceIdeal.main_arg2 (by decide)),
    (h c Cert.ReferenceIdeal.main_arg3).trans (Cert.ReferenceIdeal.RefRead.ops_keep _ Cert.ReferenceIdeal.main_arg3 (by decide)),
    (h c Cert.ReferenceIdeal.main_arg4).trans (Cert.ReferenceIdeal.RefRead.ops_keep _ Cert.ReferenceIdeal.main_arg4 (by decide)),
    (h c Cert.ReferenceIdeal.main_arg5).trans (Cert.ReferenceIdeal.RefRead.ops_keep _ Cert.ReferenceIdeal.main_arg5 (by decide)),
    (h c Cert.ReferenceIdeal.main_arg6).trans (Cert.ReferenceIdeal.RefRead.ops_keep _ Cert.ReferenceIdeal.main_arg6 (by decide)),
    (h c Cert.ReferenceIdeal.main_arg7).trans (Cert.ReferenceIdeal.RefRead.ops_keep _ Cert.ReferenceIdeal.main_arg7 (by decide)),
    (h c Cert.ReferenceIdeal.main_arg8).trans (Cert.ReferenceIdeal.RefRead.ops_keep _ Cert.ReferenceIdeal.main_arg8 (by decide)),
    (h c Cert.ReferenceIdeal.main_arg9).trans (Cert.ReferenceIdeal.RefRead.ops_keep _ Cert.ReferenceIdeal.main_arg9 (by decide)),
    (h c Cert.ReferenceIdeal.main_arg10).trans (Cert.ReferenceIdeal.RefRead.ops_keep _ Cert.ReferenceIdeal.main_arg10 (by decide)),
    (h c Cert.ReferenceIdeal.main_arg11).trans (Cert.ReferenceIdeal.RefRead.ops_keep _ Cert.ReferenceIdeal.main_arg11 (by decide)),
    (h c Cert.ReferenceIdeal.main_arg12).trans (Cert.ReferenceIdeal.RefRead.ops_keep _ Cert.ReferenceIdeal.main_arg12 (by decide)),
    (h c Cert.ReferenceIdeal.main_arg13).trans (Cert.ReferenceIdeal.RefRead.ops_keep _ Cert.ReferenceIdeal.main_arg13 (by decide)),
    (h c Cert.ReferenceIdeal.main_arg14).trans (Cert.ReferenceIdeal.RefRead.ops_keep _ Cert.ReferenceIdeal.main_arg14 (by decide)),
    (h c Cert.ReferenceIdeal.main_arg15).trans (Cert.ReferenceIdeal.RefRead.ops_keep _ Cert.ReferenceIdeal.main_arg15 (by decide)),
    (h c Cert.ReferenceIdeal.main_arg16).trans (Cert.ReferenceIdeal.RefRead.ops_keep _ Cert.ReferenceIdeal.main_arg16 (by decide)),
    (h c Cert.ReferenceIdeal.main_arg17).trans (Cert.ReferenceIdeal.RefRead.ops_keep _ Cert.ReferenceIdeal.main_arg17 (by decide)),
    (h c Cert.ReferenceIdeal.main_arg18).trans (Cert.ReferenceIdeal.RefRead.ops_keep _ Cert.ReferenceIdeal.main_arg18 (by decide)),
    (h c Cert.ReferenceIdeal.main_arg19).trans (Cert.ReferenceIdeal.RefRead.ops_keep _ Cert.ReferenceIdeal.main_arg19 (by decide)),
    (h c Cert.ReferenceIdeal.main_arg20).trans (Cert.ReferenceIdeal.RefRead.ops_keep _ Cert.ReferenceIdeal.main_arg20 (by decide)),
    (h c Cert.ReferenceIdeal.main_arg21).trans (Cert.ReferenceIdeal.RefRead.ops_keep _ Cert.ReferenceIdeal.main_arg21 (by decide)),
    (h c Cert.ReferenceIdeal.main_arg22).trans (Cert.ReferenceIdeal.RefRead.ops_keep _ Cert.ReferenceIdeal.main_arg22 (by decide)),
    (h c Cert.ReferenceIdeal.main_arg23).trans (Cert.ReferenceIdeal.RefRead.ops_keep _ Cert.ReferenceIdeal.main_arg23 (by decide))⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
